-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000 : Shape := ⟨1, ![10000]⟩
abbrev S320000 : Shape := ⟨1, ![320000]⟩
abbrev S21x128 : Shape := ⟨2, ![21, 128]⟩
abbrev S4x128 : Shape := ⟨2, ![4, 128]⟩
abbrev S_ : Shape := ⟨0, ![]⟩

class Facts : Prop where
  bcast_S_S21x128 : S_.BroadcastsInDim S21x128 (![] : Fin 0 → Fin S21x128.rank)
  reducesTo_S21x128_S_d0_1 : S21x128.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S10000 : S_.BroadcastsInDim S10000 (![] : Fin 0 → Fin S10000.rank)
  reducesTo_S10000_S_d0 : S10000.ReducesTo [0] S_
  bcast_S_S320000 : S_.BroadcastsInDim S320000 (![] : Fin 0 → Fin S320000.rank)
  reducesTo_S320000_S_d0 : S320000.ReducesTo [0] S_

variable [Facts]

def fn_part1 {F : FTy → Type} [FloatOps F] (main_arg1 : IVec S320000 32) (main_v15 : IVec S_ 1) (main_c_5 : IVec S_ 32) : IVec S_ 1 :=
  let main_v16 : IVec S320000 32 := broadcastInDim S320000 ![] bcast_S_S320000 main_c_5
  let main_v17 : IVec S320000 1 := cmpi .sge main_arg1 main_v16
  let main_c_6 : IVec S_ 32 := constantI S_ 32 3#32
  let main_v18 : IVec S320000 32 := broadcastInDim S320000 ![] bcast_S_S320000 main_c_6
  let main_v19 : IVec S320000 1 := cmpi .sle main_arg1 main_v18
  let main_v20 : IVec S320000 1 := andi main_v17 main_v19
  let main_c_7 : IVec S_ 1 := constantI S_ 1 1#1
  let main_v21 : IVec S_ 1 := (fun x v => Host.reduce IntOp.andi x v reducesTo_S320000_S_d0 h_S_) main_v20 main_c_7
  let main_v22 : IVec S_ 1 := andi main_v15 main_v21
  main_v22

def fn {F : FTy → Type} [FloatOps F] (main_arg0 : IVec S10000 32) (main_arg1 : IVec S320000 32) (main_arg2 : FVec F S21x128 .f32) (main_arg3 : FVec F S4x128 .f32) : IVec S_ 1 :=
  let main_v0 : FVec F S21x128 .f32 := Host.absf main_arg2
  let main_cst : FVec F S_ .f32 := constant S_ .f32 0x7F800000#32
  let main_v1 : FVec F S21x128 .f32 := broadcastInDim S21x128 ![] bcast_S_S21x128 main_cst
  let main_v2 : IVec S21x128 1 := cmpf .olt main_v0 main_v1
  let main_c : IVec S_ 1 := constantI S_ 1 1#1
  let main_v3 : IVec S_ 1 := (fun x v => Host.reduce IntOp.andi x v reducesTo_S21x128_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_c_2 : IVec S_ 32 := constantI S_ 32 0#32
  let main_v9 : IVec S10000 32 := broadcastInDim S10000 ![] bcast_S_S10000 main_c_2
  let main_v10 : IVec S10000 1 := cmpi .sge main_arg0 main_v9
  let main_c_3 : IVec S_ 32 := constantI S_ 32 20#32
  let main_v11 : IVec S10000 32 := broadcastInDim S10000 ![] bcast_S_S10000 main_c_3
  let main_v12 : IVec S10000 1 := cmpi .sle main_arg0 main_v11
  let main_v13 : IVec S10000 1 := andi main_v10 main_v12
  let main_c_4 : IVec S_ 1 := constantI S_ 1 1#1
  let main_v14 : IVec S_ 1 := (fun x v => Host.reduce IntOp.andi x v reducesTo_S10000_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S10000 : Shape := ⟨1, ![10000]⟩
abbrev S320000 : Shape := ⟨1, ![320000]⟩
abbrev S21x128 : Shape := ⟨2, ![21, 128]⟩
abbrev S4x128 : Shape := ⟨2, ![4, 128]⟩
abbrev S320000x128 : Shape := ⟨2, ![320000, 128]⟩
abbrev S128x128 : Shape := ⟨2, ![128, 128]⟩
abbrev S16x128 : Shape := ⟨2, ![16, 128]⟩
abbrev S_ : Shape := ⟨0, ![]⟩
abbrev S128 : Shape := ⟨1, ![128]⟩
abbrev S16 : Shape := ⟨1, ![16]⟩
abbrev S32x128 : Shape := ⟨2, ![32, 128]⟩
abbrev S1 : Shape := ⟨1, ![1]⟩
abbrev S5x1x2000 : Shape := ⟨3, ![5, 1, 2000]⟩
abbrev S10000x128 : Shape := ⟨2, ![10000, 128]⟩
abbrev S1x1x2000 : Shape := ⟨3, ![1, 1, 2000]⟩
abbrev S2000x128 : Shape := ⟨2, ![2000, 128]⟩
abbrev S2000 : Shape := ⟨1, ![2000]⟩
abbrev S2000x1 : Shape := ⟨2, ![2000, 1]⟩
abbrev S1x128 : Shape := ⟨2, ![1, 128]⟩

abbrev nBuf : Table → Nat
  | .hbm => 12
  | .local .tc .vmem => 5
  | .shared => 1
  | .local .scVector .vmem => 4
  | _ => 0

abbrev bufTy : (tb : Table) → Fin (nBuf tb) → BufTy
  | .hbm, ⟨0, _⟩ => ⟨S10000, .i32⟩
  | .hbm, ⟨1, _⟩ => ⟨S320000, .i32⟩
  | .hbm, ⟨2, _⟩ => ⟨S21x128, .f32⟩
  | .hbm, ⟨3, _⟩ => ⟨S4x128, .f32⟩
  | .hbm, ⟨4, _⟩ => ⟨S320000x128, .f32⟩
  | .hbm, ⟨5, _⟩ => ⟨S_, .f32⟩
  | .hbm, ⟨6, _⟩ => ⟨S32x128, .f32⟩
  | .hbm, ⟨7, _⟩ => ⟨S_, .i32⟩
  | .hbm, ⟨8, _⟩ => ⟨S1, .i32⟩
  | .hbm, ⟨9, _⟩ => ⟨S32x128, .f32⟩
  | .hbm, ⟨10, _⟩ => ⟨S5x1x2000, .i32⟩
  | .hbm, ⟨11, _⟩ => ⟨S10000x128, .f32⟩
  | .local .tc .vmem, ⟨0, _⟩ => ⟨S1x1x2000, .i32⟩
  | .local .tc .vmem, ⟨1, _⟩ => ⟨S1x1x2000, .i32⟩
  | .local .tc .vmem, ⟨2, _⟩ => ⟨S32x128, .f32⟩
  | .local .tc .vmem, ⟨3, _⟩ => ⟨S2000x128, .f32⟩
  | .local .tc .vmem, ⟨4, _⟩ => ⟨S2000x128, .f32⟩
  | .shared, ⟨0, _⟩ => ⟨S4x128, .f32⟩
  | .local .scVector .vmem, ⟨0, _⟩ => ⟨S10000, .i32⟩
  | .local .scVector .vmem, ⟨1, _⟩ => ⟨S128x128, .f32⟩
  | .local .scVector .vmem, ⟨2, _⟩ => ⟨S128x128, .f32⟩
  | .local .scVector .vmem, ⟨3, _⟩ => ⟨S16x128, .f32⟩
  | _, _ => ⟨S10000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | _ => false

abbrev sig : RefSig :=
  ofTables nBuf rfl bufTy 5 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg1_scv : Ref sig .scVector := ⟨.hbm, 1, rfl⟩
abbrev main_arg3_scv : Ref sig .scVector := ⟨.hbm, 3, rfl⟩
abbrev main_v0_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch4 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  ![v5.toNat]
@[reducible] def k0_t1_loop : Scf.Loop 32 :=
  let c0_i32_5 : BitVec 32 := 0#32
  let c39_i32 : BitVec 32 := 39#32
  let v8 : BitVec 32 := Scalar.addi c0_i32_5 c39_i32
  let c1_i32 : BitVec 32 := 1#32
  ⟨c0_i32_5, v8, c1_i32⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  let c2_i32_15 : BitVec 32 := 2#32
  let c0_i32_5 : BitVec 32 := 0#32
  let c1_i32 : BitVec 32 := 1#32
  let arg15 : BitVec 32 := Scf.iv c0_i32_5 c1_i32 k0_t1
  let v17 : BitVec 32 := Scalar.muli c2_i32_15 arg15
  let c128_i32 : BitVec 32 := 128#32
  let v20 : BitVec 32 := Scalar.muli v17 c128_i32
  let v21 : BitVec 32 := Scalar.addi v5 v20
  let c0_i32_19 : BitVec 32 := 0#32
  ![v21.toNat, 0]
def k0_cond2 (k0_t1 : Fin k0_t1_loop.trips) : BitVec 1 :=
  let c0_i32_5 : BitVec 32 := 0#32
  let c1_i32 : BitVec 32 := 1#32
  let arg15 : BitVec 32 := Scf.iv c0_i32_5 c1_i32 k0_t1
  let c0_i32_21 : BitVec 32 := 0#32
  let v24 : BitVec 1 := Scalar.cmpi .sgt arg15 c0_i32_21
  let v25 : BitVec 32 := Scalar.extui v24
  let c0_i32_22 : BitVec 32 := 0#32
  let v26 : BitVec 1 := Scalar.cmpi .ne v25 c0_i32_22
  v26

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  let c0_i32_38 : BitVec 32 := 0#32
  ![v5.toNat, 0]
def k0_off4 (k0_t1 : Fin k0_t1_loop.trips) : Fin 1 → Nat :=
  let c2_i32_15 : BitVec 32 := 2#32
  let c0_i32_5 : BitVec 32 := 0#32
  let c1_i32 : BitVec 32 := 1#32
  let arg15 : BitVec 32 := Scf.iv c0_i32_5 c1_i32 k0_t1
  let v17 : BitVec 32 := Scalar.muli c2_i32_15 arg15
  let c1_i32_23 : BitVec 32 := 1#32
  let v27 : BitVec 32 := Scalar.addi v17 c1_i32_23
  let c128_i32_24 : BitVec 32 := 128#32
  let v28 : BitVec 32 := Scalar.muli v27 c128_i32_24
  ![v28.toNat]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  let c2_i32_15 : BitVec 32 := 2#32
  let c0_i32_5 : BitVec 32 := 0#32
  let c1_i32 : BitVec 32 := 1#32
  let arg15 : BitVec 32 := Scf.iv c0_i32_5 c1_i32 k0_t1
  let v17 : BitVec 32 := Scalar.muli c2_i32_15 arg15
  let c1_i32_30 : BitVec 32 := 1#32
  let v33 : BitVec 32 := Scalar.addi v17 c1_i32_30
  let c128_i32_31 : BitVec 32 := 128#32
  let v34 : BitVec 32 := Scalar.muli v33 c128_i32_31
  let v35 : BitVec 32 := Scalar.addi v5 v34
  let c0_i32_32 : BitVec 32 := 0#32
  ![v35.toNat, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  let c0_i32_34 : BitVec 32 := 0#32
  ![v5.toNat, 0]
def k0_cond3 (k0_t1 : Fin k0_t1_loop.trips) : BitVec 1 :=
  let c0_i32_5 : BitVec 32 := 0#32
  let c1_i32 : BitVec 32 := 1#32
  let arg15 : BitVec 32 := Scf.iv c0_i32_5 c1_i32 k0_t1
  let c38_i32 : BitVec 32 := 38#32
  let v40 : BitVec 1 := Scalar.cmpi .slt arg15 c38_i32
  let v41 : BitVec 32 := Scalar.extui v40
  let c0_i32_36 : BitVec 32 := 0#32
  let v42 : BitVec 1 := Scalar.cmpi .ne v41 c0_i32_36
  v42

def k0_off7 (k0_t1 : Fin k0_t1_loop.trips) : Fin 1 → Nat :=
  let c2_i32_15 : BitVec 32 := 2#32
  let c0_i32_5 : BitVec 32 := 0#32
  let c1_i32 : BitVec 32 := 1#32
  let arg15 : BitVec 32 := Scf.iv c0_i32_5 c1_i32 k0_t1
  let v17 : BitVec 32 := Scalar.muli c2_i32_15 arg15
  let c2_i32_38 : BitVec 32 := 2#32
  let v43 : BitVec 32 := Scalar.addi v17 c2_i32_38
  let c128_i32_39 : BitVec 32 := 128#32
  let v44 : BitVec 32 := Scalar.muli v43 c128_i32_39
  ![v44.toNat]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  let c9984_i32_12 : BitVec 32 := 9984#32
  let v14 : BitVec 32 := Scalar.addi v5 c9984_i32_12
  let c0_i32_15_r2 : BitVec 32 := 0#32
  ![v14.toNat, 0]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  let c0_i32_13 : BitVec 32 := 0#32
  ![v5.toNat, 0]
abbrev grid1 : Pipeline.Grid := ⟨1, ![5], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x2000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S10000_S128_0 : ∀ a, (![0] : Fin 1 → Nat) a + S128.size a ≤ S10000.size a
  inb_S4x128_S4x128_0_0 : ∀ a, (![0, 0] : Fin 2 → Nat) a + S4x128.size a ≤ S4x128.size a
  gathers_S4x128_S128x128 : S4x128.Gathers 0 S128x128
  inb_S10000_S16_9984 : ∀ a, (![9984] : Fin 1 → Nat) a + S16.size a ≤ S10000.size a
  gathers_S4x128_S16x128 : S4x128.Gathers 0 S16x128
  bcast_S_S32x128 : S_.BroadcastsInDim S32x128 (![] : Fin 0 → Fin S32x128.rank)
  bcast_S_S1 : S_.BroadcastsInDim S1 (![] : Fin 0 → Fin S1.rank)
  shapeCasts_S10000_S5x1x2000 : S10000.ShapeCasts S5x1x2000
  inb_S1x1x2000_S1x1x2000_0_0_0 : ∀ a, (![0, 0, 0] : Fin 3 → Nat) a + S1x1x2000.size a ≤ S1x1x2000.size a
  h_S1x1x2000 : 0 < S1x1x2000.numel
  shapeCasts_S1x1x2000_S2000 : S1x1x2000.ShapeCasts S2000
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S2000_S2000x1 : S2000.ShapeCasts S2000x1
  shapeCasts_S2000x1_S2000x1 : S2000x1.ShapeCasts S2000x1
  broadcasts_S2000x1_S2000x128 : S2000x1.Broadcasts S2000x128
  slices_S32x128_o0_0_S1x128 : S32x128.Slices ![0, 0] S1x128
  shapeCasts_S1x128_S128 : S1x128.ShapeCasts S128
  shapeCasts_S128_S1x128 : S128.ShapeCasts S1x128
  shapeCasts_S1x128_S1x128 : S1x128.ShapeCasts S1x128
  broadcasts_S1x128_S2000x128 : S1x128.Broadcasts S2000x128
  slices_S32x128_o1_0_S1x128 : S32x128.Slices ![1, 0] S1x128
  slices_S32x128_o2_0_S1x128 : S32x128.Slices ![2, 0] S1x128
  slices_S32x128_o3_0_S1x128 : S32x128.Slices ![3, 0] S1x128
  slices_S32x128_o4_0_S1x128 : S32x128.Slices ![4, 0] S1x128
  slices_S32x128_o5_0_S1x128 : S32x128.Slices ![5, 0] S1x128
  slices_S32x128_o6_0_S1x128 : S32x128.Slices ![6, 0] S1x128
  slices_S32x128_o7_0_S1x128 : S32x128.Slices ![7, 0] S1x128
  slices_S32x128_o8_0_S1x128 : S32x128.Slices ![8, 0] S1x128
  slices_S32x128_o9_0_S1x128 : S32x128.Slices ![9, 0] S1x128
  slices_S32x128_o10_0_S1x128 : S32x128.Slices ![10, 0] S1x128
  slices_S32x128_o11_0_S1x128 : S32x128.Slices ![11, 0] S1x128
  slices_S32x128_o12_0_S1x128 : S32x128.Slices ![12, 0] S1x128
  slices_S32x128_o13_0_S1x128 : S32x128.Slices ![13, 0] S1x128
  slices_S32x128_o14_0_S1x128 : S32x128.Slices ![14, 0] S1x128
  slices_S32x128_o15_0_S1x128 : S32x128.Slices ![15, 0] S1x128
  slices_S32x128_o16_0_S1x128 : S32x128.Slices ![16, 0] S1x128
  slices_S32x128_o17_0_S1x128 : S32x128.Slices ![17, 0] S1x128
  slices_S32x128_o18_0_S1x128 : S32x128.Slices ![18, 0] S1x128
  slices_S32x128_o19_0_S1x128 : S32x128.Slices ![19, 0] S1x128
  slices_S32x128_o20_0_S1x128 : S32x128.Slices ![20, 0] S1x128
  inb_S2000x128_S2000x128_0_0 : ∀ a, (![0, 0] : Fin 2 → Nat) a + S2000x128.size a ≤ S2000x128.size a
  h_S2000x128 : 0 < S2000x128.numel
  scatter_S32x128_S1_S21x128_01_n_0_0_wf : ScatterDims.WF S32x128 S1 S21x128 [0, 1] [] [0] 0
  hcc0_scratch5 : 0 + S_.numel ≤ 13
  hcc0_scratch6 : 1 + S_.numel ≤ 13
  hcc0_scratch7 : 2 + S_.numel ≤ 13
  hcc0_scratch8 : 3 + S_.numel ≤ 13
  hcc0_scratch9 : 4 + S_.numel ≤ 13
  hcc0_scoped0 : 5 + S_.numel ≤ 13
  hcc0_scoped1 : 6 + S_.numel ≤ 13
  hcc0_scoped2 : 7 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S10000.size a ≤ S320000.size a
  k0_t1_ok : k0_t1_loop.OK
  k0_off2_inb : ∀ (i : grid0.Coords) (k0_t1 : Fin k0_t1_loop.trips), ∀ a, (k0_off2 i k0_t1) a + S128x128.size a ≤ S320000x128.size a
  k0_off3_inb : ∀ (i : grid0.Coords) (k0_t1 : Fin k0_t1_loop.trips), ∀ (k0_h2 : k0_cond2 k0_t1 = 1#1), ∀ a, (k0_off3 i) a + S128x128.size a ≤ S320000x128.size a
  k0_off4_inb : ∀ k0_t1 : Fin k0_t1_loop.trips, ∀ a, (k0_off4 k0_t1) a + S128.size a ≤ S10000.size a
  k0_off5_inb : ∀ (i : grid0.Coords) (k0_t1 : Fin k0_t1_loop.trips), ∀ a, (k0_off5 i k0_t1) a + S128x128.size a ≤ S320000x128.size a
  k0_off6_inb : ∀ i : grid0.Coords, ∀ a, (k0_off6 i) a + S128x128.size a ≤ S320000x128.size a
  k0_off7_inb : ∀ k0_t1 : Fin k0_t1_loop.trips, ∀ (k0_h3 : k0_cond3 k0_t1 = 1#1), ∀ a, (k0_off7 k0_t1) a + S128.size a ≤ S10000.size a
  k0_off8_inb : ∀ i : grid0.Coords, ∀ a, (k0_off8 i) a + S16x128.size a ≤ S320000x128.size a
  k0_off9_inb : ∀ i : grid0.Coords, ∀ a, (k0_off9 i) a + S128x128.size a ≤ S320000x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2000.size a ≤ S5x1x2000.size a
  hwx1_0 : ∀ i : grid1.Coords, EltTy.bits .i32 = 32 ∨ (Rect.block (s := S5x1x2000) S1x1x2000.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .f32 = 32 ∨ (Rect.block (s := S10000x128) S2000x128.size (cc1_transform_2 i) (hinb1_2 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scoped0 : DmaSems sig S_ := SemArray.consecutive 5 S_ hcc0_scoped0
abbrev cc0_scoped1 : DmaSems sig S_ := SemArray.consecutive 6 S_ hcc0_scoped1
abbrev cc0_scoped2 : DmaSems sig S_ := SemArray.consecutive 7 S_ hcc0_scoped2
def scatter_S32x128_S1_S21x128_01_n_0_0 : ScatterDims S32x128 S1 S21x128 where
  updateWindowDims := [0, 1]
  insertedWindowDims := []
  scatterDimsToOperandDims := [0]
  indexVectorDim := 0
  wf := scatter_S32x128_S1_S21x128_01_n_0_0_wf

abbrev win1_0 : Pipeline.Window sig grid1 :=
  Pipeline.Window.ofSpec (Memref.whole main_v4) S1x1x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000 : Shape := ⟨1, ![10000]⟩
abbrev S320000 : Shape := ⟨1, ![320000]⟩
abbrev S21x128 : Shape := ⟨2, ![21, 128]⟩
abbrev S4x128 : Shape := ⟨2, ![4, 128]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10000x128 : Shape := ⟨2, ![10000, 128]⟩
abbrev S320000x1 : Shape := ⟨2, ![320000, 1]⟩
abbrev S320000x128 : Shape := ⟨2, ![320000, 128]⟩

abbrev nBuf : Space → Nat
  | .hbm => 50
  | .vmem => 0
  | .smem => 0
  | _ => 0

abbrev bufTy : (tb : Table) → Fin (tcTables nBuf tb) → BufTy
  | .hbm, ⟨0, _⟩ => ⟨S10000, .i32⟩
  | .hbm, ⟨1, _⟩ => ⟨S320000, .i32⟩
  | .hbm, ⟨2, _⟩ => ⟨S21x128, .f32⟩
  | .hbm, ⟨3, _⟩ => ⟨S4x128, .f32⟩
  | .hbm, ⟨4, _⟩ => ⟨S_, .i32⟩
  | .hbm, ⟨5, _⟩ => ⟨S10000, .i32⟩
  | .hbm, ⟨6, _⟩ => ⟨S10000, .i1⟩
  | .hbm, ⟨7, _⟩ => ⟨S_, .i32⟩
  | .hbm, ⟨8, _⟩ => ⟨S10000, .i32⟩
  | .hbm, ⟨9, _⟩ => ⟨S10000, .i32⟩
  | .hbm, ⟨10, _⟩ => ⟨S10000, .i32⟩
  | .hbm, ⟨11, _⟩ => ⟨S10000x1, .i32⟩
  | .hbm, ⟨12, _⟩ => ⟨S1, .i32⟩
  | .hbm, ⟨13, _⟩ => ⟨S_, .i32⟩
  | .hbm, ⟨14, _⟩ => ⟨S10000x1, .i32⟩
  | .hbm, ⟨15, _⟩ => ⟨S10000x1, .i1⟩
  | .hbm, ⟨16, _⟩ => ⟨S1x1, .i32⟩
  | .hbm, ⟨17, _⟩ => ⟨S10000x1, .i32⟩
  | .hbm, ⟨18, _⟩ => ⟨S10000x1, .i1⟩
  | .hbm, ⟨19, _⟩ => ⟨S10000x1, .i1⟩
  | .hbm, ⟨20, _⟩ => ⟨S_, .i1⟩
  | .hbm, ⟨21, _⟩ => ⟨S10000, .i1⟩
  | .hbm, ⟨22, _⟩ => ⟨S10000x128, .f32⟩
  | .hbm, ⟨23, _⟩ => ⟨S10000x128, .i1⟩
  | .hbm, ⟨24, _⟩ => ⟨S_, .f32⟩
  | .hbm, ⟨25, _⟩ => ⟨S10000x128, .f32⟩
  | .hbm, ⟨26, _⟩ => ⟨S10000x128, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S1, .i32⟩
  | .hbm, ⟨36, _⟩ => ⟨S_, .i32⟩
  | .hbm, ⟨37, _⟩ => ⟨S320000x1, .i32⟩
  | .hbm, ⟨38, _⟩ => ⟨S320000x1, .i1⟩
  | .hbm, ⟨39, _⟩ => ⟨S1x1, .i32⟩
  | .hbm, ⟨40, _⟩ => ⟨S320000x1, .i32⟩
  | .hbm, ⟨41, _⟩ => ⟨S320000x1, .i1⟩
  | .hbm, ⟨42, _⟩ => ⟨S320000x1, .i1⟩
  | .hbm, ⟨43, _⟩ => ⟨S_, .i1⟩
  | .hbm, ⟨44, _⟩ => ⟨S320000, .i1⟩
  | .hbm, ⟨45, _⟩ => ⟨S320000x128, .f32⟩
  | .hbm, ⟨46, _⟩ => ⟨S320000x128, .i1⟩
  | .hbm, ⟨47, _⟩ => ⟨S_, .f32⟩
  | .hbm, ⟨48, _⟩ => ⟨S320000x128, .f32⟩
  | .hbm, ⟨49, _⟩ => ⟨S320000x128, .f32⟩
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  h_S_ : 0 < S_.numel
  bcast_S10000_S10000x128_0 : S10000.BroadcastsInDim S10000x128 (![0] : Fin 1 → Fin S10000x128.rank)
  bcast_S_S10000x128 : S_.BroadcastsInDim S10000x128 (![] : Fin 0 → Fin S10000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1x1_S320000x1_0_1 : S1x1.BroadcastsInDim S320000x1 (![0, 1] : Fin 2 → Fin S320000x1.rank)
  reducesTo_S320000x1_S320000_d1 : S320000x1.ReducesTo [1] S320000
  bcast_S320000_S320000x128_0 : S320000.BroadcastsInDim S320000x128 (![0] : Fin 1 → Fin S320000x128.rank)
  bcast_S_S320000x128 : S_.BroadcastsInDim S320000x128 (![] : Fin 0 → Fin S320000x128.rank)
  gather_S21x128_S10000x1_S10000x128_1_0_n_n_0_1_1128_wf : GatherDims.WF S21x128 S10000x1 S10000x128 [1] [0] [] [0] [] 1 ![1, 128]
  gather_S4x128_S320000x1_S320000x128_1_0_n_n_0_1_1128_wf : GatherDims.WF S4x128 S320000x1 S320000x128 [1] [0] [] [0] [] 1 ![1, 128]

variable [Facts₀]

def gather_S21x128_S10000x1_S10000x128_1_0_n_n_0_1_1128 : GatherDims S21x128 S10000x1 S10000x128 where
  offsetDims := [1]
  collapsedSliceDims := [0]
  operandBatchingDims := []
  startIndicesBatchingDims := []
  startIndexMap := [0]
  indexVectorDim := 1
  sliceSizes := ![1, 128]
  wf := gather_S21x128_S10000x1_S10000x128_1_0_n_n_0_1_1128_wf
def gather_S4x128_S320000x1_S320000x128_1_0_n_n_0_1_1128 : GatherDims S4x128 S320000x1 S320000x128 where
  offsetDims := [1]
  collapsedSliceDims := [0]
  operandBatchingDims := []
  startIndicesBatchingDims := []
  startIndexMap := [0]
  indexVectorDim := 1
  sliceSizes := ![1, 128]
  wf := gather_S4x128_S320000x1_S320000x128_1_0_n_n_0_1_1128_wf

class Facts : Prop extends Facts₀ where

variable [Facts]
-- ==== Proof.Spec.lean ====
/-
  What both programs compute, as whole-array functions of the four argument arrays: two embedding lookups.
  Entry (r, l) of the node result is column l of the row of the node table that node index r names; entry (e, l) of
  the edge result is column l of the row of the edge table that edge index e names. An index is read as the natural
  number its 32-bit word denotes, reduced modulo the table's height so that the function is total: under the
  precondition every index is already below the height and the reduction is the identity.
-/
import Idealize.ShloMosaic.PureOps.Ideal
import Idealize.ShloMosaic.Lib.ValueIdx

noncomputable section

namespace Cert.Spec

open Idealize.ShloMosaic Idealize.ShloMosaic.ValueIdx

variable {F : FTy → Type}

/-- The row of a 21-row table that a 32-bit word names. -/
def row21 (w : BitVec 32) : Fin 21 := ⟨w.toNat % 21, Nat.mod_lt _ (by decide)⟩
/-- The row of a 4-row table that a 32-bit word names. -/
def row4 (w : BitVec 32) : Fin 4 := ⟨w.toNat % 4, Nat.mod_lt _ (by decide)⟩

theorem row21_val_of_le {w : BitVec 32} (h : w.toNat ≤ 20) : (row21 w).val = w.toNat := Nat.mod_eq_of_lt (by omega)
theorem row4_val_of_le {w : BitVec 32} (h : w.toNat ≤ 3) : (row4 w).val = w.toNat := Nat.mod_eq_of_lt (by omega)

/-- The node embedding: entry (r, l) is the node table's row `idx r`, column `l`. -/
def nodeEmb (tab : FVec F ⟨2, ![21, 128]⟩ .f32) (idx : IVec ⟨1, ![10000]⟩ 32) : FVec F ⟨2, ![10000, 128]⟩ .f32 :=
  fun j => tab (ix2 (row21 (idx (ix1 (n := 10000) (j 0)))) (n1 := 128) (j 1))

/-- The edge embedding: entry (e, l) is the edge table's row `idx e`, column `l`. -/
def edgeEmb (tab : FVec F ⟨2, ![4, 128]⟩ .f32) (idx : IVec ⟨1, ![320000]⟩ 32) : FVec F ⟨2, ![320000, 128]⟩ .f32 :=
  fun j => tab (ix2 (row4 (idx (ix1 (n := 320000) (j 0)))) (n1 := 128) (j 1))

theorem nodeEmb_apply (tab : FVec F ⟨2, ![21, 128]⟩ .f32) (idx : IVec ⟨1, ![10000]⟩ 32) (r : Fin 10000) (l : Fin 128) :
    nodeEmb tab idx (ix2 r l) = tab (ix2 (row21 (idx (ix1 r))) l) := rfl

theorem edgeEmb_apply (tab : FVec F ⟨2, ![4, 128]⟩ .f32) (idx : IVec ⟨1, ![320000]⟩ 32) (e : Fin 320000) (l : Fin 128) :
    edgeEmb tab idx (ix2 e l) = tab (ix2 (row4 (idx (ix1 e))) l) := rfl

end Cert.Spec

end
-- ==== Proof.Setup.lean ====
/-
  What the parts of the kernel's proof share. The program is @main on the TensorCore beside one SparseCore call on two
  SparseCores of sixteen vector subcores each, followed by host operations and one TensorCore kernel region.
  The ghost state is a product of four algebras: the rounds of the launch handshakes, the rounds of the subcore
  barrier's cells, the rounds of the TensorCore region's staging cells, and the transfers' counters.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205308_g19069654794752_retrytranche2_377_14_alg».proof.Proof.Gen.KernelIdeal
import proofs.«205308_g19069654794752_retrytranche2_377_14_alg».proof.Proof.Gen.KernelIdeal.Skeleton
import proofs.«205308_g19069654794752_retrytranche2_377_14_alg».proof.Proof.Gen.KernelIdeal.Launch
import proofs.«205308_g19069654794752_retrytranche2_377_14_alg».proof.Proof.Gen.KernelIdeal.Points
import proofs.«205308_g19069654794752_retrytranche2_377_14_alg».proof.Proof.Spec

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds: the first factor of the second. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The staging cells' rounds: one factor further in. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory, the arrays and their pieces -/

section Mem

variable (m : (ℓ : Loc nD τ sig) → Buf (Elt F) ℓ) (ρ : Dev nD → PrngReg)

/-- The edge indices, the edge table and the edge result, as the TensorCore names them. -/
abbrev iLoc (d : Dev nD) : Loc nD τ sig := (SparseCore.T d).loc main_arg1
abbrev tLoc (d : Dev nD) : Loc nD τ sig := (SparseCore.T d).loc main_arg3
abbrev oLoc (d : Dev nD) : Loc nD τ sig := (SparseCore.T d).loc main_v0

/-- SparseCore `c`'s shared copy of the edge table, as every tile of it addresses it. -/
abbrev shRef (c : Fin τ.nSC) : DevRef τ sig := ⟨.shared, ⟨0, by decide⟩, c⟩
abbrev shLoc (d : Dev nD) (c : Fin τ.nSC) : Loc nD τ sig := (d, shRef c)

theorem nSC_eq : τ.nSC = 2 := rfl
theorem nSub_eq : τ.nSub = 16 := rfl

/-- Tile `(c, s)` is worker `2 s + c` of thirty-two: it owns rows `[10000 w, 10000 (w + 1))` of the indices and of the result. -/
def wOf (c : Fin τ.nSC) (s : Fin τ.nSub) : Fin 32 := ⟨2 * s.val + c.val, by have hc : c.val < 2 := c.isLt; have hs : s.val < 16 := s.isLt; omega⟩

theorem idiv : 32 ∣ S320000.size 0 := ⟨10000, rfl⟩
theorem odiv : 32 ∣ S320000x128.size 0 := ⟨10000, rfl⟩
abbrev irow (w : Fin 32) : Rect S320000 := Rect.part (s := S320000) (a₀ := 0) idiv w
abbrev orow (w : Fin 32) : Rect S320000x128 := Rect.part (s := S320000x128) (a₀ := 0) odiv w
abbrev iRowSet (w : Fin 32) : Finset S320000.Idx := ((Memref.whole main_arg1_scv : Memref sig .scVector .hbm S320000 .i32).view.slice (irow w)).set
abbrev oRowSet (w : Fin 32) : Finset S320000x128.Idx := ((Memref.whole main_v0_scv : Memref sig .scVector .hbm S320000x128 .f32).view.slice (orow w)).set

/-- The edge result the kernel is to leave: the lookup of the launch memory's table at its indices. -/
abbrev edgeOut (d : Dev nD) : Buf (Elt F) (oLoc d) := Cert.Spec.edgeEmb (m (tLoc d)) (m (iLoc d))
/-- The shared copy's contents once tile 0 has filled it: the edge table's. -/
abbrev tabSh (d : Dev nD) (c : Fin τ.nSC) : Buf (Elt F) (shLoc d c) := m (tLoc d)

end Mem

variable [FloatOps F]
variable (m : (ℓ : Loc nD τ sig) → Buf (Elt F) ℓ) (ρ : Dev nD → PrngReg)

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read token of its SparseCore's shared table, at the edge table's contents. -/
abbrev shTok (d : Dev nD) (c : Fin τ.nSC) (j : Fin τ.nSub) : sProp 𝕄 := shLoc d c ↦{Transfers.shareTokN fullShare j.val} tabSh m d c

/-- What a duty in tile `j`'s round hands over: tile 0's, tile `j`'s read token of the filled shared table; the others', nothing. -/
def bPay (g : GSem nD τ sig) (n : ℕ) : sProp 𝕄 :=
  match g with
  | ((d, .scVector c j), _) => if n = 0 then shTok m d c j else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What a tile is handed of the three HBM arrays: its rows of the indices (read), a read token of the table, its rows of
    the result (to write). -/
abbrev goRes (d : Dev nD) (c : Fin τ.nSC) (s : Fin τ.nSub) : sProp 𝕄 :=
  iprop((iLoc d ↦[iRowSet (wOf c s)]{fullShare} m (iLoc d)) ∗ (tLoc d ↦{Transfers.shareTokN fullShare (wOf c s).val} m (tLoc d))
    ∗ oLoc d ↦[oRowSet (wOf c s)]{fullShare} m (oLoc d))
/-- What it hands back: the same, its rows of the result now the lookup. -/
abbrev tdRes (d : Dev nD) (c : Fin τ.nSC) (s : Fin τ.nSub) : sProp 𝕄 :=
  iprop((iLoc d ↦[iRowSet (wOf c s)]{fullShare} m (iLoc d)) ∗ (tLoc d ↦{Transfers.shareTokN fullShare (wOf c s).val} m (tLoc d))
    ∗ oLoc d ↦[oRowSet (wOf c s)]{fullShare} edgeOut m d)
/-- Of its SparseCore's shared table a tile is handed: tile 0 all of it, at any contents; the others nothing. -/
abbrev goSh (d : Dev nD) (c : Fin τ.nSC) (s : Fin τ.nSub) : sProp 𝕄 :=
  if s.val = 0 then iprop(∃ f, shLoc d c ↦{fullShare} f) else iprop(emp)
/-- It hands back its read token of the filled table; tile 0 also what the sixteen tokens left of the whole. -/
abbrev tdSh (d : Dev nD) (c : Fin τ.nSC) (s : Fin τ.nSub) : sProp 𝕄 :=
  iprop(shTok m d c s ∗ if s.val = 0 then (shLoc d c ↦{Transfers.shareDrop fullShare 16} tabSh m d c) else iprop(emp))

/-- The one SparseCore call: a SparseCore takes its sixteen tiles' pieces and brings them back; each task takes its own
    and, if it is tile 0, the shared table; each task's proof consumes its barrier kit; each tile owes its arrivals. -/
def P : (K (F := F)).Pay (nD := nD) (Val := Elt F) (Name := ℕ) (U := UU) where
  st := fun q d c => match q with | 0 => bigSep Finset.univ fun i : Fin ((K (F := F)).nSub 0) => goRes m d (coreOf c) ((K (F := F)).sub 0 i)
  dn := fun q d c => match q with | 0 => bigSep Finset.univ fun i : Fin ((K (F := F)).nSub 0) => tdRes m d (coreOf c) ((K (F := F)).sub 0 i)
  go := fun q d c i => match q with
    | 0 => iprop(goRes m d (coreOf c) ((K (F := F)).sub 0 i) ∗ goSh d (coreOf c) ((K (F := F)).sub 0 i))
  td := fun q d c i => match q with
    | 0 => iprop(tdRes m d (coreOf c) ((K (F := F)).sub 0 i) ∗ tdSh m d (coreOf c) ((K (F := F)).sub 0 i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (bigSep Finset.univ fun i : Fin ((K (F := F)).nSub 0) => goRes m d (coreOf c) ((K (F := F)).sub 0 i)))
  dn q d c := match q with
    | 0 => (inferInstance : BI.Storable (upEmb : UEmb _ 𝕄) (bigSep Finset.univ fun i : Fin ((K (F := F)).nSub 0) => tdRes m d (coreOf c) ((K (F := F)).sub 0 i)))
  go q d c i := match q with
    | 0 => by
      show BI.Storable (upEmb : UEmb _ 𝕄) iprop(goRes m d (coreOf c) ((K (F := F)).sub 0 i) ∗ goSh d (coreOf c) ((K (F := F)).sub 0 i))
      unfold goSh; split <;> infer_instance
  td q d c i := match q with
    | 0 => by
      show BI.Storable (upEmb : UEmb _ 𝕄) iprop(tdRes m d (coreOf c) ((K (F := F)).sub 0 i) ∗ tdSh m d (coreOf c) ((K (F := F)).sub 0 i))
      unfold tdSh; split <;> infer_instance

end Cert.KernelIdeal.Hand

end
-- ==== Proof.Deal.lean ====
/-
  The mechanical parts of the launch: how the three HBM arrays of the edge lookup split into the thirty-two workers'
  pieces and come back, how a SparseCore's operands and its shared table split among its sixteen tasks, and the
  launch element of the barrier cells' ghost state.
-/
import proofs.«205308_g19069654794752_retrytranche2_377_14_alg».proof.Proof.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-! ## The thirty-two workers -/

/-- Tile `(c, s)` ↦ worker `2 s + c` is a bijection of the two SparseCores' sixteen tiles with the thirty-two workers. -/
def wEquiv : Fin 2 × Fin 16 ≃ Fin 32 where
  toFun p := ⟨2 * p.2.val + p.1.val, by have := p.1.isLt; have := p.2.isLt; omega⟩
  invFun w := (⟨w.val % 2, Nat.mod_lt _ (by decide)⟩, ⟨w.val / 2, by have := w.isLt; omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

omit [FloatOps F] in
/-- A family over the workers, taken SparseCore by SparseCore and task by task, is the family over the workers. -/
theorem bigSep_workers (Φ : Fin 32 → sProp 𝕄) :
    (bigSep Finset.univ fun c : Fin ((K (F := F)).nCore 0) => bigSep Finset.univ fun i : Fin ((K (F := F)).nSub 0) =>
      Φ (wOf (coreOf c) ((K (F := F)).sub 0 i))) = bigSep Finset.univ Φ := by
  show (bigSep Finset.univ fun c : Fin 2 => bigSep Finset.univ fun i : Fin 16 => Φ (wEquiv (c, i))) = _
  rw [← bigSep_univ_prod (fun p : Fin 2 × Fin 16 => Φ (wEquiv p))]
  exact (bigSep_univ_equiv wEquiv Φ).symm

/-! ## The rows of the indices and of the result -/

omit [FloatOps F] in
theorem iRowSet_eq (w : Fin 32) : iRowSet w = (irow w).set := by
  show ((View.whole (main_arg1_scv : Ref sig .scVector)).slice (irow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
/-- The indices whole are the workers' rows of them. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] in
/-- The result whole is the workers' rows of it. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-! ## The TensorCore's side of the call -/

/-- What the TensorCore hands the two SparseCores: the indices, the thirty-two read tokens of the table, the result. -/
theorem st0_eq (d : Dev nD) :
    iprop((iLoc d ↦{fullShare} m (iLoc d)) ∗ (bigSep Finset.univ fun w : Fin 32 => tLoc d ↦{Transfers.shareTokN fullShare w.val} m (tLoc d))
        ∗ oLoc d ↦{fullShare} m (oLoc d))
      = (bigSep Finset.univ fun c : Fin ((K (F := F)).nCore 0) => (P m).st 0 d c : sProp 𝕄) := by
  show _ = bigSep Finset.univ fun c : Fin ((K (F := F)).nCore 0) => bigSep Finset.univ fun i : Fin ((K (F := F)).nSub 0) =>
    goRes m d (coreOf c) ((K (F := F)).sub 0 i)
  refine Eq.trans ?_ (bigSep_workers (F := F) (fun w => iprop((iLoc d ↦[iRowSet w]{fullShare} m (iLoc d))
    ∗ (tLoc d ↦{Transfers.shareTokN fullShare w.val} m (tLoc d)) ∗ oLoc d ↦[oRowSet w]{fullShare} m (oLoc d)))).symm
  rw [bigSep_sep', bigSep_sep', ← iPts_rows, ← oPts_rows]

/-- What it gets back: the same, the result now the lookup. -/
theorem dn0_eq (d : Dev nD) :
    (bigSep Finset.univ fun c : Fin ((K (F := F)).nCore 0) => (P m).dn 0 d c : sProp 𝕄)
      = iprop((iLoc d ↦{fullShare} m (iLoc d)) ∗ (bigSep Finset.univ fun w : Fin 32 => tLoc d ↦{Transfers.shareTokN fullShare w.val} m (tLoc d))
        ∗ oLoc d ↦{fullShare} edgeOut m d) := by
  show (bigSep Finset.univ fun c : Fin ((K (F := F)).nCore 0) => bigSep Finset.univ fun i : Fin ((K (F := F)).nSub 0) =>
    tdRes m d (coreOf c) ((K (F := F)).sub 0 i)) = _
  refine Eq.trans (bigSep_workers (F := F) (fun w => iprop((iLoc d ↦[iRowSet w]{fullShare} m (iLoc d))
    ∗ (tLoc d ↦{Transfers.shareTokN fullShare w.val} m (tLoc d)) ∗ oLoc d ↦[oRowSet w]{fullShare} edgeOut m d))) ?_
  rw [bigSep_sep', bigSep_sep', ← iPts_rows, ← oPts_rows]

omit [FloatOps F] in
/-- The table whole is what thirty-two read tokens leave of it and the tokens. -/
theorem tTok_split (d : Dev nD) : (tLoc d ↦{fullShare} m (tLoc d) : sProp 𝕄)
    ⊣⊢ iprop((tLoc d ↦{Transfers.shareDrop fullShare 32} m (tLoc d)) ∗ bigSep Finset.univ fun w : Fin 32 => tLoc d ↦{Transfers.shareTokN fullShare w.val} m (tLoc d)) :=
  Transfers.pointsTo_toks fullShare 32

/-! ## A SparseCore's operands and its shared table among its sixteen tasks -/

omit [FloatOps F] in
/-- A family over a SparseCore's tasks that is something at task 0 and nothing at the others is that thing. -/
theorem bigSep_tile0 (A : sProp 𝕄) :
    (bigSep Finset.univ fun i : Fin ((K (F := F)).nSub 0) => if ((K (F := F)).sub 0 i).val = 0 then A else iprop(emp)) = A := by
  show (bigSep Finset.univ fun i : Fin 16 => if i.val = 0 then A else iprop(emp)) = A
  refine (bigSep_filter Finset.univ (fun i : Fin 16 => i.val = 0) (fun _ => A)).symm.trans ?_
  rw [show (Finset.univ.filter fun i : Fin 16 => i.val = 0) = {0} by decide, bigSep_singleton]

omit [FloatOps F] in
/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- What the sixteen tasks are handed: their pieces of the arrays, and task 0 the shared table whole. -/
theorem go_all (d : Dev nD) (c : Fin ((K (F := F)).nCore 0)) :
    (bigSep Finset.univ fun i : Fin ((K (F := F)).nSub 0) => (P m).go 0 d c i : sProp 𝕄)
      = iprop((P m).st 0 d c ∗ ∃ f, shLoc d (coreOf c) ↦{fullShare} f) := by
  show (bigSep Finset.univ fun i : Fin ((K (F := F)).nSub 0) => iprop(goRes m d (coreOf c) ((K (F := F)).sub 0 i) ∗ goSh d (coreOf c) ((K (F := F)).sub 0 i)))
    = iprop((bigSep Finset.univ fun i : Fin ((K (F := F)).nSub 0) => goRes m d (coreOf c) ((K (F := F)).sub 0 i)) ∗ _)
  rw [bigSep_sep' Finset.univ (fun i : Fin ((K (F := F)).nSub 0) => goRes m d (coreOf c) ((K (F := F)).sub 0 i))
    (fun i : Fin ((K (F := F)).nSub 0) => goSh d (coreOf c) ((K (F := F)).sub 0 i))]
  exact congrArg _ (bigSep_tile0 (F := F) iprop(∃ f, shLoc d (coreOf c) ↦{fullShare} f))

/-- What they hand back: their pieces, their sixteen read tokens of the filled table, and from task 0 what the tokens left of it. -/
theorem td_all (d : Dev nD) (c : Fin ((K (F := F)).nCore 0)) :
    (bigSep Finset.univ fun i : Fin ((K (F := F)).nSub 0) => (P m).td 0 d c i : sProp 𝕄)
      = iprop((P m).dn 0 d c ∗ (bigSep Finset.univ fun i : Fin 16 => shLoc d (coreOf c) ↦{Transfers.shareTok fullShare 16 i} tabSh m d (coreOf c))
        ∗ shLoc d (coreOf c) ↦{Transfers.shareDrop fullShare 16} tabSh m d (coreOf c)) := by
  show (bigSep Finset.univ fun i : Fin ((K (F := F)).nSub 0) => iprop(tdRes m d (coreOf c) ((K (F := F)).sub 0 i)
      ∗ shTok m d (coreOf c) ((K (F := F)).sub 0 i)
      ∗ if ((K (F := F)).sub 0 i).val = 0 then (shLoc d (coreOf c) ↦{Transfers.shareDrop fullShare 16} tabSh m d (coreOf c)) else iprop(emp)))
    = iprop((bigSep Finset.univ fun i : Fin ((K (F := F)).nSub 0) => tdRes m d (coreOf c) ((K (F := F)).sub 0 i))
      ∗ (bigSep Finset.univ fun i : Fin ((K (F := F)).nSub 0) => shTok m d (coreOf c) ((K (F := F)).sub 0 i)) ∗ _)
  rw [bigSep_sep' Finset.univ (fun i : Fin ((K (F := F)).nSub 0) => tdRes m d (coreOf c) ((K (F := F)).sub 0 i))
    (fun i : Fin ((K (F := F)).nSub 0) => iprop(shTok m d (coreOf c) ((K (F := F)).sub 0 i)
      ∗ if ((K (F := F)).sub 0 i).val = 0 then (shLoc d (coreOf c) ↦{Transfers.shareDrop fullShare 16} tabSh m d (coreOf c)) else iprop(emp))),
    bigSep_sep' Finset.univ (fun i : Fin ((K (F := F)).nSub 0) => shTok m d (coreOf c) ((K (F := F)).sub 0 i))
      (fun i : Fin ((K (F := F)).nSub 0) => if ((K (F := F)).sub 0 i).val = 0 then (shLoc d (coreOf c) ↦{Transfers.shareDrop fullShare 16} tabSh m d (coreOf c)) else iprop(emp)),
    bigSep_tile0 (F := F) (shLoc d (coreOf c) ↦{Transfers.shareDrop fullShare 16} tabSh m d (coreOf c))]

/-- A SparseCore's operands, and its shared table out of the sequencer's own buffers, go to its sixteen tasks; their
    results and their read tokens of the table come back, the tokens and what they left joined into the table whole. -/
theorem vecSplit : (K (F := F)).VecSplit (P m) 0 := by
  intro d c
  rw [go_all m d c, td_all m d c, ownBufs_S]
  iintro ⟨Hst, ⟨%fsh, Hsh⟩, Hrest⟩; imodintro
  isplitl [Hst Hsh]
  · isplitl [Hst]; · iexact Hst
    iexists fsh; iexact Hsh
  iintro ⟨Hdn, Htok, Hdrop⟩
  isplitl [Hdn]; · iexact Hdn
  isplitl [Htok Hdrop]
  · iapply (SparseCore.ent ((Transfers.pointsTo_toks_join (ℓ := shLoc d (coreOf c)) (f := tabSh m d (coreOf c)) fullShare 16).trans
      (BI.BIClass.exists_intro (Φ := fun f => (shLoc d (coreOf c) ↦{fullShare} f : sProp 𝕄)) (tabSh m d (coreOf c)))))
    isplitl [Hdrop]; · iexact Hdrop
    iexact Htok
  iexact Hrest

/-! ## The launch element of the ghost state, and what the launch hands the tiles -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
/-- The launch element: the handshakes' and the barrier cells' initial rounds, the staging cells' factor as given, no counters. -/
def u₀ (uP : UP) : UU := (initOf (K (F := F)).hsCells (K (F := F)).hsToks, (initOf bCells bToks, (uP, 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The launch element is its three factors, each in its own embedding. -/
theorem ownU_split (a : UH) (b : UB) (p : UP) :
    (ownU ((a, (b, (p, 1))) : UU) : sProp 𝕄) ⊢ iprop(BI.own (EH a) ∗ BI.own (EB b) ∗ BI.own (EP p)) := by
  refine (BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, ((p, 1) : UP × Counters)))))).trans (sep_mono_r ?_)
  exact BI.own_op_elim ((uEmb (nD := nD) (sig := sig) (Ix := HIx 1) (Val := Elt F) (Name := ℕ) (U := UU) (Lvl := ℕ)).toEmb.op_of_mem
    (Prod.mk_mem_op (URA.mem_op_one (1 : UH)) (Prod.mk_mem_op (URA.mem_op_one b) (URA.mem_one_op ((p, 1) : UP × Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- The SparseCore part of the launch: the handshakes' rounds and the staging cells' factor pass through; the barrier
    cells' factor, the credit and the free semaphores become every tile's barrier kit. -/
theorem hu₀_sc (uP : UP) : iprop(ownU (u₀ (F := F) uP) ∗ (P (F := F) m).oxCred ∗ (K (F := F)).freeSems0)
    ⊢ |={Set.univ}=> iprop(BI.own (EH (initOf (K (F := F)).hsCells (K (F := F)).hsToks)) ∗ BI.own (EP uP)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HP]; · iexact HP
  iapply (kits_deal m)
  isplitr
  · isplitl; · iexists κ; iexact Hinv'
    iexact Hr'
  isplitl [Hat']; · iexact Hat'
  isplitl [Htok']; · iexact Htok'
  iexact Hcred'

end Cert.KernelIdeal.Hand

end
-- ==== Proof.NodeBlock.lean ====
/-
  The block of the node result that one grid point of the TensorCore kernel stores, as ONE pure function of the two
  blocks it loads (2000 node indices; the 32-row padded node table): the generated payloads composed in the body's order.
  The body accumulates, over the 21 table rows v, the row broadcast down the block where the index equals v and zero
  elsewhere.
-/
import proofs.«205308_g19069654794752_retrytranche2_377_14_alg».proof.Proof.Gen.KernelIdeal.Skeleton

noncomputable section

namespace Cert.KernelIdeal.NodeVal

open Idealize.ShloMosaic Cert.KernelIdeal Cert.KernelIdeal.Gen

variable {F : FTy → Type} [FloatOps F]

/-- What the body stores into its output block, of the index block `v0` and the table block `v2` it loads. -/
def nodeBlock (v0 : Vec F S1x1x2000 .i32) (v2 : Vec F S32x128 .f32) : FVec F S2000x128 .f32 :=
  let z : F .f32 := Scalar.ofBits .f32 0x00000000#32
  let v3 := k1_pay2 v2
  let v6 := k1_pay3 (F := F) v0
  let v87 := k1_pay7 v3 v6 (k1_pay4 v0 v2) (k1_pay5 v2) (k1_pay6 (F := F) v0) z
  let v137 := k1_pay10 v3 v6 v87 (k1_pay8 v3) (k1_pay9 v6) z
  let v187 := k1_pay13 v3 v6 v137 (k1_pay11 v3) (k1_pay12 v6) z
  k1_pay1 v3 v6 v187 (k1_pay14 v3) (k1_pay15 v6) z

end Cert.KernelIdeal.NodeVal

end
-- ==== Proof.RegionBody.lean ====
/-
  The TensorCore kernel region inside the SparseCore program, first part: the whole-array function the region leaves in
  the node result, and the kernel body's triple on whole staging buffers.
-/
import proofs.«205308_g19069654794752_retrytranche2_377_14_alg».proof.Proof.Setup
import proofs.«205308_g19069654794752_retrytranche2_377_14_alg».proof.Proof.NodeBlock
import Idealize.ShloMosaic.Lib.Pipeline.Value
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The pipeline's tables: none, so one admissible contents. -/
abbrev adm : (p : Fin 1) → (pcfgs (F := F) p).Adm := fun p => (cfgs p).toPCfg_adm

/-- What the region leaves in the node result: row `2000 t + r` is row `r` of the block the body stores from block `t` of
    the indices and the whole table. -/
def nodeArr (a4 : IVec S5x1x2000 32) (a3 : FVec F S32x128 .f32) : FVec F S10000x128 .f32 :=
  fun j => NodeVal.nodeBlock (F := F)
    (fun y => a4 (ValueIdx.ix3 (n0 := 5) (n1 := 1) (n2 := 2000) ⟨(j 0).val / 2000, by have := (j 0).isLt; change (j 0).val < 10000 at this; omega⟩ 0 (y 2))) a3
    (ValueIdx.ix2 (n0 := 2000) (n1 := 128) ⟨(j 0).val % 2000, Nat.mod_lt _ (by decide)⟩ (j 1))

theorem nodeArr_apply (a4 : IVec S5x1x2000 32) (a3 : FVec F S32x128 .f32) (t : Fin 5) (r : Fin 2000) (l : Fin 128) :
    nodeArr a4 a3 (ValueIdx.ix2 (n0 := 10000) (n1 := 128) ⟨2000 * t.val + r.val, by have := t.isLt; have := r.isLt; omega⟩ l)
      = NodeVal.nodeBlock (F := F) (fun y => a4 (ValueIdx.ix3 (n0 := 5) (n1 := 1) (n2 := 2000) t 0 (y 2))) a3 (ValueIdx.ix2 (n0 := 2000) (n1 := 128) r l) := by
  have h1 : (2000 * t.val + r.val) / 2000 = t.val := by have := r.isLt; omega
  have h2 : (2000 * t.val + r.val) % 2000 = r.val := by have := r.isLt; omega
  unfold nodeArr
  congr 1
  · funext y; congr 1; funext a
    match a with
    | ⟨0, _⟩ => exact Fin.ext h1
    | ⟨1, _⟩ => rfl
    | ⟨2, _⟩ => rfl
  · funext a
    match a with
    | ⟨0, _⟩ => exact Fin.ext h2
    | ⟨1, _⟩ => rfl

/-! ## The body's triple -/

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in its output buffer, of the contents of its two input buffers: its one store, of the whole
    block, of the block computed from the two whole-buffer loads. -/
def outBlk (x0 : Vec F S1x1x2000 .i32) (x1 : Vec F S32x128 .f32) : Vec F S2000x128 .f32 :=
  View.canon [⟨Rect.unit (s := S2000x128) ![0, 0] S2000x128.size inb_S2000x128_S2000x128_0_0,
    NodeVal.nodeBlock (View.ld x0 (Rect.unit (s := S1x1x2000) ![0, 0, 0] S1x1x2000.size inb_S1x1x2000_S1x1x2000_0_0_0))
      (View.ld x1 (Rect.unit (s := S32x128) ![0, 0] S32x128.size inb_S32x128_S32x128_0_0))⟩]

/-- The store covers the buffer and the loads read the buffers whole: the buffer holds the computed block. -/
theorem outBlk_eq (x0 : Vec F S1x1x2000 .i32) (x1 : Vec F S32x128 .f32) : outBlk x0 x1 = NodeVal.nodeBlock x0 x1 := by
  unfold outBlk
  rw [View.canon_unit_zero hz2, View.ld_unit_zero (S := S1x1x2000) hz3, View.ld_unit_zero (S := S32x128) hz2]

set_option maxHeartbeats 1000000 in
/-- The kernel body on whole staging memrefs, the index block at `x0`, the table block at `x1`, the output block at
    anything, runs to the continuation holding the inputs as they were and the output at what the body leaves. -/
theorem sound_kernel (c : Dev nD) (E : Set ℕ) (i : grid1.Coords) (arg1 : Memref sig .tc .vmem S1x1x2000 .i32) (harg1 : arg1.IsWhole)
    (arg2 : Memref sig .tc .vmem S32x128 .f32) (harg2 : arg2.IsWhole) (arg3 : Memref sig .tc .vmem S2000x128 .f32) (harg3 : arg3.IsWhole)
    (x0 : Vec F S1x1x2000 .i32) (x1 : Vec F S32x128 .f32) (Kc : PUnit → sProp 𝕄) :
    iprop(owns (c : Thread nD τ) arg1 fullShare x0 ∗ owns (c : Thread nD τ) arg2 fullShare x1 ∗ (∃ y, owns (c : Thread nD τ) arg3 fullShare y)
        ∗ (iprop(owns (c : Thread nD τ) arg1 fullShare x0 ∗ owns (c : Thread nD τ) arg2 fullShare x1
            ∗ owns (c : Thread nD τ) arg3 fullShare (outBlk x0 x1)) -∗ Kc ⟨⟩))
      ⊢ wp frame (wpE (defs₀ (F := F)) Variants.none c none) E (cc1__node_tc_body i arg1 harg1 arg2 harg2 arg3 harg3) Kc := by
  simp only [cc1__node_tc_body_eq_skeleton]; unfold cc1__node_tc_body_skel
  unfold owns
  iintro ⟨⟨%f0, %hf0, H0⟩, ⟨%f1, %hf1, H1⟩, ⟨%y2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2000x128.size (by rfl))

end Cert.KernelIdeal.Hand

end
-- ==== Proof.RegionData.lean ====
/-
  The TensorCore kernel region inside the SparseCore program, second part: the pipeline's proof data. The region is the
  pipeline of five grid points over three windows: the node indices (a 1x1x2000 block per point), the padded node table
  (whole, fetched once) and the node result (a 2000x128 block per point, written back at every point). The proof data
  name, per point, the two blocks the body loads and the block it stores; the blocks written back tile the result,
  which therefore ends as one whole-array function of the indices and the table.
-/
import proofs.«205308_g19069654794752_retrytranche2_377_14_alg».proof.Proof.RegionBody
import Idealize.ShloMosaic.Lib.Pipeline.Value
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The proof data -/

section Data

variable (d : Dev nD) (a4 : IVec S5x1x2000 32) (a3 : FVec F S32x128 .f32) (a5 : FVec F S10000x128 .f32)

/-- The windows' arrays as the region finds them. -/
def arr1 : (w : Fin cfg1.W) → Buf (Elt F) ((cfg1.win w).arr.view.loc (d.tc : Thread nD τ))
  | ⟨0, _⟩ => a4
  | ⟨1, _⟩ => a3
  | ⟨2, _⟩ => a5

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (arr1 d a4 a3 a5 w)

/-- The recorded pairs the TensorCore may hold in the region: those at or below the level bound it enters with. -/
def recB : Set (SemLoc sig × HIx 1) := {p | (K (F := F)).lev (SparseCore.T d, p.1) p.2 ≤ 8 * 1}

/-- The proof data: each input's buffer holds its block after the body, the output's what the body leaves of them; the
    invariant is the scoped buffers no window stages; nothing is owed. -/
def rdat : Dat τ (Elt F) (HIx 1) ℕ UU ℕ cfg1 d where
  A := arr1 d a4 a3 a5
  after w t := match w with
    | ⟨0, _⟩ => iblk d a4 a3 a5 0 t
    | ⟨1, _⟩ => iblk d a4 a3 a5 1 t
    | ⟨2, _⟩ => outBlk (iblk d a4 a3 a5 0 t) (iblk d a4 a3 a5 1 t)
  Φ _ := Pipeline.scopedRest spec1 d
  q _ := fullShare
  owed _ := 0
  recorded _ := recB (F := F) d

theorem after_0 (t : Fin cfg1.N) : (rdat d a4 a3 a5).after 0 t = iblk d a4 a3 a5 0 t := by dsimp only [rdat]
theorem after_1 (t : Fin cfg1.N) : (rdat d a4 a3 a5).after 1 t = iblk d a4 a3 a5 1 t := by dsimp only [rdat]
theorem after_2 (t : Fin cfg1.N) : (rdat d a4 a3 a5).after 2 t = outBlk (iblk d a4 a3 a5 0 t) (iblk d a4 a3 a5 1 t) := by dsimp only [rdat]

/-- Each input's current staging buffer holds its block at every point, fetched there or not. -/
theorem before_0 (t : Fin cfg1.N) (y) : (rdat d a4 a3 a5).before 0 t y = iblk d a4 a3 a5 0 t :=
  ((rdat d a4 a3 a5).before_in_eq_fetched 0 rfl (fun _ => rfl) (fun _ _ _ => rfl) (fun t => by rw [after_0]; rfl) t y).trans
    (by unfold Dat.fetched Dat.blockOf iblk; rfl)
theorem before_1 (t : Fin cfg1.N) (y) : (rdat d a4 a3 a5).before 1 t y = iblk d a4 a3 a5 1 t :=
  ((rdat d a4 a3 a5).before_in_eq_fetched 1 rfl (fun _ => rfl) (fun _ _ _ => rfl) (fun t => by rw [after_1]; rfl) t y).trans
    (by unfold Dat.fetched Dat.blockOf iblk; rfl)

/-! ## The body obligation -/

/-- What the body is called with at point `t`, the windows one by one, -/
def bodyPre (t : Fin cfg1.N) : sProp 𝕄 :=
  iprop((rdat d a4 a3 a5).Φ t.castSucc ∗ (rdat d a4 a3 a5).owesAt none t.castSucc
    ∗ (∃ y, owns (d : Thread nD τ) (st1_0 t) fullShare ((rdat d a4 a3 a5).before 0 t y))
    ∗ (∃ y, owns (d : Thread nD τ) (st1_1 t) fullShare ((rdat d a4 a3 a5).before 1 t y))
    ∗ (∃ y, owns (d : Thread nD τ) (st1_2 t) fullShare ((rdat d a4 a3 a5).before 2 t y)))

/-- and what it returns. -/
def bodyPost (t : Fin cfg1.N) : sProp 𝕄 :=
  iprop((rdat d a4 a3 a5).Φ t.succ ∗ (rdat d a4 a3 a5).owesAt none t.succ
    ∗ owns (d : Thread nD τ) (st1_0 t) fullShare ((rdat d a4 a3 a5).after 0 t)
    ∗ owns (d : Thread nD τ) (st1_1 t) fullShare ((rdat d a4 a3 a5).after 1 t)
    ∗ owns (d : Thread nD τ) (st1_2 t) fullShare ((rdat d a4 a3 a5).after 2 t))

/-- The body at any point: the inputs' memrefs hold their blocks, so the body's triple applies; the invariant and the
    core's owed tallies pass through unread. -/
theorem sound_body (t : Fin cfg1.N) :
    bodyPre d a4 a3 a5 t ⊢ wp frame (wpE (defs₀ (F := F)) Variants.none d none) Set.univ (bodyAt1 t) (fun _ => bodyPost d a4 a3 a5 t) := by
  unfold bodyPre bodyPost bodyAt1
  simp only [before_0, before_1]
  rw [show (rdat d a4 a3 a5).Φ t.succ = (rdat d a4 a3 a5).Φ t.castSucc from rfl,
    show (rdat d a4 a3 a5).owesAt none t.succ = (rdat d a4 a3 a5).owesAt none t.castSucc from rfl,
    after_0, after_1, after_2]
  iintro ⟨HΦ, Ho, ⟨%d0, H0⟩, ⟨%d1, H1⟩, ⟨%d2, H2⟩⟩
  iapply (sound_kernel d Set.univ (grid1.coords t) _ _ _ _ _ _ (iblk d a4 a3 a5 0 t) (iblk d a4 a3 a5 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation : BodyObligation (rdat (F := F) d a4 a3 a5) (defs₀ (F := F)) Variants.none (none : HIx 1) Set.univ := fun t => by
  rw [bigSep_W1, bigSep_W1]
  exact sound_body d a4 a3 a5 t

/-! ## What the arrays hold at the exit -/

/-- The printed index maps, decided over the grid: point `t` takes block `t` of the indices, the whole table, and
    block `t` of the result. -/
theorem idx_facts : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the indices and the table. -/
theorem flushed_eq (t : Fin cfg1.N) :
    (rdat d a4 a3 a5).flushed 2 t = ((cfg1.win 2).blk t).view.read (Elt F) (nodeArr a4 a3) := by
  show (cfg1.win 2).cut (grid1.coords t) ((rdat d a4 a3 a5).after 2 t) = _
  rw [after_2, outBlk_eq]
  obtain ⟨e0, e1, e2, e3, e4, e5, e6⟩ := idx_facts t
  funext j
  have hj0 : (j 0).val < 2000 := (j 0).isLt
  show NodeVal.nodeBlock (iblk d a4 a3 a5 0 t) (iblk d a4 a3 a5 1 t) j = nodeArr a4 a3 (((cfg1.win 2).blk t).view.emb j)
  have hv0 : ((((cfg1.win 2).blk t).view.emb j) 0).val = win1_2.index t (0 : Fin 2) * 2000 + 1 * (j 0).val := rfl
  have hv1 : ((((cfg1.win 2).blk t).view.emb j) 1).val = win1_2.index t (1 : Fin 2) * 128 + 1 * (j 1).val := rfl
  unfold nodeArr
  congr 1
  · funext y
    have hy0 : (y 0).val < 1 := (y 0).isLt
    have hy1 : (y 1).val < 1 := (y 1).isLt
    show a4 (((cfg1.win 0).blk t).view.emb y) = _
    congr 1; funext a; apply Fin.ext
    match a with
    | ⟨0, _⟩ => show win1_0.index t (0 : Fin 3) * 1 + 1 * (y 0).val = ((((cfg1.win 2).blk t).view.emb j) 0).val / 2000; rw [hv0]; omega
    | ⟨1, _⟩ => show win1_0.index t (1 : Fin 3) * 1 + 1 * (y 1).val = 0; omega
    | ⟨2, _⟩ => show win1_0.index t (2 : Fin 3) * 2000 + 1 * (y 2).val = (y 2).val; omega
  · funext y
    show a3 (((cfg1.win 1).blk t).view.emb y) = a3 y
    congr 1; funext a; apply Fin.ext
    match a with
    | ⟨0, _⟩ => show win1_1.index t (0 : Fin 2) * 32 + 1 * (y 0).val = (y 0).val; omega
    | ⟨1, _⟩ => show win1_1.index t (1 : Fin 2) * 128 + 1 * (y 1).val = (y 1).val; omega
  · funext a; apply Fin.ext
    match a with
    | ⟨0, _⟩ => show (j 0).val = ((((cfg1.win 2).blk t).view.emb j) 0).val % 2000; rw [hv0]; omega
    | ⟨1, _⟩ => show (j 1).val = ((((cfg1.win 2).blk t).view.emb j) 1).val; rw [hv1]; omega

/-- An index of the result is in point `t`'s block iff each coordinate is in the block's range on its axis. -/
theorem mem_blk (t : Fin cfg1.N) (i : S10000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v5).slice (win1_2.rect t)).set ↔ _
  rw [View.set_slice_whole, Rect.mem_set_unit]
  exact Iff.rfl

/-- The five blocks tile the result. -/
theorem covered (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  let t : Fin cfg1.N := ⟨(i 0).val / 2000, by rw [show cfg1.N = 5 from N_1]; omega⟩
  obtain ⟨-, -, -, -, -, e5, e6⟩ := idx_facts t
  have e5' : win1_2.index t (0 : Fin 2) = (i 0).val / 2000 := e5
  refine ⟨t, flush1_2 t, (mem_blk t i).mpr fun a => ?_⟩
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

theorem arrAt_0 : (rdat d a4 a3 a5).arrAt 0 cfg1.N = a4 := (rdat d a4 a3 a5).arrAt_in 0 rfl _
theorem arrAt_1 : (rdat d a4 a3 a5).arrAt 1 cfg1.N = a3 := (rdat d a4 a3 a5).arrAt_in 1 rfl _
/-- The result ends as the whole-array function, whatever it held. -/
theorem arrAt_2 : (rdat d a4 a3 a5).arrAt 2 cfg1.N = nodeArr a4 a3 :=
  (rdat d a4 a3 a5).arrAt_eq_of_cover 2 (nodeArr a4 a3) (fun t _ => flushed_eq d a4 a3 a5 t) covered

end Data

end Cert.KernelIdeal.Hand

end
-- ==== Proof.Region.lean ====
/-
  The TensorCore kernel region inside the SparseCore program, third part: the staging cells' launch ghost state, the
  region's entry and exit thread states, the region as the library's kernel region over them, and the region's step:
  from the boundary and the entry state the call runs to the boundary and the exit state, the node result at the
  whole-array function of the indices and the padded table.
-/
import proofs.«205308_g19069654794752_retrytranche2_377_14_alg».proof.Proof.RegionData
import Idealize.ShloMosaic.Lib.Pipeline.Value
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The staging cells' launch ghost state -/

/-- The staging cells' ghost state on device `d`: each cell's launch state and the duty tokens of the transfers the
    pipeline issues. -/
def GP (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- The launch element of the staging cells' rounds. -/
def uP : UP := initOf (Pipeline.cells (nD := nD) (τ := τ) (Pipeline.pin (pcfgs (F := F)) adm) cellOf_inj) (Pipeline.launchToks (nD := nD) (τ := τ) (Pipeline.pin (pcfgs (F := F)) adm) cellOf_inj)

/-- The launch element funds every device's staging cells. -/
theorem fundP : (BI.own ((EP (F := F)) (uP (F := F))) : sProp 𝕄) ⊢ |==> bigSep Finset.univ (GP (F := F)) := by
  refine (Pipeline.fund_ghost (Pipeline.pin (pcfgs (F := F)) adm) (EP (F := F)) cellOf_inj).trans (bupd_mono ?_)
  have e : ∀ Φ : Fin 1 → sProp 𝕄, bigSep Finset.univ Φ = Φ 0 := fun Φ => by
    rw [show (Finset.univ : Finset (Fin 1)) = {0} from rfl, bigSep_singleton]
  simp only [e]
  unfold GP; exact BI.Entails.refl _

/-! ## The region's thread states -/

section States

variable (d : Dev nD) (a4 : IVec S5x1x2000 32) (a3 : FVec F S32x128 .f32)

/-- What the TensorCore owes when the SparseCore call has returned, with the level bound on its recorded pairs. -/
abbrev owesTC : sProp 𝕄 :=
  iprop(∃ W, ⌜(K (F := F)).WBelow (SparseCore.T d) W (8 * 1)⌝ ∗ owes (SparseCore.T d) ((K (F := F)).Otc d 1) W)

/-- The region is entered holding the index array, the padded table, the result at anything, and what the core owes. -/
def regionPre : sProp 𝕄 :=
  iprop(((SparseCore.T d).loc main_v4 ↦{fullShare} a4) ∗ ((SparseCore.T d).loc main_v3 ↦{fullShare} a3)
    ∗ (∃ f, (SparseCore.T d).loc main_v5 ↦{fullShare} f) ∗ owesTC (F := F) d)

/-- It is left holding the same, the result now the whole-array function of the indices and the table. -/
def regionPost : sProp 𝕄 :=
  iprop(((SparseCore.T d).loc main_v4 ↦{fullShare} a4) ∗ ((SparseCore.T d).loc main_v3 ↦{fullShare} a3)
    ∗ ((SparseCore.T d).loc main_v5 ↦{fullShare} nodeArr a4 a3) ∗ owesTC (F := F) d)

end States

/-! ## The region -/

section Region

variable (a4 : IVec S5x1x2000 32) (a3 : FVec F S32x128 .f32) (a5 : FVec F S10000x128 .f32)

/-- The one pipeline's proof data on every device. -/
def pdats : (p : Fin 1) → (c : Dev nD) → Dat τ (Elt F) (HIx 1) ℕ UU ℕ (Pipeline.pin (pcfgs (F := F)) adm p) c :=
  fun _ c => rdat c a4 a3 a5

/-- After its one SparseCore call the TensorCore owes no start signal. -/
theorem Otc_one (d : Dev nD) : (K (F := F)).Otc d 1 = 0 := (K (F := F)).Otc_end d le_rfl

/-- The same with nothing owed spelt so. -/
theorem owesTC_eq (d : Dev nD) : owesTC (F := F) d
    = iprop(∃ W, ⌜(K (F := F)).WBelow (SparseCore.T d) W (8 * 1)⌝ ∗ owes (SparseCore.T d) (0 : CellTallies nD τ sig (HIx 1)) W) := by
  show iprop(∃ W, ⌜(K (F := F)).WBelow (SparseCore.T d) W (8 * 1)⌝ ∗ owes (SparseCore.T d) ((K (F := F)).Otc d 1) W) = _
  rw [Otc_one]

/-- The region's entry state with the result's contents named. -/
def regPre (c : Dev nD) : sProp 𝕄 :=
  iprop(((SparseCore.T c).loc main_v4 ↦{fullShare} a4) ∗ ((SparseCore.T c).loc main_v3 ↦{fullShare} a3)
    ∗ ((SparseCore.T c).loc main_v5 ↦{fullShare} a5) ∗ owesTC (F := F) c)

/-- The pipeline's arrays at the entry are the three buffers as held; -/
theorem arrays_entry (c : Dev nD) : (pdats a4 a3 a5 0 c).arrays ((pdats a4 a3 a5 0 c).arrAt · 0)
    = (iprop(((SparseCore.T c).loc main_v4 ↦{fullShare} a4) ∗ ((SparseCore.T c).loc main_v3 ↦{fullShare} a3)
        ∗ ((SparseCore.T c).loc main_v5 ↦{fullShare} a5)) : sProp 𝕄) := by
  rw [Pipeline.arrays_eq cfgs (pdats a4 a3 a5) 0 c launch1.arr_whole ((pdats a4 a3 a5 0 c).share_full fun _ => rfl), bigSep_W1]
  rfl

/-- at the exit, the inputs as held and the result at the whole-array function. -/
theorem arrays_exit (c : Dev nD) : (pdats a4 a3 a5 0 c).arrays ((pdats a4 a3 a5 0 c).arrAt · (Pipeline.pin (pcfgs (F := F)) adm 0).N)
    = (iprop(((SparseCore.T c).loc main_v4 ↦{fullShare} a4) ∗ ((SparseCore.T c).loc main_v3 ↦{fullShare} a3)
        ∗ ((SparseCore.T c).loc main_v5 ↦{fullShare} nodeArr a4 a3)) : sProp 𝕄) := by
  rw [Pipeline.arrays_eq cfgs (pdats a4 a3 a5) 0 c launch1.arr_whole ((pdats a4 a3 a5 0 c).share_full fun _ => rfl), bigSep_W1,
    show (pdats a4 a3 a5 0 c).arrAt 0 (Pipeline.pin (pcfgs (F := F)) adm 0).N = a4 from arrAt_0 c a4 a3 a5,
    show (pdats a4 a3 a5 0 c).arrAt 1 (Pipeline.pin (pcfgs (F := F)) adm 0).N = a3 from arrAt_1 c a4 a3 a5,
    show (pdats a4 a3 a5 0 c).arrAt 2 (Pipeline.pin (pcfgs (F := F)) adm 0).N = nodeArr a4 a3 from arrAt_2 c a4 a3 a5]

/-- The pipeline's invariant is the scoped buffers no window stages, at every point. -/
theorem Φ_eq (c : Dev nD) (t : Fin ((Pipeline.pin (pcfgs (F := F)) adm 0).N + 1)) :
    (pdats a4 a3 a5 0 c).Φ t = (Pipeline.scopedRest (Pipeline.pin (pcfgs (F := F)) adm 0).spec c : sProp 𝕄) := rfl

set_option maxHeartbeats 1000000 in
set_option backward.isDefEq.respectTransparency.types false in
/-- The region over the entry and exit states: its arrays are the three buffers held, nothing else enters the
    pipeline's invariant, the kernel has no semaphore of its own, nothing is owed. -/
def reg : Pipeline.RegionSeg (pcfgs (F := F)) adm (pdats a4 a3 a5) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation c a4 a3 a5).loose
  hwaits := Pipeline.hwaits_of_owed_zero _ _ _ _ _ _ 0 fun _ _ => rfl
  pre c := regPre a4 a3 a5 c
  post c := regionPost c a4 a3
  X _ := iprop(emp)
  Y _ := iprop(emp)
  Z _ := iprop(emp)
  hentry c := by
    rw [Pipeline.ownSems0_none, arrays_entry a4 a3 a5 c]
    unfold regPre Pipeline.Dat.owesAt Pipeline.owesWithin
    rw [owesTC_eq, show (pdats a4 a3 a5 0 c).owed 0 = 0 from rfl]
    iintro ⟨⟨H4, H3, H5, ⟨%W, %hW, HO⟩⟩, -, -⟩
    imodintro
    isplitl [H4 H3 H5]
    · isplitl [H4]; · iexact H4
      isplitl [H3]; · iexact H3
      iexact H5
    isplitr; · unfold Pipeline.prefHeld; rw [show (Finset.univ : Finset (Fin 0)) = ∅ from rfl, BI.bigSep_empty]; iempintro
    isplitl [HO]
    · iexists W; isplitr
      · ipureintro; exact fun p hp => Or.inl (hW p hp)
      iexact HO
    isplitr; · iempintro
    iempintro
  hin c := by
    rw [Φ_eq a4 a3 a5 c]
    iintro ⟨-, -, Hr⟩; iexact Hr
  hout c := by
    rw [Pipeline.ownSems0_none, Φ_eq a4 a3 a5 c]
    iintro Hr
    isplitr; · iempintro
    isplitr; · iempintro
    iexact Hr
  hexit c := by
    rw [arrays_exit a4 a3 a5 c]
    unfold regionPost Pipeline.Dat.owesAt Pipeline.owesWithin
    rw [owesTC_eq, show (pdats a4 a3 a5 0 c).owed (Fin.last (Pipeline.pin (pcfgs (F := F)) adm 0).N) = 0 from rfl]
    iintro ⟨⟨H4, H3, H5⟩, ⟨%W, %hW, HO⟩, -, -⟩
    imodintro
    isplitl [H4]; · iexact H4
    isplitl [H3]; · iexact H3
    isplitl [H5]; · iexact H5
    iexists W; isplitr
    · ipureintro
      intro p hp
      rcases (hW (Finset.mem_coe.mpr hp) : p ∈ recB (F := F) c ∨ p ∈ Pipeline.Cfg.waitPairs cfg1 (none : HIx 1)) with h | ⟨w, s, rfl⟩
      · exact h
      · exact Nat.zero_le _
    iexact HO

theorem reg_pre (c : Dev nD) : (reg a4 a3 a5).pre c = regPre a4 a3 a5 c := rfl
theorem reg_post (c : Dev nD) : (reg a4 a3 a5).post c = regionPost c a4 a3 := rfl

end Region

set_option backward.isDefEq.respectTransparency.types false in
/-- The region's step on device `d`: from the boundary, the region's entry state, the level facts and the staging cells'
    ghost state, the call runs to the boundary and the exit state for the continuation. -/
theorem region_wp (d : Dev nD) (a4 : IVec S5x1x2000 32) (a3 : FVec F S32x128 .f32) {α : Type}
    (k : PUnit → Prog (TpuEff nD τ sig (Elt F) (ΛP (F := F)) .tc) α) (Q : α → sProp 𝕄) :
    iprop((iprop(boundary (SparseCore.T d) ∗ regionPost d a4 a3) -∗ wp frame (wpE (D (F := F)) 𝒱 (SparseCore.T d) none) Set.univ (k ⟨⟩) Q)
        ∗ boundary (SparseCore.T d) ∗ regionPre d a4 a3 ∗ levAts (K (F := F)).L (K (F := F)).lev ∗ GP d)
      ⊢ wp frame (wpE (D (F := F)) 𝒱 (SparseCore.T d) none) Set.univ (.op (.customCall (Pipeline.entry 0) ()) k) Q := by
  unfold regionPre GP
  iintro ⟨Hk, Hb, ⟨H4, H3, ⟨%f, H5⟩, HO⟩, Hlev, Hg, Ht⟩
  have hwp := Pipeline.RegionSeg.wp (pcfgs (F := F)) adm (pdats a4 a3 f) (none : HIx 1) cellOf_inj (EP (F := F)) defs₀ 𝒱₀ (K (F := F)).L (K (F := F)).lev
    (reg a4 a3 f) d none (fun _ h => nomatch h) k Q
  rw [reg_pre, reg_post] at hwp
  unfold regPre at hwp
  iapply hwp
  isplitl [Hk]; · iexact Hk
  isplitl [Hb]; · iexact Hb
  isplitl [H4 H3 H5 HO]
  · isplitl [H4]; · iexact H4
    isplitl [H3]; · iexact H3
    isplitl [H5]; · iexact H5
    iexact HO
  isplitl [Hlev]; · iexact Hlev
  isplitl [Hg]; · iexact Hg
  iexact Ht

end Cert.KernelIdeal.Hand

end
-- ==== Proof.Main.lean ====
/-
  @main on the TensorCore, the launch and the program's run: the SparseCore call that computes the edge lookup, the host
  operations that pad the node table and reshape the node indices, the TensorCore kernel region that computes the node
  lookup, and what the final memory then holds.
-/
import proofs.«205308_g19069654794752_retrytranche2_377_14_alg».proof.Proof.Deal
import proofs.«205308_g19069654794752_retrytranche2_377_14_alg».proof.Proof.Region

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within seq after wp_seq)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## What the host operations compute -/

/-- The node table written at row 0 of a 32-row zero array: the table block of the node-lookup kernel. -/
def a3Of (d : Dev nD) : FVec F S32x128 .f32 :=
  Host.scatter scatter_S32x128_S1_S21x128_01_n_0_0 (fun _ b => b)
    (broadcastInDim S32x128 ![] bcast_S_S32x128 (constant S_ .f32 0x00000000#32))
    (broadcastInDim S1 ![] bcast_S_S1 (constantI S_ 32 0#32)) (m ((SparseCore.T d).loc main_arg2))

/-- The node indices reshaped into five blocks of two thousand. -/
def a4Of (d : Dev nD) : IVec S5x1x2000 32 :=
  shapeCast S5x1x2000 (m ((SparseCore.T d).loc main_arg0)) shapeCasts_S10000_S5x1x2000

/-! ## The TensorCore's arrays -/

omit [FloatOps F] in
/-- The TensorCore's unscoped buffers are its twelve HBM arrays. -/
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
        ∗ ((SparseCore.T d).loc main_arg2 ↦{fullShare} W main_arg2) ∗ ((SparseCore.T d).loc main_arg3 ↦{fullShare} W main_arg3)
        ∗ ((SparseCore.T d).loc main_v0 ↦{fullShare} W main_v0) ∗ ((SparseCore.T d).loc main_cst ↦{fullShare} W main_cst)
        ∗ ((SparseCore.T d).loc main_v1 ↦{fullShare} W main_v1) ∗ ((SparseCore.T d).loc main_c ↦{fullShare} W main_c)
        ∗ ((SparseCore.T d).loc main_v2 ↦{fullShare} W main_v2) ∗ ((SparseCore.T d).loc main_v3 ↦{fullShare} W main_v3)
        ∗ ((SparseCore.T d).loc main_v4 ↦{fullShare} W main_v4) ∗ (SparseCore.T d).loc main_v5 ↦{fullShare} W main_v5) := by
  unfold unscopedBufs
  rw [show (Finset.univ.filter fun b : Ref sig .tc => ¬ b.isScoped)
      = {main_arg0, main_arg1, main_arg2, main_arg3, main_v0, main_cst, main_v1, main_c, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## @main's lines -/

/-- The six host operations between the SparseCore call and the TensorCore kernel, in order. -/
abbrev hostOps : List (HloOp τ sig (Elt F)) :=
  [StableHlo.nullary main_cst (constant S_ .f32 0x00000000#32),
   StableHlo.unary main_cst main_v1 (broadcastInDim S32x128 ![] bcast_S_S32x128 : (⟨S_, .f32⟩ : BufTy).Contents (Elt F) → (⟨S32x128, .f32⟩ : BufTy).Contents (Elt F)),
   StableHlo.nullary main_c (constantI S_ 32 0#32),
   StableHlo.unary main_c main_v2 (broadcastInDim S1 ![] bcast_S_S1 : (⟨S_, .i32⟩ : BufTy).Contents (Elt F) → (⟨S1, .i32⟩ : BufTy).Contents (Elt F)),
   StableHlo.ternary main_v1 main_v2 main_arg2 main_v3 ((fun x i u => Host.scatter scatter_S32x128_S1_S21x128_01_n_0_0 (fun _ b => b) x i u) : (⟨S32x128, .f32⟩ : BufTy).Contents (Elt F) → (⟨S1, .i32⟩ : BufTy).Contents (Elt F) → (⟨S21x128, .f32⟩ : BufTy).Contents (Elt F) → (⟨S32x128, .f32⟩ : BufTy).Contents (Elt F)),
   StableHlo.reshape main_arg0 main_v4 rfl shapeCasts_S10000_S5x1x2000]

/-- The TensorCore kernel's call, in the program's own signature. -/
abbrev regionCall : Prog (TpuEff nD τ sig (Elt F) (ΛP (F := F)) .tc) PUnit := .op (.customCall (Pipeline.entry 0) ()) fun _ => .ret ⟨⟩

/-- @main is the SparseCore call, the line of host operations, the TensorCore kernel's call. -/
theorem main_eq (d : Dev nD) :
    main (F := F) d = ((K (F := F)).run d 0 >>= fun _ => (seq hostOps >>= fun _ => SparseCore.liftProg (Q := 1) regionCall)) := rfl

/-! ## The TensorCore's twelve arrays held whole -/

abbrev rArg0 : DevRef τ sig := Proc.devRef .tc (main_arg0 : Ref sig .tc)
abbrev rArg1 : DevRef τ sig := Proc.devRef .tc (main_arg1 : Ref sig .tc)
abbrev rArg2 : DevRef τ sig := Proc.devRef .tc (main_arg2 : Ref sig .tc)
abbrev rArg3 : DevRef τ sig := Proc.devRef .tc (main_arg3 : Ref sig .tc)
abbrev rV0 : DevRef τ sig := Proc.devRef .tc (main_v0 : Ref sig .tc)
abbrev rCst : DevRef τ sig := Proc.devRef .tc (main_cst : Ref sig .tc)
abbrev rV1 : DevRef τ sig := Proc.devRef .tc (main_v1 : Ref sig .tc)
abbrev rC : DevRef τ sig := Proc.devRef .tc (main_c : Ref sig .tc)
abbrev rV2 : DevRef τ sig := Proc.devRef .tc (main_v2 : Ref sig .tc)
abbrev rV3 : DevRef τ sig := Proc.devRef .tc (main_v3 : Ref sig .tc)
abbrev rV4 : DevRef τ sig := Proc.devRef .tc (main_v4 : Ref sig .tc)
abbrev rV5 : DevRef τ sig := Proc.devRef .tc (main_v5 : Ref sig .tc)

/-- The TensorCore's arrays, all unscoped. -/
abbrev S12 : Finset (DevRef τ sig) := {rArg0, rArg1, rArg2, rArg3, rV0, rCst, rV1, rC, rV2, rV3, rV4, rV5}

omit [FloatOps F] in
theorem held_S12 (d : Dev nD) (W : Valuation τ sig (Elt F)) :
    (held (T d) S12 W : sProp 𝕄)
      = iprop(((SparseCore.T d).loc main_arg0 ↦{fullShare} W rArg0) ∗ ((SparseCore.T d).loc main_arg1 ↦{fullShare} W rArg1)
        ∗ ((SparseCore.T d).loc main_arg2 ↦{fullShare} W rArg2) ∗ ((SparseCore.T d).loc main_arg3 ↦{fullShare} W rArg3)
        ∗ ((SparseCore.T d).loc main_v0 ↦{fullShare} W rV0) ∗ ((SparseCore.T d).loc main_cst ↦{fullShare} W rCst)
        ∗ ((SparseCore.T d).loc main_v1 ↦{fullShare} W rV1) ∗ ((SparseCore.T d).loc main_c ↦{fullShare} W rC)
        ∗ ((SparseCore.T d).loc main_v2 ↦{fullShare} W rV2) ∗ ((SparseCore.T d).loc main_v3 ↦{fullShare} W rV3)
        ∗ ((SparseCore.T d).loc main_v4 ↦{fullShare} W rV4) ∗ (SparseCore.T d).loc main_v5 ↦{fullShare} W rV5) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation; after the SparseCore call, the edge result at the lookup. -/
def V0 (d : Dev nD) : Valuation τ sig (Elt F) := fun b => m (d, b)
def V1 (d : Dev nD) : Valuation τ sig (Elt F) := Function.update (V0 m d) rV0 (edgeOut m d)

theorem V1_v0 (d : Dev nD) : V1 m d rV0 = edgeOut m d := Function.update_self _ _ _
theorem V1_ne (d : Dev nD) {b : DevRef τ sig} (h : b ≠ rV0) : V1 m d b = m (d, b) := Function.update_of_ne h _ _

/-! ## What the line of host operations leaves -/

set_option maxRecDepth 8192 in
/-- The padded table's array holds the scatter of the node table into the zero array. -/
theorem after_v3 (W : Valuation τ sig (Elt F)) :
    after hostOps W rV3 = Host.scatter scatter_S32x128_S1_S21x128_01_n_0_0 (fun _ b => b)
      (broadcastInDim S32x128 ![] bcast_S_S32x128 (constant S_ .f32 0x00000000#32))
      (broadcastInDim S1 ![] bcast_S_S1 (constantI S_ 32 0#32)) (W rArg2) := by
  after_results_simp
  try rfl

set_option maxRecDepth 8192 in
/-- The index blocks' array holds the node indices reshaped. -/
theorem after_v4 (W : Valuation τ sig (Elt F)) :
    after hostOps W rV4 = shapeCast S5x1x2000 (W rArg0) shapeCasts_S10000_S5x1x2000 := by
  after_results_simp
  try rfl

set_option maxRecDepth 8192 in
theorem after_arg0 (W : Valuation τ sig (Elt F)) : after hostOps W rArg0 = W rArg0 := by
  after_results_simp
  try rfl
set_option maxRecDepth 8192 in
theorem after_arg1 (W : Valuation τ sig (Elt F)) : after hostOps W rArg1 = W rArg1 := by
  after_results_simp
  try rfl
set_option maxRecDepth 8192 in
theorem after_arg2 (W : Valuation τ sig (Elt F)) : after hostOps W rArg2 = W rArg2 := by
  after_results_simp
  try rfl
set_option maxRecDepth 8192 in
theorem after_arg3 (W : Valuation τ sig (Elt F)) : after hostOps W rArg3 = W rArg3 := by
  after_results_simp
  try rfl
set_option maxRecDepth 8192 in
theorem after_v0 (W : Valuation τ sig (Elt F)) : after hostOps W rV0 = W rV0 := by
  after_results_simp
  try rfl
set_option maxRecDepth 8192 in
theorem after_v5 (W : Valuation τ sig (Elt F)) : after hostOps W rV5 = W rV5 := by
  after_results_simp
  try rfl

/-! ## The arrays before and after the line -/

theorem held_V1 (d : Dev nD) :
    (held (T d) S12 (V1 m d) : sProp 𝕄)
      = iprop(((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ ((SparseCore.T d).loc main_arg3 ↦{fullShare} m ((SparseCore.T d).loc main_arg3))
        ∗ ((SparseCore.T d).loc main_v0 ↦{fullShare} edgeOut m d) ∗ ((SparseCore.T d).loc main_cst ↦{fullShare} m ((SparseCore.T d).loc main_cst))
        ∗ ((SparseCore.T d).loc main_v1 ↦{fullShare} m ((SparseCore.T d).loc main_v1)) ∗ ((SparseCore.T d).loc main_c ↦{fullShare} m ((SparseCore.T d).loc main_c))
        ∗ ((SparseCore.T d).loc main_v2 ↦{fullShare} m ((SparseCore.T d).loc main_v2)) ∗ ((SparseCore.T d).loc main_v3 ↦{fullShare} m ((SparseCore.T d).loc main_v3))
        ∗ ((SparseCore.T d).loc main_v4 ↦{fullShare} m ((SparseCore.T d).loc main_v4)) ∗ (SparseCore.T d).loc main_v5 ↦{fullShare} m ((SparseCore.T d).loc main_v5)) := by
  rw [held_S12, V1_v0, V1_ne m d (show rArg0 ≠ rV0 by decide), V1_ne m d (show rArg1 ≠ rV0 by decide), V1_ne m d (show rArg2 ≠ rV0 by decide),
    V1_ne m d (show rArg3 ≠ rV0 by decide), V1_ne m d (show rCst ≠ rV0 by decide), V1_ne m d (show rV1 ≠ rV0 by decide), V1_ne m d (show rC ≠ rV0 by decide),
    V1_ne m d (show rV2 ≠ rV0 by decide), V1_ne m d (show rV3 ≠ rV0 by decide), V1_ne m d (show rV4 ≠ rV0 by decide), V1_ne m d (show rV5 ≠ rV0 by decide)]
  try rfl

/-- After the line: the arguments and the edge result as they were, the padded table and the index blocks computed,
    the node result's array untouched. -/
theorem held_after (d : Dev nD) :
    (held (T d) S12 (after hostOps (V1 m d)) : sProp 𝕄)
      = iprop(((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ ((SparseCore.T d).loc main_arg3 ↦{fullShare} m ((SparseCore.T d).loc main_arg3))
        ∗ ((SparseCore.T d).loc main_v0 ↦{fullShare} edgeOut m d) ∗ ((SparseCore.T d).loc main_cst ↦{fullShare} after hostOps (V1 m d) rCst)
        ∗ ((SparseCore.T d).loc main_v1 ↦{fullShare} after hostOps (V1 m d) rV1) ∗ ((SparseCore.T d).loc main_c ↦{fullShare} after hostOps (V1 m d) rC)
        ∗ ((SparseCore.T d).loc main_v2 ↦{fullShare} after hostOps (V1 m d) rV2) ∗ ((SparseCore.T d).loc main_v3 ↦{fullShare} a3Of m d)
        ∗ ((SparseCore.T d).loc main_v4 ↦{fullShare} a4Of m d) ∗ (SparseCore.T d).loc main_v5 ↦{fullShare} m ((SparseCore.T d).loc main_v5)) := by
  rw [held_S12, after_arg0, after_arg1, after_arg2, after_arg3, after_v0, after_v3, after_v4, after_v5, V1_v0,
    V1_ne m d (show rArg0 ≠ rV0 by decide), V1_ne m d (show rArg1 ≠ rV0 by decide), V1_ne m d (show rArg2 ≠ rV0 by decide),
    V1_ne m d (show rArg3 ≠ rV0 by decide), V1_ne m d (show rV5 ≠ rV0 by decide)]
  try rfl

theorem hS12 : ∀ op ∈ (hostOps (F := F)), op.bufs ⊆ S12 := by
  intro op hop
  simp only [List.mem_cons, List.mem_nil_iff, or_false] at hop
  rcases hop with rfl | rfl | rfl | rfl | rfl | rfl
  · show ({rCst} : Finset (DevRef τ sig)) ⊆ S12; decide
  · show ({rCst, rV1} : Finset (DevRef τ sig)) ⊆ S12; decide
  · show ({rC} : Finset (DevRef τ sig)) ⊆ S12; decide
  · show ({rC, rV2} : Finset (DevRef τ sig)) ⊆ S12; decide
  · show ({rV1, rV2, rArg2, rV3} : Finset (DevRef τ sig)) ⊆ S12; decide
  · show ({rArg0, rV4} : Finset (DevRef τ sig)) ⊆ S12; decide

theorem hfresh : ∀ op ∈ (hostOps (F := F)), op.fresh = ∅ := by
  intro op hop
  simp only [List.mem_cons, List.mem_nil_iff, or_false] at hop
  rcases hop with rfl | rfl | rfl | rfl | rfl | rfl <;> rfl

/-! ## @main on the TensorCore -/

/-- What @main leaves the claim: the four arguments at their launch contents, the edge result the edge lookup, the node
    result the node kernel's array of the reshaped indices and the padded table. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v0 ↦{fullShare} edgeOut m d) ∗ (SparseCore.T d).loc main_v5 ↦{fullShare} nodeArr (a4Of m d) (a3Of m d))

set_option backward.isDefEq.respectTransparency.types false in
/-- @main on device `d`'s TensorCore: the SparseCore call from the edge indices, thirty-two read tokens of the edge
    table and the edge result; the six host operations over the twelve arrays held whole; the TensorCore kernel's region
    from the index blocks, the padded table and the node result's array. -/
theorem hmain (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, main_eq, wp_bind]
  iintro ⟨#Hctx, Hst, ⟨Hb, ⟨H0, H1, H2, H3, Hv0, Hcst, Hv1, Hc, Hv2, Hv3, Hv4, Hv5⟩, -, -⟩, HG⟩
  -- the SparseCore call: the edge table goes out as thirty-two read tokens, what they leave of it kept aside
  ihave Ht := (tTok_split m d).1 $$ H3
  icases Ht with ⟨Hdrop, Htoks⟩
  iapply ((K (F := F)).wp_run (D (F := F)) 𝒱 (EH := EH) (P := P m) κ d 0)
  isplitr; · iexact Hctx
  isplitl [Hst]; · iexact Hst
  isplitl [H1 Htoks Hv0]
  · rw [← st0_eq]
    isplitl [H1]; · iexact H1
    isplitl [Htoks]; · iexact Htoks
    iexact Hv0
  iintro ⟨Hst, Hdn⟩
  ihave Hdn' := (Entails.of_eq (dn0_eq m d)) $$ Hdn
  icases Hdn' with ⟨H1, Htoks, Hv0⟩
  ihave H3 := (tTok_split m d).2 $$ [Hdrop Htoks]
  · isplitl [Hdrop]; · iexact Hdrop
    iexact Htoks
  -- the line of host operations
  iapply (wp_seq 𝒱 none Set.univ d S12 _ hostOps hS12 hfresh (V1 m d)) $$ [Hb H0 H1 H2 H3 Hv0 Hcst Hv1 Hc Hv2 Hv3 Hv4 Hv5]
  · isplitl [Hb]; · iexact Hb
    rw [held_V1]
    isplitl [H0]; · iexact H0
    isplitl [H1]; · iexact H1
    isplitl [H2]; · iexact H2
    isplitl [H3]; · iexact H3
    isplitl [Hv0]; · iexact Hv0
    isplitl [Hcst]; · iexact Hcst
    isplitl [Hv1]; · iexact Hv1
    isplitl [Hc]; · iexact Hc
    isplitl [Hv2]; · iexact Hv2
    isplitl [Hv3]; · iexact Hv3
    isplitl [Hv4]; · iexact Hv4
    iexact Hv5
  iintro ⟨Hb, Hheld⟩
  ihave Hh := (Entails.of_eq (held_after m d)) $$ Hheld
  icases Hh with ⟨H0, H1, H2, H3, Hv0, -, -, -, -, Hv3, Hv4, Hv5⟩
  -- the TensorCore kernel's region
  unfold SparseCore.Cfg.tcSt
  icases Hst with ⟨Howes, Hrest⟩
  ihave Hlev := (SparseCore.Cfg.ctx_levAts κ) $$ Hctx
  iapply ((K (F := F)).wp_liftProg (D (F := F)) 𝒱 (SparseCore.T d) Set.univ none regionCall _)
  iapply (region_wp d (a4Of m d) (a3Of m d) (fun _ => .ret ⟨⟩) _)
  isplitl [H0 H1 H2 H3 Hv0 Hrest]
  · iintro ⟨Hb, Hpost⟩
    unfold regionPost
    icases Hpost with ⟨-, -, Hv5, Howes⟩
    rw [wp_ret]; imodintro
    isplitl [Howes Hrest]
    · isplitl [Howes]; · iexact Howes
      iexact Hrest
    isplitl [H0]; · iexact H0
    isplitl [H1]; · iexact H1
    isplitl [H2]; · iexact H2
    isplitl [H3]; · iexact H3
    isplitl [Hv0]; · iexact Hv0
    iexact Hv5
  isplitl [Hb]; · iexact Hb
  isplitl [Hv4 Hv3 Hv5 Howes]
  · unfold regionPre
    isplitl [Hv4]; · iexact Hv4
    isplitl [Hv3]; · iexact Hv3
    isplitl [Hv5]; · iexists _; iexact Hv5
    iexact Howes
  isplitl [Hlev]; · iexact Hlev
  iexact HG

/-! ## What the final memory holds -/

def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_v0) = edgeOut m d
    ∧ s'.mem.mem ((SparseCore.T d).loc main_v5) = nodeArr (a4Of m d) (a3Of m d)

theorem hfin (d : Dev nD) (s' : Phys nD τ sig (Elt F)) : iprop(FIN m d ∗ SI s') ⊢ (⌜fq m d s'⌝ : sProp 𝕄) := by
  iintro ⟨⟨H0, H1, H2, H3, Hv0, Hv5⟩, HSI⟩
  icombine HSI H0 gives %h0
  icombine HSI H1 gives %h1
  icombine HSI H2 gives %h2
  icombine HSI H3 gives %h3
  icombine HSI Hv0 gives %hv0
  icombine HSI Hv5 gives %hv5
  ipureintro
  exact ⟨funext fun i => h0 i (Finset.mem_univ i), funext fun i => h1 i (Finset.mem_univ i), funext fun i => h2 i (Finset.mem_univ i),
    funext fun i => h3 i (Finset.mem_univ i), funext fun i => hv0 i (Finset.mem_univ i), funext fun i => hv5 i (Finset.mem_univ i)⟩

/-- The claim's reading of the final memory: on every device the four arguments unchanged, the edge result the edge
    lookup, the node result the node kernel's array. -/
def QC : PUnit × MemSt nD τ sig (Elt F) → Prop := fun r => ∀ c : Dev nD,
  r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_v0) = edgeOut m c
    ∧ r.2.mem ((SparseCore.T c).loc main_v5) = nodeArr (a4Of m c) (a3Of m c)

/-! ## The launch element -/

/-- The launch element of the whole ghost state: the SparseCore part, then the staging cells' factor funds the
    TensorCore region's cells. -/
theorem hu₀ : iprop(ownU (u₀ (F := F) (uP (F := F))) ∗ (P (F := F) m).oxCred ∗ (K (F := F)).freeSems0)
    ⊢ |={Set.univ}=> iprop(BI.own (EH (initOf (K (F := F)).hsCells (K (F := F)).hsToks)) ∗ bigSep Finset.univ (GP (F := F))
        ∗ (bigSep Finset.univ fun thr : Thread nD τ => bigSep Finset.univ fun q : Fin 1 => (P m).x q thr) : sProp 𝕄) := by
  iintro H
  imod (hu₀_sc m (uP (F := F))) $$ H with ⟨HH, HP, Hx⟩
  imod (fundP (F := F)) $$ HP with HG
  imodintro
  isplitl [HH]; · iexact HH
  isplitl [HG]; · iexact HG
  iexact Hx

/-! ## The program's run -/

/-- Every weakly fair execution of the program from the launch memory ends, and in a memory the claim reads. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (GP (F := F)) (FIN m) (u₀ (F := F) (uP (F := F))) (hu₀ m) (hmain m ρ) (fq m) (hfin m) (QC m) (fun _ h => h)

end Cert.KernelIdeal.Hand

end
-- ==== Proof.PreRange.lean ====
/-
  The integer ranges the precondition states, read back. The precondition is a conjunction of four whole-array tests;
  the two on the index arrays say, entry by entry, 0 ≤ x and x ≤ N − 1 as signed 32-bit comparisons. A word that tests
  nonnegative has its top bit clear, so its signed and unsigned readings agree, and x ≤ N − 1 signed is then
  x.toNat ≤ N − 1. The two tests on the float tables are not needed here and are dropped.
-/
import proofs.«205308_g19069654794752_retrytranche2_377_14_alg».proof.Pre_input_domain
import proofs.«205308_g19069654794752_retrytranche2_377_14_alg».proof.Proof.Gen.Pre_input_domain
import Idealize.ShloMosaic.Lib.ReduceAll
import Idealize.ShloMosaic.Lib.ValueIdx

namespace Cert.PreRange

open Idealize.ShloMosaic

/-- The rank-0 shape has one index. -/
instance : Subsingleton Cert.Pre_input_domain.S_.Idx := ⟨fun a b => funext fun d => d.elim0⟩

/-- A 32-bit word between 0 and a small literal k in the signed order is at most k read unsigned. -/
theorem toNat_le_of_signed {x : BitVec 32} {k : Nat} (hk : k < 2 ^ 31)
    (h0 : (0#32 : BitVec 32).toInt ≤ x.toInt) (h1 : x.toInt ≤ (BitVec.ofNat 32 k).toInt) : x.toNat ≤ k := by
  have hz : (0#32 : BitVec 32).toInt = 0 := by decide
  have hkI : (BitVec.ofNat 32 k).toInt = (k : Int) := by
    rw [BitVec.toInt_eq_toNat_of_lt (by rw [BitVec.toNat_ofNat]; omega), BitVec.toNat_ofNat]; omega
  rw [hz] at h0; rw [hkI] at h1
  have hx := BitVec.toInt_eq_toNat_cond x
  split at hx <;> omega

theorem ranges {F : FTy → Type} [FloatOps F] (a0 : IVec Cert.Pre_input_domain.S10000 32) (a1 : IVec Cert.Pre_input_domain.S320000 32)
    (a2 : FVec F Cert.Pre_input_domain.S21x128 .f32) (a3 : FVec F Cert.Pre_input_domain.S4x128 .f32)
    (h : Cert.Pre_input_domain.fn (F := F) a0 a1 a2 a3 = fun _ => 1#1) :
    (∀ i, (a0 i).toNat ≤ 20) ∧ (∀ i, (a1 i).toNat ≤ 3) := by
  have h0 := congrFun h ValueIdx.ix0
  dsimp only [Cert.Pre_input_domain.fn, Cert.Pre_input_domain.fn_part1, andi] at h0
  obtain ⟨h15, h21⟩ := IntOp.andi_eq_one.1 h0
  obtain ⟨-, h14⟩ := IntOp.andi_eq_one.1 h15
  refine ⟨fun i => ?_, fun i => ?_⟩
  · have e := Host.reduce_andi_all _ _ _ _ _ h14 i
    obtain ⟨e0, e1⟩ := IntOp.andi_eq_one.1 e
    exact toNat_le_of_signed (by decide) (IntOp.cmpi_sge.1 e0) (IntOp.cmpi_sle.1 e1)
  · have e := Host.reduce_andi_all _ _ _ _ _ h21 i
    obtain ⟨e0, e1⟩ := IntOp.andi_eq_one.1 e
    exact toNat_le_of_signed (by decide) (IntOp.cmpi_sge.1 e0) (IntOp.cmpi_sle.1 e1)

end Cert.PreRange
-- ==== Proof.RefOps.lean ====
/-
  The reference program's two calls of the outlined lookup, as one straight line of host operations. Each call
  is twenty-three operations over its own buffers: the index array wrapped (a negative index has the table's height
  added), broadcast to a column, tested against [0, N − 1] row by row, the table gathered by rows at the wrapped
  indices, and the gathered rows kept where the test holds (elsewhere the quiet NaN). The program is that line, and
  so every execution terminates with every buffer at the fold of the operations' results over the launch contents.
-/
import proofs.«205308_g19069654794752_retrytranche2_377_14_alg».proof.Defs
import proofs.«205308_g19069654794752_retrytranche2_377_14_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The forty-six operations, in order: the first call's twenty-three, then the second's. -/
abbrev ops : List (HloOp τ sig (Elt F)) :=
  [ TRef.nullary main_call0.c (constantI S_ 32 0#32),
    TRef.unary main_call0.c main_call0.v0 (broadcastInDim S10000 ![] bcast_S_S10000),
    TRef.binary (.of main_arg0) main_call0.v0 main_call0.v1 (cmpi .slt),
    TRef.nullary main_call0.c_0 (constantI S_ 32 21#32),
    TRef.unary main_call0.c_0 main_call0.v2 (broadcastInDim S10000 ![] bcast_S_S10000),
    TRef.binary (.of main_arg0) main_call0.v2 main_call0.v3 addi,
    TRef.ternary main_call0.v1 main_call0.v3 (.of main_arg0) main_call0.call0.v0 select,
    TRef.unary main_call0.call0.v0 main_call0.v5 (broadcastInDim S10000x1 ![0] bcast_S10000_S10000x1_0),
    TRef.nullary main_call0.c_1 (constantI S1 32 20#32),
    TRef.nullary main_call0.c_2 (constantI S_ 32 0#32),
    TRef.unary main_call0.c_2 main_call0.v6 (broadcastInDim S10000x1 ![] bcast_S_S10000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S10000x1 ![0, 1] bcast_S1x1_S10000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S10000x1_S10000_d1 h_S_),
    TRef.binary (.of main_arg2) main_call0.v5 main_call0.v13 (fun x i => Host.gather gather_S21x128_S10000x1_S10000x128_1_0_n_n_0_1_1128 x i),
    TRef.unary main_call0.v12 main_call0.v14 (broadcastInDim S10000x128 ![0] bcast_S10000_S10000x128_0),
    TRef.nullary main_call0.cst (constant S_ .f32 0x7FC00000#32),
    TRef.unary main_call0.cst main_call0.v15 (broadcastInDim S10000x128 ![] bcast_S_S10000x128),
    TRef.ternary main_call0.v14 main_call0.v13 main_call0.v15 main_call0.v16 select,
    TRef.nullary main_call1.c (constantI S_ 32 0#32),
    TRef.unary main_call1.c main_call1.v0 (broadcastInDim S320000 ![] bcast_S_S320000),
    TRef.binary (.of main_arg1) main_call1.v0 main_call1.v1 (cmpi .slt),
    TRef.nullary main_call1.c_0 (constantI S_ 32 4#32),
    TRef.unary main_call1.c_0 main_call1.v2 (broadcastInDim S320000 ![] bcast_S_S320000),
    TRef.binary (.of main_arg1) main_call1.v2 main_call1.v3 addi,
    TRef.ternary main_call1.v1 main_call1.v3 (.of main_arg1) main_call1.call0.v0 select,
    TRef.unary main_call1.call0.v0 main_call1.v5 (broadcastInDim S320000x1 ![0] bcast_S320000_S320000x1_0),
    TRef.nullary main_call1.c_1 (constantI S1 32 3#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg3) main_call1.v5 main_call1.v13 (fun x i => Host.gather gather_S4x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select ]

-- forty-six binds re-associated
set_option maxRecDepth 4096 in
/-- The program is that straight line: the outlined functions unfolded at their calls. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..⟩

/-- From any memory with zero counters every weakly fair execution terminates, each buffer at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefValue.lean ====
/-
  The outlined lookup, read at an index. With every index word between 0 and N − 1 (read unsigned: the precondition's
  range) the wrap keeps the word, the range test is 1 in every row, the gather's clamp keeps the row, and the outer select
  keeps the gathered entry: entry (r, l) of the result is the table's row idx r, column l.
-/
import Idealize.ShloMosaic.PureOps.Ideal
import Idealize.ShloMosaic.Lib.ValueIdx
import Idealize.ShloMosaic.Lib.ReduceAll

noncomputable section

namespace Cert.RefTake

open Idealize.ShloMosaic Idealize.ShloMosaic.ValueIdx

/-! ## Words -/

/-- A word at most a small k read unsigned reads the same signed. -/
theorem toInt_of_toNat_le {x : BitVec 32} {k : Nat} (hk : k < 2 ^ 31) (h : x.toNat ≤ k) : x.toInt = (x.toNat : Int) :=
  BitVec.toInt_eq_toNat_of_lt (by omega)

theorem toInt_ofNat_small {k : Nat} (hk : k < 2 ^ 31) : (BitVec.ofNat 32 k).toInt = (k : Int) := by
  rw [BitVec.toInt_eq_toNat_of_lt (by rw [BitVec.toNat_ofNat]; omega), BitVec.toNat_ofNat]; omega

/-- Such a word is not negative: the wrap's test fails. -/
theorem slt_zero_of_le {x : BitVec 32} {k : Nat} (hk : k < 2 ^ 31) (h : x.toNat ≤ k) : IntOp.cmpi .slt x 0#32 = 0#1 := by
  apply eq_zero_of_ne_one
  rw [IntOp.cmpi_slt, toInt_of_toNat_le hk h, show (0#32 : BitVec 32).toInt = 0 from by decide]
  omega

/-- Such a word passes the test 0 ≤ x ∧ x ≤ k. -/
theorem inrange_of_le {x : BitVec 32} {k : Nat} (hk : k < 2 ^ 31) (h : x.toNat ≤ k) :
    IntOp.andi (IntOp.cmpi .sge x 0#32) (IntOp.cmpi .sle x (BitVec.ofNat 32 k)) = 1#1 := by
  rw [IntOp.andi_eq_one, IntOp.cmpi_sge, IntOp.cmpi_sle, toInt_of_toNat_le hk h, toInt_ofNat_small hk,
    show (0#32 : BitVec 32).toInt = 0 from by decide]
  omega

/-- The gather's clamp keeps such a word. -/
theorem clamp_of_le {x : BitVec 32} {k : Nat} (hk : k < 2 ^ 31) (h : x.toNat ≤ k) : min x.toInt.toNat k = x.toNat := by
  rw [toInt_of_toNat_le hk h, Int.toNat_natCast]; omega

/-! ## A reduce by and over all ones -/

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduce by and of an array of ones from the initial value one is one everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-! ## The gather by rows, read at an index -/

section Rows
variable {α : Type}

/-- The dimension numbers of a gather of whole rows: operand [N, C], start indices [R, 1], result [R, C]. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (r, l) of the gather is the operand's row idx[r, 0] — read signed and clamped into [0, N − 1] —, column l. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (l : Fin C) :
    Host.gather (rowDims N R C wf) x idx (ix2 r l)
      = x (ix2 (⟨min (idx (ix2 r (0 : Fin 1))).toInt.toNat (N - 1), by omega⟩ : Fin N) l) := by
  unfold Host.gather
  have h0 : ((rowDims N R C wf).operandIdx (ix2 r l) idx (0 : Fin 2)).val = min (idx (ix2 r (0 : Fin 1))).toInt.toNat (N - 1) := by
    show (rowDims N R C wf).start (ix2 r l) idx 0 + (rowDims N R C wf).batchCoord (ix2 r l) 0
      + (rowDims N R C wf).offCoord (ix2 r l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r l) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : ((rowDims N R C wf).operandIdx (ix2 r l) idx (1 : Fin 2)).val = l.val := by
    show (rowDims N R C wf).start (ix2 r l) idx 1 + (rowDims N R C wf).batchCoord (ix2 r l) 1
      + (rowDims N R C wf).offCoord (ix2 r l) 1 = _
    rw [GatherDims.batchCoord_eq_zero _ _ _ List.not_mem_nil, Nat.add_zero]
    have hs : (rowDims N R C wf).start (ix2 r l) idx (1 : Fin 2) = 0 := by
      unfold GatherDims.start
      rw [dif_neg (fun h => absurd (List.mem_singleton.mp h) (show ¬(1 : Fin 2) = 0 from by decide))]
    have hk : (1 : Fin 2) ∈ (rowDims N R C wf).sKept :=
      (GatherDims.mem_sKept _ _).mpr ⟨fun h => absurd (List.mem_singleton.mp h) (show ¬(1 : Fin 2) = 0 from by decide), List.not_mem_nil⟩
    rw [hs, Nat.zero_add]
    unfold GatherDims.offCoord
    rw [dif_pos hk]
    rfl
  congr 1
  funext a
  refine Fin.ext ?_
  match a with
  | ⟨0, _⟩ => exact h0
  | ⟨1, _⟩ => exact h1

end Rows

/-! ## A broadcast of a vector to a column, and the whole lookup -/

section Take
variable {F : FTy → Type} [FloatOps F] {N R : Nat}

/-- A vector broadcast to a one-column matrix reads the vector at the row. -/
theorem bcast_col_apply {α : Type} (b2 : (⟨1, ![R]⟩ : Shape).BroadcastsInDim ⟨2, ![R, 1]⟩ ![0])
    (v : (⟨1, ![R]⟩ : Shape).Idx → α) (r : Fin R) (c : Fin 1) :
    broadcastInDim ⟨2, ![R, 1]⟩ ![0] b2 v (ix2 r c) = v (ix1 r) := by
  unfold broadcastInDim
  refine congrArg v (funext fun a => Fin.ext ?_)
  match a with
  | ⟨0, _⟩ =>
    split
    · rename_i h1
      have hR : R = 1 := h1
      have := r.isLt
      show 0 = r.val
      omega
    · rfl

/-- The index array wrapped: a negative index has the table's height added. -/
def wrap (n : BitVec 32) (b1 : (⟨0, ![]⟩ : Shape).BroadcastsInDim ⟨1, ![R]⟩ ![]) (idx : IVec ⟨1, ![R]⟩ 32) : IVec ⟨1, ![R]⟩ 32 :=
  select (cmpi .slt idx (broadcastInDim ⟨1, ![R]⟩ ![] b1 (constantI ⟨0, ![]⟩ 32 0#32)))
    (addi idx (broadcastInDim ⟨1, ![R]⟩ ![] b1 (constantI ⟨0, ![]⟩ 32 n))) idx

/-- The range test of the wrapped indices, as a column. -/
def inr (kw : BitVec 32) (b3 : (⟨0, ![]⟩ : Shape).BroadcastsInDim ⟨2, ![R, 1]⟩ ![])
    (b4 : (⟨1, ![1]⟩ : Shape).BroadcastsInDim ⟨2, ![1, 1]⟩ ![1]) (b5 : (⟨2, ![1, 1]⟩ : Shape).BroadcastsInDim ⟨2, ![R, 1]⟩ ![0, 1])
    (v5 : IVec ⟨2, ![R, 1]⟩ 32) : IVec ⟨2, ![R, 1]⟩ 1 :=
  andi (cmpi .sge v5 (broadcastInDim ⟨2, ![R, 1]⟩ ![] b3 (constantI ⟨0, ![]⟩ 32 0#32)))
    (cmpi .sle v5 (broadcastInDim ⟨2, ![R, 1]⟩ ![0, 1] b5 (broadcastInDim ⟨2, ![1, 1]⟩ ![1] b4 (constantI ⟨1, ![1]⟩ 32 kw))))

/-- The outlined lookup as one term of the table and the index array: its twenty-three operations composed. -/
def take (n kw : BitVec 32) (b1 : (⟨0, ![]⟩ : Shape).BroadcastsInDim ⟨1, ![R]⟩ ![])
    (b2 : (⟨1, ![R]⟩ : Shape).BroadcastsInDim ⟨2, ![R, 1]⟩ ![0]) (b3 : (⟨0, ![]⟩ : Shape).BroadcastsInDim ⟨2, ![R, 1]⟩ ![])
    (b4 : (⟨1, ![1]⟩ : Shape).BroadcastsInDim ⟨2, ![1, 1]⟩ ![1]) (b5 : (⟨2, ![1, 1]⟩ : Shape).BroadcastsInDim ⟨2, ![R, 1]⟩ ![0, 1])
    (rd : (⟨2, ![R, 1]⟩ : Shape).ReducesTo [1] ⟨1, ![R]⟩) (hS : 0 < (⟨0, ![]⟩ : Shape).numel)
    (b6 : (⟨1, ![R]⟩ : Shape).BroadcastsInDim ⟨2, ![R, 128]⟩ ![0]) (b7 : (⟨0, ![]⟩ : Shape).BroadcastsInDim ⟨2, ![R, 128]⟩ ![])
    (G : GatherDims ⟨2, ![N, 128]⟩ ⟨2, ![R, 1]⟩ ⟨2, ![R, 128]⟩)
    (tab : FVec F ⟨2, ![N, 128]⟩ .f32) (idx : IVec ⟨1, ![R]⟩ 32) : FVec F ⟨2, ![R, 128]⟩ .f32 :=
  select
    (broadcastInDim ⟨2, ![R, 128]⟩ ![0] b6
      (Host.reduce IntOp.andi (inr kw b3 b4 b5 (broadcastInDim ⟨2, ![R, 1]⟩ ![0] b2 (wrap n b1 idx))) (constantI ⟨0, ![]⟩ 1 1#1) rd hS))
    (Host.gather G tab (broadcastInDim ⟨2, ![R, 1]⟩ ![0] b2 (wrap n b1 idx)))
    (broadcastInDim ⟨2, ![R, 128]⟩ ![] b7 (constant ⟨0, ![]⟩ .f32 0x7FC00000#32))

/-- With every index word at most k = N − 1 read unsigned, entry (r, l) of the lookup is the table's row idx r, column l. -/
theorem take_apply (k : Nat) (hk : k < 2 ^ 31) (hN : k + 1 = N) (n : BitVec 32)
    (b1 : (⟨0, ![]⟩ : Shape).BroadcastsInDim ⟨1, ![R]⟩ ![])
    (b2 : (⟨1, ![R]⟩ : Shape).BroadcastsInDim ⟨2, ![R, 1]⟩ ![0]) (b3 : (⟨0, ![]⟩ : Shape).BroadcastsInDim ⟨2, ![R, 1]⟩ ![])
    (b4 : (⟨1, ![1]⟩ : Shape).BroadcastsInDim ⟨2, ![1, 1]⟩ ![1]) (b5 : (⟨2, ![1, 1]⟩ : Shape).BroadcastsInDim ⟨2, ![R, 1]⟩ ![0, 1])
    (rd : (⟨2, ![R, 1]⟩ : Shape).ReducesTo [1] ⟨1, ![R]⟩) (hS : 0 < (⟨0, ![]⟩ : Shape).numel)
    (b6 : (⟨1, ![R]⟩ : Shape).BroadcastsInDim ⟨2, ![R, 128]⟩ ![0]) (b7 : (⟨0, ![]⟩ : Shape).BroadcastsInDim ⟨2, ![R, 128]⟩ ![])
    (wf : GatherDims.WF ⟨2, ![N, 128]⟩ ⟨2, ![R, 1]⟩ ⟨2, ![R, 128]⟩ [1] [0] [] [0] [] 1 ![1, 128])
    (tab : FVec F ⟨2, ![N, 128]⟩ .f32) (idx : IVec ⟨1, ![R]⟩ 32) (hidx : ∀ i, (idx i).toNat ≤ k) (r : Fin R) (l : Fin 128) :
    take n (BitVec.ofNat 32 k) b1 b2 b3 b4 b5 rd hS b6 b7 (rowDims N R 128 wf) tab idx (ix2 r l)
      = tab (ix2 (⟨(idx (ix1 r)).toNat, by have := hidx (ix1 r); omega⟩ : Fin N) l) := by
  -- the wrap keeps every word
  have hw : ∀ i, wrap n b1 idx i = idx i := fun i => by
    show Scalar.select (IntOp.cmpi .slt (idx i) 0#32) (IntOp.addi (idx i) n) (idx i) = idx i
    rw [slt_zero_of_le hk (hidx i), select_zero]
  -- so every row passes the range test
  have hr : ∀ i, inr (BitVec.ofNat 32 k) b3 b4 b5 (broadcastInDim ⟨2, ![R, 1]⟩ ![0] b2 (wrap n b1 idx)) i = 1#1 := fun i => by
    show IntOp.andi (IntOp.cmpi .sge (wrap n b1 idx _) 0#32) (IntOp.cmpi .sle (wrap n b1 idx _) (BitVec.ofNat 32 k)) = 1#1
    rw [hw]
    exact inrange_of_le hk (hidx _)
  have h14 : broadcastInDim ⟨2, ![R, 128]⟩ ![0] b6
      (Host.reduce IntOp.andi (inr (BitVec.ofNat 32 k) b3 b4 b5 (broadcastInDim ⟨2, ![R, 1]⟩ ![0] b2 (wrap n b1 idx)))
        (constantI ⟨0, ![]⟩ 1 1#1) rd hS) (ix2 r l) = 1#1 :=
    reduce_andi_of_all _ _ rd hS hr (fun _ => rfl) _
  show Scalar.select (broadcastInDim ⟨2, ![R, 128]⟩ ![0] b6
      (Host.reduce IntOp.andi (inr (BitVec.ofNat 32 k) b3 b4 b5 (broadcastInDim ⟨2, ![R, 1]⟩ ![0] b2 (wrap n b1 idx)))
        (constantI ⟨0, ![]⟩ 1 1#1) rd hS) (ix2 r l))
      (Host.gather (rowDims N R 128 wf) tab (broadcastInDim ⟨2, ![R, 1]⟩ ![0] b2 (wrap n b1 idx)) (ix2 r l)) _ = _
  rw [h14, select_one, gather_rows_apply (by omega) wf]
  refine congrArg tab (congrArg (fun q => ix2 q l) (Fin.ext ?_))
  show min (broadcastInDim ⟨2, ![R, 1]⟩ ![0] b2 (wrap n b1 idx) (ix2 r (0 : Fin 1))).toInt.toNat (N - 1) = (idx (ix1 r)).toNat
  rw [bcast_col_apply, hw, show N - 1 = k from by omega]
  exact clamp_of_le hk (hidx _)

end Take

end Cert.RefTake

end
-- ==== Proof.RefRun.lean ====
/-
  The reference program's run and value. Its straight line of forty-six host operations leaves, in each call's result
  buffer, the outlined lookup's composed term of the table and the index array; under the precondition's ranges that term
  is the table's row idx r at entry (r, l) — the specification's lookup, whose reduction modulo the height is then the
  identity. The four argument buffers are written by no operation.
-/
import proofs.«205308_g19069654794752_retrytranche2_377_14_alg».proof.Defs
import proofs.«205308_g19069654794752_retrytranche2_377_14_alg».proof.Proof.Gen.ReferenceIdeal
import proofs.«205308_g19069654794752_retrytranche2_377_14_alg».proof.Proof.Gen.Pre_input_domain
import proofs.«205308_g19069654794752_retrytranche2_377_14_alg».proof.Proof.Spec
import proofs.«205308_g19069654794752_retrytranche2_377_14_alg».proof.Proof.PreRange
import proofs.«205308_g19069654794752_retrytranche2_377_14_alg».proof.Proof.RefOps
import proofs.«205308_g19069654794752_retrytranche2_377_14_alg».proof.Proof.RefValue

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## What the line leaves in each buffer -/

attribute [local irreducible] Host.reduce Host.gather in
set_option maxRecDepth 8192 in
set_option maxHeartbeats 1000000 in
/-- The first call's result buffer holds the lookup's composed term of the node table and the node indices. -/
theorem v0_eq (V : Valuation τ sig (Elt F)) :
    after ops V (main_v0 : DevRef τ sig)
      = Cert.RefTake.take 21#32 (BitVec.ofNat 32 20) Gen.bcast_S_S10000 Gen.bcast_S10000_S10000x1_0 Gen.bcast_S_S10000x1 Gen.bcast_S1_S1x1_1 Gen.bcast_S1x1_S10000x1_0_1 Gen.reducesTo_S10000x1_S10000_d1 Gen.h_S_ Gen.bcast_S10000_S10000x128_0 Gen.bcast_S_S10000x128
          (Cert.RefTake.rowDims 21 10000 128 Gen.gather_S21x128_S10000x1_S10000x128_1_0_n_n_0_1_1128_wf) (V (main_arg2 : DevRef τ sig)) (V (main_arg0 : DevRef τ sig)) := by
  after_results_simp
  rfl

attribute [local irreducible] Host.reduce Host.gather in
set_option maxRecDepth 8192 in
set_option maxHeartbeats 1000000 in
/-- The second call's result buffer holds the lookup's composed term of the edge table and the edge indices. -/
theorem v1_eq (V : Valuation τ sig (Elt F)) :
    after ops V (main_v1 : DevRef τ sig)
      = Cert.RefTake.take 4#32 (BitVec.ofNat 32 3) Gen.bcast_S_S320000 Gen.bcast_S320000_S320000x1_0 Gen.bcast_S_S320000x1 Gen.bcast_S1_S1x1_1 Gen.bcast_S1x1_S320000x1_0_1 Gen.reducesTo_S320000x1_S320000_d1 Gen.h_S_ Gen.bcast_S320000_S320000x128_0 Gen.bcast_S_S320000x128
          (Cert.RefTake.rowDims 4 320000 128 Gen.gather_S4x128_S320000x1_S320000x128_1_0_n_n_0_1_1128_wf) (V (main_arg3 : DevRef τ sig)) (V (main_arg1 : DevRef τ sig)) := by
  after_results_simp
  rfl

set_option maxRecDepth 8192 in
theorem arg0_eq (V : Valuation τ sig (Elt F)) : after ops V (main_arg0 : DevRef τ sig) = V (main_arg0 : DevRef τ sig) := by
  simp only [after_cons, after_nil]
  rfl
set_option maxRecDepth 8192 in
theorem arg1_eq (V : Valuation τ sig (Elt F)) : after ops V (main_arg1 : DevRef τ sig) = V (main_arg1 : DevRef τ sig) := by
  simp only [after_cons, after_nil]
  rfl
set_option maxRecDepth 8192 in
theorem arg2_eq (V : Valuation τ sig (Elt F)) : after ops V (main_arg2 : DevRef τ sig) = V (main_arg2 : DevRef τ sig) := by
  simp only [after_cons, after_nil]
  rfl
set_option maxRecDepth 8192 in
theorem arg3_eq (V : Valuation τ sig (Elt F)) : after ops V (main_arg3 : DevRef τ sig) = V (main_arg3 : DevRef τ sig) := by
  simp only [after_cons, after_nil]
  rfl

/-! ## The value under the precondition's ranges -/

/-- With every node index at most 20 the first result is the node embedding. -/
theorem v0_value (V : Valuation τ sig (Elt F)) (h : ∀ i, ((V (main_arg0 : DevRef τ sig)) i).toNat ≤ 20) :
    after ops V (main_v0 : DevRef τ sig) = Cert.Spec.nodeEmb (V (main_arg2 : DevRef τ sig)) (V (main_arg0 : DevRef τ sig)) := by
  rw [v0_eq]
  funext j
  obtain ⟨r, l, rfl⟩ : ∃ (r : Fin 10000) (l : Fin 128), j = ix2 r l := ⟨j 0, j 1, eq_ix2 j⟩
  refine (Cert.RefTake.take_apply (N := 21) 20 (by decide) rfl 21#32 Gen.bcast_S_S10000 Gen.bcast_S10000_S10000x1_0 Gen.bcast_S_S10000x1 Gen.bcast_S1_S1x1_1 Gen.bcast_S1x1_S10000x1_0_1 Gen.reducesTo_S10000x1_S10000_d1 Gen.h_S_ Gen.bcast_S10000_S10000x128_0 Gen.bcast_S_S10000x128 Gen.gather_S21x128_S10000x1_S10000x128_1_0_n_n_0_1_1128_wf _ _ h r l).trans ?_
  rw [Cert.Spec.nodeEmb_apply]
  exact congrArg _ (congrArg (fun q => ix2 q l) (Fin.ext (Cert.Spec.row21_val_of_le (h _)).symm))

/-- With every edge index at most 3 the second result is the edge embedding. -/
theorem v1_value (V : Valuation τ sig (Elt F)) (h : ∀ i, ((V (main_arg1 : DevRef τ sig)) i).toNat ≤ 3) :
    after ops V (main_v1 : DevRef τ sig) = Cert.Spec.edgeEmb (V (main_arg3 : DevRef τ sig)) (V (main_arg1 : DevRef τ sig)) := by
  rw [v1_eq]
  funext j
  obtain ⟨r, l, rfl⟩ : ∃ (r : Fin 320000) (l : Fin 128), j = ix2 r l := ⟨j 0, j 1, eq_ix2 j⟩
  refine (Cert.RefTake.take_apply (N := 4) 3 (by decide) rfl 4#32 Gen.bcast_S_S320000 Gen.bcast_S320000_S320000x1_0 Gen.bcast_S_S320000x1 Gen.bcast_S1_S1x1_1 Gen.bcast_S1x1_S320000x1_0_1 Gen.reducesTo_S320000x1_S320000_d1 Gen.h_S_ Gen.bcast_S320000_S320000x128_0 Gen.bcast_S_S320000x128 Gen.gather_S4x128_S320000x1_S320000x128_1_0_n_n_0_1_1128_wf _ _ h r l).trans ?_
  rw [Cert.Spec.edgeEmb_apply]
  exact congrArg _ (congrArg (fun q => ix2 q l) (Fin.ext (Cert.Spec.row4_val_of_le (h _)).symm))

/-! ## The run -/

/-- Under the precondition every execution of the reference terminates, its two results the specification's lookups
    of the launch contents, its arguments unchanged. -/
theorem run (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v0) = Cert.Spec.nodeEmb (F := Ideal) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_v1) = Cert.Spec.edgeEmb (F := Ideal) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono (fun _ h c => by
      have hr := Cert.PreRange.ranges (F := Ideal) _ _ _ _ (hpre c)
      exact ⟨(h c main_v0).trans (v0_value _ hr.1), (h c main_v1).trans (v1_value _ hr.2),
        (h c main_arg0).trans (arg0_eq _), (h c main_arg1).trans (arg1_eq _),
        (h c main_arg2).trans (arg2_eq _), (h c main_arg3).trans (arg3_eq _)⟩)
    (run_main (F := Ideal) m g)

/-- The run with the values dropped: the reference terminates and leaves its arguments unchanged. -/
theorem frame : Cert.frame_ReferenceIdeal (hReferenceIdeal := Cert.ReferenceIdeal.Gen.facts) (hPre_input_domain := Cert.Pre_input_domain.Gen.facts) :=
  fun m g hpre => (θ_run Cert.ReferenceIdeal.defs _ _).mono (fun _ h c => (h c).2.2) (run m g hpre)

end Cert.ReferenceIdeal.RefValue

end
-- ==== Proof.NodeValue.lean ====
/-
  The value of the node-lookup block at one entry. The block accumulates, over the 21 rows v of the (padded) table,
  the row v broadcast down the block where the index equals v and zero elsewhere; on the extended reals zero is
  neutral for addition, also at the infinities, so at an entry whose index names a row v ≤ 20 the sum is that row's
  entry. First the layout operations the block uses, read at an index given by coordinates; then one accumulation
  step; then the 21 steps; then the sum.
-/
import proofs.«205308_g19069654794752_retrytranche2_377_14_alg».proof.Proof.NodeBlock
import proofs.«205308_g19069654794752_retrytranche2_377_14_alg».proof.Proof.Spec
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.NodeVal

open Idealize.ShloMosaic Idealize.ShloMosaic.ValueIdx Cert.KernelIdeal Cert.KernelIdeal.Gen

/-! ## Layout operations at an index -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `o` of an `[n, b]` array, cut out as `[1, b]`, flattened to `[b]`, put back to `[1, b]` and broadcast down
    `a` rows, reads at `(p, c)` the array's entry `(o, c)`. -/
theorem rowBroadcast_apply {n a b : ℕ} (o : ℕ) (X : (⟨2, ![n, b]⟩ : Shape).Idx → α)
    (hs : (⟨2, ![n, b]⟩ : Shape).Slices ![o, 0] ⟨2, ![1, b]⟩)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ (shapeCast ⟨2, ![1, b]⟩ (shapeCast ⟨1, ![b]⟩
      (extractStridedSlice ⟨2, ![1, b]⟩ ![o, 0] X hs) h1) h2) h3) hb (ix2 p c) = X (ix2 (⟨o, hs.2 0⟩ : Fin n) c) := by
  rw [broadcastTo_1b_ab_apply, shapeCast_self, shapeCast_a_1a_apply, shapeCast_1a_a_apply]
  exact slice2_axis0_apply o X hs (0 : Fin 1) c ⟨o, hs.2 0⟩ rfl

end Layout

/-! ## The index block broadcast along the lanes -/

/-- The index block `[1, 1, 2000]`, flattened, made a column and broadcast along the 128 lanes, reads at `(r, l)`
    the index of row `r`. -/
theorem pay3_apply {F : FTy → Type} (v0 : Vec F S1x1x2000 .i32) (r : Fin 2000) (l : Fin 128) :
    k1_pay3 (F := F) v0 (ix2 r l) = v0 (ix3 (0 : Fin 1) (0 : Fin 1) r) := by
  unfold k1_pay3
  show broadcastTo S2000x128 (shapeCast S2000x1 (shapeCast S2000x1 (shapeCast S2000 v0 _) _) _) _ (ix2 r l) = _
  rw [broadcastTo_a1_ab_apply, shapeCast_self, shapeCast_a_a1_apply, shapeCast_11a_a_apply]

/-- The table block cast to its own shape is itself. -/
theorem pay2_eq {F : FTy → Type} (v2 : Vec F S32x128 .f32) : k1_pay2 (F := F) v2 = v2 := by
  unfold k1_pay2
  exact shapeCast_self v2 _

/-! ## One accumulation step -/

/-- A select on the comparison "equal" of two words is the `if` on their equality. -/
theorem select_cmpi_eq {α : Type} (x k : BitVec 32) (A B : α) :
    Scalar.select (IntOp.cmpi .eq x k) A B = if x = k then A else B := by
  unfold Scalar.select IntOp.cmpi
  by_cases h : x = k
  · have hb : (x == k) = true := by simpa using h
    simp [hb, h]
  · have hb : (x == k) = false := by simpa using h
    simp [hb, h]

/-- One accumulation step at an index: the accumulator plus the row's entry where the index word equals `k`,
    plus the filler elsewhere. -/
theorem step_apply (acc row : FVec Ideal S2000x128 .f32) (v6 : IVec S2000x128 32) (k : BitVec 32) (z : Ideal .f32)
    (i : S2000x128.Idx) :
    addf acc (select (cmpi .eq v6 (broadcast S2000x128 k)) row (broadcast S2000x128 z)) i
      = acc i + (if v6 i = k then row i else z) := by
  rw [addf_apply, select_apply, broadcast_apply]
  show _ + Scalar.select (IntOp.cmpi .eq (v6 i) k) _ _ = _
  rw [select_cmpi_eq]

/-! ## The payloads at an index -/

/-- What table row `v` adds at lane `l` when the index word is `w`: the row's entry if `w` names `v`, else zero. -/
def term (tab : FVec Ideal S32x128 .f32) (w : BitVec 32) (l : Fin 128) (v : ℕ) (hv : v < 32) : EReal :=
  if w = BitVec.ofNat 32 v then tab (ix2 (⟨v, hv⟩ : Fin 32) l) else 0

/-- The zero word is the extended real zero. -/
theorem zero_eq : (Scalar.ofBits .f32 0x00000000#32 : Ideal .f32) = (0 : EReal) := Ideal.ofBits_zero_f32

section Rows
variable {F : FTy → Type} [FloatOps F]

theorem pay5_apply (v2 : Vec F S32x128 .f32) (r : Fin 2000) (l : Fin 128) :
    k1_pay5 (F := F) v2 (ix2 r l) = v2 (ix2 (⟨3, by decide⟩ : Fin 32) l) := by
  unfold k1_pay5
  simp only [pay2_eq]
  rw [rowBroadcast_apply 3]

theorem pay8_apply (v3 : FVec F S32x128 .f32) (r : Fin 2000) (l : Fin 128) :
    k1_pay8 (F := F) v3 (ix2 r l) = v3 (ix2 (⟨8, by decide⟩ : Fin 32) l) := by
  unfold k1_pay8
  rw [rowBroadcast_apply 8]

theorem pay11_apply (v3 : FVec F S32x128 .f32) (r : Fin 2000) (l : Fin 128) :
    k1_pay11 (F := F) v3 (ix2 r l) = v3 (ix2 (⟨13, by decide⟩ : Fin 32) l) := by
  unfold k1_pay11
  rw [rowBroadcast_apply 13]

theorem pay14_apply (v3 : FVec F S32x128 .f32) (r : Fin 2000) (l : Fin 128) :
    k1_pay14 (F := F) v3 (ix2 r l) = v3 (ix2 (⟨18, by decide⟩ : Fin 32) l) := by
  unfold k1_pay14
  rw [rowBroadcast_apply 18]

theorem pay6_apply (v0 : Vec F S1x1x2000 .i32) (r : Fin 2000) (l : Fin 128) :
    k1_pay6 (F := F) v0 (ix2 r l) = IntOp.cmpi .eq (v0 (ix3 (0 : Fin 1) (0 : Fin 1) r)) 3#32 := by
  unfold k1_pay6
  show IntOp.cmpi .eq (k1_pay3 v0 (ix2 r l)) 3#32 = _
  rw [pay3_apply]

theorem pay9_apply (v6 : IVec S2000x128 32) (i : S2000x128.Idx) : k1_pay9 v6 i = IntOp.cmpi .eq (v6 i) 8#32 := rfl
theorem pay12_apply (v6 : IVec S2000x128 32) (i : S2000x128.Idx) : k1_pay12 v6 i = IntOp.cmpi .eq (v6 i) 13#32 := rfl
theorem pay15_apply (v6 : IVec S2000x128 32) (i : S2000x128.Idx) : k1_pay15 v6 i = IntOp.cmpi .eq (v6 i) 18#32 := rfl

end Rows

/-- The first three steps, from the zero accumulator. -/
theorem pay4_apply (v0 : Vec Ideal S1x1x2000 .i32) (v2 : Vec Ideal S32x128 .f32) (r : Fin 2000) (l : Fin 128) :
    k1_pay4 (F := Ideal) v0 v2 (ix2 r l)
      = 0 + term v2 (v0 (ix3 (0 : Fin 1) (0 : Fin 1) r)) l 0 (by decide) + term v2 (v0 (ix3 (0 : Fin 1) (0 : Fin 1) r)) l 1 (by decide) + term v2 (v0 (ix3 (0 : Fin 1) (0 : Fin 1) r)) l 2 (by decide) := by
  unfold k1_pay4
  simp only [step_apply, pay2_eq, pay3_apply, broadcast_apply, zero_eq]
  rw [rowBroadcast_apply 0, rowBroadcast_apply 1, rowBroadcast_apply 2]
  rfl

/-- Five steps: the one whose row and comparison were computed before, then rows 4 to 7. -/
theorem pay7_apply (v3 : FVec Ideal S32x128 .f32) (v6 : IVec S2000x128 32) (acc row : FVec Ideal S2000x128 .f32)
    (c : IVec S2000x128 1) (z : Ideal .f32) (r : Fin 2000) (l : Fin 128) :
    k1_pay7 (F := Ideal) v3 v6 acc row c z (ix2 r l)
      = acc (ix2 r l) + Scalar.select (c (ix2 r l)) (row (ix2 r l)) z + term v3 (v6 (ix2 r l)) l 4 (by decide) + term v3 (v6 (ix2 r l)) l 5 (by decide) + term v3 (v6 (ix2 r l)) l 6 (by decide) + term v3 (v6 (ix2 r l)) l 7 (by decide) := by
  unfold k1_pay7
  simp only [step_apply, zero_eq]
  rw [rowBroadcast_apply 4, rowBroadcast_apply 5, rowBroadcast_apply 6, rowBroadcast_apply 7, addf_apply, select_apply, broadcast_apply]
  rfl

/-- Five steps: the one whose row and comparison were computed before, then rows 9 to 12. -/
theorem pay10_apply (v3 : FVec Ideal S32x128 .f32) (v6 : IVec S2000x128 32) (acc row : FVec Ideal S2000x128 .f32)
    (c : IVec S2000x128 1) (z : Ideal .f32) (r : Fin 2000) (l : Fin 128) :
    k1_pay10 (F := Ideal) v3 v6 acc row c z (ix2 r l)
      = acc (ix2 r l) + Scalar.select (c (ix2 r l)) (row (ix2 r l)) z + term v3 (v6 (ix2 r l)) l 9 (by decide) + term v3 (v6 (ix2 r l)) l 10 (by decide) + term v3 (v6 (ix2 r l)) l 11 (by decide) + term v3 (v6 (ix2 r l)) l 12 (by decide) := by
  unfold k1_pay10
  simp only [step_apply, zero_eq]
  rw [rowBroadcast_apply 9, rowBroadcast_apply 10, rowBroadcast_apply 11, rowBroadcast_apply 12, addf_apply, select_apply, broadcast_apply]
  rfl

/-- Five steps: the one whose row and comparison were computed before, then rows 14 to 17. -/
theorem pay13_apply (v3 : FVec Ideal S32x128 .f32) (v6 : IVec S2000x128 32) (acc row : FVec Ideal S2000x128 .f32)
    (c : IVec S2000x128 1) (z : Ideal .f32) (r : Fin 2000) (l : Fin 128) :
    k1_pay13 (F := Ideal) v3 v6 acc row c z (ix2 r l)
      = acc (ix2 r l) + Scalar.select (c (ix2 r l)) (row (ix2 r l)) z + term v3 (v6 (ix2 r l)) l 14 (by decide) + term v3 (v6 (ix2 r l)) l 15 (by decide) + term v3 (v6 (ix2 r l)) l 16 (by decide) + term v3 (v6 (ix2 r l)) l 17 (by decide) := by
  unfold k1_pay13
  simp only [step_apply, zero_eq]
  rw [rowBroadcast_apply 14, rowBroadcast_apply 15, rowBroadcast_apply 16, rowBroadcast_apply 17, addf_apply, select_apply, broadcast_apply]
  rfl

/-- The last three steps: the one whose row and comparison were computed before, then rows 19 and 20. -/
theorem pay1_apply (v3 : FVec Ideal S32x128 .f32) (v6 : IVec S2000x128 32) (acc row : FVec Ideal S2000x128 .f32)
    (c : IVec S2000x128 1) (z : Ideal .f32) (r : Fin 2000) (l : Fin 128) :
    k1_pay1 (F := Ideal) v3 v6 acc row c z (ix2 r l)
      = acc (ix2 r l) + Scalar.select (c (ix2 r l)) (row (ix2 r l)) z + term v3 (v6 (ix2 r l)) l 19 (by decide) + term v3 (v6 (ix2 r l)) l 20 (by decide) := by
  unfold k1_pay1
  simp only [step_apply, zero_eq]
  rw [rowBroadcast_apply 19, rowBroadcast_apply 20, addf_apply, select_apply, broadcast_apply]
  rfl

/-! ## The 21 steps, and their sum -/

/-- The sum the block accumulates at lane `l` when the index word is `w`: zero, plus each row's contribution. -/
def total (tab : FVec Ideal S32x128 .f32) (w : BitVec 32) (l : Fin 128) : EReal :=
  0 + term tab w l 0 (by decide) + term tab w l 1 (by decide) + term tab w l 2 (by decide) + term tab w l 3 (by decide) + term tab w l 4 (by decide) + term tab w l 5 (by decide) + term tab w l 6 (by decide)
    + term tab w l 7 (by decide) + term tab w l 8 (by decide) + term tab w l 9 (by decide) + term tab w l 10 (by decide) + term tab w l 11 (by decide) + term tab w l 12 (by decide) + term tab w l 13 (by decide)
    + term tab w l 14 (by decide) + term tab w l 15 (by decide) + term tab w l 16 (by decide) + term tab w l 17 (by decide) + term tab w l 18 (by decide) + term tab w l 19 (by decide) + term tab w l 20 (by decide)

/-- The block at an entry is that sum, at the entry's row's index word. -/
theorem nodeBlock_sum (v0 : Vec Ideal S1x1x2000 .i32) (v2 : Vec Ideal S32x128 .f32) (r : Fin 2000) (l : Fin 128) :
    nodeBlock (F := Ideal) v0 v2 (ix2 r l) = total v2 (v0 (ix3 (0 : Fin 1) (0 : Fin 1) r)) l := by
  unfold nodeBlock
  simp only [pay1_apply, pay13_apply, pay10_apply, pay7_apply, pay4_apply, pay5_apply, pay6_apply, pay8_apply,
    pay9_apply, pay11_apply, pay12_apply, pay14_apply, pay15_apply, pay2_eq, pay3_apply, select_cmpi_eq, zero_eq]
  rfl

/-- At an index word that names a row `n ≤ 20` exactly one contribution is not zero, and zero is neutral for the
    sum of extended reals: the sum is that row's entry. -/
theorem total_ofNat (tab : FVec Ideal S32x128 .f32) (l : Fin 128) (n : ℕ) (hn : n ≤ 20) :
    total tab (BitVec.ofNat 32 n) l = tab (ix2 (⟨n, by omega⟩ : Fin 32) l) := by
  interval_cases n <;> simp [total, term]

theorem total_eq (tab : FVec Ideal S32x128 .f32) (w : BitVec 32) (l : Fin 128) (h : w.toNat ≤ 20) :
    total tab w l = tab (ix2 (⟨w.toNat, by omega⟩ : Fin 32) l) := by
  have e : BitVec.ofNat 32 w.toNat = w := by simp
  have := total_ofNat tab l w.toNat h
  rwa [e] at this

/-- THE BLOCK AT AN ENTRY: the table's row the entry's index names, at the entry's lane. -/
theorem nodeBlock_apply (v0 : Vec Ideal S1x1x2000 .i32) (v2 : Vec Ideal S32x128 .f32) (r : Fin 2000) (l : Fin 128)
    (h : (v0 (ix3 (0 : Fin 1) (0 : Fin 1) r)).toNat ≤ 20) :
    nodeBlock (F := Ideal) v0 v2 (ix2 r l)
      = v2 (ix2 (⟨(v0 (ix3 (0 : Fin 1) (0 : Fin 1) r)).toNat, by omega⟩ : Fin 32) l) := by
  rw [nodeBlock_sum]
  exact total_eq v2 _ l h

/-- The block of grid point `t` against the whole arrays: when the index block is rows `2000 t …` of the indices and
    the table block's first 21 rows are the table, the block's entry `(r, l)` is the node embedding's entry
    `(2000 t + r, l)`. -/
theorem node_point (a0 : IVec S10000 32) (a2 : FVec Ideal S21x128 .f32) (h0 : ∀ i, (a0 i).toNat ≤ 20)
    (v0 : Vec Ideal S1x1x2000 .i32) (v2 : Vec Ideal S32x128 .f32) (t : Fin 5)
    (hv0 : ∀ r : Fin 2000, v0 (ix3 (0 : Fin 1) (0 : Fin 1) r) = a0 (ix1 (⟨2000 * t.val + r.val, by omega⟩ : Fin 10000)))
    (hv2 : ∀ (v : Fin 21) (l : Fin 128), v2 (ix2 (⟨v.val, by omega⟩ : Fin 32) l) = a2 (ix2 v l)) (r : Fin 2000) (l : Fin 128) :
    nodeBlock (F := Ideal) v0 v2 (ix2 r l)
      = Cert.Spec.nodeEmb a2 a0 (ix2 (⟨2000 * t.val + r.val, by omega⟩ : Fin 10000) l) := by
  have hw : (v0 (ix3 (0 : Fin 1) (0 : Fin 1) r)).toNat ≤ 20 := by rw [hv0]; exact h0 _
  rw [nodeBlock_apply v0 v2 r l hw, Cert.Spec.nodeEmb_apply]
  have e := hv2 (⟨(v0 (ix3 (0 : Fin 1) (0 : Fin 1) r)).toNat, by omega⟩ : Fin 21) l
  refine e.trans ?_
  congr 2
  refine Fin.ext ?_
  rw [Cert.Spec.row21_val_of_le (h0 _)]
  exact congrArg BitVec.toNat (hv0 r)

end Cert.KernelIdeal.NodeVal

end
-- ==== Proof.NodeHost.lean ====
/-
  The two host operations that feed the node-lookup kernel, read at an index. The table block's array is the 21-row
  table written at row 0 of a 32-row zero array by a scatter whose body returns the update: its first 21 rows are
  the table. The index blocks' array is the 10000 indices reshaped to 5 x 1 x 2000: entry (t, 0, r) is index
  2000 t + r.
-/
import proofs.«205308_g19069654794752_retrytranche2_377_14_alg».proof.Proof.Gen.KernelIdeal
import Idealize.ShloMosaic.Lib.ValueIdx
import Idealize.ShloMosaic.Lib.ValueLayout

noncomputable section

namespace Cert.KernelIdeal.NodeVal

open Idealize.ShloMosaic Idealize.ShloMosaic.ValueIdx Cert.KernelIdeal

/-! ## A scatter whose body returns the update -/

section Scatter
variable {α : Type} {s si u : Shape} {w : ℕ}

/-- One update of a scatter whose body returns the update: the array with the update's entry `n` written where it
    lands, unchanged when it lands outside. -/
def scatStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- Such a scatter is the fold of that update over the update's entries in row-major order. -/
theorem scatter_eq_foldl (d : ScatterDims s si u) (x : s.Idx → α) (idx : IVec si w) (upd : u.Idx → α) :
    Host.scatter d (fun _ b => b) x idx upd = (List.finRange u.numel).foldl (scatStep d idx upd) x := rfl

/-- When every update entry `j` lands inside, at `g j`, and `g` is injective, the result at `g j` is the update's
    entry `j`: no other entry lands there. -/
theorem scatter_set_apply (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  have hstep : ∀ (r : s.Idx → α) (n : Fin u.numel) (i' : s.Idx), scatStep d idx upd r n i'
      = if i' = g (u.rowMajor.symm n) then upd (u.rowMajor.symm n) else r i' := by
    intro r n i'
    simp only [scatStep, hg]
  have key : ∀ (L : List (Fin u.numel)) (r : s.Idx → α),
      (L.foldl (scatStep d idx upd) r) (g j) = if u.rowMajor j ∈ L then upd j else r (g j) := by
    intro L
    induction L with
    | nil => intro r; simp
    | cons n L ih =>
      intro r
      rw [List.foldl_cons, ih, hstep]
      by_cases hm : u.rowMajor j ∈ L
      · rw [if_pos hm, if_pos (List.mem_cons_of_mem _ hm)]
      · rw [if_neg hm]
        by_cases hn : u.rowMajor j = n
        · subst hn
          rw [Equiv.symm_apply_apply, if_pos rfl, if_pos List.mem_cons_self]
        · have hne : g j ≠ g (u.rowMajor.symm n) := fun h => hn (by rw [hinj h, Equiv.apply_symm_apply])
          rw [if_neg hne, if_neg]
          intro hmem
          rcases List.mem_cons.mp hmem with h | h
          · exact hn h
          · exact hm h
  rw [scatter_eq_foldl, key, if_pos (List.mem_finRange _)]

end Scatter

/-! ## The table written at row 0 of the zero array -/

section Padded
variable [Facts₀]

/-- The window coordinate of update entry `j` on either axis of the operand is `j`'s coordinate: both axes are window
    axes, in order. -/
theorem padded_window (j : S21x128.Idx) (a : Fin 2) :
    scatter_S32x128_S1_S21x128_01_n_0_0.window j a = (j a).val := by
  match a with
  | ⟨0, _⟩ => rfl
  | ⟨1, _⟩ => rfl

/-- With the one start index zero, the window starts at the origin. -/
theorem padded_start (idx : IVec S1 32) (hidx : ∀ k, idx k = 0#32) (j : S21x128.Idx) (a : Fin 2) :
    scatter_S32x128_S1_S21x128_01_n_0_0.start j idx a = 0 := by
  unfold ScatterDims.start
  split
  · rw [hidx]; rfl
  · rfl

/-- Where update entry `(v, l)` lands: at `(v, l)` of the 32-row array. -/
def paddedIdx (j : S21x128.Idx) : S32x128.Idx :=
  ix2 (⟨(j 0).val, by have := idx2_lt0 j; omega⟩ : Fin 32) (⟨(j 1).val, idx2_lt1 j⟩ : Fin 128)

theorem padded_resultIdx (idx : IVec S1 32) (hidx : ∀ k, idx k = 0#32) (j : S21x128.Idx) :
    scatter_S32x128_S1_S21x128_01_n_0_0.resultIdx? j idx = some (paddedIdx j) := by
  have hb : ∀ a : Fin 2, 0 ≤ scatter_S32x128_S1_S21x128_01_n_0_0.start j idx a + (scatter_S32x128_S1_S21x128_01_n_0_0.window j a : ℤ)
      ∧ scatter_S32x128_S1_S21x128_01_n_0_0.start j idx a + (scatter_S32x128_S1_S21x128_01_n_0_0.window j a : ℤ) < (S32x128.size a : ℤ) := by
    intro a
    rw [padded_start idx hidx, padded_window]
    match a with
    | ⟨0, _⟩ =>
      have := idx2_lt0 j
      show 0 ≤ 0 + ((j 0).val : ℤ) ∧ 0 + ((j 0).val : ℤ) < ((32 : ℕ) : ℤ)
      omega
    | ⟨1, _⟩ =>
      have := idx2_lt1 j
      show 0 ≤ 0 + ((j 1).val : ℤ) ∧ 0 + ((j 1).val : ℤ) < ((128 : ℕ) : ℤ)
      omega
  unfold ScatterDims.resultIdx?
  rw [dif_pos hb]
  congr 1
  funext a
  refine Fin.ext ?_
  show (scatter_S32x128_S1_S21x128_01_n_0_0.start j idx a + (scatter_S32x128_S1_S21x128_01_n_0_0.window j a : ℤ)).toNat = (paddedIdx j a).val
  rw [padded_start idx hidx, padded_window]
  match a with
  | ⟨0, _⟩ => show (0 + ((j 0).val : ℤ)).toNat = (j 0).val; omega
  | ⟨1, _⟩ => show (0 + ((j 1).val : ℤ)).toNat = (j 1).val; omega

theorem paddedIdx_injective : Function.Injective paddedIdx := by
  intro j j' h
  funext a
  refine Fin.ext ?_
  match a with
  | ⟨0, _⟩ => exact congrArg (fun i : S32x128.Idx => (i 0).val) h
  | ⟨1, _⟩ => exact congrArg (fun i : S32x128.Idx => (i 1).val) h

/-- THE PADDED TABLE AT ONE OF ITS FIRST 21 ROWS: the table's entry. -/
theorem padded_apply {F : FTy → Type} [FloatOps F] (a2 : FVec F S21x128 .f32)
    (hb1 : S_.BroadcastsInDim S32x128 (![] : Fin 0 → Fin S32x128.rank))
    (hb2 : S_.BroadcastsInDim S1 (![] : Fin 0 → Fin S1.rank)) (v : Fin 21) (l : Fin 128) :
    Host.scatter scatter_S32x128_S1_S21x128_01_n_0_0 (fun _ b => b)
        (broadcastInDim S32x128 ![] hb1 (constant (F := F) S_ .f32 0x00000000#32))
        (broadcastInDim S1 ![] hb2 (constantI S_ 32 0#32)) a2 (ix2 (⟨v.val, by omega⟩ : Fin 32) l)
      = a2 (ix2 v l) :=
  scatter_set_apply scatter_S32x128_S1_S21x128_01_n_0_0 _ _ a2 paddedIdx
    (padded_resultIdx _ (fun _ => rfl)) paddedIdx_injective (ix2 v l)

end Padded

/-! ## The indices reshaped into blocks -/

/-- The 10000 indices cast to `[5, 1, 2000]` read, at `(t, 0, r)`, index `2000 t + r`. -/
theorem reshaped_apply {α : Type} (a0 : S10000.Idx → α) (h : S10000.ShapeCasts S5x1x2000) (t : Fin 5) (r : Fin 2000) :
    shapeCast S5x1x2000 a0 h (ix3 t (0 : Fin 1) r) = a0 (ix1 (⟨2000 * t.val + r.val, by omega⟩ : Fin 10000)) :=
  shapeCast_apply a0 h _ _ (by
    rw [Shape.rowMajor_val_one, Shape.rowMajor_val_three]
    show 2000 * t.val + r.val = (t.val * 1 + 0) * 2000 + r.val
    omega)

end Cert.KernelIdeal.NodeVal

end
-- ==== Proof.Claims.lean ====
/-
  The node result's value and the claims about the idealized kernel. The node kernel's array, computed block by block
  from the reshaped indices and the padded table, is the node embedding of the launch arguments; with the edge result
  the edge embedding, the kernel's two results are the reference's, and the arguments are unchanged.
-/
import proofs.«205308_g19069654794752_retrytranche2_377_14_alg».proof.Defs
import proofs.«205308_g19069654794752_retrytranche2_377_14_alg».proof.Proof.Main
import proofs.«205308_g19069654794752_retrytranche2_377_14_alg».proof.Proof.RefRun
import proofs.«205308_g19069654794752_retrytranche2_377_14_alg».proof.Proof.NodeValue
import proofs.«205308_g19069654794752_retrytranche2_377_14_alg».proof.Proof.NodeHost

noncomputable section

namespace Cert.KernelIdeal.Hand

open Cert.KernelIdeal Cert.KernelIdeal.Gen

open Idealize.ShloMosaic Idealize.ShloMosaic.ValueIdx
open Idealize.ShloMosaic.SparseCore (S V T)
open Idealize.SL.Sem

/-! ## The node result is the node embedding -/

attribute [local irreducible] Host.scatter in
/-- With every node index at most 20, the node kernel's array of the reshaped indices and the padded table is the node
    embedding: row `2000 t + r` is block `t`'s row `r`, whose indices are rows `2000 t …` of the node indices and whose
    table's first 21 rows are the node table. -/
theorem nodeArr_eq (m : (ℓ : Loc nD τ sig) → Buf (Elt Ideal) ℓ) (d : Dev nD)
    (h0 : ∀ i, (m ((SparseCore.T d).loc main_arg0) i).toNat ≤ 20) :
    nodeArr (F := Ideal) (a4Of m d) (a3Of m d)
      = Cert.Spec.nodeEmb (F := Ideal) (m ((SparseCore.T d).loc main_arg2)) (m ((SparseCore.T d).loc main_arg0)) := by
  funext j
  obtain ⟨q, l, rfl⟩ : ∃ (q : Fin 10000) (l : Fin 128), j = ix2 q l := ⟨j 0, j 1, eq_ix2 j⟩
  obtain ⟨t, r, rfl⟩ : ∃ (t : Fin 5) (r : Fin 2000), q = ⟨2000 * t.val + r.val, by have := t.isLt; have := r.isLt; omega⟩ :=
    ⟨⟨q.val / 2000, by have := q.isLt; omega⟩, ⟨q.val % 2000, Nat.mod_lt _ (by decide)⟩, Fin.ext (by show q.val = 2000 * (q.val / 2000) + q.val % 2000; omega)⟩
  rw [nodeArr_apply]
  refine NodeVal.node_point (m ((SparseCore.T d).loc main_arg0)) (m ((SparseCore.T d).loc main_arg2)) h0 _ _ t (fun r' => ?_) (fun v l' => ?_) r l
  · exact NodeVal.reshaped_apply (m ((SparseCore.T d).loc main_arg0)) shapeCasts_S10000_S5x1x2000 t r'
  · unfold a3Of
    exact NodeVal.padded_apply (F := Ideal) (m ((SparseCore.T d).loc main_arg2)) bcast_S_S32x128 bcast_S_S1 v l'

/-! ## The claims -/

/-- The idealized kernel runs and leaves its arguments unchanged. -/
theorem frame_pi (htile : ∀ m : (ℓ : Loc nD τ sig) → Buf (Elt Ideal) ℓ, (∀ d i, (m (iLoc d) i).toNat ≤ 3) → (K (F := Ideal)).TileObl (D (F := Ideal)) 𝒱 (P m) v₀ 0) :
    Cert.frame_KernelIdeal (hKernelIdeal := Cert.KernelIdeal.Gen.facts) (hPre_input_domain := Cert.Pre_input_domain.Gen.facts) :=
  fun m g hpre => (θ_run Cert.KernelIdeal.defs _ _).mono (fun _ h c => ⟨(h c).1, (h c).2.1, (h c).2.2.1, (h c).2.2.2.1⟩)
    (run_main (F := Ideal) m g (htile m fun d i => (Cert.PreRange.ranges (F := Ideal) _ _ _ _ (hpre d)).2 i))

/-- At the ideal instance, from memories that agree on the arguments, the kernel and the reference both run and end with
    the same results — the node embedding and the edge embedding of the arguments — and unchanged arguments. -/
theorem algebraic (htile : ∀ m : (ℓ : Loc nD τ sig) → Buf (Elt Ideal) ℓ, (∀ d i, (m (iLoc d) i).toNat ≤ 3) → (K (F := Ideal)).TileObl (D (F := Ideal)) 𝒱 (P m) v₀ 0) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  have hr := fun c => Cert.PreRange.ranges (F := Ideal) _ _ _ _ (hpre c)
  refine ⟨fun c => Cert.Spec.nodeEmb (F := Ideal) (m ((SparseCore.T c).loc main_arg2)) (m ((SparseCore.T c).loc main_arg0)),
    fun c => Cert.Spec.edgeEmb (F := Ideal) (m ((SparseCore.T c).loc main_arg3)) (m ((SparseCore.T c).loc main_arg1)), ?_, ?_⟩
  · refine (θ_run Cert.KernelIdeal.defs _ _).mono (fun _ h c => ?_) (run_main (F := Ideal) m g (htile m fun d i => (hr d).2 i))
    obtain ⟨h0, h1, h2, h3, hv0, hv5⟩ := h c
    exact ⟨hv5.trans (nodeArr_eq m c (hr c).1), hv0, h0, h1, h2, h3⟩
  · have hpre' : Cert.Pre_ReferenceIdeal (hPre_input_domain := Cert.Pre_input_domain.Gen.facts) m' := fun c => by
      rw [(hagree c).1, (hagree c).2.1, (hagree c).2.2.1, (hagree c).2.2.2]; exact hpre c
    refine (θ_run Cert.ReferenceIdeal.defs _ _).mono (fun _ h c => ?_) (Cert.ReferenceIdeal.RefValue.run m' g' hpre')
    obtain ⟨hv0, hv1, h0, h1, h2, h3⟩ := h c
    refine ⟨hv0.trans ?_, hv1.trans ?_, h0, h1, h2, h3⟩
    · rw [(hagree c).2.2.1, (hagree c).1]
    · rw [(hagree c).2.2.2, (hagree c).2.1]

end Cert.KernelIdeal.Hand

end
-- ==== Proof.KSetup.lean ====
/-
  What the parts of the kernel's proof share. The program is @main on the TensorCore beside one SparseCore call on two
  SparseCores of sixteen vector subcores each, followed by host operations and one TensorCore kernel region.
  The ghost state is a product of four algebras: the rounds of the launch handshakes, the rounds of the subcore
  barrier's cells, the rounds of the TensorCore region's staging cells, and the transfers' counters.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«205308_g19069654794752_retrytranche2_377_14_alg».proof.Proof.Gen.Kernel
import proofs.«205308_g19069654794752_retrytranche2_377_14_alg».proof.Proof.Gen.Kernel.Skeleton
import proofs.«205308_g19069654794752_retrytranche2_377_14_alg».proof.Proof.Gen.Kernel.Launch
import proofs.«205308_g19069654794752_retrytranche2_377_14_alg».proof.Proof.Gen.Kernel.Points
import proofs.«205308_g19069654794752_retrytranche2_377_14_alg».proof.Proof.Spec

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds: the first factor of the second. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The staging cells' rounds: one factor further in. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory, the arrays and their pieces -/

section Mem

variable (m : (ℓ : Loc nD τ sig) → Buf (Elt F) ℓ) (ρ : Dev nD → PrngReg)

/-- The edge indices, the edge table and the edge result, as the TensorCore names them. -/
abbrev iLoc (d : Dev nD) : Loc nD τ sig := (SparseCore.T d).loc main_arg1
abbrev tLoc (d : Dev nD) : Loc nD τ sig := (SparseCore.T d).loc main_arg3
abbrev oLoc (d : Dev nD) : Loc nD τ sig := (SparseCore.T d).loc main_v0

/-- SparseCore `c`'s shared copy of the edge table, as every tile of it addresses it. -/
abbrev shRef (c : Fin τ.nSC) : DevRef τ sig := ⟨.shared, ⟨0, by decide⟩, c⟩
abbrev shLoc (d : Dev nD) (c : Fin τ.nSC) : Loc nD τ sig := (d, shRef c)

theorem nSC_eq : τ.nSC = 2 := rfl
theorem nSub_eq : τ.nSub = 16 := rfl

/-- Tile `(c, s)` is worker `2 s + c` of thirty-two: it owns rows `[10000 w, 10000 (w + 1))` of the indices and of the result. -/
def wOf (c : Fin τ.nSC) (s : Fin τ.nSub) : Fin 32 := ⟨2 * s.val + c.val, by have hc : c.val < 2 := c.isLt; have hs : s.val < 16 := s.isLt; omega⟩

theorem idiv : 32 ∣ S320000.size 0 := ⟨10000, rfl⟩
theorem odiv : 32 ∣ S320000x128.size 0 := ⟨10000, rfl⟩
abbrev irow (w : Fin 32) : Rect S320000 := Rect.part (s := S320000) (a₀ := 0) idiv w
abbrev orow (w : Fin 32) : Rect S320000x128 := Rect.part (s := S320000x128) (a₀ := 0) odiv w
abbrev iRowSet (w : Fin 32) : Finset S320000.Idx := ((Memref.whole main_arg1_scv : Memref sig .scVector .hbm S320000 .i32).view.slice (irow w)).set
abbrev oRowSet (w : Fin 32) : Finset S320000x128.Idx := ((Memref.whole main_v0_scv : Memref sig .scVector .hbm S320000x128 .f32).view.slice (orow w)).set

/-- The edge result the kernel is to leave: the lookup of the launch memory's table at its indices. -/
abbrev edgeOut (d : Dev nD) : Buf (Elt F) (oLoc d) := Cert.Spec.edgeEmb (m (tLoc d)) (m (iLoc d))
/-- The shared copy's contents once tile 0 has filled it: the edge table's. -/
abbrev tabSh (d : Dev nD) (c : Fin τ.nSC) : Buf (Elt F) (shLoc d c) := m (tLoc d)

end Mem

variable [FloatOps F]
variable (m : (ℓ : Loc nD τ sig) → Buf (Elt F) ℓ) (ρ : Dev nD → PrngReg)

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read token of its SparseCore's shared table, at the edge table's contents. -/
abbrev shTok (d : Dev nD) (c : Fin τ.nSC) (j : Fin τ.nSub) : sProp 𝕄 := shLoc d c ↦{Transfers.shareTokN fullShare j.val} tabSh m d c

/-- What a duty in tile `j`'s round hands over: tile 0's, tile `j`'s read token of the filled shared table; the others', nothing. -/
def bPay (g : GSem nD τ sig) (n : ℕ) : sProp 𝕄 :=
  match g with
  | ((d, .scVector c j), _) => if n = 0 then shTok m d c j else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What a tile is handed of the three HBM arrays: its rows of the indices (read), a read token of the table, its rows of
    the result (to write). -/
abbrev goRes (d : Dev nD) (c : Fin τ.nSC) (s : Fin τ.nSub) : sProp 𝕄 :=
  iprop((iLoc d ↦[iRowSet (wOf c s)]{fullShare} m (iLoc d)) ∗ (tLoc d ↦{Transfers.shareTokN fullShare (wOf c s).val} m (tLoc d))
    ∗ oLoc d ↦[oRowSet (wOf c s)]{fullShare} m (oLoc d))
/-- What it hands back: the same, its rows of the result now the lookup. -/
abbrev tdRes (d : Dev nD) (c : Fin τ.nSC) (s : Fin τ.nSub) : sProp 𝕄 :=
  iprop((iLoc d ↦[iRowSet (wOf c s)]{fullShare} m (iLoc d)) ∗ (tLoc d ↦{Transfers.shareTokN fullShare (wOf c s).val} m (tLoc d))
    ∗ oLoc d ↦[oRowSet (wOf c s)]{fullShare} edgeOut m d)
/-- Of its SparseCore's shared table a tile is handed: tile 0 all of it, at any contents; the others nothing. -/
abbrev goSh (d : Dev nD) (c : Fin τ.nSC) (s : Fin τ.nSub) : sProp 𝕄 :=
  if s.val = 0 then iprop(∃ f, shLoc d c ↦{fullShare} f) else iprop(emp)
/-- It hands back its read token of the filled table; tile 0 also what the sixteen tokens left of the whole. -/
abbrev tdSh (d : Dev nD) (c : Fin τ.nSC) (s : Fin τ.nSub) : sProp 𝕄 :=
  iprop(shTok m d c s ∗ if s.val = 0 then (shLoc d c ↦{Transfers.shareDrop fullShare 16} tabSh m d c) else iprop(emp))

/-- The one SparseCore call: a SparseCore takes its sixteen tiles' pieces and brings them back; each task takes its own
    and, if it is tile 0, the shared table; each task's proof consumes its barrier kit; each tile owes its arrivals. -/
def P : (K (F := F)).Pay (nD := nD) (Val := Elt F) (Name := ℕ) (U := UU) where
  st := fun q d c => match q with | 0 => bigSep Finset.univ fun i : Fin ((K (F := F)).nSub 0) => goRes m d (coreOf c) ((K (F := F)).sub 0 i)
  dn := fun q d c => match q with | 0 => bigSep Finset.univ fun i : Fin ((K (F := F)).nSub 0) => tdRes m d (coreOf c) ((K (F := F)).sub 0 i)
  go := fun q d c i => match q with
    | 0 => iprop(goRes m d (coreOf c) ((K (F := F)).sub 0 i) ∗ goSh d (coreOf c) ((K (F := F)).sub 0 i))
  td := fun q d c i => match q with
    | 0 => iprop(tdRes m d (coreOf c) ((K (F := F)).sub 0 i) ∗ tdSh m d (coreOf c) ((K (F := F)).sub 0 i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (bigSep Finset.univ fun i : Fin ((K (F := F)).nSub 0) => goRes m d (coreOf c) ((K (F := F)).sub 0 i)))
  dn q d c := match q with
    | 0 => (inferInstance : BI.Storable (upEmb : UEmb _ 𝕄) (bigSep Finset.univ fun i : Fin ((K (F := F)).nSub 0) => tdRes m d (coreOf c) ((K (F := F)).sub 0 i)))
  go q d c i := match q with
    | 0 => by
      show BI.Storable (upEmb : UEmb _ 𝕄) iprop(goRes m d (coreOf c) ((K (F := F)).sub 0 i) ∗ goSh d (coreOf c) ((K (F := F)).sub 0 i))
      unfold goSh; split <;> infer_instance
  td q d c i := match q with
    | 0 => by
      show BI.Storable (upEmb : UEmb _ 𝕄) iprop(tdRes m d (coreOf c) ((K (F := F)).sub 0 i) ∗ tdSh m d (coreOf c) ((K (F := F)).sub 0 i))
      unfold tdSh; split <;> infer_instance

end Cert.Kernel.Hand

end
-- ==== Proof.KDeal.lean ====
/-
  The mechanical parts of the launch: how the three HBM arrays of the edge lookup split into the thirty-two workers'
  pieces and come back, how a SparseCore's operands and its shared table split among its sixteen tasks, and the
  launch element of the barrier cells' ghost state.
-/
import proofs.«205308_g19069654794752_retrytranche2_377_14_alg».proof.Proof.KSetup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-! ## The thirty-two workers -/

/-- Tile `(c, s)` ↦ worker `2 s + c` is a bijection of the two SparseCores' sixteen tiles with the thirty-two workers. -/
def wEquiv : Fin 2 × Fin 16 ≃ Fin 32 where
  toFun p := ⟨2 * p.2.val + p.1.val, by have := p.1.isLt; have := p.2.isLt; omega⟩
  invFun w := (⟨w.val % 2, Nat.mod_lt _ (by decide)⟩, ⟨w.val / 2, by have := w.isLt; omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

omit [FloatOps F] in
/-- A family over the workers, taken SparseCore by SparseCore and task by task, is the family over the workers. -/
theorem bigSep_workers (Φ : Fin 32 → sProp 𝕄) :
    (bigSep Finset.univ fun c : Fin ((K (F := F)).nCore 0) => bigSep Finset.univ fun i : Fin ((K (F := F)).nSub 0) =>
      Φ (wOf (coreOf c) ((K (F := F)).sub 0 i))) = bigSep Finset.univ Φ := by
  show (bigSep Finset.univ fun c : Fin 2 => bigSep Finset.univ fun i : Fin 16 => Φ (wEquiv (c, i))) = _
  rw [← bigSep_univ_prod (fun p : Fin 2 × Fin 16 => Φ (wEquiv p))]
  exact (bigSep_univ_equiv wEquiv Φ).symm

/-! ## The rows of the indices and of the result -/

omit [FloatOps F] in
theorem iRowSet_eq (w : Fin 32) : iRowSet w = (irow w).set := by
  show ((View.whole (main_arg1_scv : Ref sig .scVector)).slice (irow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
/-- The indices whole are the workers' rows of them. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] in
/-- The result whole is the workers' rows of it. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-! ## The TensorCore's side of the call -/

/-- What the TensorCore hands the two SparseCores: the indices, the thirty-two read tokens of the table, the result. -/
theorem st0_eq (d : Dev nD) :
    iprop((iLoc d ↦{fullShare} m (iLoc d)) ∗ (bigSep Finset.univ fun w : Fin 32 => tLoc d ↦{Transfers.shareTokN fullShare w.val} m (tLoc d))
        ∗ oLoc d ↦{fullShare} m (oLoc d))
      = (bigSep Finset.univ fun c : Fin ((K (F := F)).nCore 0) => (P m).st 0 d c : sProp 𝕄) := by
  show _ = bigSep Finset.univ fun c : Fin ((K (F := F)).nCore 0) => bigSep Finset.univ fun i : Fin ((K (F := F)).nSub 0) =>
    goRes m d (coreOf c) ((K (F := F)).sub 0 i)
  refine Eq.trans ?_ (bigSep_workers (F := F) (fun w => iprop((iLoc d ↦[iRowSet w]{fullShare} m (iLoc d))
    ∗ (tLoc d ↦{Transfers.shareTokN fullShare w.val} m (tLoc d)) ∗ oLoc d ↦[oRowSet w]{fullShare} m (oLoc d)))).symm
  rw [bigSep_sep', bigSep_sep', ← iPts_rows, ← oPts_rows]

/-- What it gets back: the same, the result now the lookup. -/
theorem dn0_eq (d : Dev nD) :
    (bigSep Finset.univ fun c : Fin ((K (F := F)).nCore 0) => (P m).dn 0 d c : sProp 𝕄)
      = iprop((iLoc d ↦{fullShare} m (iLoc d)) ∗ (bigSep Finset.univ fun w : Fin 32 => tLoc d ↦{Transfers.shareTokN fullShare w.val} m (tLoc d))
        ∗ oLoc d ↦{fullShare} edgeOut m d) := by
  show (bigSep Finset.univ fun c : Fin ((K (F := F)).nCore 0) => bigSep Finset.univ fun i : Fin ((K (F := F)).nSub 0) =>
    tdRes m d (coreOf c) ((K (F := F)).sub 0 i)) = _
  refine Eq.trans (bigSep_workers (F := F) (fun w => iprop((iLoc d ↦[iRowSet w]{fullShare} m (iLoc d))
    ∗ (tLoc d ↦{Transfers.shareTokN fullShare w.val} m (tLoc d)) ∗ oLoc d ↦[oRowSet w]{fullShare} edgeOut m d))) ?_
  rw [bigSep_sep', bigSep_sep', ← iPts_rows, ← oPts_rows]

omit [FloatOps F] in
/-- The table whole is what thirty-two read tokens leave of it and the tokens. -/
theorem tTok_split (d : Dev nD) : (tLoc d ↦{fullShare} m (tLoc d) : sProp 𝕄)
    ⊣⊢ iprop((tLoc d ↦{Transfers.shareDrop fullShare 32} m (tLoc d)) ∗ bigSep Finset.univ fun w : Fin 32 => tLoc d ↦{Transfers.shareTokN fullShare w.val} m (tLoc d)) :=
  Transfers.pointsTo_toks fullShare 32

/-! ## A SparseCore's operands and its shared table among its sixteen tasks -/

omit [FloatOps F] in
/-- A family over a SparseCore's tasks that is something at task 0 and nothing at the others is that thing. -/
theorem bigSep_tile0 (A : sProp 𝕄) :
    (bigSep Finset.univ fun i : Fin ((K (F := F)).nSub 0) => if ((K (F := F)).sub 0 i).val = 0 then A else iprop(emp)) = A := by
  show (bigSep Finset.univ fun i : Fin 16 => if i.val = 0 then A else iprop(emp)) = A
  refine (bigSep_filter Finset.univ (fun i : Fin 16 => i.val = 0) (fun _ => A)).symm.trans ?_
  rw [show (Finset.univ.filter fun i : Fin 16 => i.val = 0) = {0} by decide, bigSep_singleton]

omit [FloatOps F] in
/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- What the sixteen tasks are handed: their pieces of the arrays, and task 0 the shared table whole. -/
theorem go_all (d : Dev nD) (c : Fin ((K (F := F)).nCore 0)) :
    (bigSep Finset.univ fun i : Fin ((K (F := F)).nSub 0) => (P m).go 0 d c i : sProp 𝕄)
      = iprop((P m).st 0 d c ∗ ∃ f, shLoc d (coreOf c) ↦{fullShare} f) := by
  show (bigSep Finset.univ fun i : Fin ((K (F := F)).nSub 0) => iprop(goRes m d (coreOf c) ((K (F := F)).sub 0 i) ∗ goSh d (coreOf c) ((K (F := F)).sub 0 i)))
    = iprop((bigSep Finset.univ fun i : Fin ((K (F := F)).nSub 0) => goRes m d (coreOf c) ((K (F := F)).sub 0 i)) ∗ _)
  rw [bigSep_sep' Finset.univ (fun i : Fin ((K (F := F)).nSub 0) => goRes m d (coreOf c) ((K (F := F)).sub 0 i))
    (fun i : Fin ((K (F := F)).nSub 0) => goSh d (coreOf c) ((K (F := F)).sub 0 i))]
  exact congrArg _ (bigSep_tile0 (F := F) iprop(∃ f, shLoc d (coreOf c) ↦{fullShare} f))

/-- What they hand back: their pieces, their sixteen read tokens of the filled table, and from task 0 what the tokens left of it. -/
theorem td_all (d : Dev nD) (c : Fin ((K (F := F)).nCore 0)) :
    (bigSep Finset.univ fun i : Fin ((K (F := F)).nSub 0) => (P m).td 0 d c i : sProp 𝕄)
      = iprop((P m).dn 0 d c ∗ (bigSep Finset.univ fun i : Fin 16 => shLoc d (coreOf c) ↦{Transfers.shareTok fullShare 16 i} tabSh m d (coreOf c))
        ∗ shLoc d (coreOf c) ↦{Transfers.shareDrop fullShare 16} tabSh m d (coreOf c)) := by
  show (bigSep Finset.univ fun i : Fin ((K (F := F)).nSub 0) => iprop(tdRes m d (coreOf c) ((K (F := F)).sub 0 i)
      ∗ shTok m d (coreOf c) ((K (F := F)).sub 0 i)
      ∗ if ((K (F := F)).sub 0 i).val = 0 then (shLoc d (coreOf c) ↦{Transfers.shareDrop fullShare 16} tabSh m d (coreOf c)) else iprop(emp)))
    = iprop((bigSep Finset.univ fun i : Fin ((K (F := F)).nSub 0) => tdRes m d (coreOf c) ((K (F := F)).sub 0 i))
      ∗ (bigSep Finset.univ fun i : Fin ((K (F := F)).nSub 0) => shTok m d (coreOf c) ((K (F := F)).sub 0 i)) ∗ _)
  rw [bigSep_sep' Finset.univ (fun i : Fin ((K (F := F)).nSub 0) => tdRes m d (coreOf c) ((K (F := F)).sub 0 i))
    (fun i : Fin ((K (F := F)).nSub 0) => iprop(shTok m d (coreOf c) ((K (F := F)).sub 0 i)
      ∗ if ((K (F := F)).sub 0 i).val = 0 then (shLoc d (coreOf c) ↦{Transfers.shareDrop fullShare 16} tabSh m d (coreOf c)) else iprop(emp))),
    bigSep_sep' Finset.univ (fun i : Fin ((K (F := F)).nSub 0) => shTok m d (coreOf c) ((K (F := F)).sub 0 i))
      (fun i : Fin ((K (F := F)).nSub 0) => if ((K (F := F)).sub 0 i).val = 0 then (shLoc d (coreOf c) ↦{Transfers.shareDrop fullShare 16} tabSh m d (coreOf c)) else iprop(emp)),
    bigSep_tile0 (F := F) (shLoc d (coreOf c) ↦{Transfers.shareDrop fullShare 16} tabSh m d (coreOf c))]

/-- A SparseCore's operands, and its shared table out of the sequencer's own buffers, go to its sixteen tasks; their
    results and their read tokens of the table come back, the tokens and what they left joined into the table whole. -/
theorem vecSplit : (K (F := F)).VecSplit (P m) 0 := by
  intro d c
  rw [go_all m d c, td_all m d c, ownBufs_S]
  iintro ⟨Hst, ⟨%fsh, Hsh⟩, Hrest⟩; imodintro
  isplitl [Hst Hsh]
  · isplitl [Hst]; · iexact Hst
    iexists fsh; iexact Hsh
  iintro ⟨Hdn, Htok, Hdrop⟩
  isplitl [Hdn]; · iexact Hdn
  isplitl [Htok Hdrop]
  · iapply (SparseCore.ent ((Transfers.pointsTo_toks_join (ℓ := shLoc d (coreOf c)) (f := tabSh m d (coreOf c)) fullShare 16).trans
      (BI.BIClass.exists_intro (Φ := fun f => (shLoc d (coreOf c) ↦{fullShare} f : sProp 𝕄)) (tabSh m d (coreOf c)))))
    isplitl [Hdrop]; · iexact Hdrop
    iexact Htok
  iexact Hrest

/-! ## The launch element of the ghost state, and what the launch hands the tiles -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
/-- The launch element: the handshakes' and the barrier cells' initial rounds, the staging cells' factor as given, no counters. -/
def u₀ (uP : UP) : UU := (initOf (K (F := F)).hsCells (K (F := F)).hsToks, (initOf bCells bToks, (uP, 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The launch element is its three factors, each in its own embedding. -/
theorem ownU_split (a : UH) (b : UB) (p : UP) :
    (ownU ((a, (b, (p, 1))) : UU) : sProp 𝕄) ⊢ iprop(BI.own (EH a) ∗ BI.own (EB b) ∗ BI.own (EP p)) := by
  refine (BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, ((p, 1) : UP × Counters)))))).trans (sep_mono_r ?_)
  exact BI.own_op_elim ((uEmb (nD := nD) (sig := sig) (Ix := HIx 1) (Val := Elt F) (Name := ℕ) (U := UU) (Lvl := ℕ)).toEmb.op_of_mem
    (Prod.mk_mem_op (URA.mem_op_one (1 : UH)) (Prod.mk_mem_op (URA.mem_op_one b) (URA.mem_one_op ((p, 1) : UP × Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- The SparseCore part of the launch: the handshakes' rounds and the staging cells' factor pass through; the barrier
    cells' factor, the credit and the free semaphores become every tile's barrier kit. -/
theorem hu₀_sc (uP : UP) : iprop(ownU (u₀ (F := F) uP) ∗ (P (F := F) m).oxCred ∗ (K (F := F)).freeSems0)
    ⊢ |={Set.univ}=> iprop(BI.own (EH (initOf (K (F := F)).hsCells (K (F := F)).hsToks)) ∗ BI.own (EP uP)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HP]; · iexact HP
  iapply (kits_deal m)
  isplitr
  · isplitl; · iexists κ; iexact Hinv'
    iexact Hr'
  isplitl [Hat']; · iexact Hat'
  isplitl [Htok']; · iexact Htok'
  iexact Hcred'

end Cert.Kernel.Hand

end
-- ==== Proof.KNodeBlock.lean ====
/-
  The block of the node result that one grid point of the TensorCore kernel stores, as ONE pure function of the two
  blocks it loads (2000 node indices; the 32-row padded node table): the generated payloads composed in the body's order.
  The body accumulates, over the 21 table rows v, the row broadcast down the block where the index equals v and zero
  elsewhere.
-/
import proofs.«205308_g19069654794752_retrytranche2_377_14_alg».proof.Proof.Gen.Kernel.Skeleton

noncomputable section

namespace Cert.Kernel.NodeVal

open Idealize.ShloMosaic Cert.Kernel Cert.Kernel.Gen

variable {F : FTy → Type} [FloatOps F]

/-- What the body stores into its output block, of the index block `v0` and the table block `v2` it loads. -/
def nodeBlock (v0 : Vec F S1x1x2000 .i32) (v2 : Vec F S32x128 .f32) : FVec F S2000x128 .f32 :=
  let z : F .f32 := Scalar.ofBits .f32 0x00000000#32
  let v3 := k1_pay2 v2
  let v6 := k1_pay3 (F := F) v0
  let v87 := k1_pay7 v3 v6 (k1_pay4 v0 v2) (k1_pay5 v2) (k1_pay6 (F := F) v0) z
  let v137 := k1_pay10 v3 v6 v87 (k1_pay8 v3) (k1_pay9 v6) z
  let v187 := k1_pay13 v3 v6 v137 (k1_pay11 v3) (k1_pay12 v6) z
  k1_pay1 v3 v6 v187 (k1_pay14 v3) (k1_pay15 v6) z

end Cert.Kernel.NodeVal

end
-- ==== Proof.KRegionBody.lean ====
/-
  The TensorCore kernel region inside the SparseCore program, first part: the whole-array function the region leaves in
  the node result, and the kernel body's triple on whole staging buffers.
-/
import proofs.«205308_g19069654794752_retrytranche2_377_14_alg».proof.Proof.KSetup
import proofs.«205308_g19069654794752_retrytranche2_377_14_alg».proof.Proof.KNodeBlock
import Idealize.ShloMosaic.Lib.Pipeline.Value
import Idealize.ShloMosaic.Lib.Pipeline.FrameBody
import Idealize.ShloMosaic.Lib.Pipeline.Frame

set_option maxRecDepth 16384

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The pipeline's tables: none, so one admissible contents. -/
abbrev adm : (p : Fin 1) → (pcfgs (F := F) p).Adm := fun p => (cfgs p).toPCfg_adm

/-- What the region leaves in the node result: row `2000 t + r` is row `r` of the block the body stores from block `t` of
    the indices and the whole table. -/
def nodeArr (a4 : IVec S5x1x2000 32) (a3 : FVec F S32x128 .f32) : FVec F S10000x128 .f32 :=
  fun j => NodeVal.nodeBlock (F := F)
    (fun y => a4 (ValueIdx.ix3 (n0 := 5) (n1 := 1) (n2 := 2000) ⟨(j 0).val / 2000, by have := (j 0).isLt; change (j 0).val < 10000 at this; omega⟩ 0 (y 2))) a3
    (ValueIdx.ix2 (n0 := 2000) (n1 := 128) ⟨(j 0).val % 2000, Nat.mod_lt _ (by decide)⟩ (j 1))

theorem nodeArr_apply (a4 : IVec S5x1x2000 32) (a3 : FVec F S32x128 .f32) (t : Fin 5) (r : Fin 2000) (l : Fin 128) :
    nodeArr a4 a3 (ValueIdx.ix2 (n0 := 10000) (n1 := 128) ⟨2000 * t.val + r.val, by have := t.isLt; have := r.isLt; omega⟩ l)
      = NodeVal.nodeBlock (F := F) (fun y => a4 (ValueIdx.ix3 (n0 := 5) (n1 := 1) (n2 := 2000) t 0 (y 2))) a3 (ValueIdx.ix2 (n0 := 2000) (n1 := 128) r l) := by
  have h1 : (2000 * t.val + r.val) / 2000 = t.val := by have := r.isLt; omega
  have h2 : (2000 * t.val + r.val) % 2000 = r.val := by have := r.isLt; omega
  unfold nodeArr
  congr 1
  · funext y; congr 1; funext a
    match a with
    | ⟨0, _⟩ => exact Fin.ext h1
    | ⟨1, _⟩ => rfl
    | ⟨2, _⟩ => rfl
  · funext a
    match a with
    | ⟨0, _⟩ => exact Fin.ext h2
    | ⟨1, _⟩ => rfl

/-! ## The body's triple -/

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in its output buffer, of the contents of its two input buffers: its one store, of the whole
    block, of the block computed from the two whole-buffer loads. -/
def outBlk (x0 : Vec F S1x1x2000 .i32) (x1 : Vec F S32x128 .f32) : Vec F S2000x128 .f32 :=
  View.canon [⟨Rect.unit (s := S2000x128) ![0, 0] S2000x128.size inb_S2000x128_S2000x128_0_0,
    NodeVal.nodeBlock (View.ld x0 (Rect.unit (s := S1x1x2000) ![0, 0, 0] S1x1x2000.size inb_S1x1x2000_S1x1x2000_0_0_0))
      (View.ld x1 (Rect.unit (s := S32x128) ![0, 0] S32x128.size inb_S32x128_S32x128_0_0))⟩]

/-- The store covers the buffer and the loads read the buffers whole: the buffer holds the computed block. -/
theorem outBlk_eq (x0 : Vec F S1x1x2000 .i32) (x1 : Vec F S32x128 .f32) : outBlk x0 x1 = NodeVal.nodeBlock x0 x1 := by
  unfold outBlk
  rw [View.canon_unit_zero hz2, View.ld_unit_zero (S := S1x1x2000) hz3, View.ld_unit_zero (S := S32x128) hz2]

set_option maxHeartbeats 1000000 in
/-- The kernel body on whole staging memrefs, the index block at `x0`, the table block at `x1`, the output block at
    anything, runs to the continuation holding the inputs as they were and the output at what the body leaves. -/
theorem sound_kernel (c : Dev nD) (E : Set ℕ) (i : grid1.Coords) (arg1 : Memref sig .tc .vmem S1x1x2000 .i32) (harg1 : arg1.IsWhole)
    (arg2 : Memref sig .tc .vmem S32x128 .f32) (harg2 : arg2.IsWhole) (arg3 : Memref sig .tc .vmem S2000x128 .f32) (harg3 : arg3.IsWhole)
    (x0 : Vec F S1x1x2000 .i32) (x1 : Vec F S32x128 .f32) (Kc : PUnit → sProp 𝕄) :
    iprop(owns (c : Thread nD τ) arg1 fullShare x0 ∗ owns (c : Thread nD τ) arg2 fullShare x1 ∗ (∃ y, owns (c : Thread nD τ) arg3 fullShare y)
        ∗ (iprop(owns (c : Thread nD τ) arg1 fullShare x0 ∗ owns (c : Thread nD τ) arg2 fullShare x1
            ∗ owns (c : Thread nD τ) arg3 fullShare (outBlk x0 x1)) -∗ Kc ⟨⟩))
      ⊢ wp frame (wpE (defs₀ (F := F)) Variants.none c none) E (cc1__node_tc_body i arg1 harg1 arg2 harg2 arg3 harg3) Kc := by
  simp only [cc1__node_tc_body_eq_skeleton]; unfold cc1__node_tc_body_skel
  unfold owns
  iintro ⟨⟨%f0, %hf0, H0⟩, ⟨%f1, %hf1, H1⟩, ⟨%y2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2000x128.size (by rfl))

end Cert.Kernel.Hand

end
-- ==== Proof.KRegionData.lean ====
/-
  The TensorCore kernel region inside the SparseCore program, second part: the pipeline's proof data. The region is the
  pipeline of five grid points over three windows: the node indices (a 1x1x2000 block per point), the padded node table
  (whole, fetched once) and the node result (a 2000x128 block per point, written back at every point). The proof data
  name, per point, the two blocks the body loads and the block it stores; the blocks written back tile the result,
  which therefore ends as one whole-array function of the indices and the table.
-/
import proofs.«205308_g19069654794752_retrytranche2_377_14_alg».proof.Proof.KRegionBody
import Idealize.ShloMosaic.Lib.Pipeline.Value
import Idealize.ShloMosaic.Lib.Pipeline.FrameBody
import Idealize.ShloMosaic.Lib.Pipeline.Frame

set_option maxRecDepth 16384

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The proof data -/

section Data

variable (d : Dev nD) (a4 : IVec S5x1x2000 32) (a3 : FVec F S32x128 .f32) (a5 : FVec F S10000x128 .f32)

/-- The windows' arrays as the region finds them. -/
def arr1 : (w : Fin cfg1.W) → Buf (Elt F) ((cfg1.win w).arr.view.loc (d.tc : Thread nD τ))
  | ⟨0, _⟩ => a4
  | ⟨1, _⟩ => a3
  | ⟨2, _⟩ => a5

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (arr1 d a4 a3 a5 w)

/-- The recorded pairs the TensorCore may hold in the region: those at or below the level bound it enters with. -/
def recB : Set (SemLoc sig × HIx 1) := {p | (K (F := F)).lev (SparseCore.T d, p.1) p.2 ≤ 8 * 1}

/-- The proof data: each input's buffer holds its block after the body, the output's what the body leaves of them; the
    invariant is the scoped buffers no window stages; nothing is owed. -/
def rdat : Dat τ (Elt F) (HIx 1) ℕ UU ℕ cfg1 d where
  A := arr1 d a4 a3 a5
  after w t := match w with
    | ⟨0, _⟩ => iblk d a4 a3 a5 0 t
    | ⟨1, _⟩ => iblk d a4 a3 a5 1 t
    | ⟨2, _⟩ => outBlk (iblk d a4 a3 a5 0 t) (iblk d a4 a3 a5 1 t)
  Φ _ := Pipeline.scopedRest spec1 d
  q _ := fullShare
  owed _ := 0
  recorded _ := recB (F := F) d

theorem after_0 (t : Fin cfg1.N) : (rdat d a4 a3 a5).after 0 t = iblk d a4 a3 a5 0 t := by dsimp only [rdat]
theorem after_1 (t : Fin cfg1.N) : (rdat d a4 a3 a5).after 1 t = iblk d a4 a3 a5 1 t := by dsimp only [rdat]
theorem after_2 (t : Fin cfg1.N) : (rdat d a4 a3 a5).after 2 t = outBlk (iblk d a4 a3 a5 0 t) (iblk d a4 a3 a5 1 t) := by dsimp only [rdat]

/-- Each input's current staging buffer holds its block at every point, fetched there or not. -/
theorem before_0 (t : Fin cfg1.N) (y) : (rdat d a4 a3 a5).before 0 t y = iblk d a4 a3 a5 0 t :=
  ((rdat d a4 a3 a5).before_in_eq_fetched 0 rfl (fun _ => rfl) (fun _ _ _ => rfl) (fun t => by rw [after_0]; rfl) t y).trans
    (by unfold Dat.fetched Dat.blockOf iblk; rfl)
theorem before_1 (t : Fin cfg1.N) (y) : (rdat d a4 a3 a5).before 1 t y = iblk d a4 a3 a5 1 t :=
  ((rdat d a4 a3 a5).before_in_eq_fetched 1 rfl (fun _ => rfl) (fun _ _ _ => rfl) (fun t => by rw [after_1]; rfl) t y).trans
    (by unfold Dat.fetched Dat.blockOf iblk; rfl)

/-! ## The body obligation -/

/-- What the body is called with at point `t`, the windows one by one, -/
def bodyPre (t : Fin cfg1.N) : sProp 𝕄 :=
  iprop((rdat d a4 a3 a5).Φ t.castSucc ∗ (rdat d a4 a3 a5).owesAt none t.castSucc
    ∗ (∃ y, owns (d : Thread nD τ) (st1_0 t) fullShare ((rdat d a4 a3 a5).before 0 t y))
    ∗ (∃ y, owns (d : Thread nD τ) (st1_1 t) fullShare ((rdat d a4 a3 a5).before 1 t y))
    ∗ (∃ y, owns (d : Thread nD τ) (st1_2 t) fullShare ((rdat d a4 a3 a5).before 2 t y)))

/-- and what it returns. -/
def bodyPost (t : Fin cfg1.N) : sProp 𝕄 :=
  iprop((rdat d a4 a3 a5).Φ t.succ ∗ (rdat d a4 a3 a5).owesAt none t.succ
    ∗ owns (d : Thread nD τ) (st1_0 t) fullShare ((rdat d a4 a3 a5).after 0 t)
    ∗ owns (d : Thread nD τ) (st1_1 t) fullShare ((rdat d a4 a3 a5).after 1 t)
    ∗ owns (d : Thread nD τ) (st1_2 t) fullShare ((rdat d a4 a3 a5).after 2 t))

/-- The body at any point: the inputs' memrefs hold their blocks, so the body's triple applies; the invariant and the
    core's owed tallies pass through unread. -/
theorem sound_body (t : Fin cfg1.N) :
    bodyPre d a4 a3 a5 t ⊢ wp frame (wpE (defs₀ (F := F)) Variants.none d none) Set.univ (bodyAt1 t) (fun _ => bodyPost d a4 a3 a5 t) := by
  unfold bodyPre bodyPost bodyAt1
  simp only [before_0, before_1]
  rw [show (rdat d a4 a3 a5).Φ t.succ = (rdat d a4 a3 a5).Φ t.castSucc from rfl,
    show (rdat d a4 a3 a5).owesAt none t.succ = (rdat d a4 a3 a5).owesAt none t.castSucc from rfl,
    after_0, after_1, after_2]
  iintro ⟨HΦ, Ho, ⟨%d0, H0⟩, ⟨%d1, H1⟩, ⟨%d2, H2⟩⟩
  iapply (sound_kernel d Set.univ (grid1.coords t) _ _ _ _ _ _ (iblk d a4 a3 a5 0 t) (iblk d a4 a3 a5 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation : BodyObligation (rdat (F := F) d a4 a3 a5) (defs₀ (F := F)) Variants.none (none : HIx 1) Set.univ := fun t => by
  rw [bigSep_W1, bigSep_W1]
  exact sound_body d a4 a3 a5 t

/-! ## What the arrays hold at the exit -/

/-- The printed index maps, decided over the grid: point `t` takes block `t` of the indices, the whole table, and
    block `t` of the result. -/
theorem idx_facts : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the indices and the table. -/
theorem flushed_eq (t : Fin cfg1.N) :
    (rdat d a4 a3 a5).flushed 2 t = ((cfg1.win 2).blk t).view.read (Elt F) (nodeArr a4 a3) := by
  show (cfg1.win 2).cut (grid1.coords t) ((rdat d a4 a3 a5).after 2 t) = _
  rw [after_2, outBlk_eq]
  obtain ⟨e0, e1, e2, e3, e4, e5, e6⟩ := idx_facts t
  funext j
  have hj0 : (j 0).val < 2000 := (j 0).isLt
  show NodeVal.nodeBlock (iblk d a4 a3 a5 0 t) (iblk d a4 a3 a5 1 t) j = nodeArr a4 a3 (((cfg1.win 2).blk t).view.emb j)
  have hv0 : ((((cfg1.win 2).blk t).view.emb j) 0).val = win1_2.index t (0 : Fin 2) * 2000 + 1 * (j 0).val := rfl
  have hv1 : ((((cfg1.win 2).blk t).view.emb j) 1).val = win1_2.index t (1 : Fin 2) * 128 + 1 * (j 1).val := rfl
  unfold nodeArr
  congr 1
  · funext y
    have hy0 : (y 0).val < 1 := (y 0).isLt
    have hy1 : (y 1).val < 1 := (y 1).isLt
    show a4 (((cfg1.win 0).blk t).view.emb y) = _
    congr 1; funext a; apply Fin.ext
    match a with
    | ⟨0, _⟩ => show win1_0.index t (0 : Fin 3) * 1 + 1 * (y 0).val = ((((cfg1.win 2).blk t).view.emb j) 0).val / 2000; rw [hv0]; omega
    | ⟨1, _⟩ => show win1_0.index t (1 : Fin 3) * 1 + 1 * (y 1).val = 0; omega
    | ⟨2, _⟩ => show win1_0.index t (2 : Fin 3) * 2000 + 1 * (y 2).val = (y 2).val; omega
  · funext y
    show a3 (((cfg1.win 1).blk t).view.emb y) = a3 y
    congr 1; funext a; apply Fin.ext
    match a with
    | ⟨0, _⟩ => show win1_1.index t (0 : Fin 2) * 32 + 1 * (y 0).val = (y 0).val; omega
    | ⟨1, _⟩ => show win1_1.index t (1 : Fin 2) * 128 + 1 * (y 1).val = (y 1).val; omega
  · funext a; apply Fin.ext
    match a with
    | ⟨0, _⟩ => show (j 0).val = ((((cfg1.win 2).blk t).view.emb j) 0).val % 2000; rw [hv0]; omega
    | ⟨1, _⟩ => show (j 1).val = ((((cfg1.win 2).blk t).view.emb j) 1).val; rw [hv1]; omega

/-- An index of the result is in point `t`'s block iff each coordinate is in the block's range on its axis. -/
theorem mem_blk (t : Fin cfg1.N) (i : S10000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v5).slice (win1_2.rect t)).set ↔ _
  rw [View.set_slice_whole, Rect.mem_set_unit]
  exact Iff.rfl

/-- The five blocks tile the result. -/
theorem covered (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  let t : Fin cfg1.N := ⟨(i 0).val / 2000, by rw [show cfg1.N = 5 from N_1]; omega⟩
  obtain ⟨-, -, -, -, -, e5, e6⟩ := idx_facts t
  have e5' : win1_2.index t (0 : Fin 2) = (i 0).val / 2000 := e5
  refine ⟨t, flush1_2 t, (mem_blk t i).mpr fun a => ?_⟩
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

theorem arrAt_0 : (rdat d a4 a3 a5).arrAt 0 cfg1.N = a4 := (rdat d a4 a3 a5).arrAt_in 0 rfl _
theorem arrAt_1 : (rdat d a4 a3 a5).arrAt 1 cfg1.N = a3 := (rdat d a4 a3 a5).arrAt_in 1 rfl _
/-- The result ends as the whole-array function, whatever it held. -/
theorem arrAt_2 : (rdat d a4 a3 a5).arrAt 2 cfg1.N = nodeArr a4 a3 :=
  (rdat d a4 a3 a5).arrAt_eq_of_cover 2 (nodeArr a4 a3) (fun t _ => flushed_eq d a4 a3 a5 t) covered

end Data

end Cert.Kernel.Hand

end
-- ==== Proof.KRegion.lean ====
/-
  The TensorCore kernel region inside the SparseCore program, third part: the staging cells' launch ghost state, the
  region's entry and exit thread states, the region as the library's kernel region over them, and the region's step:
  from the boundary and the entry state the call runs to the boundary and the exit state, the node result at the
  whole-array function of the indices and the padded table.
-/
import proofs.«205308_g19069654794752_retrytranche2_377_14_alg».proof.Proof.KRegionData
import Idealize.ShloMosaic.Lib.Pipeline.Value
import Idealize.ShloMosaic.Lib.Pipeline.FrameBody
import Idealize.ShloMosaic.Lib.Pipeline.Frame

set_option maxRecDepth 16384

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The staging cells' launch ghost state -/

/-- The staging cells' ghost state on device `d`: each cell's launch state and the duty tokens of the transfers the
    pipeline issues. -/
def GP (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- The launch element of the staging cells' rounds. -/
def uP : UP := initOf (Pipeline.cells (nD := nD) (τ := τ) (Pipeline.pin (pcfgs (F := F)) adm) cellOf_inj) (Pipeline.launchToks (nD := nD) (τ := τ) (Pipeline.pin (pcfgs (F := F)) adm) cellOf_inj)

/-- The launch element funds every device's staging cells. -/
theorem fundP : (BI.own ((EP (F := F)) (uP (F := F))) : sProp 𝕄) ⊢ |==> bigSep Finset.univ (GP (F := F)) := by
  refine (Pipeline.fund_ghost (Pipeline.pin (pcfgs (F := F)) adm) (EP (F := F)) cellOf_inj).trans (bupd_mono ?_)
  have e : ∀ Φ : Fin 1 → sProp 𝕄, bigSep Finset.univ Φ = Φ 0 := fun Φ => by
    rw [show (Finset.univ : Finset (Fin 1)) = {0} from rfl, bigSep_singleton]
  simp only [e]
  unfold GP; exact BI.Entails.refl _

/-! ## The region's thread states -/

section States

variable (d : Dev nD) (a4 : IVec S5x1x2000 32) (a3 : FVec F S32x128 .f32)

/-- What the TensorCore owes when the SparseCore call has returned, with the level bound on its recorded pairs. -/
abbrev owesTC : sProp 𝕄 :=
  iprop(∃ W, ⌜(K (F := F)).WBelow (SparseCore.T d) W (8 * 1)⌝ ∗ owes (SparseCore.T d) ((K (F := F)).Otc d 1) W)

/-- The region is entered holding the index array, the padded table, the result at anything, and what the core owes. -/
def regionPre : sProp 𝕄 :=
  iprop(((SparseCore.T d).loc main_v4 ↦{fullShare} a4) ∗ ((SparseCore.T d).loc main_v3 ↦{fullShare} a3)
    ∗ (∃ f, (SparseCore.T d).loc main_v5 ↦{fullShare} f) ∗ owesTC (F := F) d)

/-- It is left holding the same, the result now the whole-array function of the indices and the table. -/
def regionPost : sProp 𝕄 :=
  iprop(((SparseCore.T d).loc main_v4 ↦{fullShare} a4) ∗ ((SparseCore.T d).loc main_v3 ↦{fullShare} a3)
    ∗ ((SparseCore.T d).loc main_v5 ↦{fullShare} nodeArr a4 a3) ∗ owesTC (F := F) d)

end States

/-! ## The region -/

section Region

variable (a4 : IVec S5x1x2000 32) (a3 : FVec F S32x128 .f32) (a5 : FVec F S10000x128 .f32)

/-- The one pipeline's proof data on every device. -/
def pdats : (p : Fin 1) → (c : Dev nD) → Dat τ (Elt F) (HIx 1) ℕ UU ℕ (Pipeline.pin (pcfgs (F := F)) adm p) c :=
  fun _ c => rdat c a4 a3 a5

/-- After its one SparseCore call the TensorCore owes no start signal. -/
theorem Otc_one (d : Dev nD) : (K (F := F)).Otc d 1 = 0 := (K (F := F)).Otc_end d le_rfl

/-- The same with nothing owed spelt so. -/
theorem owesTC_eq (d : Dev nD) : owesTC (F := F) d
    = iprop(∃ W, ⌜(K (F := F)).WBelow (SparseCore.T d) W (8 * 1)⌝ ∗ owes (SparseCore.T d) (0 : CellTallies nD τ sig (HIx 1)) W) := by
  show iprop(∃ W, ⌜(K (F := F)).WBelow (SparseCore.T d) W (8 * 1)⌝ ∗ owes (SparseCore.T d) ((K (F := F)).Otc d 1) W) = _
  rw [Otc_one]

/-- The region's entry state with the result's contents named. -/
def regPre (c : Dev nD) : sProp 𝕄 :=
  iprop(((SparseCore.T c).loc main_v4 ↦{fullShare} a4) ∗ ((SparseCore.T c).loc main_v3 ↦{fullShare} a3)
    ∗ ((SparseCore.T c).loc main_v5 ↦{fullShare} a5) ∗ owesTC (F := F) c)

/-- The pipeline's arrays at the entry are the three buffers as held; -/
theorem arrays_entry (c : Dev nD) : (pdats a4 a3 a5 0 c).arrays ((pdats a4 a3 a5 0 c).arrAt · 0)
    = (iprop(((SparseCore.T c).loc main_v4 ↦{fullShare} a4) ∗ ((SparseCore.T c).loc main_v3 ↦{fullShare} a3)
        ∗ ((SparseCore.T c).loc main_v5 ↦{fullShare} a5)) : sProp 𝕄) := by
  rw [Pipeline.arrays_eq cfgs (pdats a4 a3 a5) 0 c launch1.arr_whole ((pdats a4 a3 a5 0 c).share_full fun _ => rfl), bigSep_W1]
  rfl

/-- at the exit, the inputs as held and the result at the whole-array function. -/
theorem arrays_exit (c : Dev nD) : (pdats a4 a3 a5 0 c).arrays ((pdats a4 a3 a5 0 c).arrAt · (Pipeline.pin (pcfgs (F := F)) adm 0).N)
    = (iprop(((SparseCore.T c).loc main_v4 ↦{fullShare} a4) ∗ ((SparseCore.T c).loc main_v3 ↦{fullShare} a3)
        ∗ ((SparseCore.T c).loc main_v5 ↦{fullShare} nodeArr a4 a3)) : sProp 𝕄) := by
  rw [Pipeline.arrays_eq cfgs (pdats a4 a3 a5) 0 c launch1.arr_whole ((pdats a4 a3 a5 0 c).share_full fun _ => rfl), bigSep_W1,
    show (pdats a4 a3 a5 0 c).arrAt 0 (Pipeline.pin (pcfgs (F := F)) adm 0).N = a4 from arrAt_0 c a4 a3 a5,
    show (pdats a4 a3 a5 0 c).arrAt 1 (Pipeline.pin (pcfgs (F := F)) adm 0).N = a3 from arrAt_1 c a4 a3 a5,
    show (pdats a4 a3 a5 0 c).arrAt 2 (Pipeline.pin (pcfgs (F := F)) adm 0).N = nodeArr a4 a3 from arrAt_2 c a4 a3 a5]

/-- The pipeline's invariant is the scoped buffers no window stages, at every point. -/
theorem Φ_eq (c : Dev nD) (t : Fin ((Pipeline.pin (pcfgs (F := F)) adm 0).N + 1)) :
    (pdats a4 a3 a5 0 c).Φ t = (Pipeline.scopedRest (Pipeline.pin (pcfgs (F := F)) adm 0).spec c : sProp 𝕄) := rfl

set_option maxHeartbeats 1000000 in
set_option backward.isDefEq.respectTransparency.types false in
/-- The region over the entry and exit states: its arrays are the three buffers held, nothing else enters the
    pipeline's invariant, the kernel has no semaphore of its own, nothing is owed. -/
def reg : Pipeline.RegionSeg (pcfgs (F := F)) adm (pdats a4 a3 a5) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation c a4 a3 a5).loose
  hwaits := Pipeline.hwaits_of_owed_zero _ _ _ _ _ _ 0 fun _ _ => rfl
  pre c := regPre a4 a3 a5 c
  post c := regionPost c a4 a3
  X _ := iprop(emp)
  Y _ := iprop(emp)
  Z _ := iprop(emp)
  hentry c := by
    rw [Pipeline.ownSems0_none, arrays_entry a4 a3 a5 c]
    unfold regPre Pipeline.Dat.owesAt Pipeline.owesWithin
    rw [owesTC_eq, show (pdats a4 a3 a5 0 c).owed 0 = 0 from rfl]
    iintro ⟨⟨H4, H3, H5, ⟨%W, %hW, HO⟩⟩, -, -⟩
    imodintro
    isplitl [H4 H3 H5]
    · isplitl [H4]; · iexact H4
      isplitl [H3]; · iexact H3
      iexact H5
    isplitr; · unfold Pipeline.prefHeld; rw [show (Finset.univ : Finset (Fin 0)) = ∅ from rfl, BI.bigSep_empty]; iempintro
    isplitl [HO]
    · iexists W; isplitr
      · ipureintro; exact fun p hp => Or.inl (hW p hp)
      iexact HO
    isplitr; · iempintro
    iempintro
  hin c := by
    rw [Φ_eq a4 a3 a5 c]
    iintro ⟨-, -, Hr⟩; iexact Hr
  hout c := by
    rw [Pipeline.ownSems0_none, Φ_eq a4 a3 a5 c]
    iintro Hr
    isplitr; · iempintro
    isplitr; · iempintro
    iexact Hr
  hexit c := by
    rw [arrays_exit a4 a3 a5 c]
    unfold regionPost Pipeline.Dat.owesAt Pipeline.owesWithin
    rw [owesTC_eq, show (pdats a4 a3 a5 0 c).owed (Fin.last (Pipeline.pin (pcfgs (F := F)) adm 0).N) = 0 from rfl]
    iintro ⟨⟨H4, H3, H5⟩, ⟨%W, %hW, HO⟩, -, -⟩
    imodintro
    isplitl [H4]; · iexact H4
    isplitl [H3]; · iexact H3
    isplitl [H5]; · iexact H5
    iexists W; isplitr
    · ipureintro
      intro p hp
      rcases (hW (Finset.mem_coe.mpr hp) : p ∈ recB (F := F) c ∨ p ∈ Pipeline.Cfg.waitPairs cfg1 (none : HIx 1)) with h | ⟨w, s, rfl⟩
      · exact h
      · exact Nat.zero_le _
    iexact HO

theorem reg_pre (c : Dev nD) : (reg a4 a3 a5).pre c = regPre a4 a3 a5 c := rfl
theorem reg_post (c : Dev nD) : (reg a4 a3 a5).post c = regionPost c a4 a3 := rfl

end Region

set_option backward.isDefEq.respectTransparency.types false in
/-- The region's step on device `d`: from the boundary, the region's entry state, the level facts and the staging cells'
    ghost state, the call runs to the boundary and the exit state for the continuation. -/
theorem region_wp (d : Dev nD) (a4 : IVec S5x1x2000 32) (a3 : FVec F S32x128 .f32) {α : Type}
    (k : PUnit → Prog (TpuEff nD τ sig (Elt F) (ΛP (F := F)) .tc) α) (Q : α → sProp 𝕄) :
    iprop((iprop(boundary (SparseCore.T d) ∗ regionPost d a4 a3) -∗ wp frame (wpE (D (F := F)) 𝒱 (SparseCore.T d) none) Set.univ (k ⟨⟩) Q)
        ∗ boundary (SparseCore.T d) ∗ regionPre d a4 a3 ∗ levAts (K (F := F)).L (K (F := F)).lev ∗ GP d)
      ⊢ wp frame (wpE (D (F := F)) 𝒱 (SparseCore.T d) none) Set.univ (.op (.customCall (Pipeline.entry 0) ()) k) Q := by
  unfold regionPre GP
  iintro ⟨Hk, Hb, ⟨H4, H3, ⟨%f, H5⟩, HO⟩, Hlev, Hg, Ht⟩
  have hwp := Pipeline.RegionSeg.wp (pcfgs (F := F)) adm (pdats a4 a3 f) (none : HIx 1) cellOf_inj (EP (F := F)) defs₀ 𝒱₀ (K (F := F)).L (K (F := F)).lev
    (reg a4 a3 f) d none (fun _ h => nomatch h) k Q
  rw [reg_pre, reg_post] at hwp
  unfold regPre at hwp
  iapply hwp
  isplitl [Hk]; · iexact Hk
  isplitl [Hb]; · iexact Hb
  isplitl [H4 H3 H5 HO]
  · isplitl [H4]; · iexact H4
    isplitl [H3]; · iexact H3
    isplitl [H5]; · iexact H5
    iexact HO
  isplitl [Hlev]; · iexact Hlev
  isplitl [Hg]; · iexact Hg
  iexact Ht

end Cert.Kernel.Hand

end
-- ==== Proof.KMain.lean ====
/-
  @main on the TensorCore, the launch and the program's run: the SparseCore call that computes the edge lookup, the host
  operations that pad the node table and reshape the node indices, the TensorCore kernel region that computes the node
  lookup, and what the final memory then holds.
-/
import proofs.«205308_g19069654794752_retrytranche2_377_14_alg».proof.Proof.KDeal
import proofs.«205308_g19069654794752_retrytranche2_377_14_alg».proof.Proof.KRegion

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within seq after wp_seq)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## What the host operations compute -/

/-- The node table written at row 0 of a 32-row zero array: the table block of the node-lookup kernel. -/
def a3Of (d : Dev nD) : FVec F S32x128 .f32 :=
  Host.scatter scatter_S32x128_S1_S21x128_01_n_0_0 (fun _ b => b)
    (broadcastInDim S32x128 ![] bcast_S_S32x128 (constant S_ .f32 0x00000000#32))
    (broadcastInDim S1 ![] bcast_S_S1 (constantI S_ 32 0#32)) (m ((SparseCore.T d).loc main_arg2))

/-- The node indices reshaped into five blocks of two thousand. -/
def a4Of (d : Dev nD) : IVec S5x1x2000 32 :=
  shapeCast S5x1x2000 (m ((SparseCore.T d).loc main_arg0)) shapeCasts_S10000_S5x1x2000

/-! ## The TensorCore's arrays -/

omit [FloatOps F] in
/-- The TensorCore's unscoped buffers are its twelve HBM arrays. -/
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
        ∗ ((SparseCore.T d).loc main_arg2 ↦{fullShare} W main_arg2) ∗ ((SparseCore.T d).loc main_arg3 ↦{fullShare} W main_arg3)
        ∗ ((SparseCore.T d).loc main_v0 ↦{fullShare} W main_v0) ∗ ((SparseCore.T d).loc main_cst ↦{fullShare} W main_cst)
        ∗ ((SparseCore.T d).loc main_v1 ↦{fullShare} W main_v1) ∗ ((SparseCore.T d).loc main_c ↦{fullShare} W main_c)
        ∗ ((SparseCore.T d).loc main_v2 ↦{fullShare} W main_v2) ∗ ((SparseCore.T d).loc main_v3 ↦{fullShare} W main_v3)
        ∗ ((SparseCore.T d).loc main_v4 ↦{fullShare} W main_v4) ∗ (SparseCore.T d).loc main_v5 ↦{fullShare} W main_v5) := by
  unfold unscopedBufs
  rw [show (Finset.univ.filter fun b : Ref sig .tc => ¬ b.isScoped)
      = {main_arg0, main_arg1, main_arg2, main_arg3, main_v0, main_cst, main_v1, main_c, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## @main's lines -/

/-- The six host operations between the SparseCore call and the TensorCore kernel, in order. -/
abbrev hostOps : List (HloOp τ sig (Elt F)) :=
  [StableHlo.nullary main_cst (constant S_ .f32 0x00000000#32),
   StableHlo.unary main_cst main_v1 (broadcastInDim S32x128 ![] bcast_S_S32x128 : (⟨S_, .f32⟩ : BufTy).Contents (Elt F) → (⟨S32x128, .f32⟩ : BufTy).Contents (Elt F)),
   StableHlo.nullary main_c (constantI S_ 32 0#32),
   StableHlo.unary main_c main_v2 (broadcastInDim S1 ![] bcast_S_S1 : (⟨S_, .i32⟩ : BufTy).Contents (Elt F) → (⟨S1, .i32⟩ : BufTy).Contents (Elt F)),
   StableHlo.ternary main_v1 main_v2 main_arg2 main_v3 ((fun x i u => Host.scatter scatter_S32x128_S1_S21x128_01_n_0_0 (fun _ b => b) x i u) : (⟨S32x128, .f32⟩ : BufTy).Contents (Elt F) → (⟨S1, .i32⟩ : BufTy).Contents (Elt F) → (⟨S21x128, .f32⟩ : BufTy).Contents (Elt F) → (⟨S32x128, .f32⟩ : BufTy).Contents (Elt F)),
   StableHlo.reshape main_arg0 main_v4 rfl shapeCasts_S10000_S5x1x2000]

/-- The TensorCore kernel's call, in the program's own signature. -/
abbrev regionCall : Prog (TpuEff nD τ sig (Elt F) (ΛP (F := F)) .tc) PUnit := .op (.customCall (Pipeline.entry 0) ()) fun _ => .ret ⟨⟩

/-- @main is the SparseCore call, the line of host operations, the TensorCore kernel's call. -/
theorem main_eq (d : Dev nD) :
    main (F := F) d = ((K (F := F)).run d 0 >>= fun _ => (seq hostOps >>= fun _ => SparseCore.liftProg (Q := 1) regionCall)) := rfl

/-! ## The TensorCore's twelve arrays held whole -/

abbrev rArg0 : DevRef τ sig := Proc.devRef .tc (main_arg0 : Ref sig .tc)
abbrev rArg1 : DevRef τ sig := Proc.devRef .tc (main_arg1 : Ref sig .tc)
abbrev rArg2 : DevRef τ sig := Proc.devRef .tc (main_arg2 : Ref sig .tc)
abbrev rArg3 : DevRef τ sig := Proc.devRef .tc (main_arg3 : Ref sig .tc)
abbrev rV0 : DevRef τ sig := Proc.devRef .tc (main_v0 : Ref sig .tc)
abbrev rCst : DevRef τ sig := Proc.devRef .tc (main_cst : Ref sig .tc)
abbrev rV1 : DevRef τ sig := Proc.devRef .tc (main_v1 : Ref sig .tc)
abbrev rC : DevRef τ sig := Proc.devRef .tc (main_c : Ref sig .tc)
abbrev rV2 : DevRef τ sig := Proc.devRef .tc (main_v2 : Ref sig .tc)
abbrev rV3 : DevRef τ sig := Proc.devRef .tc (main_v3 : Ref sig .tc)
abbrev rV4 : DevRef τ sig := Proc.devRef .tc (main_v4 : Ref sig .tc)
abbrev rV5 : DevRef τ sig := Proc.devRef .tc (main_v5 : Ref sig .tc)

/-- The TensorCore's arrays, all unscoped. -/
abbrev S12 : Finset (DevRef τ sig) := {rArg0, rArg1, rArg2, rArg3, rV0, rCst, rV1, rC, rV2, rV3, rV4, rV5}

omit [FloatOps F] in
theorem held_S12 (d : Dev nD) (W : Valuation τ sig (Elt F)) :
    (held (T d) S12 W : sProp 𝕄)
      = iprop(((SparseCore.T d).loc main_arg0 ↦{fullShare} W rArg0) ∗ ((SparseCore.T d).loc main_arg1 ↦{fullShare} W rArg1)
        ∗ ((SparseCore.T d).loc main_arg2 ↦{fullShare} W rArg2) ∗ ((SparseCore.T d).loc main_arg3 ↦{fullShare} W rArg3)
        ∗ ((SparseCore.T d).loc main_v0 ↦{fullShare} W rV0) ∗ ((SparseCore.T d).loc main_cst ↦{fullShare} W rCst)
        ∗ ((SparseCore.T d).loc main_v1 ↦{fullShare} W rV1) ∗ ((SparseCore.T d).loc main_c ↦{fullShare} W rC)
        ∗ ((SparseCore.T d).loc main_v2 ↦{fullShare} W rV2) ∗ ((SparseCore.T d).loc main_v3 ↦{fullShare} W rV3)
        ∗ ((SparseCore.T d).loc main_v4 ↦{fullShare} W rV4) ∗ (SparseCore.T d).loc main_v5 ↦{fullShare} W rV5) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation; after the SparseCore call, the edge result at the lookup. -/
def V0 (d : Dev nD) : Valuation τ sig (Elt F) := fun b => m (d, b)
def V1 (d : Dev nD) : Valuation τ sig (Elt F) := Function.update (V0 m d) rV0 (edgeOut m d)

theorem V1_v0 (d : Dev nD) : V1 m d rV0 = edgeOut m d := Function.update_self _ _ _
theorem V1_ne (d : Dev nD) {b : DevRef τ sig} (h : b ≠ rV0) : V1 m d b = m (d, b) := Function.update_of_ne h _ _

/-! ## What the line of host operations leaves -/

set_option maxRecDepth 8192 in
/-- The padded table's array holds the scatter of the node table into the zero array. -/
theorem after_v3 (W : Valuation τ sig (Elt F)) :
    after hostOps W rV3 = Host.scatter scatter_S32x128_S1_S21x128_01_n_0_0 (fun _ b => b)
      (broadcastInDim S32x128 ![] bcast_S_S32x128 (constant S_ .f32 0x00000000#32))
      (broadcastInDim S1 ![] bcast_S_S1 (constantI S_ 32 0#32)) (W rArg2) := by
  after_results_simp
  try rfl

set_option maxRecDepth 8192 in
/-- The index blocks' array holds the node indices reshaped. -/
theorem after_v4 (W : Valuation τ sig (Elt F)) :
    after hostOps W rV4 = shapeCast S5x1x2000 (W rArg0) shapeCasts_S10000_S5x1x2000 := by
  after_results_simp
  try rfl

set_option maxRecDepth 8192 in
theorem after_arg0 (W : Valuation τ sig (Elt F)) : after hostOps W rArg0 = W rArg0 := by
  after_results_simp
  try rfl
set_option maxRecDepth 8192 in
theorem after_arg1 (W : Valuation τ sig (Elt F)) : after hostOps W rArg1 = W rArg1 := by
  after_results_simp
  try rfl
set_option maxRecDepth 8192 in
theorem after_arg2 (W : Valuation τ sig (Elt F)) : after hostOps W rArg2 = W rArg2 := by
  after_results_simp
  try rfl
set_option maxRecDepth 8192 in
theorem after_arg3 (W : Valuation τ sig (Elt F)) : after hostOps W rArg3 = W rArg3 := by
  after_results_simp
  try rfl
set_option maxRecDepth 8192 in
theorem after_v0 (W : Valuation τ sig (Elt F)) : after hostOps W rV0 = W rV0 := by
  after_results_simp
  try rfl
set_option maxRecDepth 8192 in
theorem after_v5 (W : Valuation τ sig (Elt F)) : after hostOps W rV5 = W rV5 := by
  after_results_simp
  try rfl

/-! ## The arrays before and after the line -/

theorem held_V1 (d : Dev nD) :
    (held (T d) S12 (V1 m d) : sProp 𝕄)
      = iprop(((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ ((SparseCore.T d).loc main_arg3 ↦{fullShare} m ((SparseCore.T d).loc main_arg3))
        ∗ ((SparseCore.T d).loc main_v0 ↦{fullShare} edgeOut m d) ∗ ((SparseCore.T d).loc main_cst ↦{fullShare} m ((SparseCore.T d).loc main_cst))
        ∗ ((SparseCore.T d).loc main_v1 ↦{fullShare} m ((SparseCore.T d).loc main_v1)) ∗ ((SparseCore.T d).loc main_c ↦{fullShare} m ((SparseCore.T d).loc main_c))
        ∗ ((SparseCore.T d).loc main_v2 ↦{fullShare} m ((SparseCore.T d).loc main_v2)) ∗ ((SparseCore.T d).loc main_v3 ↦{fullShare} m ((SparseCore.T d).loc main_v3))
        ∗ ((SparseCore.T d).loc main_v4 ↦{fullShare} m ((SparseCore.T d).loc main_v4)) ∗ (SparseCore.T d).loc main_v5 ↦{fullShare} m ((SparseCore.T d).loc main_v5)) := by
  rw [held_S12, V1_v0, V1_ne m d (show rArg0 ≠ rV0 by decide), V1_ne m d (show rArg1 ≠ rV0 by decide), V1_ne m d (show rArg2 ≠ rV0 by decide),
    V1_ne m d (show rArg3 ≠ rV0 by decide), V1_ne m d (show rCst ≠ rV0 by decide), V1_ne m d (show rV1 ≠ rV0 by decide), V1_ne m d (show rC ≠ rV0 by decide),
    V1_ne m d (show rV2 ≠ rV0 by decide), V1_ne m d (show rV3 ≠ rV0 by decide), V1_ne m d (show rV4 ≠ rV0 by decide), V1_ne m d (show rV5 ≠ rV0 by decide)]
  try rfl

/-- After the line: the arguments and the edge result as they were, the padded table and the index blocks computed,
    the node result's array untouched. -/
theorem held_after (d : Dev nD) :
    (held (T d) S12 (after hostOps (V1 m d)) : sProp 𝕄)
      = iprop(((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ ((SparseCore.T d).loc main_arg3 ↦{fullShare} m ((SparseCore.T d).loc main_arg3))
        ∗ ((SparseCore.T d).loc main_v0 ↦{fullShare} edgeOut m d) ∗ ((SparseCore.T d).loc main_cst ↦{fullShare} after hostOps (V1 m d) rCst)
        ∗ ((SparseCore.T d).loc main_v1 ↦{fullShare} after hostOps (V1 m d) rV1) ∗ ((SparseCore.T d).loc main_c ↦{fullShare} after hostOps (V1 m d) rC)
        ∗ ((SparseCore.T d).loc main_v2 ↦{fullShare} after hostOps (V1 m d) rV2) ∗ ((SparseCore.T d).loc main_v3 ↦{fullShare} a3Of m d)
        ∗ ((SparseCore.T d).loc main_v4 ↦{fullShare} a4Of m d) ∗ (SparseCore.T d).loc main_v5 ↦{fullShare} m ((SparseCore.T d).loc main_v5)) := by
  rw [held_S12, after_arg0, after_arg1, after_arg2, after_arg3, after_v0, after_v3, after_v4, after_v5, V1_v0,
    V1_ne m d (show rArg0 ≠ rV0 by decide), V1_ne m d (show rArg1 ≠ rV0 by decide), V1_ne m d (show rArg2 ≠ rV0 by decide),
    V1_ne m d (show rArg3 ≠ rV0 by decide), V1_ne m d (show rV5 ≠ rV0 by decide)]
  try rfl

theorem hS12 : ∀ op ∈ (hostOps (F := F)), op.bufs ⊆ S12 := by
  intro op hop
  simp only [List.mem_cons, List.mem_nil_iff, or_false] at hop
  rcases hop with rfl | rfl | rfl | rfl | rfl | rfl
  · show ({rCst} : Finset (DevRef τ sig)) ⊆ S12; decide
  · show ({rCst, rV1} : Finset (DevRef τ sig)) ⊆ S12; decide
  · show ({rC} : Finset (DevRef τ sig)) ⊆ S12; decide
  · show ({rC, rV2} : Finset (DevRef τ sig)) ⊆ S12; decide
  · show ({rV1, rV2, rArg2, rV3} : Finset (DevRef τ sig)) ⊆ S12; decide
  · show ({rArg0, rV4} : Finset (DevRef τ sig)) ⊆ S12; decide

theorem hfresh : ∀ op ∈ (hostOps (F := F)), op.fresh = ∅ := by
  intro op hop
  simp only [List.mem_cons, List.mem_nil_iff, or_false] at hop
  rcases hop with rfl | rfl | rfl | rfl | rfl | rfl <;> rfl

/-! ## @main on the TensorCore -/

/-- What @main leaves the claim: the four arguments at their launch contents, the edge result the edge lookup, the node
    result the node kernel's array of the reshaped indices and the padded table. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v0 ↦{fullShare} edgeOut m d) ∗ (SparseCore.T d).loc main_v5 ↦{fullShare} nodeArr (a4Of m d) (a3Of m d))

set_option backward.isDefEq.respectTransparency.types false in
/-- @main on device `d`'s TensorCore: the SparseCore call from the edge indices, thirty-two read tokens of the edge
    table and the edge result; the six host operations over the twelve arrays held whole; the TensorCore kernel's region
    from the index blocks, the padded table and the node result's array. -/
theorem hmain (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, main_eq, wp_bind]
  iintro ⟨#Hctx, Hst, ⟨Hb, ⟨H0, H1, H2, H3, Hv0, Hcst, Hv1, Hc, Hv2, Hv3, Hv4, Hv5⟩, -, -⟩, HG⟩
  -- the SparseCore call: the edge table goes out as thirty-two read tokens, what they leave of it kept aside
  ihave Ht := (tTok_split m d).1 $$ H3
  icases Ht with ⟨Hdrop, Htoks⟩
  iapply ((K (F := F)).wp_run (D (F := F)) 𝒱 (EH := EH) (P := P m) κ d 0)
  isplitr; · iexact Hctx
  isplitl [Hst]; · iexact Hst
  isplitl [H1 Htoks Hv0]
  · rw [← st0_eq]
    isplitl [H1]; · iexact H1
    isplitl [Htoks]; · iexact Htoks
    iexact Hv0
  iintro ⟨Hst, Hdn⟩
  ihave Hdn' := (Entails.of_eq (dn0_eq m d)) $$ Hdn
  icases Hdn' with ⟨H1, Htoks, Hv0⟩
  ihave H3 := (tTok_split m d).2 $$ [Hdrop Htoks]
  · isplitl [Hdrop]; · iexact Hdrop
    iexact Htoks
  -- the line of host operations
  iapply (wp_seq 𝒱 none Set.univ d S12 _ hostOps hS12 hfresh (V1 m d)) $$ [Hb H0 H1 H2 H3 Hv0 Hcst Hv1 Hc Hv2 Hv3 Hv4 Hv5]
  · isplitl [Hb]; · iexact Hb
    rw [held_V1]
    isplitl [H0]; · iexact H0
    isplitl [H1]; · iexact H1
    isplitl [H2]; · iexact H2
    isplitl [H3]; · iexact H3
    isplitl [Hv0]; · iexact Hv0
    isplitl [Hcst]; · iexact Hcst
    isplitl [Hv1]; · iexact Hv1
    isplitl [Hc]; · iexact Hc
    isplitl [Hv2]; · iexact Hv2
    isplitl [Hv3]; · iexact Hv3
    isplitl [Hv4]; · iexact Hv4
    iexact Hv5
  iintro ⟨Hb, Hheld⟩
  ihave Hh := (Entails.of_eq (held_after m d)) $$ Hheld
  icases Hh with ⟨H0, H1, H2, H3, Hv0, -, -, -, -, Hv3, Hv4, Hv5⟩
  -- the TensorCore kernel's region
  unfold SparseCore.Cfg.tcSt
  icases Hst with ⟨Howes, Hrest⟩
  ihave Hlev := (SparseCore.Cfg.ctx_levAts κ) $$ Hctx
  iapply ((K (F := F)).wp_liftProg (D (F := F)) 𝒱 (SparseCore.T d) Set.univ none regionCall _)
  iapply (region_wp d (a4Of m d) (a3Of m d) (fun _ => .ret ⟨⟩) _)
  isplitl [H0 H1 H2 H3 Hv0 Hrest]
  · iintro ⟨Hb, Hpost⟩
    unfold regionPost
    icases Hpost with ⟨-, -, Hv5, Howes⟩
    rw [wp_ret]; imodintro
    isplitl [Howes Hrest]
    · isplitl [Howes]; · iexact Howes
      iexact Hrest
    isplitl [H0]; · iexact H0
    isplitl [H1]; · iexact H1
    isplitl [H2]; · iexact H2
    isplitl [H3]; · iexact H3
    isplitl [Hv0]; · iexact Hv0
    iexact Hv5
  isplitl [Hb]; · iexact Hb
  isplitl [Hv4 Hv3 Hv5 Howes]
  · unfold regionPre
    isplitl [Hv4]; · iexact Hv4
    isplitl [Hv3]; · iexact Hv3
    isplitl [Hv5]; · iexists _; iexact Hv5
    iexact Howes
  isplitl [Hlev]; · iexact Hlev
  iexact HG

/-! ## What the final memory holds -/

def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_v0) = edgeOut m d
    ∧ s'.mem.mem ((SparseCore.T d).loc main_v5) = nodeArr (a4Of m d) (a3Of m d)

theorem hfin (d : Dev nD) (s' : Phys nD τ sig (Elt F)) : iprop(FIN m d ∗ SI s') ⊢ (⌜fq m d s'⌝ : sProp 𝕄) := by
  iintro ⟨⟨H0, H1, H2, H3, Hv0, Hv5⟩, HSI⟩
  icombine HSI H0 gives %h0
  icombine HSI H1 gives %h1
  icombine HSI H2 gives %h2
  icombine HSI H3 gives %h3
  icombine HSI Hv0 gives %hv0
  icombine HSI Hv5 gives %hv5
  ipureintro
  exact ⟨funext fun i => h0 i (Finset.mem_univ i), funext fun i => h1 i (Finset.mem_univ i), funext fun i => h2 i (Finset.mem_univ i),
    funext fun i => h3 i (Finset.mem_univ i), funext fun i => hv0 i (Finset.mem_univ i), funext fun i => hv5 i (Finset.mem_univ i)⟩

/-- The claim's reading of the final memory: on every device the four arguments unchanged, the edge result the edge
    lookup, the node result the node kernel's array. -/
def QC : PUnit × MemSt nD τ sig (Elt F) → Prop := fun r => ∀ c : Dev nD,
  r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_v0) = edgeOut m c
    ∧ r.2.mem ((SparseCore.T c).loc main_v5) = nodeArr (a4Of m c) (a3Of m c)

/-! ## The launch element -/

/-- The launch element of the whole ghost state: the SparseCore part, then the staging cells' factor funds the
    TensorCore region's cells. -/
theorem hu₀ : iprop(ownU (u₀ (F := F) (uP (F := F))) ∗ (P (F := F) m).oxCred ∗ (K (F := F)).freeSems0)
    ⊢ |={Set.univ}=> iprop(BI.own (EH (initOf (K (F := F)).hsCells (K (F := F)).hsToks)) ∗ bigSep Finset.univ (GP (F := F))
        ∗ (bigSep Finset.univ fun thr : Thread nD τ => bigSep Finset.univ fun q : Fin 1 => (P m).x q thr) : sProp 𝕄) := by
  iintro H
  imod (hu₀_sc m (uP (F := F))) $$ H with ⟨HH, HP, Hx⟩
  imod (fundP (F := F)) $$ HP with HG
  imodintro
  isplitl [HH]; · iexact HH
  isplitl [HG]; · iexact HG
  iexact Hx

/-! ## The program's run -/

/-- Every weakly fair execution of the program from the launch memory ends, and in a memory the claim reads. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (GP (F := F)) (FIN m) (u₀ (F := F) (uP (F := F))) (hu₀ m) (hmain m ρ) (fq m) (hfin m) (QC m) (fun _ h => h)

end Cert.Kernel.Hand

end
-- ==== Proof.KClaims.lean ====
/-
  The claim about the kernel as printed: from a memory of which the precondition holds it runs, and its four argument
  arrays end unchanged.
-/
import proofs.«205308_g19069654794752_retrytranche2_377_14_alg».proof.Defs
import proofs.«205308_g19069654794752_retrytranche2_377_14_alg».proof.Proof.KMain
import proofs.«205308_g19069654794752_retrytranche2_377_14_alg».proof.Proof.PreRange

noncomputable section

namespace Cert.Kernel.Hand

open Cert.Kernel Cert.Kernel.Gen

open Idealize.ShloMosaic
open Idealize.ShloMosaic.SparseCore (S V T)
open Idealize.SL.Sem

/-- The kernel runs and leaves its arguments unchanged: the program's run, its results dropped; the tiles' obligation is
    asked for memories whose edge indices are at most 3, which the precondition gives. -/
theorem frame_p (htile : ∀ m : (ℓ : Loc nD τ sig) → Buf (Elt Bits) ℓ, (∀ d i, (m (iLoc d) i).toNat ≤ 3) → (K (F := Bits)).TileObl (D (F := Bits)) 𝒱 (P m) v₀ 0) :
    Cert.frame_Kernel (hKernel := Cert.Kernel.Gen.facts) (hPre_input_domain := Cert.Pre_input_domain.Gen.facts) :=
  fun m g hpre => (θ_run Cert.Kernel.defs _ _).mono (fun _ h c => ⟨(h c).1, (h c).2.1, (h c).2.2.1, (h c).2.2.2.1⟩)
    (run_main (F := Bits) m g (htile m fun d i => (Cert.PreRange.ranges (F := Bits) _ _ _ _ (hpre d)).2 i))

end Cert.Kernel.Hand

end
-- ==== Proof.TileDefs.lean ====
import proofs.«205308_g19069654794752_retrytranche2_377_14_alg».proof.Proof.Setup
import proofs.«205308_g19069654794752_retrytranche2_377_14_alg».proof.Proof.PreRange
import Idealize.ShloMosaic.Lib.SparseCore.Scatter

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.KernelIdeal.main_arg1_scv : Memref Cert.KernelIdeal.sig Kind.scVector Space.hbm Cert.KernelIdeal.S320000 EltTy.i32)
local notation "tV" => (Memref.whole Cert.KernelIdeal.main_arg3_scv : Memref Cert.KernelIdeal.sig Kind.scVector Space.hbm Cert.KernelIdeal.S4x128 EltTy.f32)
local notation "oV" => (Memref.whole Cert.KernelIdeal.main_v0_scv : Memref Cert.KernelIdeal.sig Kind.scVector Space.hbm Cert.KernelIdeal.S320000x128 EltTy.f32)
local notation "xV" => (Memref.whole Cert.KernelIdeal.cc0_scratch0 : Memref Cert.KernelIdeal.sig Kind.scVector Space.vmem Cert.KernelIdeal.S10000 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "tbV" => (Memref.whole Cert.KernelIdeal.cc0_scratch3 : Memref Cert.KernelIdeal.sig Kind.scVector Space.vmem Cert.KernelIdeal.S16x128 EltTy.f32)
local notation "shV" => (Memref.whole Cert.KernelIdeal.cc0_scratch4 : Memref Cert.KernelIdeal.sig Kind.scVector Space.shared Cert.KernelIdeal.S4x128 EltTy.f32)

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)
/-- The tile's worker number. -/
abbrev wL (L : grid0.Coords) : Fin 32 := wOf (cV L) (jV L)

/-- The tile's rows of the index array, as the program slices them. -/
abbrev iSlK (L : grid0.Coords) : Memref sig .scVector .hbm S10000 .i32 := (iV).slice (Rect.unit (s := S320000) (k0_off1 L) S10000.size (k0_off1_inb L)) (fun _ => rfl)

/-- The eight DMA semaphores of the tile. -/
abbrev gsem0 (d : Dev nD) (c : Fin τ.nSC) (i : Fin τ.nSub) : GSem nD τ sig := (V d c i, .dma cc0_scratch5.sem)
abbrev gsem1 (d : Dev nD) (c : Fin τ.nSC) (i : Fin τ.nSub) : GSem nD τ sig := (V d c i, .dma cc0_scratch6.sem)
abbrev ssem0 (d : Dev nD) (c : Fin τ.nSC) (i : Fin τ.nSub) : GSem nD τ sig := (V d c i, .dma cc0_scratch7.sem)
abbrev ssem1 (d : Dev nD) (c : Fin τ.nSC) (i : Fin τ.nSub) : GSem nD τ sig := (V d c i, .dma cc0_scratch8.sem)
abbrev tsem (d : Dev nD) (c : Fin τ.nSC) (i : Fin τ.nSub) : GSem nD τ sig := (V d c i, .dma cc0_scratch9.sem)
abbrev rsem0 (d : Dev nD) (c : Fin τ.nSC) (i : Fin τ.nSub) : GSem nD τ sig := (V d c i, .dma cc0_scoped0.sem)
abbrev rsem1 (d : Dev nD) (c : Fin τ.nSC) (i : Fin τ.nSub) : GSem nD τ sig := (V d c i, .dma cc0_scoped1.sem)
abbrev rsem2 (d : Dev nD) (c : Fin τ.nSC) (i : Fin τ.nSub) : GSem nD τ sig := (V d c i, .dma cc0_scoped2.sem)

omit [FloatOps F] in
theorem ownSems0_V :
    (ownSems0 (thrV d L) : sProp 𝕄)
      = iprop(semVal (gsem0 d (cV L) (jV L)) 0 ∗ semVal (gsem1 d (cV L) (jV L)) 0 ∗ semVal (ssem0 d (cV L) (jV L)) 0 ∗ semVal (ssem1 d (cV L) (jV L)) 0 ∗ semVal (tsem d (cV L) (jV L)) 0 ∗ semVal (rsem0 d (cV L) (jV L)) 0 ∗ semVal (rsem1 d (cV L) (jV L)) 0 ∗ semVal (rsem2 d (cV L) (jV L)) 0
          ∗ bigSep (((((((((ownCells (thrV d L)).erase (gsem0 d (cV L) (jV L))).erase (gsem1 d (cV L) (jV L))).erase (ssem0 d (cV L) (jV L))).erase (ssem1 d (cV L) (jV L))).erase (tsem d (cV L) (jV L))).erase (rsem0 d (cV L) (jV L))).erase (rsem1 d (cV L) (jV L))).erase (rsem2 d (cV L) (jV L))) fun g => semVal g 0) := by
  unfold SparseCore.Cfg.ownSems0
  rw [SparseCore.bigSep_erase' ((mem_ownCells (g := gsem0 d (cV L) (jV L))).mpr ⟨rfl, by show (SemLoc.dma cc0_scratch5.sem : SemLoc sig).isScoped .scVector = true; decide⟩),
    SparseCore.bigSep_erase' (Finset.mem_erase.mpr ⟨(fun h => absurd (congrArg Prod.snd h) (show (SemLoc.dma cc0_scratch6.sem : SemLoc sig) ≠ SemLoc.dma cc0_scratch5.sem by decide)), (mem_ownCells (g := gsem1 d (cV L) (jV L))).mpr ⟨rfl, by show (SemLoc.dma cc0_scratch6.sem : SemLoc sig).isScoped .scVector = true; decide⟩⟩),
    SparseCore.bigSep_erase' (Finset.mem_erase.mpr ⟨(fun h => absurd (congrArg Prod.snd h) (show (SemLoc.dma cc0_scratch7.sem : SemLoc sig) ≠ SemLoc.dma cc0_scratch6.sem by decide)), Finset.mem_erase.mpr ⟨(fun h => absurd (congrArg Prod.snd h) (show (SemLoc.dma cc0_scratch7.sem : SemLoc sig) ≠ SemLoc.dma cc0_scratch5.sem by decide)), (mem_ownCells (g := ssem0 d (cV L) (jV L))).mpr ⟨rfl, by show (SemLoc.dma cc0_scratch7.sem : SemLoc sig).isScoped .scVector = true; decide⟩⟩⟩),
    SparseCore.bigSep_erase' (Finset.mem_erase.mpr ⟨(fun h => absurd (congrArg Prod.snd h) (show (SemLoc.dma cc0_scratch8.sem : SemLoc sig) ≠ SemLoc.dma cc0_scratch7.sem by decide)), Finset.mem_erase.mpr ⟨(fun h => absurd (congrArg Prod.snd h) (show (SemLoc.dma cc0_scratch8.sem : SemLoc sig) ≠ SemLoc.dma cc0_scratch6.sem by decide)), Finset.mem_erase.mpr ⟨(fun h => absurd (congrArg Prod.snd h) (show (SemLoc.dma cc0_scratch8.sem : SemLoc sig) ≠ SemLoc.dma cc0_scratch5.sem by decide)), (mem_ownCells (g := ssem1 d (cV L) (jV L))).mpr ⟨rfl, by show (SemLoc.dma cc0_scratch8.sem : SemLoc sig).isScoped .scVector = true; decide⟩⟩⟩⟩),
    SparseCore.bigSep_erase' (Finset.mem_erase.mpr ⟨(fun h => absurd (congrArg Prod.snd h) (show (SemLoc.dma cc0_scratch9.sem : SemLoc sig) ≠ SemLoc.dma cc0_scratch8.sem by decide)), Finset.mem_erase.mpr ⟨(fun h => absurd (congrArg Prod.snd h) (show (SemLoc.dma cc0_scratch9.sem : SemLoc sig) ≠ SemLoc.dma cc0_scratch7.sem by decide)), Finset.mem_erase.mpr ⟨(fun h => absurd (congrArg Prod.snd h) (show (SemLoc.dma cc0_scratch9.sem : SemLoc sig) ≠ SemLoc.dma cc0_scratch6.sem by decide)), Finset.mem_erase.mpr ⟨(fun h => absurd (congrArg Prod.snd h) (show (SemLoc.dma cc0_scratch9.sem : SemLoc sig) ≠ SemLoc.dma cc0_scratch5.sem by decide)), (mem_ownCells (g := tsem d (cV L) (jV L))).mpr ⟨rfl, by show (SemLoc.dma cc0_scratch9.sem : SemLoc sig).isScoped .scVector = true; decide⟩⟩⟩⟩⟩),
    SparseCore.bigSep_erase' (Finset.mem_erase.mpr ⟨(fun h => absurd (congrArg Prod.snd h) (show (SemLoc.dma cc0_scoped0.sem : SemLoc sig) ≠ SemLoc.dma cc0_scratch9.sem by decide)), Finset.mem_erase.mpr ⟨(fun h => absurd (congrArg Prod.snd h) (show (SemLoc.dma cc0_scoped0.sem : SemLoc sig) ≠ SemLoc.dma cc0_scratch8.sem by decide)), Finset.mem_erase.mpr ⟨(fun h => absurd (congrArg Prod.snd h) (show (SemLoc.dma cc0_scoped0.sem : SemLoc sig) ≠ SemLoc.dma cc0_scratch7.sem by decide)), Finset.mem_erase.mpr ⟨(fun h => absurd (congrArg Prod.snd h) (show (SemLoc.dma cc0_scoped0.sem : SemLoc sig) ≠ SemLoc.dma cc0_scratch6.sem by decide)), Finset.mem_erase.mpr ⟨(fun h => absurd (congrArg Prod.snd h) (show (SemLoc.dma cc0_scoped0.sem : SemLoc sig) ≠ SemLoc.dma cc0_scratch5.sem by decide)), (mem_ownCells (g := rsem0 d (cV L) (jV L))).mpr ⟨rfl, by show (SemLoc.dma cc0_scoped0.sem : SemLoc sig).isScoped .scVector = true; decide⟩⟩⟩⟩⟩⟩),
    SparseCore.bigSep_erase' (Finset.mem_erase.mpr ⟨(fun h => absurd (congrArg Prod.snd h) (show (SemLoc.dma cc0_scoped1.sem : SemLoc sig) ≠ SemLoc.dma cc0_scoped0.sem by decide)), Finset.mem_erase.mpr ⟨(fun h => absurd (congrArg Prod.snd h) (show (SemLoc.dma cc0_scoped1.sem : SemLoc sig) ≠ SemLoc.dma cc0_scratch9.sem by decide)), Finset.mem_erase.mpr ⟨(fun h => absurd (congrArg Prod.snd h) (show (SemLoc.dma cc0_scoped1.sem : SemLoc sig) ≠ SemLoc.dma cc0_scratch8.sem by decide)), Finset.mem_erase.mpr ⟨(fun h => absurd (congrArg Prod.snd h) (show (SemLoc.dma cc0_scoped1.sem : SemLoc sig) ≠ SemLoc.dma cc0_scratch7.sem by decide)), Finset.mem_erase.mpr ⟨(fun h => absurd (congrArg Prod.snd h) (show (SemLoc.dma cc0_scoped1.sem : SemLoc sig) ≠ SemLoc.dma cc0_scratch6.sem by decide)), Finset.mem_erase.mpr ⟨(fun h => absurd (congrArg Prod.snd h) (show (SemLoc.dma cc0_scoped1.sem : SemLoc sig) ≠ SemLoc.dma cc0_scratch5.sem by decide)), (mem_ownCells (g := rsem1 d (cV L) (jV L))).mpr ⟨rfl, by show (SemLoc.dma cc0_scoped1.sem : SemLoc sig).isScoped .scVector = true; decide⟩⟩⟩⟩⟩⟩⟩),
    SparseCore.bigSep_erase' (Finset.mem_erase.mpr ⟨(fun h => absurd (congrArg Prod.snd h) (show (SemLoc.dma cc0_scoped2.sem : SemLoc sig) ≠ SemLoc.dma cc0_scoped1.sem by decide)), Finset.mem_erase.mpr ⟨(fun h => absurd (congrArg Prod.snd h) (show (SemLoc.dma cc0_scoped2.sem : SemLoc sig) ≠ SemLoc.dma cc0_scoped0.sem by decide)), Finset.mem_erase.mpr ⟨(fun h => absurd (congrArg Prod.snd h) (show (SemLoc.dma cc0_scoped2.sem : SemLoc sig) ≠ SemLoc.dma cc0_scratch9.sem by decide)), Finset.mem_erase.mpr ⟨(fun h => absurd (congrArg Prod.snd h) (show (SemLoc.dma cc0_scoped2.sem : SemLoc sig) ≠ SemLoc.dma cc0_scratch8.sem by decide)), Finset.mem_erase.mpr ⟨(fun h => absurd (congrArg Prod.snd h) (show (SemLoc.dma cc0_scoped2.sem : SemLoc sig) ≠ SemLoc.dma cc0_scratch7.sem by decide)), Finset.mem_erase.mpr ⟨(fun h => absurd (congrArg Prod.snd h) (show (SemLoc.dma cc0_scoped2.sem : SemLoc sig) ≠ SemLoc.dma cc0_scratch6.sem by decide)), Finset.mem_erase.mpr ⟨(fun h => absurd (congrArg Prod.snd h) (show (SemLoc.dma cc0_scoped2.sem : SemLoc sig) ≠ SemLoc.dma cc0_scratch5.sem by decide)), (mem_ownCells (g := rsem2 d (cV L) (jV L))).mpr ⟨rfl, by show (SemLoc.dma cc0_scoped2.sem : SemLoc sig).isScoped .scVector = true; decide⟩⟩⟩⟩⟩⟩⟩⟩)]

omit [FloatOps F] in
/-- The four scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := (Proc.scVector (cV L) (jV L)).devRef cc0_scratch1) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := (Proc.scVector (cV L) (jV L)).devRef cc0_scratch2) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := (Proc.scVector (cV L) (jV L)).devRef cc0_scratch3) rfl⟩⟩⟩)]

omit [FloatOps F] in
theorem wL_val : (wL L).val = 2 * (L 1).val + (L 0).val := rfl

omit [FloatOps F] in
/-- The program's slice of the index array at the tile's offset is the tile's part of the thirty-two. -/
theorem irowK_eq : Rect.unit (s := S320000) (k0_off1 L) S10000.size (k0_off1_inb L) = irow (wL L) := by
  unfold irow Rect.part Rect.block
  congr 1 <;> funext a
  · rw [k0_off1_eq]
    match a with
    | 0 => simp [Shape.partIx, Shape.partSize, wOf]; omega
  · match a with
    | 0 => simp [Shape.partSize]

omit [FloatOps F] in
theorem set_iSlK : (iSlK L).view.set = iRowSet (wL L) := by
  show ((iV).view.slice (Rect.unit (s := S320000) (k0_off1 L) S10000.size (k0_off1_inb L))).set = ((iV).view.slice (irow (wL L))).set
  rw [irowK_eq]

omit [FloatOps F] in
theorem pts_iSlK (f : Buf (Elt F) (iLoc d)) :
    ((iSlK L).view.loc (thrV d L) ↦[(iSlK L).view.set]{fullShare} f : sProp 𝕄) = iLoc d ↦[iRowSet (wL L)]{fullShare} f := by
  rw [set_iSlK]
omit [FloatOps F] in
theorem pts_tV (q : PosShare TreeShare) (f : Buf (Elt F) (tLoc d)) :
    ((tV).view.loc (thrV d L) ↦{q} f : sProp 𝕄) = tLoc d ↦{q} f := rfl
omit [FloatOps F] in
theorem pts_oV (I : Finset S320000x128.Idx) (f : Buf (Elt F) (oLoc d)) :
    ((oV).view.loc (thrV d L) ↦[I]{fullShare} f : sProp 𝕄) = oLoc d ↦[I]{fullShare} f := rfl
omit [FloatOps F] in
theorem pts_shV (q : PosShare TreeShare) (f : Buf (Elt F) (shLoc d (cV L))) :
    ((shV).view.loc (thrV d L) ↦{q} f : sProp 𝕄) = shLoc d (cV L) ↦{q} f := rfl
omit [FloatOps F] in
theorem pts_xV (f : Buf (Elt F) ((thrV d L).loc cc0_scratch0)) :
    ((xV).view.loc (thrV d L) ↦{fullShare} f : sProp 𝕄) = (thrV d L).loc cc0_scratch0 ↦{fullShare} f := rfl
omit [FloatOps F] in
theorem pts_b0V (f : Buf (Elt F) ((thrV d L).loc cc0_scratch1)) :
    ((b0V).view.loc (thrV d L) ↦{fullShare} f : sProp 𝕄) = (thrV d L).loc cc0_scratch1 ↦{fullShare} f := rfl
omit [FloatOps F] in
theorem pts_b1V (f : Buf (Elt F) ((thrV d L).loc cc0_scratch2)) :
    ((b1V).view.loc (thrV d L) ↦{fullShare} f : sProp 𝕄) = (thrV d L).loc cc0_scratch2 ↦{fullShare} f := rfl
omit [FloatOps F] in
theorem pts_tbV (f : Buf (Elt F) ((thrV d L).loc cc0_scratch3)) :
    ((tbV).view.loc (thrV d L) ↦{fullShare} f : sProp 𝕄) = (thrV d L).loc cc0_scratch3 ↦{fullShare} f := rfl

/-- Before the barrier, what a tile's sixteen duties hand over: tile 0's, every tile's read token of the filled shared table; another tile's, nothing. -/
theorem pays_intro : (if (jV L).val = 0 then (bigSep Finset.univ fun j : Fin (grid0.bound 1) => shTok m d (cV L) (j.castLE hsub0)) else iprop(emp))
    ⊢ (bigSep Finset.univ fun j : Fin (grid0.bound 1) => (bRd (F := F) m).payload (bcell d (cV L) (j.castLE hsub0)) 0 (jV L).val : sProp 𝕄) := by
  rw [show (bigSep Finset.univ fun j : Fin (grid0.bound 1) => (bRd (F := F) m).payload (bcell d (cV L) (j.castLE hsub0)) 0 (jV L).val)
      = bigSep Finset.univ fun j : Fin (grid0.bound 1) => (if (jV L).val = 0 then shTok m d (cV L) (j.castLE hsub0) else (iprop(emp) : sProp 𝕄)) from bigSep_congr fun j _ => rfl]
  by_cases h : (jV L).val = 0
  · rw [if_pos h]; exact Entails.of_eq (bigSep_congr fun j _ => (if_pos h).symm)
  · rw [if_neg h, show (bigSep Finset.univ fun j : Fin (grid0.bound 1) => (if (jV L).val = 0 then shTok m d (cV L) (j.castLE hsub0) else (iprop(emp) : sProp 𝕄)))
      = bigSep Finset.univ fun _ : Fin (grid0.bound 1) => (iprop(emp) : sProp 𝕄) from bigSep_congr fun j _ => if_neg h, bigSep_emp']

/-- After it, what the tile's own round collected holds its read token. -/
theorem pays_elim : (bigSep ((bRd (F := F) m).duties (bcell d (cV L) (jV L)) 0 \ ∅) fun n => (bRd (F := F) m).payload (bcell d (cV L) (jV L)) 0 n)
    ⊢ (shTok m d (cV L) (jV L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

set_option maxHeartbeats 2000000 in
/-- The subcore barrier on tile `(L 0, L 1)`: the tile arrives at every tile's cell of its SparseCore handing over what its duties carry, waits at its own, and leaves with its read token of the filled shared table. -/
theorem barrier_step (O : CellTallies nD τ sig (HIx 1)) (W : Waits sig (HIx 1))
    (hOlev : ∀ g ι, 0 < O g ι → 8 * (0 : Fin 1).val + 6 ≤ (K (F := F)).lev g ι) {α : Type}
    (k : PUnit → Prog (TpuEff nD τ sig (Elt F) Λ₀ (.scVector (cV L) (jV L))) α) (Q : α → sProp 𝕄) :
    iprop(levAts (K (F := F)).L (K (F := F)).lev ∗ bkit m d (cV L) (jV L)
        ∗ (if (jV L).val = 0 then (bigSep Finset.univ fun j : Fin (grid0.bound 1) => shTok m d (cV L) (j.castLE hsub0)) else iprop(emp))
        ∗ owes (thrV d L) (O + oxV d (cV L)) W)
      ⊢ iprop((iprop(owes (thrV d L) O (insert (SemLoc.reg sc_bar0, (some 0 : HIx 1)) W) ∗ shTok m d (cV L) (jV L))
            -∗ wp frame (wpE (defs₀ (F := F)) 𝒱₀ (thrV d L) none) Set.univ (k ⟨⟩) Q)
          -∗ wp frame (wpE (defs₀ (F := F)) 𝒱₀ (thrV d L) none) Set.univ (SparseCore.subcoreBarrier sc_bar0 (grid0.bound 1) hsub0 >>= k) Q) := by
  unfold bkit
  iintro ⟨#Hlv, ⟨⟨%κ, #Hinv⟩, Htoks, #Hrch, Hat, Hcred⟩, Hsh, HO⟩ Hk
  ihave Hpays := (pays_intro (F := F) m d L) $$ Hsh
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O W) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thrV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htok := (pays_elim (F := F) m d L) $$ Hgot
  iapply Hk
  isplitl [HO]; · iexact HO
  iexact Htok

/-! ## The tile's data in canonical terms -/

/-- The tile's first row of the index and result arrays. -/
abbrev baseL (L : grid0.Coords) : ℕ := 10000 * (wL L).val

/-- What the staged index list holds: the tile's ten thousand indices. -/
abbrev idxT (d : Dev nD) (L : grid0.Coords) : Buf (Elt F) ((thrV d L).loc cc0_scratch0) :=
  ReadAs.same.apply ((iSlK L).view.read (Elt F) (m (iLoc d)))

/-- The shared table as the gathers slice it: whole. -/
abbrev shSl : Memref sig .scVector .shared S4x128 .f32 := (shV).slice (Rect.unit (s := S4x128) ![0, 0] S4x128.size inb_S4x128_S4x128_0_0) (fun _ => rfl)
/-- A chunk of 128 of the staged list. -/
abbrev xSl (off : Fin 1 → Nat) (inb : ∀ a, off a + S128.size a ≤ S10000.size a) : Memref sig .scVector .vmem S128 .i32 :=
  (xV).slice (Rect.unit (s := S10000) off S128.size inb) (fun _ => rfl)
/-- The last sixteen of the staged list. -/
abbrev xSl16 : Memref sig .scVector .vmem S16 .i32 := (xV).slice (Rect.unit (s := S10000) ![9984] S16.size inb_S10000_S16_9984) (fun _ => rfl)
/-- A window of 128 rows of the result. -/
abbrev oSl (off : Fin 2 → Nat) (inb : ∀ a, off a + S128x128.size a ≤ S320000x128.size a) : Memref sig .scVector .hbm S128x128 .f32 :=
  (oV).slice (Rect.unit (s := S320000x128) off S128x128.size inb) (fun _ => rfl)
/-- A window of 16 rows of the result. -/
abbrev oSl16 (off : Fin 2 → Nat) (inb : ∀ a, off a + S16x128.size a ≤ S320000x128.size a) : Memref sig .scVector .hbm S16x128 .f32 :=
  (oV).slice (Rect.unit (s := S320000x128) off S16x128.size inb) (fun _ => rfl)

/-- The staged list held whole, and the tile's read token of the filled shared table. -/
abbrev xRes (d : Dev nD) (L : grid0.Coords) : sProp 𝕄 := (xV).view.loc (thrV d L) ↦{fullShare} idxT m d L
abbrev shRes (d : Dev nD) (L : grid0.Coords) : sProp 𝕄 := (shV).view.loc (thrV d L) ↦{Transfers.shareTokN fullShare (jV L).val} tabSh m d (cV L)

/-- A row buffer of 128 rows holds the lookup's rows `[base + o, base + o + 128)`. -/
def rowsOK128 (d : Dev nD) (L : grid0.Coords) (B : Memref sig .scVector .vmem S128x128 .f32) (o : ℕ) (f : Buf (Elt F) (B.view.loc (thrV d L))) : Prop :=
  ∀ (r : Fin 128) (l : Fin 128) (h : baseL L + o + r.val < 320000),
    B.view.read (Elt F) f (ValueIdx.ix2 r l) = edgeOut m d (ValueIdx.ix2 (⟨baseL L + o + r.val, h⟩ : Fin 320000) l)
/-- The tail buffer holds the lookup's rows `[base + 9984, base + 10000)`. -/
def rowsOK16 (d : Dev nD) (L : grid0.Coords) (B : Memref sig .scVector .vmem S16x128 .f32) (f : Buf (Elt F) (B.view.loc (thrV d L))) : Prop :=
  ∀ (r : Fin 16) (l : Fin 128) (h : baseL L + 9984 + r.val < 320000),
    B.view.read (Elt F) f (ValueIdx.ix2 r l) = edgeOut m d (ValueIdx.ix2 (⟨baseL L + 9984 + r.val, h⟩ : Fin 320000) l)

/-- What a gather of list chunk `o` into row buffer `B` delivers at its wait: the buffer at the lookup's rows, the staged
    list and the table token back. -/
def gatherD (d : Dev nD) (L : grid0.Coords) (B : Memref sig .scVector .vmem S128x128 .f32) (o : ℕ) : sProp 𝕄 :=
  iprop((∃ f, (B.view.loc (thrV d L) ↦[B.view.set]{fullShare} f) ∗ ⌜rowsOK128 m d L B o f⌝) ∗ xRes m d L ∗ shRes m d L)
def gatherD16 (d : Dev nD) (L : grid0.Coords) (B : Memref sig .scVector .vmem S16x128 .f32) : sProp 𝕄 :=
  iprop((∃ f, (B.view.loc (thrV d L) ↦[B.view.set]{fullShare} f) ∗ ⌜rowsOK16 m d L B f⌝) ∗ xRes m d L ∗ shRes m d L)

/-- What a copy of row buffer `B` out to a window `S` of the result delivers at its wait: the window at the lookup, the buffer back. -/
def copyD (d : Dev nD) (L : grid0.Coords) {s : Shape} (B : Memref sig .scVector .vmem s .f32) (S : Finset S320000x128.Idx) : sProp 𝕄 :=
  iprop(((oV).view.loc (thrV d L) ↦[S]{fullShare} edgeOut m d) ∗ ∃ f, B.view.loc (thrV d L) ↦[B.view.set]{fullShare} f)

/-- The elements of the result whose row lies in `[a, b)`. -/
def rowsBetween (a b : ℕ) : Finset S320000x128.Idx := Finset.univ.filter fun j => a ≤ (j 0).val ∧ (j 0).val < b

omit [FloatOps F] in
theorem mem_rowsBetween {a b : ℕ} {j : S320000x128.Idx} : j ∈ rowsBetween a b ↔ a ≤ (j 0).val ∧ (j 0).val < b := by
  unfold rowsBetween; simp

end Tile
end Cert.KernelIdeal.Hand
end
-- ==== Proof.TileSteps.lean ====
import proofs.«205308_g19069654794752_retrytranche2_377_14_alg».proof.Proof.TileDefs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.KernelIdeal.main_arg1_scv : Memref Cert.KernelIdeal.sig Kind.scVector Space.hbm Cert.KernelIdeal.S320000 EltTy.i32)
local notation "tV" => (Memref.whole Cert.KernelIdeal.main_arg3_scv : Memref Cert.KernelIdeal.sig Kind.scVector Space.hbm Cert.KernelIdeal.S4x128 EltTy.f32)
local notation "oV" => (Memref.whole Cert.KernelIdeal.main_v0_scv : Memref Cert.KernelIdeal.sig Kind.scVector Space.hbm Cert.KernelIdeal.S320000x128 EltTy.f32)
local notation "xV" => (Memref.whole Cert.KernelIdeal.cc0_scratch0 : Memref Cert.KernelIdeal.sig Kind.scVector Space.vmem Cert.KernelIdeal.S10000 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "tbV" => (Memref.whole Cert.KernelIdeal.cc0_scratch3 : Memref Cert.KernelIdeal.sig Kind.scVector Space.vmem Cert.KernelIdeal.S16x128 EltTy.f32)
local notation "shV" => (Memref.whole Cert.KernelIdeal.cc0_scratch4 : Memref Cert.KernelIdeal.sig Kind.scVector Space.shared Cert.KernelIdeal.S4x128 EltTy.f32)

section Tile

variable (d : Dev nD) (L : grid0.Coords)

/-- Awaiting a transfer in flight: the thread takes what it delivers, its cell back at zero, the wait recorded. -/
theorem wait_step {sp sp' : Space} {s s' : Shape} {e e' : EltTy} {κ' : Kind} (sem : DmaSem sig)
    {srcw : Memref sig (thrV d L).2.kind sp' s' e'} {dstw : Memref sig κ' sp s e} {hsrc : srcw.view.WordExact} {hdst : dstw.view.WordExact}
    (N : ℕ) (hN : dstw.view.dmaCredit = N) (D : sProp 𝕄) (O : CellTallies nD τ sig (HIx 1)) (W : Waits sig (HIx 1)) {α : Type}
    (k : PUnit → Prog (TpuEff nD τ sig (Elt F) Λ₀ (thrV d L).2) α) (Q : α → sProp 𝕄) :
    iprop(Transfers.MayWaits (thrV d L) (default : HIx 1) O ∗ Transfers.Flight countersEmb (thrV d L) (SemLoc.dma sem) (default : HIx 1) N D ∗ owes (thrV d L) O W)
      ⊢ iprop((iprop(D ∗ semVal (thrV d L, SemLoc.dma sem) 0 ∗ owes (thrV d L) O (insert (SemLoc.dma sem, (default : HIx 1)) W))
            -∗ wp frame (wpE (defs₀ (F := F)) 𝒱₀ (thrV d L) none) Set.univ (k ⟨⟩) Q)
          -∗ wp frame (wpE (defs₀ (F := F)) 𝒱₀ (thrV d L) none) Set.univ (.op (.waitDma2 sem srcw dstw hsrc hdst) k) Q) := by
  iintro ⟨#Hmw, Hfl, HO⟩ Hk
  iapply (Transfers.wp_waitLocalO countersEmb 𝒱₀ (thrV d L) none (default : HIx 1) hN) $$ [Hfl HO]
  · isplitl [Hfl]; · iexact Hfl
    isplitl [HO]; · iexact HO
    iapply (Transfers.MayWaits.elim (SemLoc.dma sem)) $$ Hmw
  iexact Hk

omit [FloatOps F] in
/-- A conditional of the program, by cases: both arms from the same resources to the same delivery. -/
theorem dite_step {c : Prop} [Decidable c] {α : Type} {E : Type → Type} {β : Type}
    (wpP : Prog E β → sProp 𝕄) (t : c → Prog E β) (e : ¬ c → Prog E β) (R : sProp 𝕄)
    (ht : ∀ h, R ⊢ wpP (t h)) (he : ∀ h, R ⊢ wpP (e h)) : R ⊢ wpP (dite c t e) := by
  by_cases h : c
  · rw [dif_pos h]; exact ht h
  · rw [dif_neg h]; exact he h

omit [FloatOps F] in
theorem baseL_eq : baseL L = 20000 * (L 1).val + 10000 * (L 0).val := by
  show 10000 * (2 * (L 1).val + (L 0).val) = _; omega

omit [FloatOps F] in
theorem off2_base (k : Fin k0_t1_loop.trips) : k0_off2 L k = ![baseL L + 256 * k.val, 0] := by rw [k0_off2_eq, baseL_eq]
omit [FloatOps F] in
theorem off5_base (k : Fin k0_t1_loop.trips) : k0_off5 L k = ![baseL L + (256 * k.val + 128), 0] := by
  rw [k0_off5_eq, baseL_eq, show 20000 * (L 1).val + 10000 * (L 0).val + 256 * k.val + 128 = 20000 * (L 1).val + 10000 * (L 0).val + (256 * k.val + 128) by omega]
omit [FloatOps F] in
theorem off8_base : k0_off8 L = ![baseL L + 9984, 0] := by rw [k0_off8_eq, baseL_eq]

omit [FloatOps F] in
theorem trips_eq : k0_t1_loop.trips = 39 := by decide

end Tile
end Cert.KernelIdeal.Hand
end
-- ==== Proof.TileFacts.lean ====
/-
  Facts about the data a SparseCore tile moves: the offsets its staged index list holds are rows of the four-row table,
  and what an indirect gather through a run of those offsets delivers is the tile's rows of the edge result.
-/
import proofs.«205308_g19069654794752_retrytranche2_377_14_alg».proof.Proof.TileDefs
import Idealize.ShloMosaic.Lib.SparseCore.Stream

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

variable (d : Dev nD) (L : grid0.Coords)

/-- The tile's rows of the edge indices start at row `10000 w`, `w` its worker number. -/
theorem off1_val : k0_off1 L 0 = 10000 * (wL L).val := by
  rw [k0_off1_eq L]
  show 20000 * (L 1).val + 10000 * (L 0).val = 10000 * (2 * (L 1).val + (L 0).val)
  omega

/-- Entry `x` of the staged list is the edge index of row `10000 w + x`. -/
theorem staged_apply (fx : Buf (Elt F) ((thrV d L).loc cc0_scratch0)) (y : S10000.Idx) :
    (View.write (Elt F) (Memref.whole Cert.KernelIdeal.cc0_scratch0 : Memref sig .scVector .vmem S10000 .i32).view fx
        (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ) y
      = m (iLoc d) (ValueIdx.ix1 (n := 320000) ⟨10000 * (wL L).val + (y 0).val, by have := (wL L).isLt; have : (y 0).val < 10000 := (y 0).isLt; omega⟩) := by
  refine (congrFun (View.write_whole_univ (Val := Elt F) (sig := sig) (κ := .scVector) Cert.KernelIdeal.cc0_scratch0 fx _) y).trans ?_
  show m (iLoc d) ((((Memref.whole main_arg1_scv : Memref sig .scVector .hbm S320000 .i32).slice (Rect.unit (s := S320000) (k0_off1 L) S10000.size (k0_off1_inb L)) (fun _ => rfl)).view.emb y)) = _
  congr 1; funext a; apply Fin.ext
  match a with
  | ⟨0, _⟩ => show k0_off1 L 0 + 1 * (y 0).val = 10000 * (wL L).val + (y 0).val; rw [off1_val]; omega

/-- The offsets a gather of 128 rows reads are rows of the four-row table. -/
theorem offs_inb128 (hidx : ∀ i, (m (iLoc d) i).toNat ≤ 3) (fx : Buf (Elt F) ((thrV d L).loc cc0_scratch0))
    (off : Fin 1 → Nat) (inb : ∀ a, off a + S128.size a ≤ S10000.size a) :
    ∀ x, ((((Memref.whole Cert.KernelIdeal.cc0_scratch0 : Memref sig .scVector .vmem S10000 .i32).slice (Rect.unit (s := S10000) off S128.size inb) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S128x128.axis := by
  intro x
  rw [show ∀ g, ((Memref.whole Cert.KernelIdeal.cc0_scratch0 : Memref sig .scVector .vmem S10000 .i32).slice (Rect.unit (s := S10000) off S128.size inb) (fun _ => rfl)).view.read (Elt F) g x
      = g (((Memref.whole Cert.KernelIdeal.cc0_scratch0 : Memref sig .scVector .vmem S10000 .i32).slice (Rect.unit (s := S10000) off S128.size inb) (fun _ => rfl)).view.emb x) from fun g => (View.read_apply _ _).trans (cast_eq _ _),
    staged_apply]
  exact Nat.lt_of_le_of_lt (hidx _) (by decide)

/-- Entry `k` of such a run of offsets, in row-major order, is the edge index of row `10000 w + off + k`. -/
theorem rows_val128 (fx : Buf (Elt F) ((thrV d L).loc cc0_scratch0))
    (off : Fin 1 → Nat) (inb : ∀ a, off a + S128.size a ≤ S10000.size a)
    (hn : S128.numel = S128x128.size gathers_S4x128_S128x128.axis')
    (hin : ∀ x, ((((Memref.whole Cert.KernelIdeal.cc0_scratch0 : Memref sig .scVector .vmem S10000 .i32).slice (Rect.unit (s := S10000) off S128.size inb) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S128x128.axis) (hb : off 0 + 128 ≤ 10000)
    (k : Fin (S128x128.size gathers_S4x128_S128x128.axis')) :
    (SparseCore.rows (((Memref.whole Cert.KernelIdeal.cc0_scratch0 : Memref sig .scVector .vmem S10000 .i32).slice (Rect.unit (s := S10000) off S128.size inb) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) hn hin k).val
      = (m (iLoc d) (ValueIdx.ix1 (n := 320000) ⟨10000 * (wL L).val + off 0 + k.val, by have := (wL L).isLt; have hk : k.val < 128 := k.isLt; omega⟩)).toNat := by
  unfold SparseCore.rows
  show (((Memref.whole Cert.KernelIdeal.cc0_scratch0 : Memref sig .scVector .vmem S10000 .i32).slice (Rect.unit (s := S10000) off S128.size inb) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ) (S128.rowMajor.symm (k.cast hn.symm))).toNat = _
  have hz : ((S128.rowMajor.symm (k.cast hn.symm)) 0).val = k.val := by
    have h1 := Shape.rowMajor_val_one (d := ![128]) (S128.rowMajor.symm (k.cast hn.symm))
    rw [show (⟨1, ![128]⟩ : Shape).rowMajor (S128.rowMajor.symm (k.cast hn.symm)) = k.cast hn.symm from Equiv.apply_symm_apply _ _] at h1
    exact h1.symm
  rw [show ∀ g z, ((Memref.whole Cert.KernelIdeal.cc0_scratch0 : Memref sig .scVector .vmem S10000 .i32).slice (Rect.unit (s := S10000) off S128.size inb) (fun _ => rfl)).view.read (Elt F) g z
      = g (((Memref.whole Cert.KernelIdeal.cc0_scratch0 : Memref sig .scVector .vmem S10000 .i32).slice (Rect.unit (s := S10000) off S128.size inb) (fun _ => rfl)).view.emb z) from fun g z => (View.read_apply _ _).trans (cast_eq _ _),
    staged_apply]
  congr 2; funext a; apply Fin.ext
  match a with
  | ⟨0, _⟩ =>
    show 10000 * (wL L).val + (off 0 + 1 * ((S128.rowMajor.symm (k.cast hn.symm)) 0).val) = 10000 * (wL L).val + off 0 + k.val
    rw [hz]; omega

/-- What the gather through such a run delivers at row `r`, column `l`: the edge result at row `10000 w + off + r`. -/
theorem gather_val128 (fx : Buf (Elt F) ((thrV d L).loc cc0_scratch0))
    (off : Fin 1 → Nat) (inb : ∀ a, off a + S128.size a ≤ S10000.size a)
    (hn : S128.numel = S128x128.size gathers_S4x128_S128x128.axis')
    (hin : ∀ x, ((((Memref.whole Cert.KernelIdeal.cc0_scratch0 : Memref sig .scVector .vmem S10000 .i32).slice (Rect.unit (s := S10000) off S128.size inb) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S128x128.axis)
    (r : Fin 128) (l : Fin 128) (hb : off 0 + 128 ≤ 10000) :
    SparseCore.gatherPayload gathers_S4x128_S128x128 (((Memref.whole Cert.KernelIdeal.cc0_scratch4 : Memref sig .scVector .shared S4x128 .f32).slice (Rect.unit (s := S4x128) ![0, 0] S4x128.size inb_S4x128_S4x128_0_0) (fun _ => rfl)).view.read (Elt F) (tabSh m d (cV L)))
        (SparseCore.rows (((Memref.whole Cert.KernelIdeal.cc0_scratch0 : Memref sig .scVector .vmem S10000 .i32).slice (Rect.unit (s := S10000) off S128.size inb) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) hn hin) (ValueIdx.ix2 r l)
      = edgeOut m d (ValueIdx.ix2 (⟨10000 * (wL L).val + off 0 + r.val, by have := (wL L).isLt; have := r.isLt; omega⟩ : Fin 320000) l) := by
  unfold SparseCore.gatherPayload
  rw [show ∀ g z, ((Memref.whole Cert.KernelIdeal.cc0_scratch4 : Memref sig .scVector .shared S4x128 .f32).slice (Rect.unit (s := S4x128) ![0, 0] S4x128.size inb_S4x128_S4x128_0_0) (fun _ => rfl)).view.read (Elt F) g z
      = g (((Memref.whole Cert.KernelIdeal.cc0_scratch4 : Memref sig .scVector .shared S4x128 .f32).slice (Rect.unit (s := S4x128) ![0, 0] S4x128.size inb_S4x128_S4x128_0_0) (fun _ => rfl)).view.emb z) from fun g z => (View.read_apply _ _).trans (cast_eq _ _)]
  show m (tLoc d) _ = Cert.Spec.edgeEmb (m (tLoc d)) (m (iLoc d)) _
  rw [Cert.Spec.edgeEmb_apply]
  have hr := rows_val128 m d L fx off inb hn hin hb (r : Fin (S128x128.size gathers_S4x128_S128x128.axis'))
  have hlt := hin (S128.rowMajor.symm ((r : Fin (S128x128.size gathers_S4x128_S128x128.axis')).cast hn.symm))
  congr 1; funext a; apply Fin.ext
  match a with
  | ⟨0, _⟩ =>
    show 0 + 1 * ((gathers_S4x128_S128x128.idx _ (ValueIdx.ix2 r l)) (0 : Fin 2)).val = (Cert.Spec.row4 _).val
    rw [show (0 : Fin 2) = gathers_S4x128_S128x128.axis from rfl, Shape.Gathers.idx_axis]
    show 0 + 1 * (SparseCore.rows _ hn hin r).val = _
    rw [hr]
    have h4 : (m (iLoc d) (ValueIdx.ix1 (n := 320000) ⟨10000 * (wL L).val + off 0 + r.val, by have := (wL L).isLt; have := r.isLt; omega⟩)).toNat < 4 := by
      rw [← hr]; exact (SparseCore.rows _ hn hin r).isLt
    show _ = (m (iLoc d) _).toNat % 4
    rw [Nat.mod_eq_of_lt h4]; omega
  | ⟨1, _⟩ =>
    show 0 + 1 * ((gathers_S4x128_S128x128.idx (SparseCore.rows _ hn hin) (ValueIdx.ix2 r l)) (1 : Fin 2)).val = l.val
    rw [Nat.zero_add, Nat.one_mul]
    exact Shape.Gathers.idx_of_ne gathers_S4x128_S128x128 (SparseCore.rows _ hn hin) (ValueIdx.ix2 r l) (1 : Fin 2) (by decide)

/-- The offsets a gather of 16 rows reads are rows of the four-row table. -/
theorem offs_inb16 (hidx : ∀ i, (m (iLoc d) i).toNat ≤ 3) (fx : Buf (Elt F) ((thrV d L).loc cc0_scratch0)) :
    ∀ x, ((((Memref.whole Cert.KernelIdeal.cc0_scratch0 : Memref sig .scVector .vmem S10000 .i32).slice (Rect.unit (s := S10000) ![9984] S16.size inb_S10000_S16_9984) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S16x128.axis := by
  intro x
  rw [show ∀ g, ((Memref.whole Cert.KernelIdeal.cc0_scratch0 : Memref sig .scVector .vmem S10000 .i32).slice (Rect.unit (s := S10000) ![9984] S16.size inb_S10000_S16_9984) (fun _ => rfl)).view.read (Elt F) g x
      = g (((Memref.whole Cert.KernelIdeal.cc0_scratch0 : Memref sig .scVector .vmem S10000 .i32).slice (Rect.unit (s := S10000) ![9984] S16.size inb_S10000_S16_9984) (fun _ => rfl)).view.emb x) from fun g => (View.read_apply _ _).trans (cast_eq _ _),
    staged_apply]
  exact Nat.lt_of_le_of_lt (hidx _) (by decide)

/-- Entry `k` of such a run of offsets, in row-major order, is the edge index of row `10000 w + off + k`. -/
theorem rows_val16 (fx : Buf (Elt F) ((thrV d L).loc cc0_scratch0))
    (hn : S16.numel = S16x128.size gathers_S4x128_S16x128.axis')
    (hin : ∀ x, ((((Memref.whole Cert.KernelIdeal.cc0_scratch0 : Memref sig .scVector .vmem S10000 .i32).slice (Rect.unit (s := S10000) ![9984] S16.size inb_S10000_S16_9984) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S16x128.axis)
    (k : Fin (S16x128.size gathers_S4x128_S16x128.axis')) :
    (SparseCore.rows (((Memref.whole Cert.KernelIdeal.cc0_scratch0 : Memref sig .scVector .vmem S10000 .i32).slice (Rect.unit (s := S10000) ![9984] S16.size inb_S10000_S16_9984) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) hn hin k).val
      = (m (iLoc d) (ValueIdx.ix1 (n := 320000) ⟨10000 * (wL L).val + 9984 + k.val, by have := (wL L).isLt; have hk : k.val < 16 := k.isLt; omega⟩)).toNat := by
  unfold SparseCore.rows
  show (((Memref.whole Cert.KernelIdeal.cc0_scratch0 : Memref sig .scVector .vmem S10000 .i32).slice (Rect.unit (s := S10000) ![9984] S16.size inb_S10000_S16_9984) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ) (S16.rowMajor.symm (k.cast hn.symm))).toNat = _
  have hz : ((S16.rowMajor.symm (k.cast hn.symm)) 0).val = k.val := by
    have h1 := Shape.rowMajor_val_one (d := ![16]) (S16.rowMajor.symm (k.cast hn.symm))
    rw [show (⟨1, ![16]⟩ : Shape).rowMajor (S16.rowMajor.symm (k.cast hn.symm)) = k.cast hn.symm from Equiv.apply_symm_apply _ _] at h1
    exact h1.symm
  rw [show ∀ g z, ((Memref.whole Cert.KernelIdeal.cc0_scratch0 : Memref sig .scVector .vmem S10000 .i32).slice (Rect.unit (s := S10000) ![9984] S16.size inb_S10000_S16_9984) (fun _ => rfl)).view.read (Elt F) g z
      = g (((Memref.whole Cert.KernelIdeal.cc0_scratch0 : Memref sig .scVector .vmem S10000 .i32).slice (Rect.unit (s := S10000) ![9984] S16.size inb_S10000_S16_9984) (fun _ => rfl)).view.emb z) from fun g z => (View.read_apply _ _).trans (cast_eq _ _),
    staged_apply]
  congr 2; funext a; apply Fin.ext
  match a with
  | ⟨0, _⟩ =>
    show 10000 * (wL L).val + (9984 + 1 * ((S16.rowMajor.symm (k.cast hn.symm)) 0).val) = 10000 * (wL L).val + 9984 + k.val
    rw [hz]; omega

/-- What the gather through such a run delivers at row `r`, column `l`: the edge result at row `10000 w + off + r`. -/
theorem gather_val16 (fx : Buf (Elt F) ((thrV d L).loc cc0_scratch0))
    (hn : S16.numel = S16x128.size gathers_S4x128_S16x128.axis')
    (hin : ∀ x, ((((Memref.whole Cert.KernelIdeal.cc0_scratch0 : Memref sig .scVector .vmem S10000 .i32).slice (Rect.unit (s := S10000) ![9984] S16.size inb_S10000_S16_9984) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S16x128.axis)
    (r : Fin 16) (l : Fin 128) :
    SparseCore.gatherPayload gathers_S4x128_S16x128 (((Memref.whole Cert.KernelIdeal.cc0_scratch4 : Memref sig .scVector .shared S4x128 .f32).slice (Rect.unit (s := S4x128) ![0, 0] S4x128.size inb_S4x128_S4x128_0_0) (fun _ => rfl)).view.read (Elt F) (tabSh m d (cV L)))
        (SparseCore.rows (((Memref.whole Cert.KernelIdeal.cc0_scratch0 : Memref sig .scVector .vmem S10000 .i32).slice (Rect.unit (s := S10000) ![9984] S16.size inb_S10000_S16_9984) (fun _ => rfl)).view.read (Elt F)
        (View.write (Elt F) (Memref.whole Cert.KernelIdeal.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) hn hin) (ValueIdx.ix2 r l)
      = edgeOut m d (ValueIdx.ix2 (⟨10000 * (wL L).val + 9984 + r.val, by have := (wL L).isLt; have := r.isLt; omega⟩ : Fin 320000) l) := by
  unfold SparseCore.gatherPayload
  rw [show ∀ g z, ((Memref.whole Cert.KernelIdeal.cc0_scratch4 : Memref sig .scVector .shared S4x128 .f32).slice (Rect.unit (s := S4x128) ![0, 0] S4x128.size inb_S4x128_S4x128_0_0) (fun _ => rfl)).view.read (Elt F) g z
      = g (((Memref.whole Cert.KernelIdeal.cc0_scratch4 : Memref sig .scVector .shared S4x128 .f32).slice (Rect.unit (s := S4x128) ![0, 0] S4x128.size inb_S4x128_S4x128_0_0) (fun _ => rfl)).view.emb z) from fun g z => (View.read_apply _ _).trans (cast_eq _ _)]
  show m (tLoc d) _ = Cert.Spec.edgeEmb (m (tLoc d)) (m (iLoc d)) _
  rw [Cert.Spec.edgeEmb_apply]
  have hr := rows_val16 m d L fx hn hin (r : Fin (S16x128.size gathers_S4x128_S16x128.axis'))
  have hlt := hin (S16.rowMajor.symm ((r : Fin (S16x128.size gathers_S4x128_S16x128.axis')).cast hn.symm))
  congr 1; funext a; apply Fin.ext
  match a with
  | ⟨0, _⟩ =>
    show 0 + 1 * ((gathers_S4x128_S16x128.idx _ (ValueIdx.ix2 r l)) (0 : Fin 2)).val = (Cert.Spec.row4 _).val
    rw [show (0 : Fin 2) = gathers_S4x128_S16x128.axis from rfl, Shape.Gathers.idx_axis]
    show 0 + 1 * (SparseCore.rows _ hn hin r).val = _
    rw [hr]
    have h4 : (m (iLoc d) (ValueIdx.ix1 (n := 320000) ⟨10000 * (wL L).val + 9984 + r.val, by have := (wL L).isLt; have := r.isLt; omega⟩)).toNat < 4 := by
      rw [← hr]; exact (SparseCore.rows _ hn hin r).isLt
    show _ = (m (iLoc d) _).toNat % 4
    rw [Nat.mod_eq_of_lt h4]; omega
  | ⟨1, _⟩ =>
    show 0 + 1 * ((gathers_S4x128_S16x128.idx (SparseCore.rows _ hn hin) (ValueIdx.ix2 r l)) (1 : Fin 2)).val = l.val
    rw [Nat.zero_add, Nat.one_mul]
    exact Shape.Gathers.idx_of_ne gathers_S4x128_S16x128 (SparseCore.rows _ hn hin) (ValueIdx.ix2 r l) (1 : Fin 2) (by decide)

end Cert.KernelIdeal.Hand

end
-- ==== Proof.TileGather.lean ====
/-
  Issuing an indirect gather on a SparseCore tile: from the destination row buffer, the staged index list, the tile's read
  token of the shared table and the transfer's semaphore at zero, the gather is in flight, and what it delivers at its wait
  is the row buffer holding the tile's rows of the edge result, with the list and the token back.
-/
import proofs.«205308_g19069654794752_retrytranche2_377_14_alg».proof.Proof.TileDefs
import proofs.«205308_g19069654794752_retrytranche2_377_14_alg».proof.Proof.TileFacts
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.KernelIdeal.main_arg1_scv : Memref Cert.KernelIdeal.sig Kind.scVector Space.hbm Cert.KernelIdeal.S320000 EltTy.i32)
local notation "tV" => (Memref.whole Cert.KernelIdeal.main_arg3_scv : Memref Cert.KernelIdeal.sig Kind.scVector Space.hbm Cert.KernelIdeal.S4x128 EltTy.f32)
local notation "oV" => (Memref.whole Cert.KernelIdeal.main_v0_scv : Memref Cert.KernelIdeal.sig Kind.scVector Space.hbm Cert.KernelIdeal.S320000x128 EltTy.f32)
local notation "xV" => (Memref.whole Cert.KernelIdeal.cc0_scratch0 : Memref Cert.KernelIdeal.sig Kind.scVector Space.vmem Cert.KernelIdeal.S10000 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "tbV" => (Memref.whole Cert.KernelIdeal.cc0_scratch3 : Memref Cert.KernelIdeal.sig Kind.scVector Space.vmem Cert.KernelIdeal.S16x128 EltTy.f32)
local notation "shV" => (Memref.whole Cert.KernelIdeal.cc0_scratch4 : Memref Cert.KernelIdeal.sig Kind.scVector Space.shared Cert.KernelIdeal.S4x128 EltTy.f32)

variable (d : Dev nD) (L : grid0.Coords)

/-- The staged list is what a write of it over any contents leaves. -/
theorem idxT_eq_staged : idxT m d L
    = View.write (Elt F) (xV).view (idxT m d L) (ReadAs.same.apply ((iSlK L).view.read (Elt F) (m (iLoc d)))) Finset.univ :=
  (View.write_whole_univ (Val := Elt F) (sig := sig) (κ := .scVector) Cert.KernelIdeal.cc0_scratch0 (idxT m d L) _).symm

/-- The row transfers of a gather into a 128-row buffer credit its semaphore 524288 units in all. -/
theorem credit128 (B : Memref sig .scVector .vmem S128x128 .f32) :
    ∑ j, (B.slice (S128x128.rowRect gathers_S4x128_S128x128.axis' j) (S128x128.stride_rowRect gathers_S4x128_S128x128.axis' j)).view.dmaCredit = 524288 :=
  (by decide : ∀ b : Fin (sig.nBuf (Kind.scVector.table Space.vmem)),
    (∑ j : Fin (S128x128.size gathers_S4x128_S128x128.axis'), sig.dmaCredit Kind.scVector (Kind.scVector.table Space.vmem) b (S128x128.rowShape gathers_S4x128_S128x128.axis') EltTy.f32) = 524288) B.view.buf

/-- Issuing the gather of 128 rows through the chunk at `off` of the staged list into row buffer `B`. -/
theorem gather_issue128 (hidx : ∀ i, (m (iLoc d) i).toNat ≤ 3) (B : Memref sig .scVector .vmem S128x128 .f32) (hB : B.IsWhole) (off : Fin 1 → Nat) (inb : ∀ a, off a + S128.size a ≤ S10000.size a) (sem : DmaSem sig)
    {hp : (thrV d L).2.kind = .scVector} {hn : S128.numel = S128x128.size gathers_S4x128_S128x128.axis'} {hsrc : (shSl).view.WordExact} {he : EltTy.f32.bits = 32}
    {hsp : Space.shared = .hbm ∨ Space.shared = .shared} {hr : S4x128.StreamRows 0}
    {α : Type} (k : PUnit → Prog (TpuEff nD τ sig (Elt F) Λ₀ (.scVector (cV L) (jV L))) α) (Q : α → sProp 𝕄) :
    iprop((∃ f, B.view.loc (thrV d L) ↦[B.view.set]{fullShare} f) ∗ xRes m d L ∗ shRes m d L ∗ semVal (thrV d L, SemLoc.dma sem) 0)
      ⊢ iprop((Transfers.Flight countersEmb (thrV d L) (SemLoc.dma sem) (default : HIx 1) 524288 (gatherD m d L B (off 0)) -∗ wp frame (wpE (defs₀ (F := F)) 𝒱₀ (thrV d L) none) Set.univ (k ⟨⟩) Q)
          -∗ wp frame (wpE (defs₀ (F := F)) 𝒱₀ (thrV d L) none) Set.univ (SparseCore.enqueueIndirectGather hp (shSl) B gathers_S4x128_S128x128 (xSl off inb) hn sem hsrc he hsp hr >>= k) Q) := by
  have hin := offs_inb128 m d L hidx (idxT m d L) off inb
  have hss : (shSl).view.set = Finset.univ := by
    show ((View.whole Cert.KernelIdeal.cc0_scratch4).slice (Rect.unit (s := S4x128) ![0, 0] S4x128.size inb_S4x128_S4x128_0_0)).set = Finset.univ
    rw [View.set_slice_whole]
    exact Finset.eq_univ_of_forall fun y => View.mem_set_unit_zero (funext fun a => by fin_cases a <;> rfl) _ y
  have hsplit : ((xV).view.loc (thrV d L) ↦{fullShare} (View.write (Elt F) (xV).view (idxT m d L) (ReadAs.same.apply ((iSlK L).view.read (Elt F) (m (iLoc d)))) Finset.univ) : sProp 𝕄)
      ⊣⊢ iprop(((xV).view.loc (thrV d L) ↦[(xSl off inb).view.set]{fullShare} (View.write (Elt F) (xV).view (idxT m d L) (ReadAs.same.apply ((iSlK L).view.read (Elt F) (m (iLoc d)))) Finset.univ))
          ∗ (xV).view.loc (thrV d L) ↦[Finset.univ \ (xSl off inb).view.set]{fullShare} (View.write (Elt F) (xV).view (idxT m d L) (ReadAs.same.apply ((iSlK L).view.read (Elt F) (m (iLoc d)))) Finset.univ)) :=
    pointsTo_split_subset (Finset.subset_univ _)
  have hstg : ((xV).view.loc (thrV d L) ↦{fullShare} idxT m d L : sProp 𝕄)
      = (xV).view.loc (thrV d L) ↦{fullShare} (View.write (Elt F) (xV).view (idxT m d L) (ReadAs.same.apply ((iSlK L).view.read (Elt F) (m (iLoc d)))) Finset.univ) :=
    congrArg (fun g => ((xV).view.loc (thrV d L) ↦{fullShare} g : sProp 𝕄)) (idxT_eq_staged m d L)
  have hshs : ((shV).view.loc (thrV d L) ↦{Transfers.shareTokN fullShare (jV L).val} tabSh m d (cV L) : sProp 𝕄)
      = (shSl).view.loc (thrV d L) ↦[(shSl).view.set]{Transfers.shareTokN fullShare (jV L).val} tabSh m d (cV L) := by rw [hss]
  iintro ⟨⟨%f, HB⟩, Hx, Hsh, Hv⟩ Hk
  ihave Hx' := (Entails.of_eq hstg) $$ Hx
  ihave Hxs := hsplit.1 $$ Hx'
  icases Hxs with ⟨Hxs, Hxr⟩
  ihave Hsh' := (Entails.of_eq hshs) $$ Hsh
  iapply (SparseCore.wp_indirectGatherLocal countersEmb 𝒱₀ (thrV d L) none (hg := gathers_S4x128_S128x128) (default : HIx 1)
      524288 (credit128 B) (by decide) hin) $$ [Hsh' HB Hxs Hv]
  · isplitl [Hsh']; · iexact Hsh'
    isplitl [HB]; · iexact HB
    isplitl [Hxs]; · iexact Hxs
    iexact Hv
  iintro Hfl
  iapply Hk
  ihave Hfl2 := (Transfers.Flight_frame countersEmb (thrV d L)) $$ [Hxr Hfl]
  · isplitl [Hxr]; · iexact Hxr
    iexact Hfl
  iapply (Transfers.Flight_mono countersEmb (thrV d L) ?_) $$ Hfl2
  unfold gatherD
  iintro ⟨Hxr, HB, Hsh, Hxs⟩
  isplitl [HB]
  · iexists _
    isplitl [HB]; · iexact HB
    ipureintro
    intro r l h
    rw [View.read_write_univ]
    exact (gather_val128 m d L (idxT m d L) off inb hn hin r l (inb 0)).trans (by rfl)
  isplitl [Hxr Hxs]
  · ihave Hx := hsplit.2 $$ [Hxs Hxr]
    · isplitl [Hxs]; · iexact Hxs
      iexact Hxr
    iapply (Entails.of_eq hstg.symm) $$ Hx
  · iapply (Entails.of_eq hshs.symm) $$ Hsh

/-- The row transfers of a gather into a 16-row buffer credit its semaphore 65536 units in all. -/
theorem credit16 (B : Memref sig .scVector .vmem S16x128 .f32) :
    ∑ j, (B.slice (S16x128.rowRect gathers_S4x128_S16x128.axis' j) (S16x128.stride_rowRect gathers_S4x128_S16x128.axis' j)).view.dmaCredit = 65536 :=
  (by decide : ∀ b : Fin (sig.nBuf (Kind.scVector.table Space.vmem)),
    (∑ j : Fin (S16x128.size gathers_S4x128_S16x128.axis'), sig.dmaCredit Kind.scVector (Kind.scVector.table Space.vmem) b (S16x128.rowShape gathers_S4x128_S16x128.axis') EltTy.f32) = 65536) B.view.buf

/-- Issuing the gather of 16 rows through the tail of the staged list into row buffer `B`. -/
theorem gather_issue16 (hidx : ∀ i, (m (iLoc d) i).toNat ≤ 3) (B : Memref sig .scVector .vmem S16x128 .f32) (hB : B.IsWhole) (sem : DmaSem sig)
    {hp : (thrV d L).2.kind = .scVector} {hn : S16.numel = S16x128.size gathers_S4x128_S16x128.axis'} {hsrc : (shSl).view.WordExact} {he : EltTy.f32.bits = 32}
    {hsp : Space.shared = .hbm ∨ Space.shared = .shared} {hr : S4x128.StreamRows 0}
    {α : Type} (k : PUnit → Prog (TpuEff nD τ sig (Elt F) Λ₀ (.scVector (cV L) (jV L))) α) (Q : α → sProp 𝕄) :
    iprop((∃ f, B.view.loc (thrV d L) ↦[B.view.set]{fullShare} f) ∗ xRes m d L ∗ shRes m d L ∗ semVal (thrV d L, SemLoc.dma sem) 0)
      ⊢ iprop((Transfers.Flight countersEmb (thrV d L) (SemLoc.dma sem) (default : HIx 1) 65536 (gatherD16 m d L B) -∗ wp frame (wpE (defs₀ (F := F)) 𝒱₀ (thrV d L) none) Set.univ (k ⟨⟩) Q)
          -∗ wp frame (wpE (defs₀ (F := F)) 𝒱₀ (thrV d L) none) Set.univ (SparseCore.enqueueIndirectGather hp (shSl) B gathers_S4x128_S16x128 (xSl16) hn sem hsrc he hsp hr >>= k) Q) := by
  have hin := offs_inb16 m d L hidx (idxT m d L)
  have hss : (shSl).view.set = Finset.univ := by
    show ((View.whole Cert.KernelIdeal.cc0_scratch4).slice (Rect.unit (s := S4x128) ![0, 0] S4x128.size inb_S4x128_S4x128_0_0)).set = Finset.univ
    rw [View.set_slice_whole]
    exact Finset.eq_univ_of_forall fun y => View.mem_set_unit_zero (funext fun a => by fin_cases a <;> rfl) _ y
  have hsplit : ((xV).view.loc (thrV d L) ↦{fullShare} (View.write (Elt F) (xV).view (idxT m d L) (ReadAs.same.apply ((iSlK L).view.read (Elt F) (m (iLoc d)))) Finset.univ) : sProp 𝕄)
      ⊣⊢ iprop(((xV).view.loc (thrV d L) ↦[(xSl16).view.set]{fullShare} (View.write (Elt F) (xV).view (idxT m d L) (ReadAs.same.apply ((iSlK L).view.read (Elt F) (m (iLoc d)))) Finset.univ))
          ∗ (xV).view.loc (thrV d L) ↦[Finset.univ \ (xSl16).view.set]{fullShare} (View.write (Elt F) (xV).view (idxT m d L) (ReadAs.same.apply ((iSlK L).view.read (Elt F) (m (iLoc d)))) Finset.univ)) :=
    pointsTo_split_subset (Finset.subset_univ _)
  have hstg : ((xV).view.loc (thrV d L) ↦{fullShare} idxT m d L : sProp 𝕄)
      = (xV).view.loc (thrV d L) ↦{fullShare} (View.write (Elt F) (xV).view (idxT m d L) (ReadAs.same.apply ((iSlK L).view.read (Elt F) (m (iLoc d)))) Finset.univ) :=
    congrArg (fun g => ((xV).view.loc (thrV d L) ↦{fullShare} g : sProp 𝕄)) (idxT_eq_staged m d L)
  have hshs : ((shV).view.loc (thrV d L) ↦{Transfers.shareTokN fullShare (jV L).val} tabSh m d (cV L) : sProp 𝕄)
      = (shSl).view.loc (thrV d L) ↦[(shSl).view.set]{Transfers.shareTokN fullShare (jV L).val} tabSh m d (cV L) := by rw [hss]
  iintro ⟨⟨%f, HB⟩, Hx, Hsh, Hv⟩ Hk
  ihave Hx' := (Entails.of_eq hstg) $$ Hx
  ihave Hxs := hsplit.1 $$ Hx'
  icases Hxs with ⟨Hxs, Hxr⟩
  ihave Hsh' := (Entails.of_eq hshs) $$ Hsh
  iapply (SparseCore.wp_indirectGatherLocal countersEmb 𝒱₀ (thrV d L) none (hg := gathers_S4x128_S16x128) (default : HIx 1)
      65536 (credit16 B) (by decide) hin) $$ [Hsh' HB Hxs Hv]
  · isplitl [Hsh']; · iexact Hsh'
    isplitl [HB]; · iexact HB
    isplitl [Hxs]; · iexact Hxs
    iexact Hv
  iintro Hfl
  iapply Hk
  ihave Hfl2 := (Transfers.Flight_frame countersEmb (thrV d L)) $$ [Hxr Hfl]
  · isplitl [Hxr]; · iexact Hxr
    iexact Hfl
  iapply (Transfers.Flight_mono countersEmb (thrV d L) ?_) $$ Hfl2
  unfold gatherD16
  iintro ⟨Hxr, HB, Hsh, Hxs⟩
  isplitl [HB]
  · iexists _
    isplitl [HB]; · iexact HB
    ipureintro
    intro r l h
    rw [View.read_write_univ]
    exact (gather_val16 m d L (idxT m d L) hn hin r l).trans (by rfl)
  isplitl [Hxr Hxs]
  · ihave Hx := hsplit.2 $$ [Hxs Hxr]
    · isplitl [Hxs]; · iexact Hxs
      iexact Hxr
    iapply (Entails.of_eq hstg.symm) $$ Hx
  · iapply (Entails.of_eq hshs.symm) $$ Hsh

end Cert.KernelIdeal.Hand

end
-- ==== Proof.TileCopy.lean ====
/-
  A tile's copies of a row buffer out to its rows of the edge result: the row intervals of the result as element sets,
  and the issue of such a copy with its delivery stated over those sets.
-/
import proofs.«205308_g19069654794752_retrytranche2_377_14_alg».proof.Proof.TileDefs
import proofs.«205308_g19069654794752_retrytranche2_377_14_alg».proof.Proof.Deal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.KernelIdeal.main_arg1_scv : Memref Cert.KernelIdeal.sig Kind.scVector Space.hbm Cert.KernelIdeal.S320000 EltTy.i32)
local notation "tV" => (Memref.whole Cert.KernelIdeal.main_arg3_scv : Memref Cert.KernelIdeal.sig Kind.scVector Space.hbm Cert.KernelIdeal.S4x128 EltTy.f32)
local notation "oV" => (Memref.whole Cert.KernelIdeal.main_v0_scv : Memref Cert.KernelIdeal.sig Kind.scVector Space.hbm Cert.KernelIdeal.S320000x128 EltTy.f32)
local notation "xV" => (Memref.whole Cert.KernelIdeal.cc0_scratch0 : Memref Cert.KernelIdeal.sig Kind.scVector Space.vmem Cert.KernelIdeal.S10000 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "tbV" => (Memref.whole Cert.KernelIdeal.cc0_scratch3 : Memref Cert.KernelIdeal.sig Kind.scVector Space.vmem Cert.KernelIdeal.S16x128 EltTy.f32)
local notation "shV" => (Memref.whole Cert.KernelIdeal.cc0_scratch4 : Memref Cert.KernelIdeal.sig Kind.scVector Space.shared Cert.KernelIdeal.S4x128 EltTy.f32)

section Tile

variable (d : Dev nD) (L : grid0.Coords)

/-! ## Row intervals of the result -/

omit [FloatOps F] in
/-- A slice of the whole result has the rectangle's elements. -/
theorem set_oSlice (r : Rect S320000x128) : ((oV).view.slice r).set = r.set := by
  show ((View.whole (main_v0_scv : Ref sig .scVector)).slice r).set = _
  rw [View.set_slice]; exact Finset.map_refl

omit [FloatOps F] in
/-- A unit rectangle of `n` whole rows from row `a` is the row interval `[a, a + n)`. -/
theorem set_unit_rows (a n : ℕ) (inb : ∀ ax, (![a, 0] : Fin 2 → ℕ) ax + (![n, 128] : Fin 2 → ℕ) ax ≤ S320000x128.size ax) :
    (Rect.unit (s := S320000x128) ![a, 0] ![n, 128] inb).set = rowsBetween a (a + n) := by
  ext j
  rw [Rect.mem_set_unit, mem_rowsBetween, Fin.forall_fin_two]
  have h1 : (j 1).val < 128 := (j 1).isLt
  show (a ≤ (j 0).val ∧ (j 0).val < a + n) ∧ (0 ≤ (j 1).val ∧ (j 1).val < 0 + 128) ↔ _
  omega

omit [FloatOps F] in
/-- A window of 128 rows of the result at rows `a …` is the row interval `[a, a + 128)`. -/
theorem set_oSl (off : Fin 2 → Nat) (inb : ∀ a, off a + S128x128.size a ≤ S320000x128.size a) (a : ℕ) (h : off = ![a, 0]) :
    (oSl off inb).view.set = rowsBetween a (a + 128) := by
  subst h
  show ((oV).view.slice (Rect.unit (s := S320000x128) ![a, 0] S128x128.size inb)).set = _
  rw [set_oSlice]
  exact set_unit_rows a 128 inb

omit [FloatOps F] in
/-- A window of 16 rows of the result at rows `a …` is the row interval `[a, a + 16)`. -/
theorem set_oSl16 (off : Fin 2 → Nat) (inb : ∀ a, off a + S16x128.size a ≤ S320000x128.size a) (a : ℕ) (h : off = ![a, 0]) :
    (oSl16 off inb).view.set = rowsBetween a (a + 16) := by
  subst h
  show ((oV).view.slice (Rect.unit (s := S320000x128) ![a, 0] S16x128.size inb)).set = _
  rw [set_oSlice]
  exact set_unit_rows a 16 inb

omit [FloatOps F] in
/-- The tile's rows of the result are the row interval of ten thousand rows from its first. -/
theorem oRowSet_eq_rows : oRowSet (wL L) = rowsBetween (baseL L) (baseL L + 10000) := by
  ext j
  rw [oRowSet_eq, Rect.mem_set_unit, mem_rowsBetween, Fin.forall_fin_two]
  have h1 : (j 1).val < 128 := (j 1).isLt
  show ((wL L).val * (320000 / 32) ≤ (j 0).val ∧ (j 0).val < (wL L).val * (320000 / 32) + 320000 / 32)
    ∧ (0 * 128 ≤ (j 1).val ∧ (j 1).val < 0 * 128 + 128) ↔ 10000 * (wL L).val ≤ (j 0).val ∧ (j 0).val < 10000 * (wL L).val + 10000
  omega

omit [FloatOps F] in
/-- A row interval held whole is its two parts at an inner row. -/
theorem rows_split {a b c : ℕ} (hab : a ≤ b) (hbc : b ≤ c) (f : Buf (Elt F) (oLoc d)) :
    ((oV).view.loc (thrV d L) ↦[rowsBetween a c]{fullShare} f : sProp 𝕄)
      ⊣⊢ iprop(((oV).view.loc (thrV d L) ↦[rowsBetween a b]{fullShare} f) ∗ (oV).view.loc (thrV d L) ↦[rowsBetween b c]{fullShare} f) := by
  have hu : rowsBetween a c = rowsBetween a b ∪ rowsBetween b c := by
    ext j; simp only [Finset.mem_union, mem_rowsBetween]; omega
  have hd : Disjoint (rowsBetween a b) (rowsBetween b c) :=
    Finset.disjoint_left.mpr fun j h1 h2 => by rw [mem_rowsBetween] at h1 h2; omega
  rw [hu]
  exact pointsTo_union hd

omit [FloatOps F] in
/-- An empty row interval holds nothing. -/
theorem rows_empty (a : ℕ) (f : Buf (Elt F) (oLoc d)) :
    ((oV).view.loc (thrV d L) ↦[rowsBetween a a]{fullShare} f : sProp 𝕄) ⊣⊢ iprop(emp) := by
  have he : rowsBetween a a = ∅ := by
    ext j; simp only [mem_rowsBetween, Finset.notMem_empty, iff_false]; omega
  rw [he]
  exact ⟨Entails.of_eq pointsTo_empty, Entails.of_eq pointsTo_empty.symm⟩

/-! ## Issuing a copy of a row buffer out to a window of the result -/

/-- Where row `r` of a window of whole rows from row `a` lies in the result. -/
theorem emb_unit_rows (a n : ℕ) (inb : ∀ ax, (![a, 0] : Fin 2 → ℕ) ax + (![n, 128] : Fin 2 → ℕ) ax ≤ S320000x128.size ax)
    (y : (⟨2, ![n, 128]⟩ : Shape).Idx) (h : a + (y 0).val < 320000) :
    (Rect.unit (s := S320000x128) ![a, 0] ![n, 128] inb).emb y = ValueIdx.ix2 (⟨a + (y 0).val, h⟩ : Fin 320000) (y 1) := by
  funext ax
  refine Fin.ext ?_
  rw [Rect.emb_apply]
  match ax with
  | ⟨0, _⟩ => show a + 1 * (y 0).val = a + (y 0).val; omega
  | ⟨1, _⟩ => show 0 + 1 * (y 1).val = (y 1).val; omega

/-- A copy of a 128-row buffer holding the lookup's rows `[base + o, base + o + 128)` out to those rows of the result,
    on a semaphore held at zero: the tile goes on holding the copy's flight, which delivers those rows at the lookup and
    the buffer back. -/
theorem copy_issue128 (B : Memref sig .scVector .vmem S128x128 .f32) (hB : B.IsWhole) (o : ℕ) (ho : o + 128 ≤ 10000)
    (off : Fin 2 → Nat) (inb : ∀ a, off a + S128x128.size a ≤ S320000x128.size a) (hoff : off = ![baseL L + o, 0]) (sem : DmaSem sig)
    {h1 : B.view.WordExact} {h2 : (DmaTarget.here (nD := nD) (τ := τ) (p := .scVector (cV L) (jV L)) (oSl off inb)).view.WordExact}
    {h3 : (DmaTarget.here (nD := nD) (τ := τ) (p := .scVector (cV L) (jV L)) (oSl off inb)).Typed .vmem (.dma sem)}
    (f : Buf (Elt F) (B.view.loc (thrV d L))) (hf : rowsOK128 m d L B o f) (g : Buf (Elt F) (oLoc d)) {α : Type}
    (k : PUnit → Prog (TpuEff nD τ sig (Elt F) Λ₀ (.scVector (cV L) (jV L))) α) (Q : α → sProp 𝕄) :
    iprop((B.view.loc (thrV d L) ↦[B.view.set]{fullShare} f)
        ∗ ((oV).view.loc (thrV d L) ↦[rowsBetween (baseL L + o) (baseL L + o + 128)]{fullShare} g) ∗ semVal (thrV d L, SemLoc.dma sem) 0)
      ⊢ iprop((Transfers.Flight countersEmb (thrV d L) (SemLoc.dma sem) (default : HIx 1) 524288
              (copyD m d L B (rowsBetween (baseL L + o) (baseL L + o + 128)))
            -∗ wp frame (wpE (defs₀ (F := F)) 𝒱₀ (thrV d L) none) Set.univ (k ⟨⟩) Q)
          -∗ wp frame (wpE (defs₀ (F := F)) 𝒱₀ (thrV d L) none) Set.univ (.op (.enqueueDma B (.here (oSl off inb)) (.dma sem) h1 h2 h3) k) Q) := by
  subst hoff
  have hset := set_oSl (![baseL L + o, 0]) inb (baseL L + o) rfl
  have hSd : (oSl (![baseL L + o, 0]) inb).view.set ⊆ rowsBetween (baseL L + o) (baseL L + o + 128) := by rw [hset]
  have hcongr : ∀ i ∈ rowsBetween (baseL L + o) (baseL L + o + 128),
      (oSl (![baseL L + o, 0]) inb).view.write (Elt F) g (ReadAs.same.apply (B.view.read (Elt F) f)) Finset.univ i = edgeOut m d i := by
    intro i hi
    rw [← hset] at hi
    obtain ⟨y, -, rfl⟩ := Finset.mem_map.mp hi
    have hy0 : (y 0).val < 128 := (y 0).isLt
    have hb : baseL L + o + (y 0).val < 320000 := by
      have hw : (wL L).val < 32 := (wL L).isLt
      show 10000 * (wL L).val + o + (y 0).val < 320000
      omega
    refine (View.write_emb_of_mem (v := (oSl (![baseL L + o, 0]) inb).view) g _ (Finset.mem_univ y)).trans ?_
    have he : (oSl (![baseL L + o, 0]) inb).view.emb y = ValueIdx.ix2 (⟨baseL L + o + (y 0).val, hb⟩ : Fin 320000) (y 1) :=
      emb_unit_rows (baseL L + o) 128 inb y hb
    rw [he]
    exact (congrArg (View.read (Elt F) B.view f) (ValueIdx.eq_ix2 y)).trans (hf (y 0) (y 1) hb)
  iintro ⟨HB, Ho, Hsem⟩ Hk
  iapply (Transfers.wp_dmaLocal countersEmb 𝒱₀ (thrV d L) none (src := B) (via := ReadAs.same) (dst := oSl (![baseL L + o, 0]) inb)
      (sm := SemLoc.dma sem) (q := fullShare) (fs := f) (Sd := rowsBetween (baseL L + o) (baseL L + o + 128)) (fd := g)
      (default : HIx 1) 524288 rfl (by decide) hSd) $$ [HB Ho Hsem]
  · isplitl [HB]; · iexact HB
    isplitl [Ho]; · iexact Ho
    iexact Hsem
  iintro Hfl
  iapply Hk
  iapply (Transfers.Flight_mono countersEmb (thrV d L) ?_) $$ Hfl
  rw [pointsTo_congr hcongr]
  unfold copyD
  iintro ⟨Ho, HB⟩
  isplitl [Ho]; · iexact Ho
  iexists f; iexact HB

/-- The same for the 16-row tail buffer, out to the tile's last sixteen rows. -/
theorem copy_issue16 (B : Memref sig .scVector .vmem S16x128 .f32) (hB : B.IsWhole)
    (off : Fin 2 → Nat) (inb : ∀ a, off a + S16x128.size a ≤ S320000x128.size a) (hoff : off = ![baseL L + 9984, 0]) (sem : DmaSem sig)
    {h1 : B.view.WordExact} {h2 : (DmaTarget.here (nD := nD) (τ := τ) (p := .scVector (cV L) (jV L)) (oSl16 off inb)).view.WordExact}
    {h3 : (DmaTarget.here (nD := nD) (τ := τ) (p := .scVector (cV L) (jV L)) (oSl16 off inb)).Typed .vmem (.dma sem)}
    (f : Buf (Elt F) (B.view.loc (thrV d L))) (hf : rowsOK16 m d L B f) (g : Buf (Elt F) (oLoc d)) {α : Type}
    (k : PUnit → Prog (TpuEff nD τ sig (Elt F) Λ₀ (.scVector (cV L) (jV L))) α) (Q : α → sProp 𝕄) :
    iprop((B.view.loc (thrV d L) ↦[B.view.set]{fullShare} f)
        ∗ ((oV).view.loc (thrV d L) ↦[rowsBetween (baseL L + 9984) (baseL L + 10000)]{fullShare} g) ∗ semVal (thrV d L, SemLoc.dma sem) 0)
      ⊢ iprop((Transfers.Flight countersEmb (thrV d L) (SemLoc.dma sem) (default : HIx 1) 65536
              (copyD m d L B (rowsBetween (baseL L + 9984) (baseL L + 10000)))
            -∗ wp frame (wpE (defs₀ (F := F)) 𝒱₀ (thrV d L) none) Set.univ (k ⟨⟩) Q)
          -∗ wp frame (wpE (defs₀ (F := F)) 𝒱₀ (thrV d L) none) Set.univ (.op (.enqueueDma B (.here (oSl16 off inb)) (.dma sem) h1 h2 h3) k) Q) := by
  subst hoff
  have hset : (oSl16 (![baseL L + 9984, 0]) inb).view.set = rowsBetween (baseL L + 9984) (baseL L + 10000) :=
    (set_oSl16 (![baseL L + 9984, 0]) inb (baseL L + 9984) rfl).trans (by rw [show baseL L + 9984 + 16 = baseL L + 10000 by omega])
  have hSd : (oSl16 (![baseL L + 9984, 0]) inb).view.set ⊆ rowsBetween (baseL L + 9984) (baseL L + 10000) := by rw [hset]
  have hcongr : ∀ i ∈ rowsBetween (baseL L + 9984) (baseL L + 10000),
      (oSl16 (![baseL L + 9984, 0]) inb).view.write (Elt F) g (ReadAs.same.apply (B.view.read (Elt F) f)) Finset.univ i = edgeOut m d i := by
    intro i hi
    rw [← hset] at hi
    obtain ⟨y, -, rfl⟩ := Finset.mem_map.mp hi
    have hy0 : (y 0).val < 16 := (y 0).isLt
    have hb : baseL L + 9984 + (y 0).val < 320000 := by
      have hw : (wL L).val < 32 := (wL L).isLt
      show 10000 * (wL L).val + 9984 + (y 0).val < 320000
      omega
    refine (View.write_emb_of_mem (v := (oSl16 (![baseL L + 9984, 0]) inb).view) g _ (Finset.mem_univ y)).trans ?_
    have he : (oSl16 (![baseL L + 9984, 0]) inb).view.emb y = ValueIdx.ix2 (⟨baseL L + 9984 + (y 0).val, hb⟩ : Fin 320000) (y 1) :=
      emb_unit_rows (baseL L + 9984) 16 inb y hb
    rw [he]
    exact (congrArg (View.read (Elt F) B.view f) (ValueIdx.eq_ix2 y)).trans (hf (y 0) (y 1) hb)
  iintro ⟨HB, Ho, Hsem⟩ Hk
  iapply (Transfers.wp_dmaLocal countersEmb 𝒱₀ (thrV d L) none (src := B) (via := ReadAs.same) (dst := oSl16 (![baseL L + 9984, 0]) inb)
      (sm := SemLoc.dma sem) (q := fullShare) (fs := f) (Sd := rowsBetween (baseL L + 9984) (baseL L + 10000)) (fd := g)
      (default : HIx 1) 65536 rfl (by decide) hSd) $$ [HB Ho Hsem]
  · isplitl [HB]; · iexact HB
    isplitl [Ho]; · iexact Ho
    iexact Hsem
  iintro Hfl
  iapply Hk
  iapply (Transfers.Flight_mono countersEmb (thrV d L) ?_) $$ Hfl
  rw [pointsTo_congr hcongr]
  unfold copyD
  iintro ⟨Ho, HB⟩
  isplitl [Ho]; · iexact Ho
  iexists f; iexact HB

/-! ## The printed offsets of the copies, from the tile's first row -/

omit [FloatOps F] in
/-- The even buffer's window in round `k`: rows `base + 256 k …`. -/
theorem off2_site (k : Fin k0_t1_loop.trips) : k0_off2 L k = ![baseL L + 256 * k.val, 0] := by
  rw [k0_off2_eq]
  have h : 20000 * (L 1).val + 10000 * (L 0).val + 256 * k.val = baseL L + 256 * k.val := by
    show _ = 10000 * (2 * (L 1).val + (L 0).val) + 256 * k.val; omega
  rw [h]
omit [FloatOps F] in
/-- The odd buffer's window in round `k`: rows `base + 256 k + 128 …`. -/
theorem off5_site (k : Fin k0_t1_loop.trips) : k0_off5 L k = ![baseL L + (256 * k.val + 128), 0] := by
  rw [k0_off5_eq]
  have h : 20000 * (L 1).val + 10000 * (L 0).val + 256 * k.val + 128 = baseL L + (256 * k.val + 128) := by
    show _ = 10000 * (2 * (L 1).val + (L 0).val) + (256 * k.val + 128); omega
  rw [h]
omit [FloatOps F] in
/-- The tail buffer's window: rows `base + 9984 …`. -/
theorem off8_site : k0_off8 L = ![baseL L + 9984, 0] := by
  rw [k0_off8_eq]
  have h : 20000 * (L 1).val + 10000 * (L 0).val + 9984 = baseL L + 9984 := by
    show _ = 10000 * (2 * (L 1).val + (L 0).val) + 9984; omega
  rw [h]

end Tile
end Cert.KernelIdeal.Hand
end
-- ==== Proof.TileTrip.lean ====
import proofs.«205308_g19069654794752_retrytranche2_377_14_alg».proof.Proof.TileSteps
import proofs.«205308_g19069654794752_retrytranche2_377_14_alg».proof.Proof.TileGather
import proofs.«205308_g19069654794752_retrytranche2_377_14_alg».proof.Proof.TileCopy

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.KernelIdeal.main_arg1_scv : Memref Cert.KernelIdeal.sig Kind.scVector Space.hbm Cert.KernelIdeal.S320000 EltTy.i32)
local notation "tV" => (Memref.whole Cert.KernelIdeal.main_arg3_scv : Memref Cert.KernelIdeal.sig Kind.scVector Space.hbm Cert.KernelIdeal.S4x128 EltTy.f32)
local notation "oV" => (Memref.whole Cert.KernelIdeal.main_v0_scv : Memref Cert.KernelIdeal.sig Kind.scVector Space.hbm Cert.KernelIdeal.S320000x128 EltTy.f32)
local notation "xV" => (Memref.whole Cert.KernelIdeal.cc0_scratch0 : Memref Cert.KernelIdeal.sig Kind.scVector Space.vmem Cert.KernelIdeal.S10000 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "tbV" => (Memref.whole Cert.KernelIdeal.cc0_scratch3 : Memref Cert.KernelIdeal.sig Kind.scVector Space.vmem Cert.KernelIdeal.S16x128 EltTy.f32)
local notation "shV" => (Memref.whole Cert.KernelIdeal.cc0_scratch4 : Memref Cert.KernelIdeal.sig Kind.scVector Space.shared Cert.KernelIdeal.S4x128 EltTy.f32)

section Tile

variable (d : Dev nD) (L : grid0.Coords)

omit [FloatOps F] in
theorem pts_whole_set {sp : Space} {s : Shape} {e : EltTy} (b : Ref sig .scVector) (hb : b.space = sp) : True := trivial

omit [FloatOps F] in
/-- A buffer written whole holds what was written. -/
theorem pts_written_xV (fx w : Buf (Elt F) ((thrV d L).loc cc0_scratch0)) :
    ((xV).view.loc (thrV d L) ↦{fullShare} View.write (Elt F) (xV).view fx w Finset.univ : sProp 𝕄) = (xV).view.loc (thrV d L) ↦{fullShare} w := by
  rw [show View.write (Elt F) (xV).view fx w Finset.univ = w from View.write_whole_univ cc0_scratch0 fx w]
omit [FloatOps F] in
theorem set_b0V : (b0V).view.set = Finset.univ := View.set_whole _
omit [FloatOps F] in
theorem set_b1V : (b1V).view.set = Finset.univ := View.set_whole _
omit [FloatOps F] in
theorem set_tbV : (tbV).view.set = Finset.univ := View.set_whole _

/-- The tile's cells the loop touches. -/
abbrev sG0 : DmaSem sig := cc0_scratch5.sem
abbrev sG1 : DmaSem sig := cc0_scratch6.sem
abbrev sS0 : DmaSem sig := cc0_scratch7.sem
abbrev sS1 : DmaSem sig := cc0_scratch8.sem

/-- Before trip `k` of the loop (chunks `2k` and `2k+1`): the gather of chunk `2k` into the first row buffer is in flight
    (after the last trip: nothing, the buffer, the list and the table token held); for `k > 0` the copy of chunk `2k-1` out of the
    second row buffer is in flight (at `k = 0` that buffer is held); the result's rows before the chunk in flight are the lookup; the
    rows from chunk `2k` on are at some contents; the other two cells are at zero. -/
def loopInv (O : CellTallies nD τ sig (HIx 1)) (W : Waits sig (HIx 1)) (k : ℕ) (_ : BitVec 32) : sProp 𝕄 :=
  iprop(Transfers.MayWaits (thrV d L) (default : HIx 1) O
    ∗ (if k < 39 then Transfers.Flight countersEmb (thrV d L) (SemLoc.dma sG0) (default : HIx 1) 524288 (gatherD m d L b0V (256 * k))
        else iprop((∃ f, (b0V).view.loc (thrV d L) ↦[(b0V).view.set]{fullShare} f) ∗ xRes m d L ∗ shRes m d L ∗ semVal (thrV d L, SemLoc.dma sG0) 0))
    ∗ (if k = 0 then iprop((∃ f, (b1V).view.loc (thrV d L) ↦[(b1V).view.set]{fullShare} f) ∗ semVal (thrV d L, SemLoc.dma sS1) 0)
        else Transfers.Flight countersEmb (thrV d L) (SemLoc.dma sS1) (default : HIx 1) 524288
          (copyD m d L b1V (rowsBetween (baseL L + 256 * k - 128) (baseL L + 256 * k))))
    ∗ ((oV).view.loc (thrV d L) ↦[rowsBetween (baseL L) (baseL L + 256 * k - (if k = 0 then 0 else 128))]{fullShare} edgeOut m d)
    ∗ (∃ fo, (oV).view.loc (thrV d L) ↦[rowsBetween (baseL L + 256 * k) (baseL L + 10000)]{fullShare} fo)
    ∗ semVal (thrV d L, SemLoc.dma sG1) 0 ∗ semVal (thrV d L, SemLoc.dma sS0) 0
    ∗ ∃ W', ⌜∀ p ∈ W', p ∈ W ∨ p.2 = none⌝ ∗ owes (thrV d L) O W')

omit [FloatOps F] in
theorem cond2_pos (k : Fin k0_t1_loop.trips) (h : k.val ≠ 0) : k0_cond2 k = 1#1 := by revert k; decide +kernel
omit [FloatOps F] in
theorem cond2_neg (k : Fin k0_t1_loop.trips) (h : k.val = 0) : ¬ k0_cond2 k = 1#1 := by revert k; decide +kernel
omit [FloatOps F] in
theorem cond3_pos (k : Fin k0_t1_loop.trips) (h : k.val < 38) : k0_cond3 k = 1#1 := by revert k; decide +kernel
omit [FloatOps F] in
theorem cond3_neg (k : Fin k0_t1_loop.trips) (h : ¬ k.val < 38) : ¬ k0_cond3 k = 1#1 := by revert k; decide +kernel
omit [FloatOps F] in
theorem off4_zero (k : Fin k0_t1_loop.trips) : k0_off4 k 0 = 256 * k.val + 128 := by rw [k0_off4_eq]; rfl
omit [FloatOps F] in
theorem off7_zero (k : Fin k0_t1_loop.trips) : k0_off7 k 0 = 256 * (k.val + 1) := by rw [k0_off7_eq]; show 256 * k.val + 256 = _; omega

theorem gatherD_def (B : Memref sig .scVector .vmem S128x128 .f32) (o : ℕ) :
    gatherD m d L B o = iprop((∃ f, (B.view.loc (thrV d L) ↦[B.view.set]{fullShare} f) ∗ ⌜rowsOK128 m d L B o f⌝) ∗ xRes m d L ∗ shRes m d L) := rfl
theorem copyD_def {s : Shape} (B : Memref sig .scVector .vmem s .f32) (S : Finset S320000x128.Idx) :
    copyD m d L B S = iprop(((oV).view.loc (thrV d L) ↦[S]{fullShare} edgeOut m d) ∗ ∃ f, B.view.loc (thrV d L) ↦[B.view.set]{fullShare} f) := rfl

set_option maxHeartbeats 4000000 in
theorem trip_first (hidx : ∀ i, (m (iLoc d) i).toNat ≤ 3) (O : CellTallies nD τ sig (HIx 1)) (W : Waits sig (HIx 1)) (v5 : BitVec 32)
    (k : Fin k0_t1_loop.trips) (acc : BitVec 32) (hk0 : k.val = 0) :
    loopInv m d L O W k.val acc
      ⊢ wp frame (wpE (defs₀ (F := F)) 𝒱₀ (thrV d L) none) Set.univ
          (k0_t1_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2 v5 k acc)
          (fun x => loopInv m d L O W (k.val + 1) x) := by
  have hk38 : k.val < 38 := by omega
  have hk39 : k.val < 39 := Nat.lt_of_lt_of_eq k.isLt trips_eq
  have k0_h2 : ¬ k0_cond2 k = 1#1 := cond2_neg k hk0
  have k0_h3 : k0_cond3 k = 1#1 := cond3_pos k hk38
  unfold loopInv
  rw [if_pos hk39, if_pos hk0, if_pos hk0]
  unfold k0_t1_body
  rw [k0_part1_eq_skeleton]; unfold k0_part1_skel
  iintro ⟨#Hmw, Hg, ⟨⟨%fb1, Hb1⟩, Hs1⟩, Hdone, ⟨%fo, Htodo⟩, Hg1, Hs0, %W', %hW', HO⟩
  ihave Hdone := (Entails.of_eq (congrArg (fun b => ((oV).view.loc (thrV d L) ↦[rowsBetween (baseL L) b]{fullShare} edgeOut m d : sProp 𝕄))
      (show baseL L + 256 * k.val - 0 = baseL L + 256 * k.val by omega))) $$ Hdone
  -- a. the gather of chunk 2k lands in the first buffer
  sl_exec
  iapply (wait_step (F := F) d L sG0 524288 rfl (gatherD m d L b0V (256 * k.val)) O W') $$ [Hg HO]
  · isplitr; · iexact Hmw
    isplitl [Hg]; · iexact Hg
    iexact HO
  iintro ⟨Hgd, Hg0, HO⟩
  ihave Hgd' := (Entails.of_eq (gatherD_def (F := F) m d L _ _)) $$ Hgd
  icases Hgd' with ⟨⟨%fb0, Hb0, %hb0⟩, Hx, Hsh⟩
  -- b. the copy of chunk 2k out of the first buffer starts
  sl_exec
  ihave Hsp := (rows_split (F := F) d L (a := baseL L + 256 * k.val) (b := baseL L + 256 * k.val + 128) (c := baseL L + 10000) (by omega) (by omega) fo).1 $$ Htodo
  icases Hsp with ⟨Hwin, Htodo⟩
  iapply (copy_issue128 (F := F) m d L b0V (Memref.isWhole_whole _) (256 * k.val) (by omega) (k0_off2 L k) (k0_off2_inb L k) (off2_base L k) sS0 fb0 hb0 fo) $$ [Hb0 Hwin Hs0]
  · isplitl [Hb0]; · iexact Hb0
    isplitl [Hwin]; · iexact Hwin
    iexact Hs0
  iintro Hfs0
  -- c. at the first trip no copy is in flight: the second buffer is at hand
  -- d. the gather of chunk 2k+1 into the second buffer starts
  sl_exec
  iapply (gather_issue128 (F := F) m d L hidx b1V (Memref.isWhole_whole _) (k0_off4 k) (k0_off4_inb k) sG1) $$ [Hb1 Hx Hsh Hg1]
  · isplitl [Hb1]; · iexists fb1; iexact Hb1
    isplitl [Hx]; · iexact Hx
    isplitl [Hsh]; · iexact Hsh
    iexact Hg1
  iintro Hfg1
  -- e. and lands
  sl_exec
  iapply (wait_step (F := F) d L sG1 524288 rfl (gatherD m d L b1V (k0_off4 k 0)) O _) $$ [Hfg1 HO]
  · isplitr; · iexact Hmw
    isplitl [Hfg1]; · iexact Hfg1
    iexact HO
  iintro ⟨Hgd, Hg1, HO⟩
  ihave Hgd' := (Entails.of_eq (gatherD_def (F := F) m d L _ _)) $$ Hgd
  icases Hgd' with ⟨⟨%fb1', Hb1, %hb1⟩, Hx, Hsh⟩
  have hb1' : rowsOK128 m d L b1V (256 * k.val + 128) fb1' := off4_zero k ▸ hb1
  -- f. the copy of chunk 2k+1 out of the second buffer starts
  sl_exec
  ihave Hsp := (rows_split (F := F) d L (a := baseL L + (256 * k.val + 128)) (b := baseL L + (256 * k.val + 128) + 128) (c := baseL L + 10000) (by omega) (by omega) fo).1 $$ [Htodo]
  · iapply (Entails.of_eq (show ((oV).view.loc (thrV d L) ↦[rowsBetween (baseL L + 256 * k.val + 128) (baseL L + 10000)]{fullShare} fo : sProp 𝕄)
        = (oV).view.loc (thrV d L) ↦[rowsBetween (baseL L + (256 * k.val + 128)) (baseL L + 10000)]{fullShare} fo by rw [Nat.add_assoc]))
    iexact Htodo
  icases Hsp with ⟨Hwin, Htodo⟩
  iapply (copy_issue128 (F := F) m d L b1V (Memref.isWhole_whole _) (256 * k.val + 128) (by omega) (k0_off5 L k) (k0_off5_inb L k) (off5_base L k) sS1 fb1' hb1' fo) $$ [Hb1 Hwin Hs1]
  · isplitl [Hb1]; · iexact Hb1
    isplitl [Hwin]; · iexact Hwin
    iexact Hs1
  iintro Hfs1
  -- g. the copy of chunk 2k out of the first buffer has landed
  sl_exec
  iapply (wait_step (F := F) d L sS0 524288 rfl (copyD m d L b0V (rowsBetween (baseL L + 256 * k.val) (baseL L + 256 * k.val + 128))) O _) $$ [Hfs0 HO]
  · isplitr; · iexact Hmw
    isplitl [Hfs0]; · iexact Hfs0
    iexact HO
  iintro ⟨Hcd, Hs0, HO⟩
  ihave Hcd' := (Entails.of_eq (copyD_def (F := F) m d L _ _)) $$ Hcd
  icases Hcd' with ⟨Hw0, %fb0', Hb0⟩
  ihave Hdone := (rows_split (F := F) d L (a := baseL L) (b := baseL L + 256 * k.val) (c := baseL L + 256 * k.val + 128) (by omega) (by omega) (edgeOut m d)).2 $$ [Hdone Hw0]
  · isplitl [Hdone]; · iexact Hdone
    iexact Hw0
  -- h. the gather of chunk 2k+2 into the first buffer starts
  sl_exec
  iapply (gather_issue128 (F := F) m d L hidx b0V (Memref.isWhole_whole _) (k0_off7 k) (k0_off7_inb k k0_h3) sG0) $$ [Hb0 Hx Hsh Hg0]
  · isplitl [Hb0]; · iexists fb0'; iexact Hb0
    isplitl [Hx]; · iexact Hx
    isplitl [Hsh]; · iexact Hsh
    iexact Hg0
  iintro Hfg0
  sl_exec
  sl_step
  rw [if_pos (show k.val + 1 < 39 by omega), if_neg (show k.val + 1 ≠ 0 by omega), if_neg (show k.val + 1 ≠ 0 by omega)]
  isplitr; · iexact Hmw
  isplitl [Hfg0]
  · iapply (Entails.of_eq (congrArg (fun o => (Transfers.Flight countersEmb (thrV d L) (SemLoc.dma sG0) (default : HIx 1) 524288 (gatherD m d L b0V o) : sProp 𝕄)) (off7_zero k)))
    iexact Hfg0
  isplitl [Hfs1]
  · iapply (Entails.of_eq (congrArg₂ (fun a b => (Transfers.Flight countersEmb (thrV d L) (SemLoc.dma sS1) (default : HIx 1) 524288 (copyD m d L b1V (rowsBetween a b)) : sProp 𝕄))
        (show baseL L + (256 * k.val + 128) = baseL L + 256 * (k.val + 1) - 128 by omega) (show baseL L + (256 * k.val + 128) + 128 = baseL L + 256 * (k.val + 1) by omega)))
    iexact Hfs1
  isplitl [Hdone]
  · iapply (Entails.of_eq (congrArg (fun b => ((oV).view.loc (thrV d L) ↦[rowsBetween (baseL L) b]{fullShare} edgeOut m d : sProp 𝕄))
        (show baseL L + 256 * k.val + 128 = baseL L + 256 * (k.val + 1) - 128 by omega)))
    iexact Hdone
  isplitl [Htodo]
  · iexists fo
    iapply (Entails.of_eq (congrArg (fun a => ((oV).view.loc (thrV d L) ↦[rowsBetween a (baseL L + 10000)]{fullShare} fo : sProp 𝕄))
        (show baseL L + (256 * k.val + 128) + 128 = baseL L + 256 * (k.val + 1) by omega)))
    iexact Htodo
  isplitl [Hg1]; · iexact Hg1
  isplitl [Hs0]; · iexact Hs0
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
theorem trip_mid (hidx : ∀ i, (m (iLoc d) i).toNat ≤ 3) (O : CellTallies nD τ sig (HIx 1)) (W : Waits sig (HIx 1)) (v5 : BitVec 32)
    (k : Fin k0_t1_loop.trips) (acc : BitVec 32) (hk0 : k.val ≠ 0) (hk38 : k.val < 38) :
    loopInv m d L O W k.val acc
      ⊢ wp frame (wpE (defs₀ (F := F)) 𝒱₀ (thrV d L) none) Set.univ
          (k0_t1_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2 v5 k acc)
          (fun x => loopInv m d L O W (k.val + 1) x) := by
  have hk39 : k.val < 39 := Nat.lt_of_lt_of_eq k.isLt trips_eq
  have k0_h2 : k0_cond2 k = 1#1 := cond2_pos k hk0
  have k0_h3 : k0_cond3 k = 1#1 := cond3_pos k hk38
  unfold loopInv
  rw [if_pos hk39, if_neg hk0, if_neg hk0]
  unfold k0_t1_body
  rw [k0_part1_eq_skeleton]; unfold k0_part1_skel
  iintro ⟨#Hmw, Hg, Hc, Hdone, ⟨%fo, Htodo⟩, Hg1, Hs0, %W', %hW', HO⟩
  -- a. the gather of chunk 2k lands in the first buffer
  sl_exec
  iapply (wait_step (F := F) d L sG0 524288 rfl (gatherD m d L b0V (256 * k.val)) O W') $$ [Hg HO]
  · isplitr; · iexact Hmw
    isplitl [Hg]; · iexact Hg
    iexact HO
  iintro ⟨Hgd, Hg0, HO⟩
  ihave Hgd' := (Entails.of_eq (gatherD_def (F := F) m d L _ _)) $$ Hgd
  icases Hgd' with ⟨⟨%fb0, Hb0, %hb0⟩, Hx, Hsh⟩
  -- b. the copy of chunk 2k out of the first buffer starts
  sl_exec
  ihave Hsp := (rows_split (F := F) d L (a := baseL L + 256 * k.val) (b := baseL L + 256 * k.val + 128) (c := baseL L + 10000) (by omega) (by omega) fo).1 $$ Htodo
  icases Hsp with ⟨Hwin, Htodo⟩
  iapply (copy_issue128 (F := F) m d L b0V (Memref.isWhole_whole _) (256 * k.val) (by omega) (k0_off2 L k) (k0_off2_inb L k) (off2_base L k) sS0 fb0 hb0 fo) $$ [Hb0 Hwin Hs0]
  · isplitl [Hb0]; · iexact Hb0
    isplitl [Hwin]; · iexact Hwin
    iexact Hs0
  iintro Hfs0
  -- c. the copy of chunk 2k-1 out of the second buffer has landed
  sl_exec
  iapply (wait_step (F := F) d L sS1 524288 rfl (copyD m d L b1V (rowsBetween (baseL L + 256 * k.val - 128) (baseL L + 256 * k.val))) O _) $$ [Hc HO]
  · isplitr; · iexact Hmw
    isplitl [Hc]; · iexact Hc
    iexact HO
  iintro ⟨Hcd, Hs1, HO⟩
  ihave Hcd' := (Entails.of_eq (copyD_def (F := F) m d L _ _)) $$ Hcd
  icases Hcd' with ⟨Hw1, %fb1, Hb1⟩
  ihave Hdone := (rows_split (F := F) d L (a := baseL L) (b := baseL L + 256 * k.val - 128) (c := baseL L + 256 * k.val) (by omega) (by omega) (edgeOut m d)).2 $$ [Hdone Hw1]
  · isplitl [Hdone]; · iexact Hdone
    iexact Hw1
  -- d. the gather of chunk 2k+1 into the second buffer starts
  sl_exec
  iapply (gather_issue128 (F := F) m d L hidx b1V (Memref.isWhole_whole _) (k0_off4 k) (k0_off4_inb k) sG1) $$ [Hb1 Hx Hsh Hg1]
  · isplitl [Hb1]; · iexists fb1; iexact Hb1
    isplitl [Hx]; · iexact Hx
    isplitl [Hsh]; · iexact Hsh
    iexact Hg1
  iintro Hfg1
  -- e. and lands
  sl_exec
  iapply (wait_step (F := F) d L sG1 524288 rfl (gatherD m d L b1V (k0_off4 k 0)) O _) $$ [Hfg1 HO]
  · isplitr; · iexact Hmw
    isplitl [Hfg1]; · iexact Hfg1
    iexact HO
  iintro ⟨Hgd, Hg1, HO⟩
  ihave Hgd' := (Entails.of_eq (gatherD_def (F := F) m d L _ _)) $$ Hgd
  icases Hgd' with ⟨⟨%fb1', Hb1, %hb1⟩, Hx, Hsh⟩
  have hb1' : rowsOK128 m d L b1V (256 * k.val + 128) fb1' := off4_zero k ▸ hb1
  -- f. the copy of chunk 2k+1 out of the second buffer starts
  sl_exec
  ihave Hsp := (rows_split (F := F) d L (a := baseL L + (256 * k.val + 128)) (b := baseL L + (256 * k.val + 128) + 128) (c := baseL L + 10000) (by omega) (by omega) fo).1 $$ [Htodo]
  · iapply (Entails.of_eq (show ((oV).view.loc (thrV d L) ↦[rowsBetween (baseL L + 256 * k.val + 128) (baseL L + 10000)]{fullShare} fo : sProp 𝕄)
        = (oV).view.loc (thrV d L) ↦[rowsBetween (baseL L + (256 * k.val + 128)) (baseL L + 10000)]{fullShare} fo by rw [Nat.add_assoc]))
    iexact Htodo
  icases Hsp with ⟨Hwin, Htodo⟩
  iapply (copy_issue128 (F := F) m d L b1V (Memref.isWhole_whole _) (256 * k.val + 128) (by omega) (k0_off5 L k) (k0_off5_inb L k) (off5_base L k) sS1 fb1' hb1' fo) $$ [Hb1 Hwin Hs1]
  · isplitl [Hb1]; · iexact Hb1
    isplitl [Hwin]; · iexact Hwin
    iexact Hs1
  iintro Hfs1
  -- g. the copy of chunk 2k out of the first buffer has landed
  sl_exec
  iapply (wait_step (F := F) d L sS0 524288 rfl (copyD m d L b0V (rowsBetween (baseL L + 256 * k.val) (baseL L + 256 * k.val + 128))) O _) $$ [Hfs0 HO]
  · isplitr; · iexact Hmw
    isplitl [Hfs0]; · iexact Hfs0
    iexact HO
  iintro ⟨Hcd, Hs0, HO⟩
  ihave Hcd' := (Entails.of_eq (copyD_def (F := F) m d L _ _)) $$ Hcd
  icases Hcd' with ⟨Hw0, %fb0', Hb0⟩
  ihave Hdone := (rows_split (F := F) d L (a := baseL L) (b := baseL L + 256 * k.val) (c := baseL L + 256 * k.val + 128) (by omega) (by omega) (edgeOut m d)).2 $$ [Hdone Hw0]
  · isplitl [Hdone]; · iexact Hdone
    iexact Hw0
  -- h. the gather of chunk 2k+2 into the first buffer starts
  sl_exec
  iapply (gather_issue128 (F := F) m d L hidx b0V (Memref.isWhole_whole _) (k0_off7 k) (k0_off7_inb k k0_h3) sG0) $$ [Hb0 Hx Hsh Hg0]
  · isplitl [Hb0]; · iexists fb0'; iexact Hb0
    isplitl [Hx]; · iexact Hx
    isplitl [Hsh]; · iexact Hsh
    iexact Hg0
  iintro Hfg0
  sl_exec
  sl_step
  rw [if_pos (show k.val + 1 < 39 by omega), if_neg (show k.val + 1 ≠ 0 by omega), if_neg (show k.val + 1 ≠ 0 by omega)]
  isplitr; · iexact Hmw
  isplitl [Hfg0]
  · iapply (Entails.of_eq (congrArg (fun o => (Transfers.Flight countersEmb (thrV d L) (SemLoc.dma sG0) (default : HIx 1) 524288 (gatherD m d L b0V o) : sProp 𝕄)) (off7_zero k)))
    iexact Hfg0
  isplitl [Hfs1]
  · iapply (Entails.of_eq (congrArg₂ (fun a b => (Transfers.Flight countersEmb (thrV d L) (SemLoc.dma sS1) (default : HIx 1) 524288 (copyD m d L b1V (rowsBetween a b)) : sProp 𝕄))
        (show baseL L + (256 * k.val + 128) = baseL L + 256 * (k.val + 1) - 128 by omega) (show baseL L + (256 * k.val + 128) + 128 = baseL L + 256 * (k.val + 1) by omega)))
    iexact Hfs1
  isplitl [Hdone]
  · iapply (Entails.of_eq (congrArg (fun b => ((oV).view.loc (thrV d L) ↦[rowsBetween (baseL L) b]{fullShare} edgeOut m d : sProp 𝕄))
        (show baseL L + 256 * k.val + 128 = baseL L + 256 * (k.val + 1) - 128 by omega)))
    iexact Hdone
  isplitl [Htodo]
  · iexists fo
    iapply (Entails.of_eq (congrArg (fun a => ((oV).view.loc (thrV d L) ↦[rowsBetween a (baseL L + 10000)]{fullShare} fo : sProp 𝕄))
        (show baseL L + (256 * k.val + 128) + 128 = baseL L + 256 * (k.val + 1) by omega)))
    iexact Htodo
  isplitl [Hg1]; · iexact Hg1
  isplitl [Hs0]; · iexact Hs0
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
theorem trip_last (hidx : ∀ i, (m (iLoc d) i).toNat ≤ 3) (O : CellTallies nD τ sig (HIx 1)) (W : Waits sig (HIx 1)) (v5 : BitVec 32)
    (k : Fin k0_t1_loop.trips) (acc : BitVec 32) (hk0 : k.val ≠ 0) (hk38 : ¬ k.val < 38) :
    loopInv m d L O W k.val acc
      ⊢ wp frame (wpE (defs₀ (F := F)) 𝒱₀ (thrV d L) none) Set.univ
          (k0_t1_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2 v5 k acc)
          (fun x => loopInv m d L O W (k.val + 1) x) := by
  have hk39 : k.val < 39 := Nat.lt_of_lt_of_eq k.isLt trips_eq
  have k0_h2 : k0_cond2 k = 1#1 := cond2_pos k hk0
  have k0_h3 : ¬ k0_cond3 k = 1#1 := cond3_neg k hk38
  unfold loopInv
  rw [if_pos hk39, if_neg hk0, if_neg hk0]
  unfold k0_t1_body
  rw [k0_part1_eq_skeleton]; unfold k0_part1_skel
  iintro ⟨#Hmw, Hg, Hc, Hdone, ⟨%fo, Htodo⟩, Hg1, Hs0, %W', %hW', HO⟩
  -- a. the gather of chunk 2k lands in the first buffer
  sl_exec
  iapply (wait_step (F := F) d L sG0 524288 rfl (gatherD m d L b0V (256 * k.val)) O W') $$ [Hg HO]
  · isplitr; · iexact Hmw
    isplitl [Hg]; · iexact Hg
    iexact HO
  iintro ⟨Hgd, Hg0, HO⟩
  ihave Hgd' := (Entails.of_eq (gatherD_def (F := F) m d L _ _)) $$ Hgd
  icases Hgd' with ⟨⟨%fb0, Hb0, %hb0⟩, Hx, Hsh⟩
  -- b. the copy of chunk 2k out of the first buffer starts
  sl_exec
  ihave Hsp := (rows_split (F := F) d L (a := baseL L + 256 * k.val) (b := baseL L + 256 * k.val + 128) (c := baseL L + 10000) (by omega) (by omega) fo).1 $$ Htodo
  icases Hsp with ⟨Hwin, Htodo⟩
  iapply (copy_issue128 (F := F) m d L b0V (Memref.isWhole_whole _) (256 * k.val) (by omega) (k0_off2 L k) (k0_off2_inb L k) (off2_base L k) sS0 fb0 hb0 fo) $$ [Hb0 Hwin Hs0]
  · isplitl [Hb0]; · iexact Hb0
    isplitl [Hwin]; · iexact Hwin
    iexact Hs0
  iintro Hfs0
  -- c. the copy of chunk 2k-1 out of the second buffer has landed
  sl_exec
  iapply (wait_step (F := F) d L sS1 524288 rfl (copyD m d L b1V (rowsBetween (baseL L + 256 * k.val - 128) (baseL L + 256 * k.val))) O _) $$ [Hc HO]
  · isplitr; · iexact Hmw
    isplitl [Hc]; · iexact Hc
    iexact HO
  iintro ⟨Hcd, Hs1, HO⟩
  ihave Hcd' := (Entails.of_eq (copyD_def (F := F) m d L _ _)) $$ Hcd
  icases Hcd' with ⟨Hw1, %fb1, Hb1⟩
  ihave Hdone := (rows_split (F := F) d L (a := baseL L) (b := baseL L + 256 * k.val - 128) (c := baseL L + 256 * k.val) (by omega) (by omega) (edgeOut m d)).2 $$ [Hdone Hw1]
  · isplitl [Hdone]; · iexact Hdone
    iexact Hw1
  -- d. the gather of chunk 2k+1 into the second buffer starts
  sl_exec
  iapply (gather_issue128 (F := F) m d L hidx b1V (Memref.isWhole_whole _) (k0_off4 k) (k0_off4_inb k) sG1) $$ [Hb1 Hx Hsh Hg1]
  · isplitl [Hb1]; · iexists fb1; iexact Hb1
    isplitl [Hx]; · iexact Hx
    isplitl [Hsh]; · iexact Hsh
    iexact Hg1
  iintro Hfg1
  -- e. and lands
  sl_exec
  iapply (wait_step (F := F) d L sG1 524288 rfl (gatherD m d L b1V (k0_off4 k 0)) O _) $$ [Hfg1 HO]
  · isplitr; · iexact Hmw
    isplitl [Hfg1]; · iexact Hfg1
    iexact HO
  iintro ⟨Hgd, Hg1, HO⟩
  ihave Hgd' := (Entails.of_eq (gatherD_def (F := F) m d L _ _)) $$ Hgd
  icases Hgd' with ⟨⟨%fb1', Hb1, %hb1⟩, Hx, Hsh⟩
  have hb1' : rowsOK128 m d L b1V (256 * k.val + 128) fb1' := off4_zero k ▸ hb1
  -- f. the copy of chunk 2k+1 out of the second buffer starts
  sl_exec
  ihave Hsp := (rows_split (F := F) d L (a := baseL L + (256 * k.val + 128)) (b := baseL L + (256 * k.val + 128) + 128) (c := baseL L + 10000) (by omega) (by omega) fo).1 $$ [Htodo]
  · iapply (Entails.of_eq (show ((oV).view.loc (thrV d L) ↦[rowsBetween (baseL L + 256 * k.val + 128) (baseL L + 10000)]{fullShare} fo : sProp 𝕄)
        = (oV).view.loc (thrV d L) ↦[rowsBetween (baseL L + (256 * k.val + 128)) (baseL L + 10000)]{fullShare} fo by rw [Nat.add_assoc]))
    iexact Htodo
  icases Hsp with ⟨Hwin, Htodo⟩
  iapply (copy_issue128 (F := F) m d L b1V (Memref.isWhole_whole _) (256 * k.val + 128) (by omega) (k0_off5 L k) (k0_off5_inb L k) (off5_base L k) sS1 fb1' hb1' fo) $$ [Hb1 Hwin Hs1]
  · isplitl [Hb1]; · iexact Hb1
    isplitl [Hwin]; · iexact Hwin
    iexact Hs1
  iintro Hfs1
  -- g. the copy of chunk 2k out of the first buffer has landed
  sl_exec
  iapply (wait_step (F := F) d L sS0 524288 rfl (copyD m d L b0V (rowsBetween (baseL L + 256 * k.val) (baseL L + 256 * k.val + 128))) O _) $$ [Hfs0 HO]
  · isplitr; · iexact Hmw
    isplitl [Hfs0]; · iexact Hfs0
    iexact HO
  iintro ⟨Hcd, Hs0, HO⟩
  ihave Hcd' := (Entails.of_eq (copyD_def (F := F) m d L _ _)) $$ Hcd
  icases Hcd' with ⟨Hw0, %fb0', Hb0⟩
  ihave Hdone := (rows_split (F := F) d L (a := baseL L) (b := baseL L + 256 * k.val) (c := baseL L + 256 * k.val + 128) (by omega) (by omega) (edgeOut m d)).2 $$ [Hdone Hw0]
  · isplitl [Hdone]; · iexact Hdone
    iexact Hw0
  -- h. at the last trip no further gather starts
  sl_exec
  sl_step
  rw [if_neg (show ¬ k.val + 1 < 39 by omega), if_neg (show k.val + 1 ≠ 0 by omega), if_neg (show k.val + 1 ≠ 0 by omega)]
  isplitr; · iexact Hmw
  isplitl [Hb0 Hx Hsh Hg0]
  · isplitl [Hb0]; · iexists fb0'; iexact Hb0
    isplitl [Hx]; · iexact Hx
    isplitl [Hsh]; · iexact Hsh
    iexact Hg0
  isplitl [Hfs1]
  · iapply (Entails.of_eq (congrArg₂ (fun a b => (Transfers.Flight countersEmb (thrV d L) (SemLoc.dma sS1) (default : HIx 1) 524288 (copyD m d L b1V (rowsBetween a b)) : sProp 𝕄))
        (show baseL L + (256 * k.val + 128) = baseL L + 256 * (k.val + 1) - 128 by omega) (show baseL L + (256 * k.val + 128) + 128 = baseL L + 256 * (k.val + 1) by omega)))
    iexact Hfs1
  isplitl [Hdone]
  · iapply (Entails.of_eq (congrArg (fun b => ((oV).view.loc (thrV d L) ↦[rowsBetween (baseL L) b]{fullShare} edgeOut m d : sProp 𝕄))
        (show baseL L + 256 * k.val + 128 = baseL L + 256 * (k.val + 1) - 128 by omega)))
    iexact Hdone
  isplitl [Htodo]
  · iexists fo
    iapply (Entails.of_eq (congrArg (fun a => ((oV).view.loc (thrV d L) ↦[rowsBetween a (baseL L + 10000)]{fullShare} fo : sProp 𝕄))
        (show baseL L + (256 * k.val + 128) + 128 = baseL L + 256 * (k.val + 1) by omega)))
    iexact Htodo
  isplitl [Hg1]; · iexact Hg1
  isplitl [Hs0]; · iexact Hs0
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
theorem trip_step (hidx : ∀ i, (m (iLoc d) i).toNat ≤ 3) (O : CellTallies nD τ sig (HIx 1)) (W : Waits sig (HIx 1)) (v5 : BitVec 32)
    (k : Fin k0_t1_loop.trips) (acc : BitVec 32) :
    loopInv m d L O W k.val acc
      ⊢ wp frame (wpE (defs₀ (F := F)) 𝒱₀ (thrV d L) none) Set.univ
          (k0_t1_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2 v5 k acc)
          (fun x => loopInv m d L O W (k.val + 1) x) := by
  by_cases hk0 : k.val = 0
  · exact trip_first m d L hidx O W v5 k acc hk0
  · by_cases hk38 : k.val < 38
    · exact trip_mid m d L hidx O W v5 k acc hk0 hk38
    · exact trip_last m d L hidx O W v5 k acc hk0 hk38

end Tile
end Cert.KernelIdeal.Hand
end
-- ==== Proof.Tile.lean ====
/-
  The edge lookup's task on one vector subcore, and the launch theorem's obligation for it.
  Tile (c, s) is worker w = 2 s + c of thirty-two and owns rows [10000 w, 10000 (w + 1)) of the index array and of the result.
  Tile 0 of each SparseCore copies the 4 x 128 edge table into the SparseCore's shared memory; the sixteen tiles meet at the subcore
  barrier, where tile 0's arrival hands every tile a read token of the filled table. Each tile then stages its ten thousand indices,
  and row r of its part of the result is the table's row that index r names: 78 chunks of 128 rows, gathered from the shared table
  into one of two row buffers and copied out from there, the gather of the next chunk and the copy of the previous one in flight
  across the loop's trips (the loop's invariant, with the trips themselves, is in the module of the trips), then the last sixteen rows through the tail buffer.
  The rows written so far are held at the lookup itself, a whole-array function, so the pieces join by the union of their row ranges:
  [base, base + 9856), [base + 9856, base + 9984) and [base + 9984, base + 10000) make the tile's ten thousand rows.
-/
import proofs.«205308_g19069654794752_retrytranche2_377_14_alg».proof.Proof.TileSteps
import proofs.«205308_g19069654794752_retrytranche2_377_14_alg».proof.Proof.TileGather
import proofs.«205308_g19069654794752_retrytranche2_377_14_alg».proof.Proof.TileCopy
import proofs.«205308_g19069654794752_retrytranche2_377_14_alg».proof.Proof.TileTrip

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.KernelIdeal.main_arg1_scv : Memref Cert.KernelIdeal.sig Kind.scVector Space.hbm Cert.KernelIdeal.S320000 EltTy.i32)
local notation "tV" => (Memref.whole Cert.KernelIdeal.main_arg3_scv : Memref Cert.KernelIdeal.sig Kind.scVector Space.hbm Cert.KernelIdeal.S4x128 EltTy.f32)
local notation "oV" => (Memref.whole Cert.KernelIdeal.main_v0_scv : Memref Cert.KernelIdeal.sig Kind.scVector Space.hbm Cert.KernelIdeal.S320000x128 EltTy.f32)
local notation "xV" => (Memref.whole Cert.KernelIdeal.cc0_scratch0 : Memref Cert.KernelIdeal.sig Kind.scVector Space.vmem Cert.KernelIdeal.S10000 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "tbV" => (Memref.whole Cert.KernelIdeal.cc0_scratch3 : Memref Cert.KernelIdeal.sig Kind.scVector Space.vmem Cert.KernelIdeal.S16x128 EltTy.f32)
local notation "shV" => (Memref.whole Cert.KernelIdeal.cc0_scratch4 : Memref Cert.KernelIdeal.sig Kind.scVector Space.shared Cert.KernelIdeal.S4x128 EltTy.f32)

section Tile

variable (d : Dev nD) (L : grid0.Coords)

theorem gatherD16_def (B : Memref sig .scVector .vmem S16x128 .f32) :
    gatherD16 m d L B = iprop((∃ f, (B.view.loc (thrV d L) ↦[B.view.set]{fullShare} f) ∗ ⌜rowsOK16 m d L B f⌝) ∗ xRes m d L ∗ shRes m d L) := rfl

omit [FloatOps F] in
theorem waits_self (W : Waits sig (HIx 1)) : ∀ p ∈ W, p ∈ W ∨ p.2 = none ∨ p.2 = some (0 : Fin 1) := fun _ hp => .inl hp
omit [FloatOps F] in
theorem waits_ins {W Wa : Waits sig (HIx 1)} {x : SemLoc sig × HIx 1} (hx : x.2 = none ∨ x.2 = some (0 : Fin 1))
    (h : ∀ p ∈ Wa, p ∈ W ∨ p.2 = none ∨ p.2 = some (0 : Fin 1)) : ∀ p ∈ insert x Wa, p ∈ W ∨ p.2 = none ∨ p.2 = some (0 : Fin 1) := by
  intro p hp
  rcases Finset.mem_insert.mp hp with hp | hp
  · exact .inr (hp ▸ hx)
  · exact h p hp
omit [FloatOps F] in
theorem waits_close {W Wb W' : Waits sig (HIx 1)} (hb : ∀ p ∈ Wb, p ∈ W ∨ p.2 = none ∨ p.2 = some (0 : Fin 1))
    (hW' : ∀ p ∈ W', p ∈ Wb ∨ p.2 = none) : ∀ p ∈ W', p ∈ W ∨ p.2 = none ∨ p.2 = some (0 : Fin 1) := by
  intro p hp
  rcases hW' p hp with h | h
  · exact hb p h
  · exact .inr (.inl h)

omit [FloatOps F] in
/-- A shared table written whole holds what was written. -/
theorem pts_written_shV (fsh w : Buf (Elt F) (shLoc d (cV L))) :
    ((shV).view.loc (thrV d L) ↦{fullShare} View.write (Elt F) (shV).view fsh w Finset.univ : sProp 𝕄) = (shV).view.loc (thrV d L) ↦{fullShare} w := by
  rw [show View.write (Elt F) (shV).view fsh w Finset.univ = w from View.write_whole_univ cc0_scratch4 fsh w]

/-- What the table copy carries is the edge table's contents. -/
theorem tab_payload_eq : (ReadAs.same.apply ((tV).view.read (Elt F) (m (tLoc d))) : Buf (Elt F) (shLoc d (cV L))) = tabSh m d (cV L) := by
  rw [show (tV).view.read (Elt F) (m (tLoc d)) = m (tLoc d) from View.read_whole _ _]

set_option maxHeartbeats 3000000 in
theorem tile_body_rest (hF : (K (F := F)).Facts) (hidx : ∀ i, (m (iLoc d) i).toNat ≤ 3) (O : CellTallies nD τ sig (HIx 1)) (W : Waits sig (HIx 1)) (hO : ∀ g, O g none = 0)
    (hOlev : ∀ g ι, 0 < O g ι → 8 * (0 : Fin 1).val + 6 ≤ (K (F := F)).lev g ι) (hs : (L 1).val ≠ 0) :
    iprop(levAts (K (F := F)).L (K (F := F)).lev ∗ bkit m d (cV L) (jV L)
        ∗ (goRes m d (cV L) (jV L) ∗ goSh d (cV L) (jV L))
        ∗ scopedBufs (thrV d L) ∗ scopedSems0 (thrV d L) ∗ owes (thrV d L) (O + oxV d (cV L)) W)
      ⊢ wp frame (wpE (defs₀ (F := F)) 𝒱₀ (thrV d L) none) Set.univ
          (cc0__edge_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2)
          fun _ => iprop((tdRes m d (cV L) (jV L) ∗ tdSh m d (cV L) (jV L))
            ∗ scopedBufs (thrV d L) ∗ scopedSems0 (thrV d L)
            ∗ ∃ W', ⌜∀ p ∈ W', p ∈ W ∨ p.2 = none ∨ p.2 = some (0 : Fin 1)⌝ ∗ owes (thrV d L) O W') := by
  simp only [cc0__edge_body_eq_skeleton]; unfold cc0__edge_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Hi, Ht, Ho⟩, Hsh⟩, ⟨⟨%fx, Hx⟩, ⟨%f0, Hb0⟩, ⟨%f1, Hb1⟩, ⟨%ftb, Htb⟩, Hbufs⟩, ⟨Hg0, Hg1, Hs0, Hs1, Hts, Hr0, Hr1, Hr2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw2 := (show levAts (K (F := F)).L (K (F := F)).lev ⊢ Transfers.MayWaits (thrV d L) (default : HIx 1) O from
    (K (F := F)).mayWaits_none (thr := thrV d L) hO) $$ Hlv
  ihave Hi' := (Entails.of_eq (pts_iSlK (F := F) d L _).symm) $$ Hi
  ihave Ht' := (Entails.of_eq (pts_tV (F := F) d L _ _).symm) $$ Ht
  ihave Ho' := (Entails.of_eq (pts_oV (F := F) d L _ _).symm) $$ Ho
  ihave Hx' := (Entails.of_eq (pts_xV (F := F) d L _).symm) $$ Hx
  ihave Hb0' := (Entails.of_eq (pts_b0V (F := F) d L _).symm) $$ Hb0
  ihave Hb1' := (Entails.of_eq (pts_b1V (F := F) d L _).symm) $$ Hb1
  ihave Htb' := (Entails.of_eq (pts_tbV (F := F) d L _).symm) $$ Htb
  have hs' : ¬ (jV L).val = 0 := hs
  have k0_h1 : ¬ (Scalar.cmpi .ne (Scalar.extui (Scalar.cmpi .eq (BitVec.ofNat 32 (L 1).val) (0#32 : BitVec 32))) (0#32 : BitVec 32) = 1#1) := by
    revert hs; generalize L 1 = s; revert s; decide
  have hsh_neg : (goSh (F := F) d (cV L) (jV L) : sProp 𝕄) ⊢ (if (jV L).val = 0 then (bigSep Finset.univ fun j : Fin (grid0.bound 1) => shTok m d (cV L) (j.castLE hsub0)) else iprop(emp)) := by
    unfold goSh; rw [if_neg hs', if_neg hs']
  sl_exec
  ihave Hsh2 := (hsh_neg) $$ Hsh
  rw [Prog.bind_assoc]
  iapply (barrier_step (F := F) m d L O W hOlev) $$ [Htoks Hat Hcred Hsh2 HO]
  · isplitr; · iexact Hlv
    isplitl [Htoks Hat Hcred]
    · unfold bkit
      isplitr; · iexists κ; iexact Hinv
      isplitl [Htoks]; · iexact Htoks
      isplitr; · iexact Hrch
      isplitl [Hat]; · iexact Hat
      iexact Hcred
    isplitl [Hsh2]; · iexact Hsh2
    iexact HO
  iintro ⟨HO, Htok⟩
  ihave Htok' := (Entails.of_eq (pts_shV (F := F) d L _ _).symm) $$ Htok
  sl_exec
  ihave Hx2 := (Entails.of_eq (pts_written_xV (F := F) d L _ _)) $$ Hx'
  ihave Hb0s := (Entails.of_eq (show ((b0V).view.loc (thrV d L) ↦{fullShare} f0 : sProp 𝕄) = (b0V).view.loc (thrV d L) ↦[(b0V).view.set]{fullShare} f0 by rw [set_b0V])) $$ Hb0'
  ihave Hb1s := (Entails.of_eq (show ((b1V).view.loc (thrV d L) ↦{fullShare} f1 : sProp 𝕄) = (b1V).view.loc (thrV d L) ↦[(b1V).view.set]{fullShare} f1 by rw [set_b1V])) $$ Hb1'
  ihave Htbs := (Entails.of_eq (show ((tbV).view.loc (thrV d L) ↦{fullShare} ftb : sProp 𝕄) = (tbV).view.loc (thrV d L) ↦[(tbV).view.set]{fullShare} ftb by rw [set_tbV])) $$ Htb'
  -- the gather of chunk 0 into the first buffer starts
  iapply (gather_issue128 (F := F) m d L hidx b0V (Memref.isWhole_whole _) ![0] inb_S10000_S128_0 cc0_scratch5.sem) $$ [Hb0s Hx2 Htok' Hg0]
  · isplitl [Hb0s]; · iexists f0; iexact Hb0s
    isplitl [Hx2]; · iexact Hx2
    isplitl [Htok']; · iexact Htok'
    iexact Hg0
  iintro Hfl0
  ihave Ho2 := (Entails.of_eq (show ((oV).view.loc (thrV d L) ↦[oRowSet (wOf (cV L) (jV L))]{fullShare} m (oLoc d) : sProp 𝕄)
      = (oV).view.loc (thrV d L) ↦[rowsBetween (baseL L + 256 * 0) (baseL L + 10000)]{fullShare} m (oLoc d) by rw [oRowSet_eq_rows]; rfl)) $$ Ho'
  ihave Hdone0 := (rows_empty (F := F) d L (baseL L) (edgeOut m d)).2 $$ []
  · iempintro
  -- the loop, by its invariant
  rw [Prog.bind_assoc]
  sl_for (loopInv m d L O (insert (SemLoc.reg sc_bar0, (some 0 : HIx 1)) W)) $$ [Hfl0 Hb1s Hs1 Hdone0 Ho2 Hg1 Hs0 HO]
  case region =>
    intro k acc
    exact trip_step m d L hidx O _ _ k acc
  · unfold loopInv
    rw [if_pos (show (0 : ℕ) < 39 by decide), if_pos rfl, if_pos rfl]
    isplitr; · iexact Hmw2
    isplitl [Hfl0]; · iexact Hfl0
    isplitl [Hb1s Hs1]
    · isplitl [Hb1s]; · iexists f1; iexact Hb1s
      iexact Hs1
    isplitl [Hdone0]; · iexact Hdone0
    isplitl [Ho2]; · iexists _; iexact Ho2
    isplitl [Hg1]; · iexact Hg1
    isplitl [Hs0]; · iexact Hs0
    iexists _; isplitr
    swap; · iexact HO
    ipureintro; intro p hp
    rcases Finset.mem_insert.mp hp with hp | hp; · exact .inr (hp ▸ rfl)
    exact .inl hp
  iintro %acc HI
  have htr : Scf.trips k0_t1_loop.lb k0_t1_loop.ub k0_t1_loop.st = 39 := by decide
  unfold loopInv
  rw [htr, if_neg (show ¬ (39 : ℕ) < 39 by decide), if_neg (show (39 : ℕ) ≠ 0 by decide), if_neg (show (39 : ℕ) ≠ 0 by decide)]
  icases HI with ⟨-, ⟨⟨%fb0, Hb0⟩, Hx, Hsh, Hg0⟩, Hc, Hdone, ⟨%fo, Htodo⟩, Hg1, Hs0, %W', %hW', HO⟩
  -- the last sixteen rows: gathered into the tail buffer
  first | sl_exec | skip
  iapply (gather_issue16 (F := F) m d L hidx tbV (Memref.isWhole_whole _) cc0_scratch9.sem) $$ [Htbs Hx Hsh Hts]
  · isplitl [Htbs]; · iexists ftb; iexact Htbs
    isplitl [Hx]; · iexact Hx
    isplitl [Hsh]; · iexact Hsh
    iexact Hts
  iintro Hflt
  first | sl_exec | skip
  iapply (wait_step (F := F) d L cc0_scratch9.sem 65536 rfl (gatherD16 m d L tbV) O _) $$ [Hflt HO]
  · isplitr; · iexact Hmw2
    isplitl [Hflt]; · iexact Hflt
    iexact HO
  iintro ⟨Hgd, Hts, HO⟩
  ihave Hgd' := (Entails.of_eq (gatherD16_def (F := F) m d L _)) $$ Hgd
  icases Hgd' with ⟨⟨%ftb', Htb, %htb⟩, Hx, Hsh⟩
  -- and copied out to the tile's last sixteen rows
  first | sl_exec | skip
  ihave Htodo := (Entails.of_eq (congrArg (fun a => ((oV).view.loc (thrV d L) ↦[rowsBetween a (baseL L + 10000)]{fullShare} fo : sProp 𝕄))
      (show baseL L + 256 * 39 = baseL L + 9984 by omega))) $$ Htodo
  iapply (copy_issue16 (F := F) m d L tbV (Memref.isWhole_whole _) (k0_off8 L) (k0_off8_inb L) (off8_site L) cc0_scoped2.sem ftb' htb fo) $$ [Htb Htodo Hr2]
  · isplitl [Htb]; · iexact Htb
    isplitl [Htodo]; · iexact Htodo
    iexact Hr2
  iintro Hflc
  first | sl_exec | skip
  iapply (wait_step (F := F) d L cc0_scoped2.sem 65536 rfl (copyD m d L tbV (rowsBetween (baseL L + 9984) (baseL L + 10000))) O _) $$ [Hflc HO]
  · isplitr; · iexact Hmw2
    isplitl [Hflc]; · iexact Hflc
    iexact HO
  iintro ⟨Hcd, Hr2, HO⟩
  ihave Hcd' := (Entails.of_eq (copyD_def (F := F) m d L _ _)) $$ Hcd
  icases Hcd' with ⟨Hwt, %ftb2, Htb⟩
  -- the last chunk's copy out of the second buffer lands
  first | sl_exec | skip
  iapply (wait_step (F := F) d L sS1 524288 rfl (copyD m d L b1V (rowsBetween (baseL L + 256 * 39 - 128) (baseL L + 256 * 39))) O _) $$ [Hc HO]
  · isplitr; · iexact Hmw2
    isplitl [Hc]; · iexact Hc
    iexact HO
  iintro ⟨Hcd, Hs1, HO⟩
  ihave Hcd' := (Entails.of_eq (copyD_def (F := F) m d L _ _)) $$ Hcd
  icases Hcd' with ⟨Hw1, %fb1, Hb1⟩
  -- the tile's rows, joined: all at the lookup
  ihave Hdone := (rows_split (F := F) d L (a := baseL L) (b := baseL L + 256 * 39 - 128) (c := baseL L + 256 * 39) (by omega) (by omega) (edgeOut m d)).2 $$ [Hdone Hw1]
  · isplitl [Hdone]; · iexact Hdone
    iexact Hw1
  ihave Hdone := (Entails.of_eq (congrArg (fun b => ((oV).view.loc (thrV d L) ↦[rowsBetween (baseL L) b]{fullShare} edgeOut m d : sProp 𝕄))
      (show baseL L + 256 * 39 = baseL L + 9984 by omega))) $$ Hdone
  ihave Hall := (rows_split (F := F) d L (a := baseL L) (b := baseL L + 9984) (c := baseL L + 10000) (by omega) (by omega) (edgeOut m d)).2 $$ [Hdone Hwt]
  · isplitl [Hdone]; · iexact Hdone
    iexact Hwt
  rw [show ((Prog.ret PUnit.unit : Prog (TpuEff nD τ sig (Elt F) Λ₀ (thrV d L).2) PUnit).bind fun __r => (Pure.pure PUnit.unit : Prog (TpuEff nD τ sig (Elt F) Λ₀ (thrV d L).2) PUnit)) = Prog.ret PUnit.unit from rfl]
  sl_step
  -- what the tile hands back
  isplitl [Hi' Ht' Hall Hsh]
  · isplitl [Hi' Ht' Hall]
    · isplitl [Hi']; · iapply (Entails.of_eq (pts_iSlK (F := F) d L _)); iexact Hi'
      isplitl [Ht']; · iexact Ht'
      iapply (Entails.of_eq (show ((oV).view.loc (thrV d L) ↦[rowsBetween (baseL L) (baseL L + 10000)]{fullShare} edgeOut m d : sProp 𝕄)
          = oLoc d ↦[oRowSet (wOf (cV L) (jV L))]{fullShare} edgeOut m d by rw [oRowSet_eq_rows]))
      iexact Hall
    · unfold tdSh
      isplitl [Hsh]; · iexact Hsh
      rw [if_neg hs']; iempintro
  isplitl [Hx Hb0 Hb1 Htb Hbufs]
  · isplitl [Hx]; · iexists _; iexact Hx
    isplitl [Hb0]
    · iexists fb0
      iapply (Entails.of_eq (show ((b0V).view.loc (thrV d L) ↦[(b0V).view.set]{fullShare} fb0 : sProp 𝕄) = (thrV d L).loc cc0_scratch1 ↦{fullShare} fb0 by rw [set_b0V]))
      iexact Hb0
    isplitl [Hb1]
    · iexists fb1
      iapply (Entails.of_eq (show ((b1V).view.loc (thrV d L) ↦[(b1V).view.set]{fullShare} fb1 : sProp 𝕄) = (thrV d L).loc cc0_scratch2 ↦{fullShare} fb1 by rw [set_b1V]))
      iexact Hb1
    isplitl [Htb]
    · iexists ftb2
      iapply (Entails.of_eq (show ((tbV).view.loc (thrV d L) ↦[(tbV).view.set]{fullShare} ftb2 : sProp 𝕄) = (thrV d L).loc cc0_scratch3 ↦{fullShare} ftb2 by rw [set_tbV]))
      iexact Htb
    iexact Hbufs
  isplitl [Hg0 Hg1 Hs0 Hs1 Hts Hr0 Hr1 Hr2 Hsems]
  · isplitl [Hg0]; · iexact Hg0
    isplitl [Hg1]; · iexact Hg1
    isplitl [Hs0]; · iexact Hs0
    isplitl [Hs1]; · iexact Hs1
    isplitl [Hts]; · iexact Hts
    isplitl [Hr0]; · iexact Hr0
    isplitl [Hr1]; · iexact Hr1
    isplitl [Hr2]; · iexact Hr2
    iexact Hsems
  iexists _; isplitr
  swap; · iexact HO
  ipureintro
  exact waits_ins (.inl rfl) (waits_ins (.inl rfl) (waits_ins (.inl rfl) (waits_close (waits_ins (.inr rfl) (waits_self W)) hW')))

set_option maxHeartbeats 3000000 in
theorem tile_body_zero (hF : (K (F := F)).Facts) (hidx : ∀ i, (m (iLoc d) i).toNat ≤ 3) (O : CellTallies nD τ sig (HIx 1)) (W : Waits sig (HIx 1)) (hO : ∀ g, O g none = 0)
    (hOlev : ∀ g ι, 0 < O g ι → 8 * (0 : Fin 1).val + 6 ≤ (K (F := F)).lev g ι) (hs : (L 1).val = 0) :
    iprop(levAts (K (F := F)).L (K (F := F)).lev ∗ bkit m d (cV L) (jV L)
        ∗ (goRes m d (cV L) (jV L) ∗ goSh d (cV L) (jV L))
        ∗ scopedBufs (thrV d L) ∗ scopedSems0 (thrV d L) ∗ owes (thrV d L) (O + oxV d (cV L)) W)
      ⊢ wp frame (wpE (defs₀ (F := F)) 𝒱₀ (thrV d L) none) Set.univ
          (cc0__edge_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2)
          fun _ => iprop((tdRes m d (cV L) (jV L) ∗ tdSh m d (cV L) (jV L))
            ∗ scopedBufs (thrV d L) ∗ scopedSems0 (thrV d L)
            ∗ ∃ W', ⌜∀ p ∈ W', p ∈ W ∨ p.2 = none ∨ p.2 = some (0 : Fin 1)⌝ ∗ owes (thrV d L) O W') := by
  simp only [cc0__edge_body_eq_skeleton]; unfold cc0__edge_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Hi, Ht, Ho⟩, Hsh⟩, ⟨⟨%fx, Hx⟩, ⟨%f0, Hb0⟩, ⟨%f1, Hb1⟩, ⟨%ftb, Htb⟩, Hbufs⟩, ⟨Hg0, Hg1, Hs0, Hs1, Hts, Hr0, Hr1, Hr2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw2 := (show levAts (K (F := F)).L (K (F := F)).lev ⊢ Transfers.MayWaits (thrV d L) (default : HIx 1) O from
    (K (F := F)).mayWaits_none (thr := thrV d L) hO) $$ Hlv
  ihave Hi' := (Entails.of_eq (pts_iSlK (F := F) d L _).symm) $$ Hi
  ihave Ht' := (Entails.of_eq (pts_tV (F := F) d L _ _).symm) $$ Ht
  ihave Ho' := (Entails.of_eq (pts_oV (F := F) d L _ _).symm) $$ Ho
  ihave Hx' := (Entails.of_eq (pts_xV (F := F) d L _).symm) $$ Hx
  ihave Hb0' := (Entails.of_eq (pts_b0V (F := F) d L _).symm) $$ Hb0
  ihave Hb1' := (Entails.of_eq (pts_b1V (F := F) d L _).symm) $$ Hb1
  ihave Htb' := (Entails.of_eq (pts_tbV (F := F) d L _).symm) $$ Htb
  have hs' : (jV L).val = 0 := hs
  have k0_h1 : Scalar.cmpi .ne (Scalar.extui (Scalar.cmpi .eq (BitVec.ofNat 32 (L 1).val) (0#32 : BitVec 32))) (0#32 : BitVec 32) = 1#1 := by
    revert hs; generalize L 1 = s; revert s; decide
  -- tile 0 fills the shared table from the edge table
  ihave Hsh1 := (Entails.of_eq (show (goSh (F := F) d (cV L) (jV L) : sProp 𝕄) = iprop(∃ f, shLoc d (cV L) ↦{fullShare} f) by unfold goSh; rw [if_pos hs'])) $$ Hsh
  icases Hsh1 with ⟨%fsh, Hsh1⟩
  ihave Hsh1' := (Entails.of_eq (pts_shV (F := F) d L _ _).symm) $$ Hsh1
  sl_exec
  ihave Hsh2w := (Entails.of_eq (pts_written_shV (F := F) d L _ _)) $$ Hsh1'
  ihave Hsh2 := (Entails.of_eq (congrArg (fun w => ((shV).view.loc (thrV d L) ↦{fullShare} w : sProp 𝕄)) (tab_payload_eq (F := F) m d L))) $$ [Hsh2w]
  · iexact Hsh2w
  -- and splits it into the sixteen tiles' read tokens and what they leave
  ihave Hspl := (Transfers.pointsTo_toks_split (ℓ := (shV).view.loc (thrV d L)) (S := Finset.univ) (f := tabSh m d (cV L)) fullShare 16) $$ Hsh2
  icases Hspl with ⟨Hdrop, Htoks16⟩
  ihave Hsh3 := (show (bigSep Finset.univ fun i : Fin 16 => ((shV).view.loc (thrV d L) ↦[Finset.univ]{Transfers.shareTok fullShare 16 i} tabSh m d (cV L) : sProp 𝕄))
      ⊢ (if (jV L).val = 0 then (bigSep Finset.univ fun j : Fin (grid0.bound 1) => shTok m d (cV L) (j.castLE hsub0)) else iprop(emp)) from by
    rw [if_pos hs']; exact BI.Entails.refl _) $$ Htoks16
  rw [Prog.bind_assoc]
  iapply (barrier_step (F := F) m d L O _ hOlev) $$ [Htoks Hat Hcred Hsh3 HO]
  · isplitr; · iexact Hlv
    isplitl [Htoks Hat Hcred]
    · unfold bkit
      isplitr; · iexists κ; iexact Hinv
      isplitl [Htoks]; · iexact Htoks
      isplitr; · iexact Hrch
      isplitl [Hat]; · iexact Hat
      iexact Hcred
    isplitl [Hsh3]; · iexact Hsh3
    iexact HO
  iintro ⟨HO, Htok⟩
  ihave Htok' := (Entails.of_eq (pts_shV (F := F) d L _ _).symm) $$ Htok
  sl_exec
  ihave Hx2 := (Entails.of_eq (pts_written_xV (F := F) d L _ _)) $$ Hx'
  ihave Hb0s := (Entails.of_eq (show ((b0V).view.loc (thrV d L) ↦{fullShare} f0 : sProp 𝕄) = (b0V).view.loc (thrV d L) ↦[(b0V).view.set]{fullShare} f0 by rw [set_b0V])) $$ Hb0'
  ihave Hb1s := (Entails.of_eq (show ((b1V).view.loc (thrV d L) ↦{fullShare} f1 : sProp 𝕄) = (b1V).view.loc (thrV d L) ↦[(b1V).view.set]{fullShare} f1 by rw [set_b1V])) $$ Hb1'
  ihave Htbs := (Entails.of_eq (show ((tbV).view.loc (thrV d L) ↦{fullShare} ftb : sProp 𝕄) = (tbV).view.loc (thrV d L) ↦[(tbV).view.set]{fullShare} ftb by rw [set_tbV])) $$ Htb'
  -- the gather of chunk 0 into the first buffer starts
  iapply (gather_issue128 (F := F) m d L hidx b0V (Memref.isWhole_whole _) ![0] inb_S10000_S128_0 cc0_scratch5.sem) $$ [Hb0s Hx2 Htok' Hg0]
  · isplitl [Hb0s]; · iexists f0; iexact Hb0s
    isplitl [Hx2]; · iexact Hx2
    isplitl [Htok']; · iexact Htok'
    iexact Hg0
  iintro Hfl0
  ihave Ho2 := (Entails.of_eq (show ((oV).view.loc (thrV d L) ↦[oRowSet (wOf (cV L) (jV L))]{fullShare} m (oLoc d) : sProp 𝕄)
      = (oV).view.loc (thrV d L) ↦[rowsBetween (baseL L + 256 * 0) (baseL L + 10000)]{fullShare} m (oLoc d) by rw [oRowSet_eq_rows]; rfl)) $$ Ho'
  ihave Hdone0 := (rows_empty (F := F) d L (baseL L) (edgeOut m d)).2 $$ []
  · iempintro
  -- the loop, by its invariant
  rw [Prog.bind_assoc]
  sl_for (loopInv m d L O (insert (SemLoc.reg sc_bar0, (some 0 : HIx 1)) (insert (SemLoc.dma cc0_scoped0.sem, (default : HIx 1)) W))) $$ [Hfl0 Hb1s Hs1 Hdone0 Ho2 Hg1 Hs0 HO]
  case region =>
    intro k acc
    exact trip_step m d L hidx O _ _ k acc
  · unfold loopInv
    rw [if_pos (show (0 : ℕ) < 39 by decide), if_pos rfl, if_pos rfl]
    isplitr; · iexact Hmw2
    isplitl [Hfl0]; · iexact Hfl0
    isplitl [Hb1s Hs1]
    · isplitl [Hb1s]; · iexists f1; iexact Hb1s
      iexact Hs1
    isplitl [Hdone0]; · iexact Hdone0
    isplitl [Ho2]; · iexists _; iexact Ho2
    isplitl [Hg1]; · iexact Hg1
    isplitl [Hs0]; · iexact Hs0
    iexists _; isplitr
    swap; · iexact HO
    ipureintro; intro p hp
    rcases Finset.mem_insert.mp hp with hp | hp; · exact .inr (hp ▸ rfl)
    exact .inl hp
  iintro %acc HI
  have htr : Scf.trips k0_t1_loop.lb k0_t1_loop.ub k0_t1_loop.st = 39 := by decide
  unfold loopInv
  rw [htr, if_neg (show ¬ (39 : ℕ) < 39 by decide), if_neg (show (39 : ℕ) ≠ 0 by decide), if_neg (show (39 : ℕ) ≠ 0 by decide)]
  icases HI with ⟨-, ⟨⟨%fb0, Hb0⟩, Hx, Hsh, Hg0⟩, Hc, Hdone, ⟨%fo, Htodo⟩, Hg1, Hs0, %W', %hW', HO⟩
  -- the last sixteen rows: gathered into the tail buffer
  first | sl_exec | skip
  iapply (gather_issue16 (F := F) m d L hidx tbV (Memref.isWhole_whole _) cc0_scratch9.sem) $$ [Htbs Hx Hsh Hts]
  · isplitl [Htbs]; · iexists ftb; iexact Htbs
    isplitl [Hx]; · iexact Hx
    isplitl [Hsh]; · iexact Hsh
    iexact Hts
  iintro Hflt
  first | sl_exec | skip
  iapply (wait_step (F := F) d L cc0_scratch9.sem 65536 rfl (gatherD16 m d L tbV) O _) $$ [Hflt HO]
  · isplitr; · iexact Hmw2
    isplitl [Hflt]; · iexact Hflt
    iexact HO
  iintro ⟨Hgd, Hts, HO⟩
  ihave Hgd' := (Entails.of_eq (gatherD16_def (F := F) m d L _)) $$ Hgd
  icases Hgd' with ⟨⟨%ftb', Htb, %htb⟩, Hx, Hsh⟩
  -- and copied out to the tile's last sixteen rows
  first | sl_exec | skip
  ihave Htodo := (Entails.of_eq (congrArg (fun a => ((oV).view.loc (thrV d L) ↦[rowsBetween a (baseL L + 10000)]{fullShare} fo : sProp 𝕄))
      (show baseL L + 256 * 39 = baseL L + 9984 by omega))) $$ Htodo
  iapply (copy_issue16 (F := F) m d L tbV (Memref.isWhole_whole _) (k0_off8 L) (k0_off8_inb L) (off8_site L) cc0_scoped2.sem ftb' htb fo) $$ [Htb Htodo Hr2]
  · isplitl [Htb]; · iexact Htb
    isplitl [Htodo]; · iexact Htodo
    iexact Hr2
  iintro Hflc
  first | sl_exec | skip
  iapply (wait_step (F := F) d L cc0_scoped2.sem 65536 rfl (copyD m d L tbV (rowsBetween (baseL L + 9984) (baseL L + 10000))) O _) $$ [Hflc HO]
  · isplitr; · iexact Hmw2
    isplitl [Hflc]; · iexact Hflc
    iexact HO
  iintro ⟨Hcd, Hr2, HO⟩
  ihave Hcd' := (Entails.of_eq (copyD_def (F := F) m d L _ _)) $$ Hcd
  icases Hcd' with ⟨Hwt, %ftb2, Htb⟩
  -- the last chunk's copy out of the second buffer lands
  first | sl_exec | skip
  iapply (wait_step (F := F) d L sS1 524288 rfl (copyD m d L b1V (rowsBetween (baseL L + 256 * 39 - 128) (baseL L + 256 * 39))) O _) $$ [Hc HO]
  · isplitr; · iexact Hmw2
    isplitl [Hc]; · iexact Hc
    iexact HO
  iintro ⟨Hcd, Hs1, HO⟩
  ihave Hcd' := (Entails.of_eq (copyD_def (F := F) m d L _ _)) $$ Hcd
  icases Hcd' with ⟨Hw1, %fb1, Hb1⟩
  -- the tile's rows, joined: all at the lookup
  ihave Hdone := (rows_split (F := F) d L (a := baseL L) (b := baseL L + 256 * 39 - 128) (c := baseL L + 256 * 39) (by omega) (by omega) (edgeOut m d)).2 $$ [Hdone Hw1]
  · isplitl [Hdone]; · iexact Hdone
    iexact Hw1
  ihave Hdone := (Entails.of_eq (congrArg (fun b => ((oV).view.loc (thrV d L) ↦[rowsBetween (baseL L) b]{fullShare} edgeOut m d : sProp 𝕄))
      (show baseL L + 256 * 39 = baseL L + 9984 by omega))) $$ Hdone
  ihave Hall := (rows_split (F := F) d L (a := baseL L) (b := baseL L + 9984) (c := baseL L + 10000) (by omega) (by omega) (edgeOut m d)).2 $$ [Hdone Hwt]
  · isplitl [Hdone]; · iexact Hdone
    iexact Hwt
  rw [show ((Prog.ret PUnit.unit : Prog (TpuEff nD τ sig (Elt F) Λ₀ (thrV d L).2) PUnit).bind fun __r => (Pure.pure PUnit.unit : Prog (TpuEff nD τ sig (Elt F) Λ₀ (thrV d L).2) PUnit)) = Prog.ret PUnit.unit from rfl]
  sl_step
  -- what the tile hands back
  isplitl [Hi' Ht' Hall Hsh Hdrop]
  · isplitl [Hi' Ht' Hall]
    · isplitl [Hi']; · iapply (Entails.of_eq (pts_iSlK (F := F) d L _)); iexact Hi'
      isplitl [Ht']; · iexact Ht'
      iapply (Entails.of_eq (show ((oV).view.loc (thrV d L) ↦[rowsBetween (baseL L) (baseL L + 10000)]{fullShare} edgeOut m d : sProp 𝕄)
          = oLoc d ↦[oRowSet (wOf (cV L) (jV L))]{fullShare} edgeOut m d by rw [oRowSet_eq_rows]))
      iexact Hall
    · unfold tdSh
      isplitl [Hsh]; · iexact Hsh
      rw [if_pos hs']; iexact Hdrop
  isplitl [Hx Hb0 Hb1 Htb Hbufs]
  · isplitl [Hx]; · iexists _; iexact Hx
    isplitl [Hb0]
    · iexists fb0
      iapply (Entails.of_eq (show ((b0V).view.loc (thrV d L) ↦[(b0V).view.set]{fullShare} fb0 : sProp 𝕄) = (thrV d L).loc cc0_scratch1 ↦{fullShare} fb0 by rw [set_b0V]))
      iexact Hb0
    isplitl [Hb1]
    · iexists fb1
      iapply (Entails.of_eq (show ((b1V).view.loc (thrV d L) ↦[(b1V).view.set]{fullShare} fb1 : sProp 𝕄) = (thrV d L).loc cc0_scratch2 ↦{fullShare} fb1 by rw [set_b1V]))
      iexact Hb1
    isplitl [Htb]
    · iexists ftb2
      iapply (Entails.of_eq (show ((tbV).view.loc (thrV d L) ↦[(tbV).view.set]{fullShare} ftb2 : sProp 𝕄) = (thrV d L).loc cc0_scratch3 ↦{fullShare} ftb2 by rw [set_tbV]))
      iexact Htb
    iexact Hbufs
  isplitl [Hg0 Hg1 Hs0 Hs1 Hts Hr0 Hr1 Hr2 Hsems]
  · isplitl [Hg0]; · iexact Hg0
    isplitl [Hg1]; · iexact Hg1
    isplitl [Hs0]; · iexact Hs0
    isplitl [Hs1]; · iexact Hs1
    isplitl [Hts]; · iexact Hts
    isplitl [Hr0]; · iexact Hr0
    isplitl [Hr1]; · iexact Hr1
    isplitl [Hr2]; · iexact Hr2
    iexact Hsems
  iexists _; isplitr
  swap; · iexact HO
  ipureintro
  exact waits_ins (.inl rfl) (waits_ins (.inl rfl) (waits_ins (.inl rfl) (waits_close (waits_ins (.inr rfl) (waits_ins (.inl rfl) (waits_self W))) hW')))

/-- The task on vector subcore `(L 0, L 1)` of device `d`: tile 0 fills the shared table; all meet at the barrier, each leaving with a read
    token of the table; the tile stages its ten thousand indices, then gathers and copies out its rows of the lookup, 128 at a time through
    two row buffers and the last sixteen through the tail buffer. -/
theorem tile_body (hF : (K (F := F)).Facts) (hidx : ∀ i, (m (iLoc d) i).toNat ≤ 3) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (goRes m d (cV L) (jV L) ∗ goSh d (cV L) (jV L))
        ∗ scopedBufs (thrV d L) ∗ scopedSems0 (thrV d L) ∗ owes (thrV d L) (O + oxV d (cV L)) W)
      ⊢ wp frame (wpE (defs₀ (F := F)) 𝒱₀ (thrV d L) none) Set.univ
          (cc0__edge_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2)
          fun _ => iprop((tdRes m d (cV L) (jV L) ∗ tdSh m d (cV L) (jV L))
            ∗ scopedBufs (thrV d L) ∗ scopedSems0 (thrV d L)
            ∗ ∃ W', ⌜∀ p ∈ W', p ∈ W ∨ p.2 = none ∨ p.2 = some (0 : Fin 1)⌝ ∗ owes (thrV d L) O W') := by
  by_cases hs : (L 1).val = 0
  · exact tile_body_zero m d L hF hidx O W hO hOlev hs
  · exact tile_body_rest m d L hF hidx O W hO hOlev hs

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__edge_body (coordsV c s)
          iV (Memref.isWhole_whole _) tV (Memref.isWhole_whole _) oV (Memref.isWhole_whole _)
          xV (Memref.isWhole_whole _) b0V (Memref.isWhole_whole _) b1V (Memref.isWhole_whole _) tbV (Memref.isWhole_whole _) shV (Memref.isWhole_whole _)
          cc0_scratch5 cc0_scratch6 cc0_scratch7 cc0_scratch8 cc0_scratch9 cc0_scoped0 cc0_scoped1 cc0_scoped2) ⟨⟩ c s := rfl

set_option maxRecDepth 16384 in
theorem tileObl (hF : (K (F := F)).Facts) (hidx : ∀ d i, (m (iLoc d) i).toNat ≤ 3) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (hidx d) O W hO hOlev

end Cert.KernelIdeal.Hand

end
-- ==== Proof.KTileDefs.lean ====
import proofs.«205308_g19069654794752_retrytranche2_377_14_alg».proof.Proof.KSetup
import proofs.«205308_g19069654794752_retrytranche2_377_14_alg».proof.Proof.PreRange
import Idealize.ShloMosaic.Lib.SparseCore.Scatter

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.Kernel.main_arg1_scv : Memref Cert.Kernel.sig Kind.scVector Space.hbm Cert.Kernel.S320000 EltTy.i32)
local notation "tV" => (Memref.whole Cert.Kernel.main_arg3_scv : Memref Cert.Kernel.sig Kind.scVector Space.hbm Cert.Kernel.S4x128 EltTy.f32)
local notation "oV" => (Memref.whole Cert.Kernel.main_v0_scv : Memref Cert.Kernel.sig Kind.scVector Space.hbm Cert.Kernel.S320000x128 EltTy.f32)
local notation "xV" => (Memref.whole Cert.Kernel.cc0_scratch0 : Memref Cert.Kernel.sig Kind.scVector Space.vmem Cert.Kernel.S10000 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "tbV" => (Memref.whole Cert.Kernel.cc0_scratch3 : Memref Cert.Kernel.sig Kind.scVector Space.vmem Cert.Kernel.S16x128 EltTy.f32)
local notation "shV" => (Memref.whole Cert.Kernel.cc0_scratch4 : Memref Cert.Kernel.sig Kind.scVector Space.shared Cert.Kernel.S4x128 EltTy.f32)

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)
/-- The tile's worker number. -/
abbrev wL (L : grid0.Coords) : Fin 32 := wOf (cV L) (jV L)

/-- The tile's rows of the index array, as the program slices them. -/
abbrev iSlK (L : grid0.Coords) : Memref sig .scVector .hbm S10000 .i32 := (iV).slice (Rect.unit (s := S320000) (k0_off1 L) S10000.size (k0_off1_inb L)) (fun _ => rfl)

/-- The eight DMA semaphores of the tile. -/
abbrev gsem0 (d : Dev nD) (c : Fin τ.nSC) (i : Fin τ.nSub) : GSem nD τ sig := (V d c i, .dma cc0_scratch5.sem)
abbrev gsem1 (d : Dev nD) (c : Fin τ.nSC) (i : Fin τ.nSub) : GSem nD τ sig := (V d c i, .dma cc0_scratch6.sem)
abbrev ssem0 (d : Dev nD) (c : Fin τ.nSC) (i : Fin τ.nSub) : GSem nD τ sig := (V d c i, .dma cc0_scratch7.sem)
abbrev ssem1 (d : Dev nD) (c : Fin τ.nSC) (i : Fin τ.nSub) : GSem nD τ sig := (V d c i, .dma cc0_scratch8.sem)
abbrev tsem (d : Dev nD) (c : Fin τ.nSC) (i : Fin τ.nSub) : GSem nD τ sig := (V d c i, .dma cc0_scratch9.sem)
abbrev rsem0 (d : Dev nD) (c : Fin τ.nSC) (i : Fin τ.nSub) : GSem nD τ sig := (V d c i, .dma cc0_scoped0.sem)
abbrev rsem1 (d : Dev nD) (c : Fin τ.nSC) (i : Fin τ.nSub) : GSem nD τ sig := (V d c i, .dma cc0_scoped1.sem)
abbrev rsem2 (d : Dev nD) (c : Fin τ.nSC) (i : Fin τ.nSub) : GSem nD τ sig := (V d c i, .dma cc0_scoped2.sem)

omit [FloatOps F] in
theorem ownSems0_V :
    (ownSems0 (thrV d L) : sProp 𝕄)
      = iprop(semVal (gsem0 d (cV L) (jV L)) 0 ∗ semVal (gsem1 d (cV L) (jV L)) 0 ∗ semVal (ssem0 d (cV L) (jV L)) 0 ∗ semVal (ssem1 d (cV L) (jV L)) 0 ∗ semVal (tsem d (cV L) (jV L)) 0 ∗ semVal (rsem0 d (cV L) (jV L)) 0 ∗ semVal (rsem1 d (cV L) (jV L)) 0 ∗ semVal (rsem2 d (cV L) (jV L)) 0
          ∗ bigSep (((((((((ownCells (thrV d L)).erase (gsem0 d (cV L) (jV L))).erase (gsem1 d (cV L) (jV L))).erase (ssem0 d (cV L) (jV L))).erase (ssem1 d (cV L) (jV L))).erase (tsem d (cV L) (jV L))).erase (rsem0 d (cV L) (jV L))).erase (rsem1 d (cV L) (jV L))).erase (rsem2 d (cV L) (jV L))) fun g => semVal g 0) := by
  unfold SparseCore.Cfg.ownSems0
  rw [SparseCore.bigSep_erase' ((mem_ownCells (g := gsem0 d (cV L) (jV L))).mpr ⟨rfl, by show (SemLoc.dma cc0_scratch5.sem : SemLoc sig).isScoped .scVector = true; decide⟩),
    SparseCore.bigSep_erase' (Finset.mem_erase.mpr ⟨(fun h => absurd (congrArg Prod.snd h) (show (SemLoc.dma cc0_scratch6.sem : SemLoc sig) ≠ SemLoc.dma cc0_scratch5.sem by decide)), (mem_ownCells (g := gsem1 d (cV L) (jV L))).mpr ⟨rfl, by show (SemLoc.dma cc0_scratch6.sem : SemLoc sig).isScoped .scVector = true; decide⟩⟩),
    SparseCore.bigSep_erase' (Finset.mem_erase.mpr ⟨(fun h => absurd (congrArg Prod.snd h) (show (SemLoc.dma cc0_scratch7.sem : SemLoc sig) ≠ SemLoc.dma cc0_scratch6.sem by decide)), Finset.mem_erase.mpr ⟨(fun h => absurd (congrArg Prod.snd h) (show (SemLoc.dma cc0_scratch7.sem : SemLoc sig) ≠ SemLoc.dma cc0_scratch5.sem by decide)), (mem_ownCells (g := ssem0 d (cV L) (jV L))).mpr ⟨rfl, by show (SemLoc.dma cc0_scratch7.sem : SemLoc sig).isScoped .scVector = true; decide⟩⟩⟩),
    SparseCore.bigSep_erase' (Finset.mem_erase.mpr ⟨(fun h => absurd (congrArg Prod.snd h) (show (SemLoc.dma cc0_scratch8.sem : SemLoc sig) ≠ SemLoc.dma cc0_scratch7.sem by decide)), Finset.mem_erase.mpr ⟨(fun h => absurd (congrArg Prod.snd h) (show (SemLoc.dma cc0_scratch8.sem : SemLoc sig) ≠ SemLoc.dma cc0_scratch6.sem by decide)), Finset.mem_erase.mpr ⟨(fun h => absurd (congrArg Prod.snd h) (show (SemLoc.dma cc0_scratch8.sem : SemLoc sig) ≠ SemLoc.dma cc0_scratch5.sem by decide)), (mem_ownCells (g := ssem1 d (cV L) (jV L))).mpr ⟨rfl, by show (SemLoc.dma cc0_scratch8.sem : SemLoc sig).isScoped .scVector = true; decide⟩⟩⟩⟩),
    SparseCore.bigSep_erase' (Finset.mem_erase.mpr ⟨(fun h => absurd (congrArg Prod.snd h) (show (SemLoc.dma cc0_scratch9.sem : SemLoc sig) ≠ SemLoc.dma cc0_scratch8.sem by decide)), Finset.mem_erase.mpr ⟨(fun h => absurd (congrArg Prod.snd h) (show (SemLoc.dma cc0_scratch9.sem : SemLoc sig) ≠ SemLoc.dma cc0_scratch7.sem by decide)), Finset.mem_erase.mpr ⟨(fun h => absurd (congrArg Prod.snd h) (show (SemLoc.dma cc0_scratch9.sem : SemLoc sig) ≠ SemLoc.dma cc0_scratch6.sem by decide)), Finset.mem_erase.mpr ⟨(fun h => absurd (congrArg Prod.snd h) (show (SemLoc.dma cc0_scratch9.sem : SemLoc sig) ≠ SemLoc.dma cc0_scratch5.sem by decide)), (mem_ownCells (g := tsem d (cV L) (jV L))).mpr ⟨rfl, by show (SemLoc.dma cc0_scratch9.sem : SemLoc sig).isScoped .scVector = true; decide⟩⟩⟩⟩⟩),
    SparseCore.bigSep_erase' (Finset.mem_erase.mpr ⟨(fun h => absurd (congrArg Prod.snd h) (show (SemLoc.dma cc0_scoped0.sem : SemLoc sig) ≠ SemLoc.dma cc0_scratch9.sem by decide)), Finset.mem_erase.mpr ⟨(fun h => absurd (congrArg Prod.snd h) (show (SemLoc.dma cc0_scoped0.sem : SemLoc sig) ≠ SemLoc.dma cc0_scratch8.sem by decide)), Finset.mem_erase.mpr ⟨(fun h => absurd (congrArg Prod.snd h) (show (SemLoc.dma cc0_scoped0.sem : SemLoc sig) ≠ SemLoc.dma cc0_scratch7.sem by decide)), Finset.mem_erase.mpr ⟨(fun h => absurd (congrArg Prod.snd h) (show (SemLoc.dma cc0_scoped0.sem : SemLoc sig) ≠ SemLoc.dma cc0_scratch6.sem by decide)), Finset.mem_erase.mpr ⟨(fun h => absurd (congrArg Prod.snd h) (show (SemLoc.dma cc0_scoped0.sem : SemLoc sig) ≠ SemLoc.dma cc0_scratch5.sem by decide)), (mem_ownCells (g := rsem0 d (cV L) (jV L))).mpr ⟨rfl, by show (SemLoc.dma cc0_scoped0.sem : SemLoc sig).isScoped .scVector = true; decide⟩⟩⟩⟩⟩⟩),
    SparseCore.bigSep_erase' (Finset.mem_erase.mpr ⟨(fun h => absurd (congrArg Prod.snd h) (show (SemLoc.dma cc0_scoped1.sem : SemLoc sig) ≠ SemLoc.dma cc0_scoped0.sem by decide)), Finset.mem_erase.mpr ⟨(fun h => absurd (congrArg Prod.snd h) (show (SemLoc.dma cc0_scoped1.sem : SemLoc sig) ≠ SemLoc.dma cc0_scratch9.sem by decide)), Finset.mem_erase.mpr ⟨(fun h => absurd (congrArg Prod.snd h) (show (SemLoc.dma cc0_scoped1.sem : SemLoc sig) ≠ SemLoc.dma cc0_scratch8.sem by decide)), Finset.mem_erase.mpr ⟨(fun h => absurd (congrArg Prod.snd h) (show (SemLoc.dma cc0_scoped1.sem : SemLoc sig) ≠ SemLoc.dma cc0_scratch7.sem by decide)), Finset.mem_erase.mpr ⟨(fun h => absurd (congrArg Prod.snd h) (show (SemLoc.dma cc0_scoped1.sem : SemLoc sig) ≠ SemLoc.dma cc0_scratch6.sem by decide)), Finset.mem_erase.mpr ⟨(fun h => absurd (congrArg Prod.snd h) (show (SemLoc.dma cc0_scoped1.sem : SemLoc sig) ≠ SemLoc.dma cc0_scratch5.sem by decide)), (mem_ownCells (g := rsem1 d (cV L) (jV L))).mpr ⟨rfl, by show (SemLoc.dma cc0_scoped1.sem : SemLoc sig).isScoped .scVector = true; decide⟩⟩⟩⟩⟩⟩⟩),
    SparseCore.bigSep_erase' (Finset.mem_erase.mpr ⟨(fun h => absurd (congrArg Prod.snd h) (show (SemLoc.dma cc0_scoped2.sem : SemLoc sig) ≠ SemLoc.dma cc0_scoped1.sem by decide)), Finset.mem_erase.mpr ⟨(fun h => absurd (congrArg Prod.snd h) (show (SemLoc.dma cc0_scoped2.sem : SemLoc sig) ≠ SemLoc.dma cc0_scoped0.sem by decide)), Finset.mem_erase.mpr ⟨(fun h => absurd (congrArg Prod.snd h) (show (SemLoc.dma cc0_scoped2.sem : SemLoc sig) ≠ SemLoc.dma cc0_scratch9.sem by decide)), Finset.mem_erase.mpr ⟨(fun h => absurd (congrArg Prod.snd h) (show (SemLoc.dma cc0_scoped2.sem : SemLoc sig) ≠ SemLoc.dma cc0_scratch8.sem by decide)), Finset.mem_erase.mpr ⟨(fun h => absurd (congrArg Prod.snd h) (show (SemLoc.dma cc0_scoped2.sem : SemLoc sig) ≠ SemLoc.dma cc0_scratch7.sem by decide)), Finset.mem_erase.mpr ⟨(fun h => absurd (congrArg Prod.snd h) (show (SemLoc.dma cc0_scoped2.sem : SemLoc sig) ≠ SemLoc.dma cc0_scratch6.sem by decide)), Finset.mem_erase.mpr ⟨(fun h => absurd (congrArg Prod.snd h) (show (SemLoc.dma cc0_scoped2.sem : SemLoc sig) ≠ SemLoc.dma cc0_scratch5.sem by decide)), (mem_ownCells (g := rsem2 d (cV L) (jV L))).mpr ⟨rfl, by show (SemLoc.dma cc0_scoped2.sem : SemLoc sig).isScoped .scVector = true; decide⟩⟩⟩⟩⟩⟩⟩⟩)]

omit [FloatOps F] in
/-- The four scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := (Proc.scVector (cV L) (jV L)).devRef cc0_scratch1) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := (Proc.scVector (cV L) (jV L)).devRef cc0_scratch2) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := (Proc.scVector (cV L) (jV L)).devRef cc0_scratch3) rfl⟩⟩⟩)]

omit [FloatOps F] in
theorem wL_val : (wL L).val = 2 * (L 1).val + (L 0).val := rfl

omit [FloatOps F] in
/-- The program's slice of the index array at the tile's offset is the tile's part of the thirty-two. -/
theorem irowK_eq : Rect.unit (s := S320000) (k0_off1 L) S10000.size (k0_off1_inb L) = irow (wL L) := by
  unfold irow Rect.part Rect.block
  congr 1 <;> funext a
  · rw [k0_off1_eq]
    match a with
    | 0 => simp [Shape.partIx, Shape.partSize, wOf]; omega
  · match a with
    | 0 => simp [Shape.partSize]

omit [FloatOps F] in
theorem set_iSlK : (iSlK L).view.set = iRowSet (wL L) := by
  show ((iV).view.slice (Rect.unit (s := S320000) (k0_off1 L) S10000.size (k0_off1_inb L))).set = ((iV).view.slice (irow (wL L))).set
  rw [irowK_eq]

omit [FloatOps F] in
theorem pts_iSlK (f : Buf (Elt F) (iLoc d)) :
    ((iSlK L).view.loc (thrV d L) ↦[(iSlK L).view.set]{fullShare} f : sProp 𝕄) = iLoc d ↦[iRowSet (wL L)]{fullShare} f := by
  rw [set_iSlK]
omit [FloatOps F] in
theorem pts_tV (q : PosShare TreeShare) (f : Buf (Elt F) (tLoc d)) :
    ((tV).view.loc (thrV d L) ↦{q} f : sProp 𝕄) = tLoc d ↦{q} f := rfl
omit [FloatOps F] in
theorem pts_oV (I : Finset S320000x128.Idx) (f : Buf (Elt F) (oLoc d)) :
    ((oV).view.loc (thrV d L) ↦[I]{fullShare} f : sProp 𝕄) = oLoc d ↦[I]{fullShare} f := rfl
omit [FloatOps F] in
theorem pts_shV (q : PosShare TreeShare) (f : Buf (Elt F) (shLoc d (cV L))) :
    ((shV).view.loc (thrV d L) ↦{q} f : sProp 𝕄) = shLoc d (cV L) ↦{q} f := rfl
omit [FloatOps F] in
theorem pts_xV (f : Buf (Elt F) ((thrV d L).loc cc0_scratch0)) :
    ((xV).view.loc (thrV d L) ↦{fullShare} f : sProp 𝕄) = (thrV d L).loc cc0_scratch0 ↦{fullShare} f := rfl
omit [FloatOps F] in
theorem pts_b0V (f : Buf (Elt F) ((thrV d L).loc cc0_scratch1)) :
    ((b0V).view.loc (thrV d L) ↦{fullShare} f : sProp 𝕄) = (thrV d L).loc cc0_scratch1 ↦{fullShare} f := rfl
omit [FloatOps F] in
theorem pts_b1V (f : Buf (Elt F) ((thrV d L).loc cc0_scratch2)) :
    ((b1V).view.loc (thrV d L) ↦{fullShare} f : sProp 𝕄) = (thrV d L).loc cc0_scratch2 ↦{fullShare} f := rfl
omit [FloatOps F] in
theorem pts_tbV (f : Buf (Elt F) ((thrV d L).loc cc0_scratch3)) :
    ((tbV).view.loc (thrV d L) ↦{fullShare} f : sProp 𝕄) = (thrV d L).loc cc0_scratch3 ↦{fullShare} f := rfl

/-- Before the barrier, what a tile's sixteen duties hand over: tile 0's, every tile's read token of the filled shared table; another tile's, nothing. -/
theorem pays_intro : (if (jV L).val = 0 then (bigSep Finset.univ fun j : Fin (grid0.bound 1) => shTok m d (cV L) (j.castLE hsub0)) else iprop(emp))
    ⊢ (bigSep Finset.univ fun j : Fin (grid0.bound 1) => (bRd (F := F) m).payload (bcell d (cV L) (j.castLE hsub0)) 0 (jV L).val : sProp 𝕄) := by
  rw [show (bigSep Finset.univ fun j : Fin (grid0.bound 1) => (bRd (F := F) m).payload (bcell d (cV L) (j.castLE hsub0)) 0 (jV L).val)
      = bigSep Finset.univ fun j : Fin (grid0.bound 1) => (if (jV L).val = 0 then shTok m d (cV L) (j.castLE hsub0) else (iprop(emp) : sProp 𝕄)) from bigSep_congr fun j _ => rfl]
  by_cases h : (jV L).val = 0
  · rw [if_pos h]; exact Entails.of_eq (bigSep_congr fun j _ => (if_pos h).symm)
  · rw [if_neg h, show (bigSep Finset.univ fun j : Fin (grid0.bound 1) => (if (jV L).val = 0 then shTok m d (cV L) (j.castLE hsub0) else (iprop(emp) : sProp 𝕄)))
      = bigSep Finset.univ fun _ : Fin (grid0.bound 1) => (iprop(emp) : sProp 𝕄) from bigSep_congr fun j _ => if_neg h, bigSep_emp']

/-- After it, what the tile's own round collected holds its read token. -/
theorem pays_elim : (bigSep ((bRd (F := F) m).duties (bcell d (cV L) (jV L)) 0 \ ∅) fun n => (bRd (F := F) m).payload (bcell d (cV L) (jV L)) 0 n)
    ⊢ (shTok m d (cV L) (jV L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

set_option maxHeartbeats 2000000 in
/-- The subcore barrier on tile `(L 0, L 1)`: the tile arrives at every tile's cell of its SparseCore handing over what its duties carry, waits at its own, and leaves with its read token of the filled shared table. -/
theorem barrier_step (O : CellTallies nD τ sig (HIx 1)) (W : Waits sig (HIx 1))
    (hOlev : ∀ g ι, 0 < O g ι → 8 * (0 : Fin 1).val + 6 ≤ (K (F := F)).lev g ι) {α : Type}
    (k : PUnit → Prog (TpuEff nD τ sig (Elt F) Λ₀ (.scVector (cV L) (jV L))) α) (Q : α → sProp 𝕄) :
    iprop(levAts (K (F := F)).L (K (F := F)).lev ∗ bkit m d (cV L) (jV L)
        ∗ (if (jV L).val = 0 then (bigSep Finset.univ fun j : Fin (grid0.bound 1) => shTok m d (cV L) (j.castLE hsub0)) else iprop(emp))
        ∗ owes (thrV d L) (O + oxV d (cV L)) W)
      ⊢ iprop((iprop(owes (thrV d L) O (insert (SemLoc.reg sc_bar0, (some 0 : HIx 1)) W) ∗ shTok m d (cV L) (jV L))
            -∗ wp frame (wpE (defs₀ (F := F)) 𝒱₀ (thrV d L) none) Set.univ (k ⟨⟩) Q)
          -∗ wp frame (wpE (defs₀ (F := F)) 𝒱₀ (thrV d L) none) Set.univ (SparseCore.subcoreBarrier sc_bar0 (grid0.bound 1) hsub0 >>= k) Q) := by
  unfold bkit
  iintro ⟨#Hlv, ⟨⟨%κ, #Hinv⟩, Htoks, #Hrch, Hat, Hcred⟩, Hsh, HO⟩ Hk
  ihave Hpays := (pays_intro (F := F) m d L) $$ Hsh
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O W) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thrV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htok := (pays_elim (F := F) m d L) $$ Hgot
  iapply Hk
  isplitl [HO]; · iexact HO
  iexact Htok

/-! ## The tile's data in canonical terms -/

/-- The tile's first row of the index and result arrays. -/
abbrev baseL (L : grid0.Coords) : ℕ := 10000 * (wL L).val

/-- What the staged index list holds: the tile's ten thousand indices. -/
abbrev idxT (d : Dev nD) (L : grid0.Coords) : Buf (Elt F) ((thrV d L).loc cc0_scratch0) :=
  ReadAs.same.apply ((iSlK L).view.read (Elt F) (m (iLoc d)))

/-- The shared table as the gathers slice it: whole. -/
abbrev shSl : Memref sig .scVector .shared S4x128 .f32 := (shV).slice (Rect.unit (s := S4x128) ![0, 0] S4x128.size inb_S4x128_S4x128_0_0) (fun _ => rfl)
/-- A chunk of 128 of the staged list. -/
abbrev xSl (off : Fin 1 → Nat) (inb : ∀ a, off a + S128.size a ≤ S10000.size a) : Memref sig .scVector .vmem S128 .i32 :=
  (xV).slice (Rect.unit (s := S10000) off S128.size inb) (fun _ => rfl)
/-- The last sixteen of the staged list. -/
abbrev xSl16 : Memref sig .scVector .vmem S16 .i32 := (xV).slice (Rect.unit (s := S10000) ![9984] S16.size inb_S10000_S16_9984) (fun _ => rfl)
/-- A window of 128 rows of the result. -/
abbrev oSl (off : Fin 2 → Nat) (inb : ∀ a, off a + S128x128.size a ≤ S320000x128.size a) : Memref sig .scVector .hbm S128x128 .f32 :=
  (oV).slice (Rect.unit (s := S320000x128) off S128x128.size inb) (fun _ => rfl)
/-- A window of 16 rows of the result. -/
abbrev oSl16 (off : Fin 2 → Nat) (inb : ∀ a, off a + S16x128.size a ≤ S320000x128.size a) : Memref sig .scVector .hbm S16x128 .f32 :=
  (oV).slice (Rect.unit (s := S320000x128) off S16x128.size inb) (fun _ => rfl)

/-- The staged list held whole, and the tile's read token of the filled shared table. -/
abbrev xRes (d : Dev nD) (L : grid0.Coords) : sProp 𝕄 := (xV).view.loc (thrV d L) ↦{fullShare} idxT m d L
abbrev shRes (d : Dev nD) (L : grid0.Coords) : sProp 𝕄 := (shV).view.loc (thrV d L) ↦{Transfers.shareTokN fullShare (jV L).val} tabSh m d (cV L)

/-- A row buffer of 128 rows holds the lookup's rows `[base + o, base + o + 128)`. -/
def rowsOK128 (d : Dev nD) (L : grid0.Coords) (B : Memref sig .scVector .vmem S128x128 .f32) (o : ℕ) (f : Buf (Elt F) (B.view.loc (thrV d L))) : Prop :=
  ∀ (r : Fin 128) (l : Fin 128) (h : baseL L + o + r.val < 320000),
    B.view.read (Elt F) f (ValueIdx.ix2 r l) = edgeOut m d (ValueIdx.ix2 (⟨baseL L + o + r.val, h⟩ : Fin 320000) l)
/-- The tail buffer holds the lookup's rows `[base + 9984, base + 10000)`. -/
def rowsOK16 (d : Dev nD) (L : grid0.Coords) (B : Memref sig .scVector .vmem S16x128 .f32) (f : Buf (Elt F) (B.view.loc (thrV d L))) : Prop :=
  ∀ (r : Fin 16) (l : Fin 128) (h : baseL L + 9984 + r.val < 320000),
    B.view.read (Elt F) f (ValueIdx.ix2 r l) = edgeOut m d (ValueIdx.ix2 (⟨baseL L + 9984 + r.val, h⟩ : Fin 320000) l)

/-- What a gather of list chunk `o` into row buffer `B` delivers at its wait: the buffer at the lookup's rows, the staged
    list and the table token back. -/
def gatherD (d : Dev nD) (L : grid0.Coords) (B : Memref sig .scVector .vmem S128x128 .f32) (o : ℕ) : sProp 𝕄 :=
  iprop((∃ f, (B.view.loc (thrV d L) ↦[B.view.set]{fullShare} f) ∗ ⌜rowsOK128 m d L B o f⌝) ∗ xRes m d L ∗ shRes m d L)
def gatherD16 (d : Dev nD) (L : grid0.Coords) (B : Memref sig .scVector .vmem S16x128 .f32) : sProp 𝕄 :=
  iprop((∃ f, (B.view.loc (thrV d L) ↦[B.view.set]{fullShare} f) ∗ ⌜rowsOK16 m d L B f⌝) ∗ xRes m d L ∗ shRes m d L)

/-- What a copy of row buffer `B` out to a window `S` of the result delivers at its wait: the window at the lookup, the buffer back. -/
def copyD (d : Dev nD) (L : grid0.Coords) {s : Shape} (B : Memref sig .scVector .vmem s .f32) (S : Finset S320000x128.Idx) : sProp 𝕄 :=
  iprop(((oV).view.loc (thrV d L) ↦[S]{fullShare} edgeOut m d) ∗ ∃ f, B.view.loc (thrV d L) ↦[B.view.set]{fullShare} f)

/-- The elements of the result whose row lies in `[a, b)`. -/
def rowsBetween (a b : ℕ) : Finset S320000x128.Idx := Finset.univ.filter fun j => a ≤ (j 0).val ∧ (j 0).val < b

omit [FloatOps F] in
theorem mem_rowsBetween {a b : ℕ} {j : S320000x128.Idx} : j ∈ rowsBetween a b ↔ a ≤ (j 0).val ∧ (j 0).val < b := by
  unfold rowsBetween; simp

end Tile
end Cert.Kernel.Hand
end
-- ==== Proof.KTileSteps.lean ====
import proofs.«205308_g19069654794752_retrytranche2_377_14_alg».proof.Proof.KTileDefs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.Kernel.main_arg1_scv : Memref Cert.Kernel.sig Kind.scVector Space.hbm Cert.Kernel.S320000 EltTy.i32)
local notation "tV" => (Memref.whole Cert.Kernel.main_arg3_scv : Memref Cert.Kernel.sig Kind.scVector Space.hbm Cert.Kernel.S4x128 EltTy.f32)
local notation "oV" => (Memref.whole Cert.Kernel.main_v0_scv : Memref Cert.Kernel.sig Kind.scVector Space.hbm Cert.Kernel.S320000x128 EltTy.f32)
local notation "xV" => (Memref.whole Cert.Kernel.cc0_scratch0 : Memref Cert.Kernel.sig Kind.scVector Space.vmem Cert.Kernel.S10000 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "tbV" => (Memref.whole Cert.Kernel.cc0_scratch3 : Memref Cert.Kernel.sig Kind.scVector Space.vmem Cert.Kernel.S16x128 EltTy.f32)
local notation "shV" => (Memref.whole Cert.Kernel.cc0_scratch4 : Memref Cert.Kernel.sig Kind.scVector Space.shared Cert.Kernel.S4x128 EltTy.f32)

section Tile

variable (d : Dev nD) (L : grid0.Coords)

/-- Awaiting a transfer in flight: the thread takes what it delivers, its cell back at zero, the wait recorded. -/
theorem wait_step {sp sp' : Space} {s s' : Shape} {e e' : EltTy} {κ' : Kind} (sem : DmaSem sig)
    {srcw : Memref sig (thrV d L).2.kind sp' s' e'} {dstw : Memref sig κ' sp s e} {hsrc : srcw.view.WordExact} {hdst : dstw.view.WordExact}
    (N : ℕ) (hN : dstw.view.dmaCredit = N) (D : sProp 𝕄) (O : CellTallies nD τ sig (HIx 1)) (W : Waits sig (HIx 1)) {α : Type}
    (k : PUnit → Prog (TpuEff nD τ sig (Elt F) Λ₀ (thrV d L).2) α) (Q : α → sProp 𝕄) :
    iprop(Transfers.MayWaits (thrV d L) (default : HIx 1) O ∗ Transfers.Flight countersEmb (thrV d L) (SemLoc.dma sem) (default : HIx 1) N D ∗ owes (thrV d L) O W)
      ⊢ iprop((iprop(D ∗ semVal (thrV d L, SemLoc.dma sem) 0 ∗ owes (thrV d L) O (insert (SemLoc.dma sem, (default : HIx 1)) W))
            -∗ wp frame (wpE (defs₀ (F := F)) 𝒱₀ (thrV d L) none) Set.univ (k ⟨⟩) Q)
          -∗ wp frame (wpE (defs₀ (F := F)) 𝒱₀ (thrV d L) none) Set.univ (.op (.waitDma2 sem srcw dstw hsrc hdst) k) Q) := by
  iintro ⟨#Hmw, Hfl, HO⟩ Hk
  iapply (Transfers.wp_waitLocalO countersEmb 𝒱₀ (thrV d L) none (default : HIx 1) hN) $$ [Hfl HO]
  · isplitl [Hfl]; · iexact Hfl
    isplitl [HO]; · iexact HO
    iapply (Transfers.MayWaits.elim (SemLoc.dma sem)) $$ Hmw
  iexact Hk

omit [FloatOps F] in
/-- A conditional of the program, by cases: both arms from the same resources to the same delivery. -/
theorem dite_step {c : Prop} [Decidable c] {α : Type} {E : Type → Type} {β : Type}
    (wpP : Prog E β → sProp 𝕄) (t : c → Prog E β) (e : ¬ c → Prog E β) (R : sProp 𝕄)
    (ht : ∀ h, R ⊢ wpP (t h)) (he : ∀ h, R ⊢ wpP (e h)) : R ⊢ wpP (dite c t e) := by
  by_cases h : c
  · rw [dif_pos h]; exact ht h
  · rw [dif_neg h]; exact he h

omit [FloatOps F] in
theorem baseL_eq : baseL L = 20000 * (L 1).val + 10000 * (L 0).val := by
  show 10000 * (2 * (L 1).val + (L 0).val) = _; omega

omit [FloatOps F] in
theorem off2_base (k : Fin k0_t1_loop.trips) : k0_off2 L k = ![baseL L + 256 * k.val, 0] := by rw [k0_off2_eq, baseL_eq]
omit [FloatOps F] in
theorem off5_base (k : Fin k0_t1_loop.trips) : k0_off5 L k = ![baseL L + (256 * k.val + 128), 0] := by
  rw [k0_off5_eq, baseL_eq, show 20000 * (L 1).val + 10000 * (L 0).val + 256 * k.val + 128 = 20000 * (L 1).val + 10000 * (L 0).val + (256 * k.val + 128) by omega]
omit [FloatOps F] in
theorem off8_base : k0_off8 L = ![baseL L + 9984, 0] := by rw [k0_off8_eq, baseL_eq]

omit [FloatOps F] in
theorem trips_eq : k0_t1_loop.trips = 39 := by decide

end Tile
end Cert.Kernel.Hand
end
-- ==== Proof.KTileFacts.lean ====
/-
  Facts about the data a SparseCore tile moves: the offsets its staged index list holds are rows of the four-row table,
  and what an indirect gather through a run of those offsets delivers is the tile's rows of the edge result.
-/
import proofs.«205308_g19069654794752_retrytranche2_377_14_alg».proof.Proof.KTileDefs
import Idealize.ShloMosaic.Lib.SparseCore.Stream

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

variable (d : Dev nD) (L : grid0.Coords)

/-- The tile's rows of the edge indices start at row `10000 w`, `w` its worker number. -/
theorem off1_val : k0_off1 L 0 = 10000 * (wL L).val := by
  rw [k0_off1_eq L]
  show 20000 * (L 1).val + 10000 * (L 0).val = 10000 * (2 * (L 1).val + (L 0).val)
  omega

/-- Entry `x` of the staged list is the edge index of row `10000 w + x`. -/
theorem staged_apply (fx : Buf (Elt F) ((thrV d L).loc cc0_scratch0)) (y : S10000.Idx) :
    (View.write (Elt F) (Memref.whole Cert.Kernel.cc0_scratch0 : Memref sig .scVector .vmem S10000 .i32).view fx
        (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ) y
      = m (iLoc d) (ValueIdx.ix1 (n := 320000) ⟨10000 * (wL L).val + (y 0).val, by have := (wL L).isLt; have : (y 0).val < 10000 := (y 0).isLt; omega⟩) := by
  refine (congrFun (View.write_whole_univ (Val := Elt F) (sig := sig) (κ := .scVector) Cert.Kernel.cc0_scratch0 fx _) y).trans ?_
  show m (iLoc d) ((((Memref.whole main_arg1_scv : Memref sig .scVector .hbm S320000 .i32).slice (Rect.unit (s := S320000) (k0_off1 L) S10000.size (k0_off1_inb L)) (fun _ => rfl)).view.emb y)) = _
  congr 1; funext a; apply Fin.ext
  match a with
  | ⟨0, _⟩ => show k0_off1 L 0 + 1 * (y 0).val = 10000 * (wL L).val + (y 0).val; rw [off1_val]; omega

/-- The offsets a gather of 128 rows reads are rows of the four-row table. -/
theorem offs_inb128 (hidx : ∀ i, (m (iLoc d) i).toNat ≤ 3) (fx : Buf (Elt F) ((thrV d L).loc cc0_scratch0))
    (off : Fin 1 → Nat) (inb : ∀ a, off a + S128.size a ≤ S10000.size a) :
    ∀ x, ((((Memref.whole Cert.Kernel.cc0_scratch0 : Memref sig .scVector .vmem S10000 .i32).slice (Rect.unit (s := S10000) off S128.size inb) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S128x128.axis := by
  intro x
  rw [show ∀ g, ((Memref.whole Cert.Kernel.cc0_scratch0 : Memref sig .scVector .vmem S10000 .i32).slice (Rect.unit (s := S10000) off S128.size inb) (fun _ => rfl)).view.read (Elt F) g x
      = g (((Memref.whole Cert.Kernel.cc0_scratch0 : Memref sig .scVector .vmem S10000 .i32).slice (Rect.unit (s := S10000) off S128.size inb) (fun _ => rfl)).view.emb x) from fun g => (View.read_apply _ _).trans (cast_eq _ _),
    staged_apply]
  exact Nat.lt_of_le_of_lt (hidx _) (by decide)

/-- Entry `k` of such a run of offsets, in row-major order, is the edge index of row `10000 w + off + k`. -/
theorem rows_val128 (fx : Buf (Elt F) ((thrV d L).loc cc0_scratch0))
    (off : Fin 1 → Nat) (inb : ∀ a, off a + S128.size a ≤ S10000.size a)
    (hn : S128.numel = S128x128.size gathers_S4x128_S128x128.axis')
    (hin : ∀ x, ((((Memref.whole Cert.Kernel.cc0_scratch0 : Memref sig .scVector .vmem S10000 .i32).slice (Rect.unit (s := S10000) off S128.size inb) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S128x128.axis) (hb : off 0 + 128 ≤ 10000)
    (k : Fin (S128x128.size gathers_S4x128_S128x128.axis')) :
    (SparseCore.rows (((Memref.whole Cert.Kernel.cc0_scratch0 : Memref sig .scVector .vmem S10000 .i32).slice (Rect.unit (s := S10000) off S128.size inb) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) hn hin k).val
      = (m (iLoc d) (ValueIdx.ix1 (n := 320000) ⟨10000 * (wL L).val + off 0 + k.val, by have := (wL L).isLt; have hk : k.val < 128 := k.isLt; omega⟩)).toNat := by
  unfold SparseCore.rows
  show (((Memref.whole Cert.Kernel.cc0_scratch0 : Memref sig .scVector .vmem S10000 .i32).slice (Rect.unit (s := S10000) off S128.size inb) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ) (S128.rowMajor.symm (k.cast hn.symm))).toNat = _
  have hz : ((S128.rowMajor.symm (k.cast hn.symm)) 0).val = k.val := by
    have h1 := Shape.rowMajor_val_one (d := ![128]) (S128.rowMajor.symm (k.cast hn.symm))
    rw [show (⟨1, ![128]⟩ : Shape).rowMajor (S128.rowMajor.symm (k.cast hn.symm)) = k.cast hn.symm from Equiv.apply_symm_apply _ _] at h1
    exact h1.symm
  rw [show ∀ g z, ((Memref.whole Cert.Kernel.cc0_scratch0 : Memref sig .scVector .vmem S10000 .i32).slice (Rect.unit (s := S10000) off S128.size inb) (fun _ => rfl)).view.read (Elt F) g z
      = g (((Memref.whole Cert.Kernel.cc0_scratch0 : Memref sig .scVector .vmem S10000 .i32).slice (Rect.unit (s := S10000) off S128.size inb) (fun _ => rfl)).view.emb z) from fun g z => (View.read_apply _ _).trans (cast_eq _ _),
    staged_apply]
  congr 2; funext a; apply Fin.ext
  match a with
  | ⟨0, _⟩ =>
    show 10000 * (wL L).val + (off 0 + 1 * ((S128.rowMajor.symm (k.cast hn.symm)) 0).val) = 10000 * (wL L).val + off 0 + k.val
    rw [hz]; omega

/-- What the gather through such a run delivers at row `r`, column `l`: the edge result at row `10000 w + off + r`. -/
theorem gather_val128 (fx : Buf (Elt F) ((thrV d L).loc cc0_scratch0))
    (off : Fin 1 → Nat) (inb : ∀ a, off a + S128.size a ≤ S10000.size a)
    (hn : S128.numel = S128x128.size gathers_S4x128_S128x128.axis')
    (hin : ∀ x, ((((Memref.whole Cert.Kernel.cc0_scratch0 : Memref sig .scVector .vmem S10000 .i32).slice (Rect.unit (s := S10000) off S128.size inb) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S128x128.axis)
    (r : Fin 128) (l : Fin 128) (hb : off 0 + 128 ≤ 10000) :
    SparseCore.gatherPayload gathers_S4x128_S128x128 (((Memref.whole Cert.Kernel.cc0_scratch4 : Memref sig .scVector .shared S4x128 .f32).slice (Rect.unit (s := S4x128) ![0, 0] S4x128.size inb_S4x128_S4x128_0_0) (fun _ => rfl)).view.read (Elt F) (tabSh m d (cV L)))
        (SparseCore.rows (((Memref.whole Cert.Kernel.cc0_scratch0 : Memref sig .scVector .vmem S10000 .i32).slice (Rect.unit (s := S10000) off S128.size inb) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) hn hin) (ValueIdx.ix2 r l)
      = edgeOut m d (ValueIdx.ix2 (⟨10000 * (wL L).val + off 0 + r.val, by have := (wL L).isLt; have := r.isLt; omega⟩ : Fin 320000) l) := by
  unfold SparseCore.gatherPayload
  rw [show ∀ g z, ((Memref.whole Cert.Kernel.cc0_scratch4 : Memref sig .scVector .shared S4x128 .f32).slice (Rect.unit (s := S4x128) ![0, 0] S4x128.size inb_S4x128_S4x128_0_0) (fun _ => rfl)).view.read (Elt F) g z
      = g (((Memref.whole Cert.Kernel.cc0_scratch4 : Memref sig .scVector .shared S4x128 .f32).slice (Rect.unit (s := S4x128) ![0, 0] S4x128.size inb_S4x128_S4x128_0_0) (fun _ => rfl)).view.emb z) from fun g z => (View.read_apply _ _).trans (cast_eq _ _)]
  show m (tLoc d) _ = Cert.Spec.edgeEmb (m (tLoc d)) (m (iLoc d)) _
  rw [Cert.Spec.edgeEmb_apply]
  have hr := rows_val128 m d L fx off inb hn hin hb (r : Fin (S128x128.size gathers_S4x128_S128x128.axis'))
  have hlt := hin (S128.rowMajor.symm ((r : Fin (S128x128.size gathers_S4x128_S128x128.axis')).cast hn.symm))
  congr 1; funext a; apply Fin.ext
  match a with
  | ⟨0, _⟩ =>
    show 0 + 1 * ((gathers_S4x128_S128x128.idx _ (ValueIdx.ix2 r l)) (0 : Fin 2)).val = (Cert.Spec.row4 _).val
    rw [show (0 : Fin 2) = gathers_S4x128_S128x128.axis from rfl, Shape.Gathers.idx_axis]
    show 0 + 1 * (SparseCore.rows _ hn hin r).val = _
    rw [hr]
    have h4 : (m (iLoc d) (ValueIdx.ix1 (n := 320000) ⟨10000 * (wL L).val + off 0 + r.val, by have := (wL L).isLt; have := r.isLt; omega⟩)).toNat < 4 := by
      rw [← hr]; exact (SparseCore.rows _ hn hin r).isLt
    show _ = (m (iLoc d) _).toNat % 4
    rw [Nat.mod_eq_of_lt h4]; omega
  | ⟨1, _⟩ =>
    show 0 + 1 * ((gathers_S4x128_S128x128.idx (SparseCore.rows _ hn hin) (ValueIdx.ix2 r l)) (1 : Fin 2)).val = l.val
    rw [Nat.zero_add, Nat.one_mul]
    exact Shape.Gathers.idx_of_ne gathers_S4x128_S128x128 (SparseCore.rows _ hn hin) (ValueIdx.ix2 r l) (1 : Fin 2) (by decide)

/-- The offsets a gather of 16 rows reads are rows of the four-row table. -/
theorem offs_inb16 (hidx : ∀ i, (m (iLoc d) i).toNat ≤ 3) (fx : Buf (Elt F) ((thrV d L).loc cc0_scratch0)) :
    ∀ x, ((((Memref.whole Cert.Kernel.cc0_scratch0 : Memref sig .scVector .vmem S10000 .i32).slice (Rect.unit (s := S10000) ![9984] S16.size inb_S10000_S16_9984) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S16x128.axis := by
  intro x
  rw [show ∀ g, ((Memref.whole Cert.Kernel.cc0_scratch0 : Memref sig .scVector .vmem S10000 .i32).slice (Rect.unit (s := S10000) ![9984] S16.size inb_S10000_S16_9984) (fun _ => rfl)).view.read (Elt F) g x
      = g (((Memref.whole Cert.Kernel.cc0_scratch0 : Memref sig .scVector .vmem S10000 .i32).slice (Rect.unit (s := S10000) ![9984] S16.size inb_S10000_S16_9984) (fun _ => rfl)).view.emb x) from fun g => (View.read_apply _ _).trans (cast_eq _ _),
    staged_apply]
  exact Nat.lt_of_le_of_lt (hidx _) (by decide)

/-- Entry `k` of such a run of offsets, in row-major order, is the edge index of row `10000 w + off + k`. -/
theorem rows_val16 (fx : Buf (Elt F) ((thrV d L).loc cc0_scratch0))
    (hn : S16.numel = S16x128.size gathers_S4x128_S16x128.axis')
    (hin : ∀ x, ((((Memref.whole Cert.Kernel.cc0_scratch0 : Memref sig .scVector .vmem S10000 .i32).slice (Rect.unit (s := S10000) ![9984] S16.size inb_S10000_S16_9984) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S16x128.axis)
    (k : Fin (S16x128.size gathers_S4x128_S16x128.axis')) :
    (SparseCore.rows (((Memref.whole Cert.Kernel.cc0_scratch0 : Memref sig .scVector .vmem S10000 .i32).slice (Rect.unit (s := S10000) ![9984] S16.size inb_S10000_S16_9984) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) hn hin k).val
      = (m (iLoc d) (ValueIdx.ix1 (n := 320000) ⟨10000 * (wL L).val + 9984 + k.val, by have := (wL L).isLt; have hk : k.val < 16 := k.isLt; omega⟩)).toNat := by
  unfold SparseCore.rows
  show (((Memref.whole Cert.Kernel.cc0_scratch0 : Memref sig .scVector .vmem S10000 .i32).slice (Rect.unit (s := S10000) ![9984] S16.size inb_S10000_S16_9984) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ) (S16.rowMajor.symm (k.cast hn.symm))).toNat = _
  have hz : ((S16.rowMajor.symm (k.cast hn.symm)) 0).val = k.val := by
    have h1 := Shape.rowMajor_val_one (d := ![16]) (S16.rowMajor.symm (k.cast hn.symm))
    rw [show (⟨1, ![16]⟩ : Shape).rowMajor (S16.rowMajor.symm (k.cast hn.symm)) = k.cast hn.symm from Equiv.apply_symm_apply _ _] at h1
    exact h1.symm
  rw [show ∀ g z, ((Memref.whole Cert.Kernel.cc0_scratch0 : Memref sig .scVector .vmem S10000 .i32).slice (Rect.unit (s := S10000) ![9984] S16.size inb_S10000_S16_9984) (fun _ => rfl)).view.read (Elt F) g z
      = g (((Memref.whole Cert.Kernel.cc0_scratch0 : Memref sig .scVector .vmem S10000 .i32).slice (Rect.unit (s := S10000) ![9984] S16.size inb_S10000_S16_9984) (fun _ => rfl)).view.emb z) from fun g z => (View.read_apply _ _).trans (cast_eq _ _),
    staged_apply]
  congr 2; funext a; apply Fin.ext
  match a with
  | ⟨0, _⟩ =>
    show 10000 * (wL L).val + (9984 + 1 * ((S16.rowMajor.symm (k.cast hn.symm)) 0).val) = 10000 * (wL L).val + 9984 + k.val
    rw [hz]; omega

/-- What the gather through such a run delivers at row `r`, column `l`: the edge result at row `10000 w + off + r`. -/
theorem gather_val16 (fx : Buf (Elt F) ((thrV d L).loc cc0_scratch0))
    (hn : S16.numel = S16x128.size gathers_S4x128_S16x128.axis')
    (hin : ∀ x, ((((Memref.whole Cert.Kernel.cc0_scratch0 : Memref sig .scVector .vmem S10000 .i32).slice (Rect.unit (s := S10000) ![9984] S16.size inb_S10000_S16_9984) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) x).toNat
      < S4x128.size gathers_S4x128_S16x128.axis)
    (r : Fin 16) (l : Fin 128) :
    SparseCore.gatherPayload gathers_S4x128_S16x128 (((Memref.whole Cert.Kernel.cc0_scratch4 : Memref sig .scVector .shared S4x128 .f32).slice (Rect.unit (s := S4x128) ![0, 0] S4x128.size inb_S4x128_S4x128_0_0) (fun _ => rfl)).view.read (Elt F) (tabSh m d (cV L)))
        (SparseCore.rows (((Memref.whole Cert.Kernel.cc0_scratch0 : Memref sig .scVector .vmem S10000 .i32).slice (Rect.unit (s := S10000) ![9984] S16.size inb_S10000_S16_9984) (fun _ => rfl)).view.read (Elt F)
        (View.write (Elt F) (Memref.whole Cert.Kernel.cc0_scratch0 : Memref sig .scVector .vmem S10000 .i32).view fx
          (ReadAs.same.apply (((Memref.whole main_arg1_scv : Memref sig .scVector .hbm S320000 .i32).slice (Rect.unit (s := S320000) (k0_off1 L) S10000.size (k0_off1_inb L)) (fun _ => rfl)).view.read (Elt F) (m (iLoc d)))) Finset.univ)) hn hin) (ValueIdx.ix2 r l)
      = edgeOut m d (ValueIdx.ix2 (⟨10000 * (wL L).val + 9984 + r.val, by have := (wL L).isLt; have := r.isLt; omega⟩ : Fin 320000) l) := by
  unfold SparseCore.gatherPayload
  rw [show ∀ g z, ((Memref.whole Cert.Kernel.cc0_scratch4 : Memref sig .scVector .shared S4x128 .f32).slice (Rect.unit (s := S4x128) ![0, 0] S4x128.size inb_S4x128_S4x128_0_0) (fun _ => rfl)).view.read (Elt F) g z
      = g (((Memref.whole Cert.Kernel.cc0_scratch4 : Memref sig .scVector .shared S4x128 .f32).slice (Rect.unit (s := S4x128) ![0, 0] S4x128.size inb_S4x128_S4x128_0_0) (fun _ => rfl)).view.emb z) from fun g z => (View.read_apply _ _).trans (cast_eq _ _)]
  show m (tLoc d) _ = Cert.Spec.edgeEmb (m (tLoc d)) (m (iLoc d)) _
  rw [Cert.Spec.edgeEmb_apply]
  have hr := rows_val16 m d L fx hn hin (r : Fin (S16x128.size gathers_S4x128_S16x128.axis'))
  have hlt := hin (S16.rowMajor.symm ((r : Fin (S16x128.size gathers_S4x128_S16x128.axis')).cast hn.symm))
  congr 1; funext a; apply Fin.ext
  match a with
  | ⟨0, _⟩ =>
    show 0 + 1 * ((gathers_S4x128_S16x128.idx _ (ValueIdx.ix2 r l)) (0 : Fin 2)).val = (Cert.Spec.row4 _).val
    rw [show (0 : Fin 2) = gathers_S4x128_S16x128.axis from rfl, Shape.Gathers.idx_axis]
    show 0 + 1 * (SparseCore.rows _ hn hin r).val = _
    rw [hr]
    have h4 : (m (iLoc d) (ValueIdx.ix1 (n := 320000) ⟨10000 * (wL L).val + 9984 + r.val, by have := (wL L).isLt; have := r.isLt; omega⟩)).toNat < 4 := by
      rw [← hr]; exact (SparseCore.rows _ hn hin r).isLt
    show _ = (m (iLoc d) _).toNat % 4
    rw [Nat.mod_eq_of_lt h4]; omega
  | ⟨1, _⟩ =>
    show 0 + 1 * ((gathers_S4x128_S16x128.idx (SparseCore.rows _ hn hin) (ValueIdx.ix2 r l)) (1 : Fin 2)).val = l.val
    rw [Nat.zero_add, Nat.one_mul]
    exact Shape.Gathers.idx_of_ne gathers_S4x128_S16x128 (SparseCore.rows _ hn hin) (ValueIdx.ix2 r l) (1 : Fin 2) (by decide)

end Cert.Kernel.Hand

end
-- ==== Proof.KTileGather.lean ====
/-
  Issuing an indirect gather on a SparseCore tile: from the destination row buffer, the staged index list, the tile's read
  token of the shared table and the transfer's semaphore at zero, the gather is in flight, and what it delivers at its wait
  is the row buffer holding the tile's rows of the edge result, with the list and the token back.
-/
import proofs.«205308_g19069654794752_retrytranche2_377_14_alg».proof.Proof.KTileDefs
import proofs.«205308_g19069654794752_retrytranche2_377_14_alg».proof.Proof.KTileFacts
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.Kernel.main_arg1_scv : Memref Cert.Kernel.sig Kind.scVector Space.hbm Cert.Kernel.S320000 EltTy.i32)
local notation "tV" => (Memref.whole Cert.Kernel.main_arg3_scv : Memref Cert.Kernel.sig Kind.scVector Space.hbm Cert.Kernel.S4x128 EltTy.f32)
local notation "oV" => (Memref.whole Cert.Kernel.main_v0_scv : Memref Cert.Kernel.sig Kind.scVector Space.hbm Cert.Kernel.S320000x128 EltTy.f32)
local notation "xV" => (Memref.whole Cert.Kernel.cc0_scratch0 : Memref Cert.Kernel.sig Kind.scVector Space.vmem Cert.Kernel.S10000 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "tbV" => (Memref.whole Cert.Kernel.cc0_scratch3 : Memref Cert.Kernel.sig Kind.scVector Space.vmem Cert.Kernel.S16x128 EltTy.f32)
local notation "shV" => (Memref.whole Cert.Kernel.cc0_scratch4 : Memref Cert.Kernel.sig Kind.scVector Space.shared Cert.Kernel.S4x128 EltTy.f32)

variable (d : Dev nD) (L : grid0.Coords)

/-- The staged list is what a write of it over any contents leaves. -/
theorem idxT_eq_staged : idxT m d L
    = View.write (Elt F) (xV).view (idxT m d L) (ReadAs.same.apply ((iSlK L).view.read (Elt F) (m (iLoc d)))) Finset.univ :=
  (View.write_whole_univ (Val := Elt F) (sig := sig) (κ := .scVector) Cert.Kernel.cc0_scratch0 (idxT m d L) _).symm

/-- The row transfers of a gather into a 128-row buffer credit its semaphore 524288 units in all. -/
theorem credit128 (B : Memref sig .scVector .vmem S128x128 .f32) :
    ∑ j, (B.slice (S128x128.rowRect gathers_S4x128_S128x128.axis' j) (S128x128.stride_rowRect gathers_S4x128_S128x128.axis' j)).view.dmaCredit = 524288 :=
  (by decide : ∀ b : Fin (sig.nBuf (Kind.scVector.table Space.vmem)),
    (∑ j : Fin (S128x128.size gathers_S4x128_S128x128.axis'), sig.dmaCredit Kind.scVector (Kind.scVector.table Space.vmem) b (S128x128.rowShape gathers_S4x128_S128x128.axis') EltTy.f32) = 524288) B.view.buf

/-- Issuing the gather of 128 rows through the chunk at `off` of the staged list into row buffer `B`. -/
theorem gather_issue128 (hidx : ∀ i, (m (iLoc d) i).toNat ≤ 3) (B : Memref sig .scVector .vmem S128x128 .f32) (hB : B.IsWhole) (off : Fin 1 → Nat) (inb : ∀ a, off a + S128.size a ≤ S10000.size a) (sem : DmaSem sig)
    {hp : (thrV d L).2.kind = .scVector} {hn : S128.numel = S128x128.size gathers_S4x128_S128x128.axis'} {hsrc : (shSl).view.WordExact} {he : EltTy.f32.bits = 32}
    {hsp : Space.shared = .hbm ∨ Space.shared = .shared} {hr : S4x128.StreamRows 0}
    {α : Type} (k : PUnit → Prog (TpuEff nD τ sig (Elt F) Λ₀ (.scVector (cV L) (jV L))) α) (Q : α → sProp 𝕄) :
    iprop((∃ f, B.view.loc (thrV d L) ↦[B.view.set]{fullShare} f) ∗ xRes m d L ∗ shRes m d L ∗ semVal (thrV d L, SemLoc.dma sem) 0)
      ⊢ iprop((Transfers.Flight countersEmb (thrV d L) (SemLoc.dma sem) (default : HIx 1) 524288 (gatherD m d L B (off 0)) -∗ wp frame (wpE (defs₀ (F := F)) 𝒱₀ (thrV d L) none) Set.univ (k ⟨⟩) Q)
          -∗ wp frame (wpE (defs₀ (F := F)) 𝒱₀ (thrV d L) none) Set.univ (SparseCore.enqueueIndirectGather hp (shSl) B gathers_S4x128_S128x128 (xSl off inb) hn sem hsrc he hsp hr >>= k) Q) := by
  have hin := offs_inb128 m d L hidx (idxT m d L) off inb
  have hss : (shSl).view.set = Finset.univ := by
    show ((View.whole Cert.Kernel.cc0_scratch4).slice (Rect.unit (s := S4x128) ![0, 0] S4x128.size inb_S4x128_S4x128_0_0)).set = Finset.univ
    rw [View.set_slice_whole]
    exact Finset.eq_univ_of_forall fun y => View.mem_set_unit_zero (funext fun a => by fin_cases a <;> rfl) _ y
  have hsplit : ((xV).view.loc (thrV d L) ↦{fullShare} (View.write (Elt F) (xV).view (idxT m d L) (ReadAs.same.apply ((iSlK L).view.read (Elt F) (m (iLoc d)))) Finset.univ) : sProp 𝕄)
      ⊣⊢ iprop(((xV).view.loc (thrV d L) ↦[(xSl off inb).view.set]{fullShare} (View.write (Elt F) (xV).view (idxT m d L) (ReadAs.same.apply ((iSlK L).view.read (Elt F) (m (iLoc d)))) Finset.univ))
          ∗ (xV).view.loc (thrV d L) ↦[Finset.univ \ (xSl off inb).view.set]{fullShare} (View.write (Elt F) (xV).view (idxT m d L) (ReadAs.same.apply ((iSlK L).view.read (Elt F) (m (iLoc d)))) Finset.univ)) :=
    pointsTo_split_subset (Finset.subset_univ _)
  have hstg : ((xV).view.loc (thrV d L) ↦{fullShare} idxT m d L : sProp 𝕄)
      = (xV).view.loc (thrV d L) ↦{fullShare} (View.write (Elt F) (xV).view (idxT m d L) (ReadAs.same.apply ((iSlK L).view.read (Elt F) (m (iLoc d)))) Finset.univ) :=
    congrArg (fun g => ((xV).view.loc (thrV d L) ↦{fullShare} g : sProp 𝕄)) (idxT_eq_staged m d L)
  have hshs : ((shV).view.loc (thrV d L) ↦{Transfers.shareTokN fullShare (jV L).val} tabSh m d (cV L) : sProp 𝕄)
      = (shSl).view.loc (thrV d L) ↦[(shSl).view.set]{Transfers.shareTokN fullShare (jV L).val} tabSh m d (cV L) := by rw [hss]
  iintro ⟨⟨%f, HB⟩, Hx, Hsh, Hv⟩ Hk
  ihave Hx' := (Entails.of_eq hstg) $$ Hx
  ihave Hxs := hsplit.1 $$ Hx'
  icases Hxs with ⟨Hxs, Hxr⟩
  ihave Hsh' := (Entails.of_eq hshs) $$ Hsh
  iapply (SparseCore.wp_indirectGatherLocal countersEmb 𝒱₀ (thrV d L) none (hg := gathers_S4x128_S128x128) (default : HIx 1)
      524288 (credit128 B) (by decide) hin) $$ [Hsh' HB Hxs Hv]
  · isplitl [Hsh']; · iexact Hsh'
    isplitl [HB]; · iexact HB
    isplitl [Hxs]; · iexact Hxs
    iexact Hv
  iintro Hfl
  iapply Hk
  ihave Hfl2 := (Transfers.Flight_frame countersEmb (thrV d L)) $$ [Hxr Hfl]
  · isplitl [Hxr]; · iexact Hxr
    iexact Hfl
  iapply (Transfers.Flight_mono countersEmb (thrV d L) ?_) $$ Hfl2
  unfold gatherD
  iintro ⟨Hxr, HB, Hsh, Hxs⟩
  isplitl [HB]
  · iexists _
    isplitl [HB]; · iexact HB
    ipureintro
    intro r l h
    rw [View.read_write_univ]
    exact (gather_val128 m d L (idxT m d L) off inb hn hin r l (inb 0)).trans (by rfl)
  isplitl [Hxr Hxs]
  · ihave Hx := hsplit.2 $$ [Hxs Hxr]
    · isplitl [Hxs]; · iexact Hxs
      iexact Hxr
    iapply (Entails.of_eq hstg.symm) $$ Hx
  · iapply (Entails.of_eq hshs.symm) $$ Hsh

/-- The row transfers of a gather into a 16-row buffer credit its semaphore 65536 units in all. -/
theorem credit16 (B : Memref sig .scVector .vmem S16x128 .f32) :
    ∑ j, (B.slice (S16x128.rowRect gathers_S4x128_S16x128.axis' j) (S16x128.stride_rowRect gathers_S4x128_S16x128.axis' j)).view.dmaCredit = 65536 :=
  (by decide : ∀ b : Fin (sig.nBuf (Kind.scVector.table Space.vmem)),
    (∑ j : Fin (S16x128.size gathers_S4x128_S16x128.axis'), sig.dmaCredit Kind.scVector (Kind.scVector.table Space.vmem) b (S16x128.rowShape gathers_S4x128_S16x128.axis') EltTy.f32) = 65536) B.view.buf

/-- Issuing the gather of 16 rows through the tail of the staged list into row buffer `B`. -/
theorem gather_issue16 (hidx : ∀ i, (m (iLoc d) i).toNat ≤ 3) (B : Memref sig .scVector .vmem S16x128 .f32) (hB : B.IsWhole) (sem : DmaSem sig)
    {hp : (thrV d L).2.kind = .scVector} {hn : S16.numel = S16x128.size gathers_S4x128_S16x128.axis'} {hsrc : (shSl).view.WordExact} {he : EltTy.f32.bits = 32}
    {hsp : Space.shared = .hbm ∨ Space.shared = .shared} {hr : S4x128.StreamRows 0}
    {α : Type} (k : PUnit → Prog (TpuEff nD τ sig (Elt F) Λ₀ (.scVector (cV L) (jV L))) α) (Q : α → sProp 𝕄) :
    iprop((∃ f, B.view.loc (thrV d L) ↦[B.view.set]{fullShare} f) ∗ xRes m d L ∗ shRes m d L ∗ semVal (thrV d L, SemLoc.dma sem) 0)
      ⊢ iprop((Transfers.Flight countersEmb (thrV d L) (SemLoc.dma sem) (default : HIx 1) 65536 (gatherD16 m d L B) -∗ wp frame (wpE (defs₀ (F := F)) 𝒱₀ (thrV d L) none) Set.univ (k ⟨⟩) Q)
          -∗ wp frame (wpE (defs₀ (F := F)) 𝒱₀ (thrV d L) none) Set.univ (SparseCore.enqueueIndirectGather hp (shSl) B gathers_S4x128_S16x128 (xSl16) hn sem hsrc he hsp hr >>= k) Q) := by
  have hin := offs_inb16 m d L hidx (idxT m d L)
  have hss : (shSl).view.set = Finset.univ := by
    show ((View.whole Cert.Kernel.cc0_scratch4).slice (Rect.unit (s := S4x128) ![0, 0] S4x128.size inb_S4x128_S4x128_0_0)).set = Finset.univ
    rw [View.set_slice_whole]
    exact Finset.eq_univ_of_forall fun y => View.mem_set_unit_zero (funext fun a => by fin_cases a <;> rfl) _ y
  have hsplit : ((xV).view.loc (thrV d L) ↦{fullShare} (View.write (Elt F) (xV).view (idxT m d L) (ReadAs.same.apply ((iSlK L).view.read (Elt F) (m (iLoc d)))) Finset.univ) : sProp 𝕄)
      ⊣⊢ iprop(((xV).view.loc (thrV d L) ↦[(xSl16).view.set]{fullShare} (View.write (Elt F) (xV).view (idxT m d L) (ReadAs.same.apply ((iSlK L).view.read (Elt F) (m (iLoc d)))) Finset.univ))
          ∗ (xV).view.loc (thrV d L) ↦[Finset.univ \ (xSl16).view.set]{fullShare} (View.write (Elt F) (xV).view (idxT m d L) (ReadAs.same.apply ((iSlK L).view.read (Elt F) (m (iLoc d)))) Finset.univ)) :=
    pointsTo_split_subset (Finset.subset_univ _)
  have hstg : ((xV).view.loc (thrV d L) ↦{fullShare} idxT m d L : sProp 𝕄)
      = (xV).view.loc (thrV d L) ↦{fullShare} (View.write (Elt F) (xV).view (idxT m d L) (ReadAs.same.apply ((iSlK L).view.read (Elt F) (m (iLoc d)))) Finset.univ) :=
    congrArg (fun g => ((xV).view.loc (thrV d L) ↦{fullShare} g : sProp 𝕄)) (idxT_eq_staged m d L)
  have hshs : ((shV).view.loc (thrV d L) ↦{Transfers.shareTokN fullShare (jV L).val} tabSh m d (cV L) : sProp 𝕄)
      = (shSl).view.loc (thrV d L) ↦[(shSl).view.set]{Transfers.shareTokN fullShare (jV L).val} tabSh m d (cV L) := by rw [hss]
  iintro ⟨⟨%f, HB⟩, Hx, Hsh, Hv⟩ Hk
  ihave Hx' := (Entails.of_eq hstg) $$ Hx
  ihave Hxs := hsplit.1 $$ Hx'
  icases Hxs with ⟨Hxs, Hxr⟩
  ihave Hsh' := (Entails.of_eq hshs) $$ Hsh
  iapply (SparseCore.wp_indirectGatherLocal countersEmb 𝒱₀ (thrV d L) none (hg := gathers_S4x128_S16x128) (default : HIx 1)
      65536 (credit16 B) (by decide) hin) $$ [Hsh' HB Hxs Hv]
  · isplitl [Hsh']; · iexact Hsh'
    isplitl [HB]; · iexact HB
    isplitl [Hxs]; · iexact Hxs
    iexact Hv
  iintro Hfl
  iapply Hk
  ihave Hfl2 := (Transfers.Flight_frame countersEmb (thrV d L)) $$ [Hxr Hfl]
  · isplitl [Hxr]; · iexact Hxr
    iexact Hfl
  iapply (Transfers.Flight_mono countersEmb (thrV d L) ?_) $$ Hfl2
  unfold gatherD16
  iintro ⟨Hxr, HB, Hsh, Hxs⟩
  isplitl [HB]
  · iexists _
    isplitl [HB]; · iexact HB
    ipureintro
    intro r l h
    rw [View.read_write_univ]
    exact (gather_val16 m d L (idxT m d L) hn hin r l).trans (by rfl)
  isplitl [Hxr Hxs]
  · ihave Hx := hsplit.2 $$ [Hxs Hxr]
    · isplitl [Hxs]; · iexact Hxs
      iexact Hxr
    iapply (Entails.of_eq hstg.symm) $$ Hx
  · iapply (Entails.of_eq hshs.symm) $$ Hsh

end Cert.Kernel.Hand

end
-- ==== Proof.KTileCopy.lean ====
/-
  A tile's copies of a row buffer out to its rows of the edge result: the row intervals of the result as element sets,
  and the issue of such a copy with its delivery stated over those sets.
-/
import proofs.«205308_g19069654794752_retrytranche2_377_14_alg».proof.Proof.KTileDefs
import proofs.«205308_g19069654794752_retrytranche2_377_14_alg».proof.Proof.KDeal

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.Kernel.main_arg1_scv : Memref Cert.Kernel.sig Kind.scVector Space.hbm Cert.Kernel.S320000 EltTy.i32)
local notation "tV" => (Memref.whole Cert.Kernel.main_arg3_scv : Memref Cert.Kernel.sig Kind.scVector Space.hbm Cert.Kernel.S4x128 EltTy.f32)
local notation "oV" => (Memref.whole Cert.Kernel.main_v0_scv : Memref Cert.Kernel.sig Kind.scVector Space.hbm Cert.Kernel.S320000x128 EltTy.f32)
local notation "xV" => (Memref.whole Cert.Kernel.cc0_scratch0 : Memref Cert.Kernel.sig Kind.scVector Space.vmem Cert.Kernel.S10000 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "tbV" => (Memref.whole Cert.Kernel.cc0_scratch3 : Memref Cert.Kernel.sig Kind.scVector Space.vmem Cert.Kernel.S16x128 EltTy.f32)
local notation "shV" => (Memref.whole Cert.Kernel.cc0_scratch4 : Memref Cert.Kernel.sig Kind.scVector Space.shared Cert.Kernel.S4x128 EltTy.f32)

section Tile

variable (d : Dev nD) (L : grid0.Coords)

/-! ## Row intervals of the result -/

omit [FloatOps F] in
/-- A slice of the whole result has the rectangle's elements. -/
theorem set_oSlice (r : Rect S320000x128) : ((oV).view.slice r).set = r.set := by
  show ((View.whole (main_v0_scv : Ref sig .scVector)).slice r).set = _
  rw [View.set_slice]; exact Finset.map_refl

omit [FloatOps F] in
/-- A unit rectangle of `n` whole rows from row `a` is the row interval `[a, a + n)`. -/
theorem set_unit_rows (a n : ℕ) (inb : ∀ ax, (![a, 0] : Fin 2 → ℕ) ax + (![n, 128] : Fin 2 → ℕ) ax ≤ S320000x128.size ax) :
    (Rect.unit (s := S320000x128) ![a, 0] ![n, 128] inb).set = rowsBetween a (a + n) := by
  ext j
  rw [Rect.mem_set_unit, mem_rowsBetween, Fin.forall_fin_two]
  have h1 : (j 1).val < 128 := (j 1).isLt
  show (a ≤ (j 0).val ∧ (j 0).val < a + n) ∧ (0 ≤ (j 1).val ∧ (j 1).val < 0 + 128) ↔ _
  omega

omit [FloatOps F] in
/-- A window of 128 rows of the result at rows `a …` is the row interval `[a, a + 128)`. -/
theorem set_oSl (off : Fin 2 → Nat) (inb : ∀ a, off a + S128x128.size a ≤ S320000x128.size a) (a : ℕ) (h : off = ![a, 0]) :
    (oSl off inb).view.set = rowsBetween a (a + 128) := by
  subst h
  show ((oV).view.slice (Rect.unit (s := S320000x128) ![a, 0] S128x128.size inb)).set = _
  rw [set_oSlice]
  exact set_unit_rows a 128 inb

omit [FloatOps F] in
/-- A window of 16 rows of the result at rows `a …` is the row interval `[a, a + 16)`. -/
theorem set_oSl16 (off : Fin 2 → Nat) (inb : ∀ a, off a + S16x128.size a ≤ S320000x128.size a) (a : ℕ) (h : off = ![a, 0]) :
    (oSl16 off inb).view.set = rowsBetween a (a + 16) := by
  subst h
  show ((oV).view.slice (Rect.unit (s := S320000x128) ![a, 0] S16x128.size inb)).set = _
  rw [set_oSlice]
  exact set_unit_rows a 16 inb

omit [FloatOps F] in
/-- The tile's rows of the result are the row interval of ten thousand rows from its first. -/
theorem oRowSet_eq_rows : oRowSet (wL L) = rowsBetween (baseL L) (baseL L + 10000) := by
  ext j
  rw [oRowSet_eq, Rect.mem_set_unit, mem_rowsBetween, Fin.forall_fin_two]
  have h1 : (j 1).val < 128 := (j 1).isLt
  show ((wL L).val * (320000 / 32) ≤ (j 0).val ∧ (j 0).val < (wL L).val * (320000 / 32) + 320000 / 32)
    ∧ (0 * 128 ≤ (j 1).val ∧ (j 1).val < 0 * 128 + 128) ↔ 10000 * (wL L).val ≤ (j 0).val ∧ (j 0).val < 10000 * (wL L).val + 10000
  omega

omit [FloatOps F] in
/-- A row interval held whole is its two parts at an inner row. -/
theorem rows_split {a b c : ℕ} (hab : a ≤ b) (hbc : b ≤ c) (f : Buf (Elt F) (oLoc d)) :
    ((oV).view.loc (thrV d L) ↦[rowsBetween a c]{fullShare} f : sProp 𝕄)
      ⊣⊢ iprop(((oV).view.loc (thrV d L) ↦[rowsBetween a b]{fullShare} f) ∗ (oV).view.loc (thrV d L) ↦[rowsBetween b c]{fullShare} f) := by
  have hu : rowsBetween a c = rowsBetween a b ∪ rowsBetween b c := by
    ext j; simp only [Finset.mem_union, mem_rowsBetween]; omega
  have hd : Disjoint (rowsBetween a b) (rowsBetween b c) :=
    Finset.disjoint_left.mpr fun j h1 h2 => by rw [mem_rowsBetween] at h1 h2; omega
  rw [hu]
  exact pointsTo_union hd

omit [FloatOps F] in
/-- An empty row interval holds nothing. -/
theorem rows_empty (a : ℕ) (f : Buf (Elt F) (oLoc d)) :
    ((oV).view.loc (thrV d L) ↦[rowsBetween a a]{fullShare} f : sProp 𝕄) ⊣⊢ iprop(emp) := by
  have he : rowsBetween a a = ∅ := by
    ext j; simp only [mem_rowsBetween, Finset.notMem_empty, iff_false]; omega
  rw [he]
  exact ⟨Entails.of_eq pointsTo_empty, Entails.of_eq pointsTo_empty.symm⟩

/-! ## Issuing a copy of a row buffer out to a window of the result -/

/-- Where row `r` of a window of whole rows from row `a` lies in the result. -/
theorem emb_unit_rows (a n : ℕ) (inb : ∀ ax, (![a, 0] : Fin 2 → ℕ) ax + (![n, 128] : Fin 2 → ℕ) ax ≤ S320000x128.size ax)
    (y : (⟨2, ![n, 128]⟩ : Shape).Idx) (h : a + (y 0).val < 320000) :
    (Rect.unit (s := S320000x128) ![a, 0] ![n, 128] inb).emb y = ValueIdx.ix2 (⟨a + (y 0).val, h⟩ : Fin 320000) (y 1) := by
  funext ax
  refine Fin.ext ?_
  rw [Rect.emb_apply]
  match ax with
  | ⟨0, _⟩ => show a + 1 * (y 0).val = a + (y 0).val; omega
  | ⟨1, _⟩ => show 0 + 1 * (y 1).val = (y 1).val; omega

/-- A copy of a 128-row buffer holding the lookup's rows `[base + o, base + o + 128)` out to those rows of the result,
    on a semaphore held at zero: the tile goes on holding the copy's flight, which delivers those rows at the lookup and
    the buffer back. -/
theorem copy_issue128 (B : Memref sig .scVector .vmem S128x128 .f32) (hB : B.IsWhole) (o : ℕ) (ho : o + 128 ≤ 10000)
    (off : Fin 2 → Nat) (inb : ∀ a, off a + S128x128.size a ≤ S320000x128.size a) (hoff : off = ![baseL L + o, 0]) (sem : DmaSem sig)
    {h1 : B.view.WordExact} {h2 : (DmaTarget.here (nD := nD) (τ := τ) (p := .scVector (cV L) (jV L)) (oSl off inb)).view.WordExact}
    {h3 : (DmaTarget.here (nD := nD) (τ := τ) (p := .scVector (cV L) (jV L)) (oSl off inb)).Typed .vmem (.dma sem)}
    (f : Buf (Elt F) (B.view.loc (thrV d L))) (hf : rowsOK128 m d L B o f) (g : Buf (Elt F) (oLoc d)) {α : Type}
    (k : PUnit → Prog (TpuEff nD τ sig (Elt F) Λ₀ (.scVector (cV L) (jV L))) α) (Q : α → sProp 𝕄) :
    iprop((B.view.loc (thrV d L) ↦[B.view.set]{fullShare} f)
        ∗ ((oV).view.loc (thrV d L) ↦[rowsBetween (baseL L + o) (baseL L + o + 128)]{fullShare} g) ∗ semVal (thrV d L, SemLoc.dma sem) 0)
      ⊢ iprop((Transfers.Flight countersEmb (thrV d L) (SemLoc.dma sem) (default : HIx 1) 524288
              (copyD m d L B (rowsBetween (baseL L + o) (baseL L + o + 128)))
            -∗ wp frame (wpE (defs₀ (F := F)) 𝒱₀ (thrV d L) none) Set.univ (k ⟨⟩) Q)
          -∗ wp frame (wpE (defs₀ (F := F)) 𝒱₀ (thrV d L) none) Set.univ (.op (.enqueueDma B (.here (oSl off inb)) (.dma sem) h1 h2 h3) k) Q) := by
  subst hoff
  have hset := set_oSl (![baseL L + o, 0]) inb (baseL L + o) rfl
  have hSd : (oSl (![baseL L + o, 0]) inb).view.set ⊆ rowsBetween (baseL L + o) (baseL L + o + 128) := by rw [hset]
  have hcongr : ∀ i ∈ rowsBetween (baseL L + o) (baseL L + o + 128),
      (oSl (![baseL L + o, 0]) inb).view.write (Elt F) g (ReadAs.same.apply (B.view.read (Elt F) f)) Finset.univ i = edgeOut m d i := by
    intro i hi
    rw [← hset] at hi
    obtain ⟨y, -, rfl⟩ := Finset.mem_map.mp hi
    have hy0 : (y 0).val < 128 := (y 0).isLt
    have hb : baseL L + o + (y 0).val < 320000 := by
      have hw : (wL L).val < 32 := (wL L).isLt
      show 10000 * (wL L).val + o + (y 0).val < 320000
      omega
    refine (View.write_emb_of_mem (v := (oSl (![baseL L + o, 0]) inb).view) g _ (Finset.mem_univ y)).trans ?_
    have he : (oSl (![baseL L + o, 0]) inb).view.emb y = ValueIdx.ix2 (⟨baseL L + o + (y 0).val, hb⟩ : Fin 320000) (y 1) :=
      emb_unit_rows (baseL L + o) 128 inb y hb
    rw [he]
    exact (congrArg (View.read (Elt F) B.view f) (ValueIdx.eq_ix2 y)).trans (hf (y 0) (y 1) hb)
  iintro ⟨HB, Ho, Hsem⟩ Hk
  iapply (Transfers.wp_dmaLocal countersEmb 𝒱₀ (thrV d L) none (src := B) (via := ReadAs.same) (dst := oSl (![baseL L + o, 0]) inb)
      (sm := SemLoc.dma sem) (q := fullShare) (fs := f) (Sd := rowsBetween (baseL L + o) (baseL L + o + 128)) (fd := g)
      (default : HIx 1) 524288 rfl (by decide) hSd) $$ [HB Ho Hsem]
  · isplitl [HB]; · iexact HB
    isplitl [Ho]; · iexact Ho
    iexact Hsem
  iintro Hfl
  iapply Hk
  iapply (Transfers.Flight_mono countersEmb (thrV d L) ?_) $$ Hfl
  rw [pointsTo_congr hcongr]
  unfold copyD
  iintro ⟨Ho, HB⟩
  isplitl [Ho]; · iexact Ho
  iexists f; iexact HB

/-- The same for the 16-row tail buffer, out to the tile's last sixteen rows. -/
theorem copy_issue16 (B : Memref sig .scVector .vmem S16x128 .f32) (hB : B.IsWhole)
    (off : Fin 2 → Nat) (inb : ∀ a, off a + S16x128.size a ≤ S320000x128.size a) (hoff : off = ![baseL L + 9984, 0]) (sem : DmaSem sig)
    {h1 : B.view.WordExact} {h2 : (DmaTarget.here (nD := nD) (τ := τ) (p := .scVector (cV L) (jV L)) (oSl16 off inb)).view.WordExact}
    {h3 : (DmaTarget.here (nD := nD) (τ := τ) (p := .scVector (cV L) (jV L)) (oSl16 off inb)).Typed .vmem (.dma sem)}
    (f : Buf (Elt F) (B.view.loc (thrV d L))) (hf : rowsOK16 m d L B f) (g : Buf (Elt F) (oLoc d)) {α : Type}
    (k : PUnit → Prog (TpuEff nD τ sig (Elt F) Λ₀ (.scVector (cV L) (jV L))) α) (Q : α → sProp 𝕄) :
    iprop((B.view.loc (thrV d L) ↦[B.view.set]{fullShare} f)
        ∗ ((oV).view.loc (thrV d L) ↦[rowsBetween (baseL L + 9984) (baseL L + 10000)]{fullShare} g) ∗ semVal (thrV d L, SemLoc.dma sem) 0)
      ⊢ iprop((Transfers.Flight countersEmb (thrV d L) (SemLoc.dma sem) (default : HIx 1) 65536
              (copyD m d L B (rowsBetween (baseL L + 9984) (baseL L + 10000)))
            -∗ wp frame (wpE (defs₀ (F := F)) 𝒱₀ (thrV d L) none) Set.univ (k ⟨⟩) Q)
          -∗ wp frame (wpE (defs₀ (F := F)) 𝒱₀ (thrV d L) none) Set.univ (.op (.enqueueDma B (.here (oSl16 off inb)) (.dma sem) h1 h2 h3) k) Q) := by
  subst hoff
  have hset : (oSl16 (![baseL L + 9984, 0]) inb).view.set = rowsBetween (baseL L + 9984) (baseL L + 10000) :=
    (set_oSl16 (![baseL L + 9984, 0]) inb (baseL L + 9984) rfl).trans (by rw [show baseL L + 9984 + 16 = baseL L + 10000 by omega])
  have hSd : (oSl16 (![baseL L + 9984, 0]) inb).view.set ⊆ rowsBetween (baseL L + 9984) (baseL L + 10000) := by rw [hset]
  have hcongr : ∀ i ∈ rowsBetween (baseL L + 9984) (baseL L + 10000),
      (oSl16 (![baseL L + 9984, 0]) inb).view.write (Elt F) g (ReadAs.same.apply (B.view.read (Elt F) f)) Finset.univ i = edgeOut m d i := by
    intro i hi
    rw [← hset] at hi
    obtain ⟨y, -, rfl⟩ := Finset.mem_map.mp hi
    have hy0 : (y 0).val < 16 := (y 0).isLt
    have hb : baseL L + 9984 + (y 0).val < 320000 := by
      have hw : (wL L).val < 32 := (wL L).isLt
      show 10000 * (wL L).val + 9984 + (y 0).val < 320000
      omega
    refine (View.write_emb_of_mem (v := (oSl16 (![baseL L + 9984, 0]) inb).view) g _ (Finset.mem_univ y)).trans ?_
    have he : (oSl16 (![baseL L + 9984, 0]) inb).view.emb y = ValueIdx.ix2 (⟨baseL L + 9984 + (y 0).val, hb⟩ : Fin 320000) (y 1) :=
      emb_unit_rows (baseL L + 9984) 16 inb y hb
    rw [he]
    exact (congrArg (View.read (Elt F) B.view f) (ValueIdx.eq_ix2 y)).trans (hf (y 0) (y 1) hb)
  iintro ⟨HB, Ho, Hsem⟩ Hk
  iapply (Transfers.wp_dmaLocal countersEmb 𝒱₀ (thrV d L) none (src := B) (via := ReadAs.same) (dst := oSl16 (![baseL L + 9984, 0]) inb)
      (sm := SemLoc.dma sem) (q := fullShare) (fs := f) (Sd := rowsBetween (baseL L + 9984) (baseL L + 10000)) (fd := g)
      (default : HIx 1) 65536 rfl (by decide) hSd) $$ [HB Ho Hsem]
  · isplitl [HB]; · iexact HB
    isplitl [Ho]; · iexact Ho
    iexact Hsem
  iintro Hfl
  iapply Hk
  iapply (Transfers.Flight_mono countersEmb (thrV d L) ?_) $$ Hfl
  rw [pointsTo_congr hcongr]
  unfold copyD
  iintro ⟨Ho, HB⟩
  isplitl [Ho]; · iexact Ho
  iexists f; iexact HB

/-! ## The printed offsets of the copies, from the tile's first row -/

omit [FloatOps F] in
/-- The even buffer's window in round `k`: rows `base + 256 k …`. -/
theorem off2_site (k : Fin k0_t1_loop.trips) : k0_off2 L k = ![baseL L + 256 * k.val, 0] := by
  rw [k0_off2_eq]
  have h : 20000 * (L 1).val + 10000 * (L 0).val + 256 * k.val = baseL L + 256 * k.val := by
    show _ = 10000 * (2 * (L 1).val + (L 0).val) + 256 * k.val; omega
  rw [h]
omit [FloatOps F] in
/-- The odd buffer's window in round `k`: rows `base + 256 k + 128 …`. -/
theorem off5_site (k : Fin k0_t1_loop.trips) : k0_off5 L k = ![baseL L + (256 * k.val + 128), 0] := by
  rw [k0_off5_eq]
  have h : 20000 * (L 1).val + 10000 * (L 0).val + 256 * k.val + 128 = baseL L + (256 * k.val + 128) := by
    show _ = 10000 * (2 * (L 1).val + (L 0).val) + (256 * k.val + 128); omega
  rw [h]
omit [FloatOps F] in
/-- The tail buffer's window: rows `base + 9984 …`. -/
theorem off8_site : k0_off8 L = ![baseL L + 9984, 0] := by
  rw [k0_off8_eq]
  have h : 20000 * (L 1).val + 10000 * (L 0).val + 9984 = baseL L + 9984 := by
    show _ = 10000 * (2 * (L 1).val + (L 0).val) + 9984; omega
  rw [h]

end Tile
end Cert.Kernel.Hand
end
-- ==== Proof.KTileTrip.lean ====
import proofs.«205308_g19069654794752_retrytranche2_377_14_alg».proof.Proof.KTileSteps
import proofs.«205308_g19069654794752_retrytranche2_377_14_alg».proof.Proof.KTileGather
import proofs.«205308_g19069654794752_retrytranche2_377_14_alg».proof.Proof.KTileCopy

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.Kernel.main_arg1_scv : Memref Cert.Kernel.sig Kind.scVector Space.hbm Cert.Kernel.S320000 EltTy.i32)
local notation "tV" => (Memref.whole Cert.Kernel.main_arg3_scv : Memref Cert.Kernel.sig Kind.scVector Space.hbm Cert.Kernel.S4x128 EltTy.f32)
local notation "oV" => (Memref.whole Cert.Kernel.main_v0_scv : Memref Cert.Kernel.sig Kind.scVector Space.hbm Cert.Kernel.S320000x128 EltTy.f32)
local notation "xV" => (Memref.whole Cert.Kernel.cc0_scratch0 : Memref Cert.Kernel.sig Kind.scVector Space.vmem Cert.Kernel.S10000 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "tbV" => (Memref.whole Cert.Kernel.cc0_scratch3 : Memref Cert.Kernel.sig Kind.scVector Space.vmem Cert.Kernel.S16x128 EltTy.f32)
local notation "shV" => (Memref.whole Cert.Kernel.cc0_scratch4 : Memref Cert.Kernel.sig Kind.scVector Space.shared Cert.Kernel.S4x128 EltTy.f32)

section Tile

variable (d : Dev nD) (L : grid0.Coords)

omit [FloatOps F] in
theorem pts_whole_set {sp : Space} {s : Shape} {e : EltTy} (b : Ref sig .scVector) (hb : b.space = sp) : True := trivial

omit [FloatOps F] in
/-- A buffer written whole holds what was written. -/
theorem pts_written_xV (fx w : Buf (Elt F) ((thrV d L).loc cc0_scratch0)) :
    ((xV).view.loc (thrV d L) ↦{fullShare} View.write (Elt F) (xV).view fx w Finset.univ : sProp 𝕄) = (xV).view.loc (thrV d L) ↦{fullShare} w := by
  rw [show View.write (Elt F) (xV).view fx w Finset.univ = w from View.write_whole_univ cc0_scratch0 fx w]
omit [FloatOps F] in
theorem set_b0V : (b0V).view.set = Finset.univ := View.set_whole _
omit [FloatOps F] in
theorem set_b1V : (b1V).view.set = Finset.univ := View.set_whole _
omit [FloatOps F] in
theorem set_tbV : (tbV).view.set = Finset.univ := View.set_whole _

/-- The tile's cells the loop touches. -/
abbrev sG0 : DmaSem sig := cc0_scratch5.sem
abbrev sG1 : DmaSem sig := cc0_scratch6.sem
abbrev sS0 : DmaSem sig := cc0_scratch7.sem
abbrev sS1 : DmaSem sig := cc0_scratch8.sem

/-- Before trip `k` of the loop (chunks `2k` and `2k+1`): the gather of chunk `2k` into the first row buffer is in flight
    (after the last trip: nothing, the buffer, the list and the table token held); for `k > 0` the copy of chunk `2k-1` out of the
    second row buffer is in flight (at `k = 0` that buffer is held); the result's rows before the chunk in flight are the lookup; the
    rows from chunk `2k` on are at some contents; the other two cells are at zero. -/
def loopInv (O : CellTallies nD τ sig (HIx 1)) (W : Waits sig (HIx 1)) (k : ℕ) (_ : BitVec 32) : sProp 𝕄 :=
  iprop(Transfers.MayWaits (thrV d L) (default : HIx 1) O
    ∗ (if k < 39 then Transfers.Flight countersEmb (thrV d L) (SemLoc.dma sG0) (default : HIx 1) 524288 (gatherD m d L b0V (256 * k))
        else iprop((∃ f, (b0V).view.loc (thrV d L) ↦[(b0V).view.set]{fullShare} f) ∗ xRes m d L ∗ shRes m d L ∗ semVal (thrV d L, SemLoc.dma sG0) 0))
    ∗ (if k = 0 then iprop((∃ f, (b1V).view.loc (thrV d L) ↦[(b1V).view.set]{fullShare} f) ∗ semVal (thrV d L, SemLoc.dma sS1) 0)
        else Transfers.Flight countersEmb (thrV d L) (SemLoc.dma sS1) (default : HIx 1) 524288
          (copyD m d L b1V (rowsBetween (baseL L + 256 * k - 128) (baseL L + 256 * k))))
    ∗ ((oV).view.loc (thrV d L) ↦[rowsBetween (baseL L) (baseL L + 256 * k - (if k = 0 then 0 else 128))]{fullShare} edgeOut m d)
    ∗ (∃ fo, (oV).view.loc (thrV d L) ↦[rowsBetween (baseL L + 256 * k) (baseL L + 10000)]{fullShare} fo)
    ∗ semVal (thrV d L, SemLoc.dma sG1) 0 ∗ semVal (thrV d L, SemLoc.dma sS0) 0
    ∗ ∃ W', ⌜∀ p ∈ W', p ∈ W ∨ p.2 = none⌝ ∗ owes (thrV d L) O W')

omit [FloatOps F] in
theorem cond2_pos (k : Fin k0_t1_loop.trips) (h : k.val ≠ 0) : k0_cond2 k = 1#1 := by revert k; decide +kernel
omit [FloatOps F] in
theorem cond2_neg (k : Fin k0_t1_loop.trips) (h : k.val = 0) : ¬ k0_cond2 k = 1#1 := by revert k; decide +kernel
omit [FloatOps F] in
theorem cond3_pos (k : Fin k0_t1_loop.trips) (h : k.val < 38) : k0_cond3 k = 1#1 := by revert k; decide +kernel
omit [FloatOps F] in
theorem cond3_neg (k : Fin k0_t1_loop.trips) (h : ¬ k.val < 38) : ¬ k0_cond3 k = 1#1 := by revert k; decide +kernel
omit [FloatOps F] in
theorem off4_zero (k : Fin k0_t1_loop.trips) : k0_off4 k 0 = 256 * k.val + 128 := by rw [k0_off4_eq]; rfl
omit [FloatOps F] in
theorem off7_zero (k : Fin k0_t1_loop.trips) : k0_off7 k 0 = 256 * (k.val + 1) := by rw [k0_off7_eq]; show 256 * k.val + 256 = _; omega

theorem gatherD_def (B : Memref sig .scVector .vmem S128x128 .f32) (o : ℕ) :
    gatherD m d L B o = iprop((∃ f, (B.view.loc (thrV d L) ↦[B.view.set]{fullShare} f) ∗ ⌜rowsOK128 m d L B o f⌝) ∗ xRes m d L ∗ shRes m d L) := rfl
theorem copyD_def {s : Shape} (B : Memref sig .scVector .vmem s .f32) (S : Finset S320000x128.Idx) :
    copyD m d L B S = iprop(((oV).view.loc (thrV d L) ↦[S]{fullShare} edgeOut m d) ∗ ∃ f, B.view.loc (thrV d L) ↦[B.view.set]{fullShare} f) := rfl

set_option maxHeartbeats 4000000 in
theorem trip_first (hidx : ∀ i, (m (iLoc d) i).toNat ≤ 3) (O : CellTallies nD τ sig (HIx 1)) (W : Waits sig (HIx 1)) (v5 : BitVec 32)
    (k : Fin k0_t1_loop.trips) (acc : BitVec 32) (hk0 : k.val = 0) :
    loopInv m d L O W k.val acc
      ⊢ wp frame (wpE (defs₀ (F := F)) 𝒱₀ (thrV d L) none) Set.univ
          (k0_t1_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2 v5 k acc)
          (fun x => loopInv m d L O W (k.val + 1) x) := by
  have hk38 : k.val < 38 := by omega
  have hk39 : k.val < 39 := Nat.lt_of_lt_of_eq k.isLt trips_eq
  have k0_h2 : ¬ k0_cond2 k = 1#1 := cond2_neg k hk0
  have k0_h3 : k0_cond3 k = 1#1 := cond3_pos k hk38
  unfold loopInv
  rw [if_pos hk39, if_pos hk0, if_pos hk0]
  unfold k0_t1_body
  rw [k0_part1_eq_skeleton]; unfold k0_part1_skel
  iintro ⟨#Hmw, Hg, ⟨⟨%fb1, Hb1⟩, Hs1⟩, Hdone, ⟨%fo, Htodo⟩, Hg1, Hs0, %W', %hW', HO⟩
  ihave Hdone := (Entails.of_eq (congrArg (fun b => ((oV).view.loc (thrV d L) ↦[rowsBetween (baseL L) b]{fullShare} edgeOut m d : sProp 𝕄))
      (show baseL L + 256 * k.val - 0 = baseL L + 256 * k.val by omega))) $$ Hdone
  -- a. the gather of chunk 2k lands in the first buffer
  sl_exec
  iapply (wait_step (F := F) d L sG0 524288 rfl (gatherD m d L b0V (256 * k.val)) O W') $$ [Hg HO]
  · isplitr; · iexact Hmw
    isplitl [Hg]; · iexact Hg
    iexact HO
  iintro ⟨Hgd, Hg0, HO⟩
  ihave Hgd' := (Entails.of_eq (gatherD_def (F := F) m d L _ _)) $$ Hgd
  icases Hgd' with ⟨⟨%fb0, Hb0, %hb0⟩, Hx, Hsh⟩
  -- b. the copy of chunk 2k out of the first buffer starts
  sl_exec
  ihave Hsp := (rows_split (F := F) d L (a := baseL L + 256 * k.val) (b := baseL L + 256 * k.val + 128) (c := baseL L + 10000) (by omega) (by omega) fo).1 $$ Htodo
  icases Hsp with ⟨Hwin, Htodo⟩
  iapply (copy_issue128 (F := F) m d L b0V (Memref.isWhole_whole _) (256 * k.val) (by omega) (k0_off2 L k) (k0_off2_inb L k) (off2_base L k) sS0 fb0 hb0 fo) $$ [Hb0 Hwin Hs0]
  · isplitl [Hb0]; · iexact Hb0
    isplitl [Hwin]; · iexact Hwin
    iexact Hs0
  iintro Hfs0
  -- c. at the first trip no copy is in flight: the second buffer is at hand
  -- d. the gather of chunk 2k+1 into the second buffer starts
  sl_exec
  iapply (gather_issue128 (F := F) m d L hidx b1V (Memref.isWhole_whole _) (k0_off4 k) (k0_off4_inb k) sG1) $$ [Hb1 Hx Hsh Hg1]
  · isplitl [Hb1]; · iexists fb1; iexact Hb1
    isplitl [Hx]; · iexact Hx
    isplitl [Hsh]; · iexact Hsh
    iexact Hg1
  iintro Hfg1
  -- e. and lands
  sl_exec
  iapply (wait_step (F := F) d L sG1 524288 rfl (gatherD m d L b1V (k0_off4 k 0)) O _) $$ [Hfg1 HO]
  · isplitr; · iexact Hmw
    isplitl [Hfg1]; · iexact Hfg1
    iexact HO
  iintro ⟨Hgd, Hg1, HO⟩
  ihave Hgd' := (Entails.of_eq (gatherD_def (F := F) m d L _ _)) $$ Hgd
  icases Hgd' with ⟨⟨%fb1', Hb1, %hb1⟩, Hx, Hsh⟩
  have hb1' : rowsOK128 m d L b1V (256 * k.val + 128) fb1' := off4_zero k ▸ hb1
  -- f. the copy of chunk 2k+1 out of the second buffer starts
  sl_exec
  ihave Hsp := (rows_split (F := F) d L (a := baseL L + (256 * k.val + 128)) (b := baseL L + (256 * k.val + 128) + 128) (c := baseL L + 10000) (by omega) (by omega) fo).1 $$ [Htodo]
  · iapply (Entails.of_eq (show ((oV).view.loc (thrV d L) ↦[rowsBetween (baseL L + 256 * k.val + 128) (baseL L + 10000)]{fullShare} fo : sProp 𝕄)
        = (oV).view.loc (thrV d L) ↦[rowsBetween (baseL L + (256 * k.val + 128)) (baseL L + 10000)]{fullShare} fo by rw [Nat.add_assoc]))
    iexact Htodo
  icases Hsp with ⟨Hwin, Htodo⟩
  iapply (copy_issue128 (F := F) m d L b1V (Memref.isWhole_whole _) (256 * k.val + 128) (by omega) (k0_off5 L k) (k0_off5_inb L k) (off5_base L k) sS1 fb1' hb1' fo) $$ [Hb1 Hwin Hs1]
  · isplitl [Hb1]; · iexact Hb1
    isplitl [Hwin]; · iexact Hwin
    iexact Hs1
  iintro Hfs1
  -- g. the copy of chunk 2k out of the first buffer has landed
  sl_exec
  iapply (wait_step (F := F) d L sS0 524288 rfl (copyD m d L b0V (rowsBetween (baseL L + 256 * k.val) (baseL L + 256 * k.val + 128))) O _) $$ [Hfs0 HO]
  · isplitr; · iexact Hmw
    isplitl [Hfs0]; · iexact Hfs0
    iexact HO
  iintro ⟨Hcd, Hs0, HO⟩
  ihave Hcd' := (Entails.of_eq (copyD_def (F := F) m d L _ _)) $$ Hcd
  icases Hcd' with ⟨Hw0, %fb0', Hb0⟩
  ihave Hdone := (rows_split (F := F) d L (a := baseL L) (b := baseL L + 256 * k.val) (c := baseL L + 256 * k.val + 128) (by omega) (by omega) (edgeOut m d)).2 $$ [Hdone Hw0]
  · isplitl [Hdone]; · iexact Hdone
    iexact Hw0
  -- h. the gather of chunk 2k+2 into the first buffer starts
  sl_exec
  iapply (gather_issue128 (F := F) m d L hidx b0V (Memref.isWhole_whole _) (k0_off7 k) (k0_off7_inb k k0_h3) sG0) $$ [Hb0 Hx Hsh Hg0]
  · isplitl [Hb0]; · iexists fb0'; iexact Hb0
    isplitl [Hx]; · iexact Hx
    isplitl [Hsh]; · iexact Hsh
    iexact Hg0
  iintro Hfg0
  sl_exec
  sl_step
  rw [if_pos (show k.val + 1 < 39 by omega), if_neg (show k.val + 1 ≠ 0 by omega), if_neg (show k.val + 1 ≠ 0 by omega)]
  isplitr; · iexact Hmw
  isplitl [Hfg0]
  · iapply (Entails.of_eq (congrArg (fun o => (Transfers.Flight countersEmb (thrV d L) (SemLoc.dma sG0) (default : HIx 1) 524288 (gatherD m d L b0V o) : sProp 𝕄)) (off7_zero k)))
    iexact Hfg0
  isplitl [Hfs1]
  · iapply (Entails.of_eq (congrArg₂ (fun a b => (Transfers.Flight countersEmb (thrV d L) (SemLoc.dma sS1) (default : HIx 1) 524288 (copyD m d L b1V (rowsBetween a b)) : sProp 𝕄))
        (show baseL L + (256 * k.val + 128) = baseL L + 256 * (k.val + 1) - 128 by omega) (show baseL L + (256 * k.val + 128) + 128 = baseL L + 256 * (k.val + 1) by omega)))
    iexact Hfs1
  isplitl [Hdone]
  · iapply (Entails.of_eq (congrArg (fun b => ((oV).view.loc (thrV d L) ↦[rowsBetween (baseL L) b]{fullShare} edgeOut m d : sProp 𝕄))
        (show baseL L + 256 * k.val + 128 = baseL L + 256 * (k.val + 1) - 128 by omega)))
    iexact Hdone
  isplitl [Htodo]
  · iexists fo
    iapply (Entails.of_eq (congrArg (fun a => ((oV).view.loc (thrV d L) ↦[rowsBetween a (baseL L + 10000)]{fullShare} fo : sProp 𝕄))
        (show baseL L + (256 * k.val + 128) + 128 = baseL L + 256 * (k.val + 1) by omega)))
    iexact Htodo
  isplitl [Hg1]; · iexact Hg1
  isplitl [Hs0]; · iexact Hs0
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
theorem trip_mid (hidx : ∀ i, (m (iLoc d) i).toNat ≤ 3) (O : CellTallies nD τ sig (HIx 1)) (W : Waits sig (HIx 1)) (v5 : BitVec 32)
    (k : Fin k0_t1_loop.trips) (acc : BitVec 32) (hk0 : k.val ≠ 0) (hk38 : k.val < 38) :
    loopInv m d L O W k.val acc
      ⊢ wp frame (wpE (defs₀ (F := F)) 𝒱₀ (thrV d L) none) Set.univ
          (k0_t1_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2 v5 k acc)
          (fun x => loopInv m d L O W (k.val + 1) x) := by
  have hk39 : k.val < 39 := Nat.lt_of_lt_of_eq k.isLt trips_eq
  have k0_h2 : k0_cond2 k = 1#1 := cond2_pos k hk0
  have k0_h3 : k0_cond3 k = 1#1 := cond3_pos k hk38
  unfold loopInv
  rw [if_pos hk39, if_neg hk0, if_neg hk0]
  unfold k0_t1_body
  rw [k0_part1_eq_skeleton]; unfold k0_part1_skel
  iintro ⟨#Hmw, Hg, Hc, Hdone, ⟨%fo, Htodo⟩, Hg1, Hs0, %W', %hW', HO⟩
  -- a. the gather of chunk 2k lands in the first buffer
  sl_exec
  iapply (wait_step (F := F) d L sG0 524288 rfl (gatherD m d L b0V (256 * k.val)) O W') $$ [Hg HO]
  · isplitr; · iexact Hmw
    isplitl [Hg]; · iexact Hg
    iexact HO
  iintro ⟨Hgd, Hg0, HO⟩
  ihave Hgd' := (Entails.of_eq (gatherD_def (F := F) m d L _ _)) $$ Hgd
  icases Hgd' with ⟨⟨%fb0, Hb0, %hb0⟩, Hx, Hsh⟩
  -- b. the copy of chunk 2k out of the first buffer starts
  sl_exec
  ihave Hsp := (rows_split (F := F) d L (a := baseL L + 256 * k.val) (b := baseL L + 256 * k.val + 128) (c := baseL L + 10000) (by omega) (by omega) fo).1 $$ Htodo
  icases Hsp with ⟨Hwin, Htodo⟩
  iapply (copy_issue128 (F := F) m d L b0V (Memref.isWhole_whole _) (256 * k.val) (by omega) (k0_off2 L k) (k0_off2_inb L k) (off2_base L k) sS0 fb0 hb0 fo) $$ [Hb0 Hwin Hs0]
  · isplitl [Hb0]; · iexact Hb0
    isplitl [Hwin]; · iexact Hwin
    iexact Hs0
  iintro Hfs0
  -- c. the copy of chunk 2k-1 out of the second buffer has landed
  sl_exec
  iapply (wait_step (F := F) d L sS1 524288 rfl (copyD m d L b1V (rowsBetween (baseL L + 256 * k.val - 128) (baseL L + 256 * k.val))) O _) $$ [Hc HO]
  · isplitr; · iexact Hmw
    isplitl [Hc]; · iexact Hc
    iexact HO
  iintro ⟨Hcd, Hs1, HO⟩
  ihave Hcd' := (Entails.of_eq (copyD_def (F := F) m d L _ _)) $$ Hcd
  icases Hcd' with ⟨Hw1, %fb1, Hb1⟩
  ihave Hdone := (rows_split (F := F) d L (a := baseL L) (b := baseL L + 256 * k.val - 128) (c := baseL L + 256 * k.val) (by omega) (by omega) (edgeOut m d)).2 $$ [Hdone Hw1]
  · isplitl [Hdone]; · iexact Hdone
    iexact Hw1
  -- d. the gather of chunk 2k+1 into the second buffer starts
  sl_exec
  iapply (gather_issue128 (F := F) m d L hidx b1V (Memref.isWhole_whole _) (k0_off4 k) (k0_off4_inb k) sG1) $$ [Hb1 Hx Hsh Hg1]
  · isplitl [Hb1]; · iexists fb1; iexact Hb1
    isplitl [Hx]; · iexact Hx
    isplitl [Hsh]; · iexact Hsh
    iexact Hg1
  iintro Hfg1
  -- e. and lands
  sl_exec
  iapply (wait_step (F := F) d L sG1 524288 rfl (gatherD m d L b1V (k0_off4 k 0)) O _) $$ [Hfg1 HO]
  · isplitr; · iexact Hmw
    isplitl [Hfg1]; · iexact Hfg1
    iexact HO
  iintro ⟨Hgd, Hg1, HO⟩
  ihave Hgd' := (Entails.of_eq (gatherD_def (F := F) m d L _ _)) $$ Hgd
  icases Hgd' with ⟨⟨%fb1', Hb1, %hb1⟩, Hx, Hsh⟩
  have hb1' : rowsOK128 m d L b1V (256 * k.val + 128) fb1' := off4_zero k ▸ hb1
  -- f. the copy of chunk 2k+1 out of the second buffer starts
  sl_exec
  ihave Hsp := (rows_split (F := F) d L (a := baseL L + (256 * k.val + 128)) (b := baseL L + (256 * k.val + 128) + 128) (c := baseL L + 10000) (by omega) (by omega) fo).1 $$ [Htodo]
  · iapply (Entails.of_eq (show ((oV).view.loc (thrV d L) ↦[rowsBetween (baseL L + 256 * k.val + 128) (baseL L + 10000)]{fullShare} fo : sProp 𝕄)
        = (oV).view.loc (thrV d L) ↦[rowsBetween (baseL L + (256 * k.val + 128)) (baseL L + 10000)]{fullShare} fo by rw [Nat.add_assoc]))
    iexact Htodo
  icases Hsp with ⟨Hwin, Htodo⟩
  iapply (copy_issue128 (F := F) m d L b1V (Memref.isWhole_whole _) (256 * k.val + 128) (by omega) (k0_off5 L k) (k0_off5_inb L k) (off5_base L k) sS1 fb1' hb1' fo) $$ [Hb1 Hwin Hs1]
  · isplitl [Hb1]; · iexact Hb1
    isplitl [Hwin]; · iexact Hwin
    iexact Hs1
  iintro Hfs1
  -- g. the copy of chunk 2k out of the first buffer has landed
  sl_exec
  iapply (wait_step (F := F) d L sS0 524288 rfl (copyD m d L b0V (rowsBetween (baseL L + 256 * k.val) (baseL L + 256 * k.val + 128))) O _) $$ [Hfs0 HO]
  · isplitr; · iexact Hmw
    isplitl [Hfs0]; · iexact Hfs0
    iexact HO
  iintro ⟨Hcd, Hs0, HO⟩
  ihave Hcd' := (Entails.of_eq (copyD_def (F := F) m d L _ _)) $$ Hcd
  icases Hcd' with ⟨Hw0, %fb0', Hb0⟩
  ihave Hdone := (rows_split (F := F) d L (a := baseL L) (b := baseL L + 256 * k.val) (c := baseL L + 256 * k.val + 128) (by omega) (by omega) (edgeOut m d)).2 $$ [Hdone Hw0]
  · isplitl [Hdone]; · iexact Hdone
    iexact Hw0
  -- h. the gather of chunk 2k+2 into the first buffer starts
  sl_exec
  iapply (gather_issue128 (F := F) m d L hidx b0V (Memref.isWhole_whole _) (k0_off7 k) (k0_off7_inb k k0_h3) sG0) $$ [Hb0 Hx Hsh Hg0]
  · isplitl [Hb0]; · iexists fb0'; iexact Hb0
    isplitl [Hx]; · iexact Hx
    isplitl [Hsh]; · iexact Hsh
    iexact Hg0
  iintro Hfg0
  sl_exec
  sl_step
  rw [if_pos (show k.val + 1 < 39 by omega), if_neg (show k.val + 1 ≠ 0 by omega), if_neg (show k.val + 1 ≠ 0 by omega)]
  isplitr; · iexact Hmw
  isplitl [Hfg0]
  · iapply (Entails.of_eq (congrArg (fun o => (Transfers.Flight countersEmb (thrV d L) (SemLoc.dma sG0) (default : HIx 1) 524288 (gatherD m d L b0V o) : sProp 𝕄)) (off7_zero k)))
    iexact Hfg0
  isplitl [Hfs1]
  · iapply (Entails.of_eq (congrArg₂ (fun a b => (Transfers.Flight countersEmb (thrV d L) (SemLoc.dma sS1) (default : HIx 1) 524288 (copyD m d L b1V (rowsBetween a b)) : sProp 𝕄))
        (show baseL L + (256 * k.val + 128) = baseL L + 256 * (k.val + 1) - 128 by omega) (show baseL L + (256 * k.val + 128) + 128 = baseL L + 256 * (k.val + 1) by omega)))
    iexact Hfs1
  isplitl [Hdone]
  · iapply (Entails.of_eq (congrArg (fun b => ((oV).view.loc (thrV d L) ↦[rowsBetween (baseL L) b]{fullShare} edgeOut m d : sProp 𝕄))
        (show baseL L + 256 * k.val + 128 = baseL L + 256 * (k.val + 1) - 128 by omega)))
    iexact Hdone
  isplitl [Htodo]
  · iexists fo
    iapply (Entails.of_eq (congrArg (fun a => ((oV).view.loc (thrV d L) ↦[rowsBetween a (baseL L + 10000)]{fullShare} fo : sProp 𝕄))
        (show baseL L + (256 * k.val + 128) + 128 = baseL L + 256 * (k.val + 1) by omega)))
    iexact Htodo
  isplitl [Hg1]; · iexact Hg1
  isplitl [Hs0]; · iexact Hs0
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
theorem trip_last (hidx : ∀ i, (m (iLoc d) i).toNat ≤ 3) (O : CellTallies nD τ sig (HIx 1)) (W : Waits sig (HIx 1)) (v5 : BitVec 32)
    (k : Fin k0_t1_loop.trips) (acc : BitVec 32) (hk0 : k.val ≠ 0) (hk38 : ¬ k.val < 38) :
    loopInv m d L O W k.val acc
      ⊢ wp frame (wpE (defs₀ (F := F)) 𝒱₀ (thrV d L) none) Set.univ
          (k0_t1_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2 v5 k acc)
          (fun x => loopInv m d L O W (k.val + 1) x) := by
  have hk39 : k.val < 39 := Nat.lt_of_lt_of_eq k.isLt trips_eq
  have k0_h2 : k0_cond2 k = 1#1 := cond2_pos k hk0
  have k0_h3 : ¬ k0_cond3 k = 1#1 := cond3_neg k hk38
  unfold loopInv
  rw [if_pos hk39, if_neg hk0, if_neg hk0]
  unfold k0_t1_body
  rw [k0_part1_eq_skeleton]; unfold k0_part1_skel
  iintro ⟨#Hmw, Hg, Hc, Hdone, ⟨%fo, Htodo⟩, Hg1, Hs0, %W', %hW', HO⟩
  -- a. the gather of chunk 2k lands in the first buffer
  sl_exec
  iapply (wait_step (F := F) d L sG0 524288 rfl (gatherD m d L b0V (256 * k.val)) O W') $$ [Hg HO]
  · isplitr; · iexact Hmw
    isplitl [Hg]; · iexact Hg
    iexact HO
  iintro ⟨Hgd, Hg0, HO⟩
  ihave Hgd' := (Entails.of_eq (gatherD_def (F := F) m d L _ _)) $$ Hgd
  icases Hgd' with ⟨⟨%fb0, Hb0, %hb0⟩, Hx, Hsh⟩
  -- b. the copy of chunk 2k out of the first buffer starts
  sl_exec
  ihave Hsp := (rows_split (F := F) d L (a := baseL L + 256 * k.val) (b := baseL L + 256 * k.val + 128) (c := baseL L + 10000) (by omega) (by omega) fo).1 $$ Htodo
  icases Hsp with ⟨Hwin, Htodo⟩
  iapply (copy_issue128 (F := F) m d L b0V (Memref.isWhole_whole _) (256 * k.val) (by omega) (k0_off2 L k) (k0_off2_inb L k) (off2_base L k) sS0 fb0 hb0 fo) $$ [Hb0 Hwin Hs0]
  · isplitl [Hb0]; · iexact Hb0
    isplitl [Hwin]; · iexact Hwin
    iexact Hs0
  iintro Hfs0
  -- c. the copy of chunk 2k-1 out of the second buffer has landed
  sl_exec
  iapply (wait_step (F := F) d L sS1 524288 rfl (copyD m d L b1V (rowsBetween (baseL L + 256 * k.val - 128) (baseL L + 256 * k.val))) O _) $$ [Hc HO]
  · isplitr; · iexact Hmw
    isplitl [Hc]; · iexact Hc
    iexact HO
  iintro ⟨Hcd, Hs1, HO⟩
  ihave Hcd' := (Entails.of_eq (copyD_def (F := F) m d L _ _)) $$ Hcd
  icases Hcd' with ⟨Hw1, %fb1, Hb1⟩
  ihave Hdone := (rows_split (F := F) d L (a := baseL L) (b := baseL L + 256 * k.val - 128) (c := baseL L + 256 * k.val) (by omega) (by omega) (edgeOut m d)).2 $$ [Hdone Hw1]
  · isplitl [Hdone]; · iexact Hdone
    iexact Hw1
  -- d. the gather of chunk 2k+1 into the second buffer starts
  sl_exec
  iapply (gather_issue128 (F := F) m d L hidx b1V (Memref.isWhole_whole _) (k0_off4 k) (k0_off4_inb k) sG1) $$ [Hb1 Hx Hsh Hg1]
  · isplitl [Hb1]; · iexists fb1; iexact Hb1
    isplitl [Hx]; · iexact Hx
    isplitl [Hsh]; · iexact Hsh
    iexact Hg1
  iintro Hfg1
  -- e. and lands
  sl_exec
  iapply (wait_step (F := F) d L sG1 524288 rfl (gatherD m d L b1V (k0_off4 k 0)) O _) $$ [Hfg1 HO]
  · isplitr; · iexact Hmw
    isplitl [Hfg1]; · iexact Hfg1
    iexact HO
  iintro ⟨Hgd, Hg1, HO⟩
  ihave Hgd' := (Entails.of_eq (gatherD_def (F := F) m d L _ _)) $$ Hgd
  icases Hgd' with ⟨⟨%fb1', Hb1, %hb1⟩, Hx, Hsh⟩
  have hb1' : rowsOK128 m d L b1V (256 * k.val + 128) fb1' := off4_zero k ▸ hb1
  -- f. the copy of chunk 2k+1 out of the second buffer starts
  sl_exec
  ihave Hsp := (rows_split (F := F) d L (a := baseL L + (256 * k.val + 128)) (b := baseL L + (256 * k.val + 128) + 128) (c := baseL L + 10000) (by omega) (by omega) fo).1 $$ [Htodo]
  · iapply (Entails.of_eq (show ((oV).view.loc (thrV d L) ↦[rowsBetween (baseL L + 256 * k.val + 128) (baseL L + 10000)]{fullShare} fo : sProp 𝕄)
        = (oV).view.loc (thrV d L) ↦[rowsBetween (baseL L + (256 * k.val + 128)) (baseL L + 10000)]{fullShare} fo by rw [Nat.add_assoc]))
    iexact Htodo
  icases Hsp with ⟨Hwin, Htodo⟩
  iapply (copy_issue128 (F := F) m d L b1V (Memref.isWhole_whole _) (256 * k.val + 128) (by omega) (k0_off5 L k) (k0_off5_inb L k) (off5_base L k) sS1 fb1' hb1' fo) $$ [Hb1 Hwin Hs1]
  · isplitl [Hb1]; · iexact Hb1
    isplitl [Hwin]; · iexact Hwin
    iexact Hs1
  iintro Hfs1
  -- g. the copy of chunk 2k out of the first buffer has landed
  sl_exec
  iapply (wait_step (F := F) d L sS0 524288 rfl (copyD m d L b0V (rowsBetween (baseL L + 256 * k.val) (baseL L + 256 * k.val + 128))) O _) $$ [Hfs0 HO]
  · isplitr; · iexact Hmw
    isplitl [Hfs0]; · iexact Hfs0
    iexact HO
  iintro ⟨Hcd, Hs0, HO⟩
  ihave Hcd' := (Entails.of_eq (copyD_def (F := F) m d L _ _)) $$ Hcd
  icases Hcd' with ⟨Hw0, %fb0', Hb0⟩
  ihave Hdone := (rows_split (F := F) d L (a := baseL L) (b := baseL L + 256 * k.val) (c := baseL L + 256 * k.val + 128) (by omega) (by omega) (edgeOut m d)).2 $$ [Hdone Hw0]
  · isplitl [Hdone]; · iexact Hdone
    iexact Hw0
  -- h. at the last trip no further gather starts
  sl_exec
  sl_step
  rw [if_neg (show ¬ k.val + 1 < 39 by omega), if_neg (show k.val + 1 ≠ 0 by omega), if_neg (show k.val + 1 ≠ 0 by omega)]
  isplitr; · iexact Hmw
  isplitl [Hb0 Hx Hsh Hg0]
  · isplitl [Hb0]; · iexists fb0'; iexact Hb0
    isplitl [Hx]; · iexact Hx
    isplitl [Hsh]; · iexact Hsh
    iexact Hg0
  isplitl [Hfs1]
  · iapply (Entails.of_eq (congrArg₂ (fun a b => (Transfers.Flight countersEmb (thrV d L) (SemLoc.dma sS1) (default : HIx 1) 524288 (copyD m d L b1V (rowsBetween a b)) : sProp 𝕄))
        (show baseL L + (256 * k.val + 128) = baseL L + 256 * (k.val + 1) - 128 by omega) (show baseL L + (256 * k.val + 128) + 128 = baseL L + 256 * (k.val + 1) by omega)))
    iexact Hfs1
  isplitl [Hdone]
  · iapply (Entails.of_eq (congrArg (fun b => ((oV).view.loc (thrV d L) ↦[rowsBetween (baseL L) b]{fullShare} edgeOut m d : sProp 𝕄))
        (show baseL L + 256 * k.val + 128 = baseL L + 256 * (k.val + 1) - 128 by omega)))
    iexact Hdone
  isplitl [Htodo]
  · iexists fo
    iapply (Entails.of_eq (congrArg (fun a => ((oV).view.loc (thrV d L) ↦[rowsBetween a (baseL L + 10000)]{fullShare} fo : sProp 𝕄))
        (show baseL L + (256 * k.val + 128) + 128 = baseL L + 256 * (k.val + 1) by omega)))
    iexact Htodo
  isplitl [Hg1]; · iexact Hg1
  isplitl [Hs0]; · iexact Hs0
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
theorem trip_step (hidx : ∀ i, (m (iLoc d) i).toNat ≤ 3) (O : CellTallies nD τ sig (HIx 1)) (W : Waits sig (HIx 1)) (v5 : BitVec 32)
    (k : Fin k0_t1_loop.trips) (acc : BitVec 32) :
    loopInv m d L O W k.val acc
      ⊢ wp frame (wpE (defs₀ (F := F)) 𝒱₀ (thrV d L) none) Set.univ
          (k0_t1_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2 v5 k acc)
          (fun x => loopInv m d L O W (k.val + 1) x) := by
  by_cases hk0 : k.val = 0
  · exact trip_first m d L hidx O W v5 k acc hk0
  · by_cases hk38 : k.val < 38
    · exact trip_mid m d L hidx O W v5 k acc hk0 hk38
    · exact trip_last m d L hidx O W v5 k acc hk0 hk38

end Tile
end Cert.Kernel.Hand
end
-- ==== Proof.KTile.lean ====
/-
  The edge lookup's task on one vector subcore, and the launch theorem's obligation for it.
  Tile (c, s) is worker w = 2 s + c of thirty-two and owns rows [10000 w, 10000 (w + 1)) of the index array and of the result.
  Tile 0 of each SparseCore copies the 4 x 128 edge table into the SparseCore's shared memory; the sixteen tiles meet at the subcore
  barrier, where tile 0's arrival hands every tile a read token of the filled table. Each tile then stages its ten thousand indices,
  and row r of its part of the result is the table's row that index r names: 78 chunks of 128 rows, gathered from the shared table
  into one of two row buffers and copied out from there, the gather of the next chunk and the copy of the previous one in flight
  across the loop's trips (the loop's invariant, with the trips themselves, is in the module of the trips), then the last sixteen rows through the tail buffer.
  The rows written so far are held at the lookup itself, a whole-array function, so the pieces join by the union of their row ranges:
  [base, base + 9856), [base + 9856, base + 9984) and [base + 9984, base + 10000) make the tile's ten thousand rows.
-/
import proofs.«205308_g19069654794752_retrytranche2_377_14_alg».proof.Proof.KTileSteps
import proofs.«205308_g19069654794752_retrytranche2_377_14_alg».proof.Proof.KTileGather
import proofs.«205308_g19069654794752_retrytranche2_377_14_alg».proof.Proof.KTileCopy
import proofs.«205308_g19069654794752_retrytranche2_377_14_alg».proof.Proof.KTileTrip

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "iV" => (Memref.whole Cert.Kernel.main_arg1_scv : Memref Cert.Kernel.sig Kind.scVector Space.hbm Cert.Kernel.S320000 EltTy.i32)
local notation "tV" => (Memref.whole Cert.Kernel.main_arg3_scv : Memref Cert.Kernel.sig Kind.scVector Space.hbm Cert.Kernel.S4x128 EltTy.f32)
local notation "oV" => (Memref.whole Cert.Kernel.main_v0_scv : Memref Cert.Kernel.sig Kind.scVector Space.hbm Cert.Kernel.S320000x128 EltTy.f32)
local notation "xV" => (Memref.whole Cert.Kernel.cc0_scratch0 : Memref Cert.Kernel.sig Kind.scVector Space.vmem Cert.Kernel.S10000 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "tbV" => (Memref.whole Cert.Kernel.cc0_scratch3 : Memref Cert.Kernel.sig Kind.scVector Space.vmem Cert.Kernel.S16x128 EltTy.f32)
local notation "shV" => (Memref.whole Cert.Kernel.cc0_scratch4 : Memref Cert.Kernel.sig Kind.scVector Space.shared Cert.Kernel.S4x128 EltTy.f32)

section Tile

variable (d : Dev nD) (L : grid0.Coords)

theorem gatherD16_def (B : Memref sig .scVector .vmem S16x128 .f32) :
    gatherD16 m d L B = iprop((∃ f, (B.view.loc (thrV d L) ↦[B.view.set]{fullShare} f) ∗ ⌜rowsOK16 m d L B f⌝) ∗ xRes m d L ∗ shRes m d L) := rfl

omit [FloatOps F] in
theorem waits_self (W : Waits sig (HIx 1)) : ∀ p ∈ W, p ∈ W ∨ p.2 = none ∨ p.2 = some (0 : Fin 1) := fun _ hp => .inl hp
omit [FloatOps F] in
theorem waits_ins {W Wa : Waits sig (HIx 1)} {x : SemLoc sig × HIx 1} (hx : x.2 = none ∨ x.2 = some (0 : Fin 1))
    (h : ∀ p ∈ Wa, p ∈ W ∨ p.2 = none ∨ p.2 = some (0 : Fin 1)) : ∀ p ∈ insert x Wa, p ∈ W ∨ p.2 = none ∨ p.2 = some (0 : Fin 1) := by
  intro p hp
  rcases Finset.mem_insert.mp hp with hp | hp
  · exact .inr (hp ▸ hx)
  · exact h p hp
omit [FloatOps F] in
theorem waits_close {W Wb W' : Waits sig (HIx 1)} (hb : ∀ p ∈ Wb, p ∈ W ∨ p.2 = none ∨ p.2 = some (0 : Fin 1))
    (hW' : ∀ p ∈ W', p ∈ Wb ∨ p.2 = none) : ∀ p ∈ W', p ∈ W ∨ p.2 = none ∨ p.2 = some (0 : Fin 1) := by
  intro p hp
  rcases hW' p hp with h | h
  · exact hb p h
  · exact .inr (.inl h)

omit [FloatOps F] in
/-- A shared table written whole holds what was written. -/
theorem pts_written_shV (fsh w : Buf (Elt F) (shLoc d (cV L))) :
    ((shV).view.loc (thrV d L) ↦{fullShare} View.write (Elt F) (shV).view fsh w Finset.univ : sProp 𝕄) = (shV).view.loc (thrV d L) ↦{fullShare} w := by
  rw [show View.write (Elt F) (shV).view fsh w Finset.univ = w from View.write_whole_univ cc0_scratch4 fsh w]

/-- What the table copy carries is the edge table's contents. -/
theorem tab_payload_eq : (ReadAs.same.apply ((tV).view.read (Elt F) (m (tLoc d))) : Buf (Elt F) (shLoc d (cV L))) = tabSh m d (cV L) := by
  rw [show (tV).view.read (Elt F) (m (tLoc d)) = m (tLoc d) from View.read_whole _ _]

set_option maxHeartbeats 3000000 in
theorem tile_body_rest (hF : (K (F := F)).Facts) (hidx : ∀ i, (m (iLoc d) i).toNat ≤ 3) (O : CellTallies nD τ sig (HIx 1)) (W : Waits sig (HIx 1)) (hO : ∀ g, O g none = 0)
    (hOlev : ∀ g ι, 0 < O g ι → 8 * (0 : Fin 1).val + 6 ≤ (K (F := F)).lev g ι) (hs : (L 1).val ≠ 0) :
    iprop(levAts (K (F := F)).L (K (F := F)).lev ∗ bkit m d (cV L) (jV L)
        ∗ (goRes m d (cV L) (jV L) ∗ goSh d (cV L) (jV L))
        ∗ scopedBufs (thrV d L) ∗ scopedSems0 (thrV d L) ∗ owes (thrV d L) (O + oxV d (cV L)) W)
      ⊢ wp frame (wpE (defs₀ (F := F)) 𝒱₀ (thrV d L) none) Set.univ
          (cc0__edge_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2)
          fun _ => iprop((tdRes m d (cV L) (jV L) ∗ tdSh m d (cV L) (jV L))
            ∗ scopedBufs (thrV d L) ∗ scopedSems0 (thrV d L)
            ∗ ∃ W', ⌜∀ p ∈ W', p ∈ W ∨ p.2 = none ∨ p.2 = some (0 : Fin 1)⌝ ∗ owes (thrV d L) O W') := by
  simp only [cc0__edge_body_eq_skeleton]; unfold cc0__edge_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Hi, Ht, Ho⟩, Hsh⟩, ⟨⟨%fx, Hx⟩, ⟨%f0, Hb0⟩, ⟨%f1, Hb1⟩, ⟨%ftb, Htb⟩, Hbufs⟩, ⟨Hg0, Hg1, Hs0, Hs1, Hts, Hr0, Hr1, Hr2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw2 := (show levAts (K (F := F)).L (K (F := F)).lev ⊢ Transfers.MayWaits (thrV d L) (default : HIx 1) O from
    (K (F := F)).mayWaits_none (thr := thrV d L) hO) $$ Hlv
  ihave Hi' := (Entails.of_eq (pts_iSlK (F := F) d L _).symm) $$ Hi
  ihave Ht' := (Entails.of_eq (pts_tV (F := F) d L _ _).symm) $$ Ht
  ihave Ho' := (Entails.of_eq (pts_oV (F := F) d L _ _).symm) $$ Ho
  ihave Hx' := (Entails.of_eq (pts_xV (F := F) d L _).symm) $$ Hx
  ihave Hb0' := (Entails.of_eq (pts_b0V (F := F) d L _).symm) $$ Hb0
  ihave Hb1' := (Entails.of_eq (pts_b1V (F := F) d L _).symm) $$ Hb1
  ihave Htb' := (Entails.of_eq (pts_tbV (F := F) d L _).symm) $$ Htb
  have hs' : ¬ (jV L).val = 0 := hs
  have k0_h1 : ¬ (Scalar.cmpi .ne (Scalar.extui (Scalar.cmpi .eq (BitVec.ofNat 32 (L 1).val) (0#32 : BitVec 32))) (0#32 : BitVec 32) = 1#1) := by
    revert hs; generalize L 1 = s; revert s; decide
  have hsh_neg : (goSh (F := F) d (cV L) (jV L) : sProp 𝕄) ⊢ (if (jV L).val = 0 then (bigSep Finset.univ fun j : Fin (grid0.bound 1) => shTok m d (cV L) (j.castLE hsub0)) else iprop(emp)) := by
    unfold goSh; rw [if_neg hs', if_neg hs']
  sl_exec
  ihave Hsh2 := (hsh_neg) $$ Hsh
  rw [Prog.bind_assoc]
  iapply (barrier_step (F := F) m d L O W hOlev) $$ [Htoks Hat Hcred Hsh2 HO]
  · isplitr; · iexact Hlv
    isplitl [Htoks Hat Hcred]
    · unfold bkit
      isplitr; · iexists κ; iexact Hinv
      isplitl [Htoks]; · iexact Htoks
      isplitr; · iexact Hrch
      isplitl [Hat]; · iexact Hat
      iexact Hcred
    isplitl [Hsh2]; · iexact Hsh2
    iexact HO
  iintro ⟨HO, Htok⟩
  ihave Htok' := (Entails.of_eq (pts_shV (F := F) d L _ _).symm) $$ Htok
  sl_exec
  ihave Hx2 := (Entails.of_eq (pts_written_xV (F := F) d L _ _)) $$ Hx'
  ihave Hb0s := (Entails.of_eq (show ((b0V).view.loc (thrV d L) ↦{fullShare} f0 : sProp 𝕄) = (b0V).view.loc (thrV d L) ↦[(b0V).view.set]{fullShare} f0 by rw [set_b0V])) $$ Hb0'
  ihave Hb1s := (Entails.of_eq (show ((b1V).view.loc (thrV d L) ↦{fullShare} f1 : sProp 𝕄) = (b1V).view.loc (thrV d L) ↦[(b1V).view.set]{fullShare} f1 by rw [set_b1V])) $$ Hb1'
  ihave Htbs := (Entails.of_eq (show ((tbV).view.loc (thrV d L) ↦{fullShare} ftb : sProp 𝕄) = (tbV).view.loc (thrV d L) ↦[(tbV).view.set]{fullShare} ftb by rw [set_tbV])) $$ Htb'
  -- the gather of chunk 0 into the first buffer starts
  iapply (gather_issue128 (F := F) m d L hidx b0V (Memref.isWhole_whole _) ![0] inb_S10000_S128_0 cc0_scratch5.sem) $$ [Hb0s Hx2 Htok' Hg0]
  · isplitl [Hb0s]; · iexists f0; iexact Hb0s
    isplitl [Hx2]; · iexact Hx2
    isplitl [Htok']; · iexact Htok'
    iexact Hg0
  iintro Hfl0
  ihave Ho2 := (Entails.of_eq (show ((oV).view.loc (thrV d L) ↦[oRowSet (wOf (cV L) (jV L))]{fullShare} m (oLoc d) : sProp 𝕄)
      = (oV).view.loc (thrV d L) ↦[rowsBetween (baseL L + 256 * 0) (baseL L + 10000)]{fullShare} m (oLoc d) by rw [oRowSet_eq_rows]; rfl)) $$ Ho'
  ihave Hdone0 := (rows_empty (F := F) d L (baseL L) (edgeOut m d)).2 $$ []
  · iempintro
  -- the loop, by its invariant
  rw [Prog.bind_assoc]
  sl_for (loopInv m d L O (insert (SemLoc.reg sc_bar0, (some 0 : HIx 1)) W)) $$ [Hfl0 Hb1s Hs1 Hdone0 Ho2 Hg1 Hs0 HO]
  case region =>
    intro k acc
    exact trip_step m d L hidx O _ _ k acc
  · unfold loopInv
    rw [if_pos (show (0 : ℕ) < 39 by decide), if_pos rfl, if_pos rfl]
    isplitr; · iexact Hmw2
    isplitl [Hfl0]; · iexact Hfl0
    isplitl [Hb1s Hs1]
    · isplitl [Hb1s]; · iexists f1; iexact Hb1s
      iexact Hs1
    isplitl [Hdone0]; · iexact Hdone0
    isplitl [Ho2]; · iexists _; iexact Ho2
    isplitl [Hg1]; · iexact Hg1
    isplitl [Hs0]; · iexact Hs0
    iexists _; isplitr
    swap; · iexact HO
    ipureintro; intro p hp
    rcases Finset.mem_insert.mp hp with hp | hp; · exact .inr (hp ▸ rfl)
    exact .inl hp
  iintro %acc HI
  have htr : Scf.trips k0_t1_loop.lb k0_t1_loop.ub k0_t1_loop.st = 39 := by decide
  unfold loopInv
  rw [htr, if_neg (show ¬ (39 : ℕ) < 39 by decide), if_neg (show (39 : ℕ) ≠ 0 by decide), if_neg (show (39 : ℕ) ≠ 0 by decide)]
  icases HI with ⟨-, ⟨⟨%fb0, Hb0⟩, Hx, Hsh, Hg0⟩, Hc, Hdone, ⟨%fo, Htodo⟩, Hg1, Hs0, %W', %hW', HO⟩
  -- the last sixteen rows: gathered into the tail buffer
  first | sl_exec | skip
  iapply (gather_issue16 (F := F) m d L hidx tbV (Memref.isWhole_whole _) cc0_scratch9.sem) $$ [Htbs Hx Hsh Hts]
  · isplitl [Htbs]; · iexists ftb; iexact Htbs
    isplitl [Hx]; · iexact Hx
    isplitl [Hsh]; · iexact Hsh
    iexact Hts
  iintro Hflt
  first | sl_exec | skip
  iapply (wait_step (F := F) d L cc0_scratch9.sem 65536 rfl (gatherD16 m d L tbV) O _) $$ [Hflt HO]
  · isplitr; · iexact Hmw2
    isplitl [Hflt]; · iexact Hflt
    iexact HO
  iintro ⟨Hgd, Hts, HO⟩
  ihave Hgd' := (Entails.of_eq (gatherD16_def (F := F) m d L _)) $$ Hgd
  icases Hgd' with ⟨⟨%ftb', Htb, %htb⟩, Hx, Hsh⟩
  -- and copied out to the tile's last sixteen rows
  first | sl_exec | skip
  ihave Htodo := (Entails.of_eq (congrArg (fun a => ((oV).view.loc (thrV d L) ↦[rowsBetween a (baseL L + 10000)]{fullShare} fo : sProp 𝕄))
      (show baseL L + 256 * 39 = baseL L + 9984 by omega))) $$ Htodo
  iapply (copy_issue16 (F := F) m d L tbV (Memref.isWhole_whole _) (k0_off8 L) (k0_off8_inb L) (off8_site L) cc0_scoped2.sem ftb' htb fo) $$ [Htb Htodo Hr2]
  · isplitl [Htb]; · iexact Htb
    isplitl [Htodo]; · iexact Htodo
    iexact Hr2
  iintro Hflc
  first | sl_exec | skip
  iapply (wait_step (F := F) d L cc0_scoped2.sem 65536 rfl (copyD m d L tbV (rowsBetween (baseL L + 9984) (baseL L + 10000))) O _) $$ [Hflc HO]
  · isplitr; · iexact Hmw2
    isplitl [Hflc]; · iexact Hflc
    iexact HO
  iintro ⟨Hcd, Hr2, HO⟩
  ihave Hcd' := (Entails.of_eq (copyD_def (F := F) m d L _ _)) $$ Hcd
  icases Hcd' with ⟨Hwt, %ftb2, Htb⟩
  -- the last chunk's copy out of the second buffer lands
  first | sl_exec | skip
  iapply (wait_step (F := F) d L sS1 524288 rfl (copyD m d L b1V (rowsBetween (baseL L + 256 * 39 - 128) (baseL L + 256 * 39))) O _) $$ [Hc HO]
  · isplitr; · iexact Hmw2
    isplitl [Hc]; · iexact Hc
    iexact HO
  iintro ⟨Hcd, Hs1, HO⟩
  ihave Hcd' := (Entails.of_eq (copyD_def (F := F) m d L _ _)) $$ Hcd
  icases Hcd' with ⟨Hw1, %fb1, Hb1⟩
  -- the tile's rows, joined: all at the lookup
  ihave Hdone := (rows_split (F := F) d L (a := baseL L) (b := baseL L + 256 * 39 - 128) (c := baseL L + 256 * 39) (by omega) (by omega) (edgeOut m d)).2 $$ [Hdone Hw1]
  · isplitl [Hdone]; · iexact Hdone
    iexact Hw1
  ihave Hdone := (Entails.of_eq (congrArg (fun b => ((oV).view.loc (thrV d L) ↦[rowsBetween (baseL L) b]{fullShare} edgeOut m d : sProp 𝕄))
      (show baseL L + 256 * 39 = baseL L + 9984 by omega))) $$ Hdone
  ihave Hall := (rows_split (F := F) d L (a := baseL L) (b := baseL L + 9984) (c := baseL L + 10000) (by omega) (by omega) (edgeOut m d)).2 $$ [Hdone Hwt]
  · isplitl [Hdone]; · iexact Hdone
    iexact Hwt
  rw [show ((Prog.ret PUnit.unit : Prog (TpuEff nD τ sig (Elt F) Λ₀ (thrV d L).2) PUnit).bind fun __r => (Pure.pure PUnit.unit : Prog (TpuEff nD τ sig (Elt F) Λ₀ (thrV d L).2) PUnit)) = Prog.ret PUnit.unit from rfl]
  sl_step
  -- what the tile hands back
  isplitl [Hi' Ht' Hall Hsh]
  · isplitl [Hi' Ht' Hall]
    · isplitl [Hi']; · iapply (Entails.of_eq (pts_iSlK (F := F) d L _)); iexact Hi'
      isplitl [Ht']; · iexact Ht'
      iapply (Entails.of_eq (show ((oV).view.loc (thrV d L) ↦[rowsBetween (baseL L) (baseL L + 10000)]{fullShare} edgeOut m d : sProp 𝕄)
          = oLoc d ↦[oRowSet (wOf (cV L) (jV L))]{fullShare} edgeOut m d by rw [oRowSet_eq_rows]))
      iexact Hall
    · unfold tdSh
      isplitl [Hsh]; · iexact Hsh
      rw [if_neg hs']; iempintro
  isplitl [Hx Hb0 Hb1 Htb Hbufs]
  · isplitl [Hx]; · iexists _; iexact Hx
    isplitl [Hb0]
    · iexists fb0
      iapply (Entails.of_eq (show ((b0V).view.loc (thrV d L) ↦[(b0V).view.set]{fullShare} fb0 : sProp 𝕄) = (thrV d L).loc cc0_scratch1 ↦{fullShare} fb0 by rw [set_b0V]))
      iexact Hb0
    isplitl [Hb1]
    · iexists fb1
      iapply (Entails.of_eq (show ((b1V).view.loc (thrV d L) ↦[(b1V).view.set]{fullShare} fb1 : sProp 𝕄) = (thrV d L).loc cc0_scratch2 ↦{fullShare} fb1 by rw [set_b1V]))
      iexact Hb1
    isplitl [Htb]
    · iexists ftb2
      iapply (Entails.of_eq (show ((tbV).view.loc (thrV d L) ↦[(tbV).view.set]{fullShare} ftb2 : sProp 𝕄) = (thrV d L).loc cc0_scratch3 ↦{fullShare} ftb2 by rw [set_tbV]))
      iexact Htb
    iexact Hbufs
  isplitl [Hg0 Hg1 Hs0 Hs1 Hts Hr0 Hr1 Hr2 Hsems]
  · isplitl [Hg0]; · iexact Hg0
    isplitl [Hg1]; · iexact Hg1
    isplitl [Hs0]; · iexact Hs0
    isplitl [Hs1]; · iexact Hs1
    isplitl [Hts]; · iexact Hts
    isplitl [Hr0]; · iexact Hr0
    isplitl [Hr1]; · iexact Hr1
    isplitl [Hr2]; · iexact Hr2
    iexact Hsems
  iexists _; isplitr
  swap; · iexact HO
  ipureintro
  exact waits_ins (.inl rfl) (waits_ins (.inl rfl) (waits_ins (.inl rfl) (waits_close (waits_ins (.inr rfl) (waits_self W)) hW')))

set_option maxHeartbeats 3000000 in
theorem tile_body_zero (hF : (K (F := F)).Facts) (hidx : ∀ i, (m (iLoc d) i).toNat ≤ 3) (O : CellTallies nD τ sig (HIx 1)) (W : Waits sig (HIx 1)) (hO : ∀ g, O g none = 0)
    (hOlev : ∀ g ι, 0 < O g ι → 8 * (0 : Fin 1).val + 6 ≤ (K (F := F)).lev g ι) (hs : (L 1).val = 0) :
    iprop(levAts (K (F := F)).L (K (F := F)).lev ∗ bkit m d (cV L) (jV L)
        ∗ (goRes m d (cV L) (jV L) ∗ goSh d (cV L) (jV L))
        ∗ scopedBufs (thrV d L) ∗ scopedSems0 (thrV d L) ∗ owes (thrV d L) (O + oxV d (cV L)) W)
      ⊢ wp frame (wpE (defs₀ (F := F)) 𝒱₀ (thrV d L) none) Set.univ
          (cc0__edge_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2)
          fun _ => iprop((tdRes m d (cV L) (jV L) ∗ tdSh m d (cV L) (jV L))
            ∗ scopedBufs (thrV d L) ∗ scopedSems0 (thrV d L)
            ∗ ∃ W', ⌜∀ p ∈ W', p ∈ W ∨ p.2 = none ∨ p.2 = some (0 : Fin 1)⌝ ∗ owes (thrV d L) O W') := by
  simp only [cc0__edge_body_eq_skeleton]; unfold cc0__edge_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Hi, Ht, Ho⟩, Hsh⟩, ⟨⟨%fx, Hx⟩, ⟨%f0, Hb0⟩, ⟨%f1, Hb1⟩, ⟨%ftb, Htb⟩, Hbufs⟩, ⟨Hg0, Hg1, Hs0, Hs1, Hts, Hr0, Hr1, Hr2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw2 := (show levAts (K (F := F)).L (K (F := F)).lev ⊢ Transfers.MayWaits (thrV d L) (default : HIx 1) O from
    (K (F := F)).mayWaits_none (thr := thrV d L) hO) $$ Hlv
  ihave Hi' := (Entails.of_eq (pts_iSlK (F := F) d L _).symm) $$ Hi
  ihave Ht' := (Entails.of_eq (pts_tV (F := F) d L _ _).symm) $$ Ht
  ihave Ho' := (Entails.of_eq (pts_oV (F := F) d L _ _).symm) $$ Ho
  ihave Hx' := (Entails.of_eq (pts_xV (F := F) d L _).symm) $$ Hx
  ihave Hb0' := (Entails.of_eq (pts_b0V (F := F) d L _).symm) $$ Hb0
  ihave Hb1' := (Entails.of_eq (pts_b1V (F := F) d L _).symm) $$ Hb1
  ihave Htb' := (Entails.of_eq (pts_tbV (F := F) d L _).symm) $$ Htb
  have hs' : (jV L).val = 0 := hs
  have k0_h1 : Scalar.cmpi .ne (Scalar.extui (Scalar.cmpi .eq (BitVec.ofNat 32 (L 1).val) (0#32 : BitVec 32))) (0#32 : BitVec 32) = 1#1 := by
    revert hs; generalize L 1 = s; revert s; decide
  -- tile 0 fills the shared table from the edge table
  ihave Hsh1 := (Entails.of_eq (show (goSh (F := F) d (cV L) (jV L) : sProp 𝕄) = iprop(∃ f, shLoc d (cV L) ↦{fullShare} f) by unfold goSh; rw [if_pos hs'])) $$ Hsh
  icases Hsh1 with ⟨%fsh, Hsh1⟩
  ihave Hsh1' := (Entails.of_eq (pts_shV (F := F) d L _ _).symm) $$ Hsh1
  sl_exec
  ihave Hsh2w := (Entails.of_eq (pts_written_shV (F := F) d L _ _)) $$ Hsh1'
  ihave Hsh2 := (Entails.of_eq (congrArg (fun w => ((shV).view.loc (thrV d L) ↦{fullShare} w : sProp 𝕄)) (tab_payload_eq (F := F) m d L))) $$ [Hsh2w]
  · iexact Hsh2w
  -- and splits it into the sixteen tiles' read tokens and what they leave
  ihave Hspl := (Transfers.pointsTo_toks_split (ℓ := (shV).view.loc (thrV d L)) (S := Finset.univ) (f := tabSh m d (cV L)) fullShare 16) $$ Hsh2
  icases Hspl with ⟨Hdrop, Htoks16⟩
  ihave Hsh3 := (show (bigSep Finset.univ fun i : Fin 16 => ((shV).view.loc (thrV d L) ↦[Finset.univ]{Transfers.shareTok fullShare 16 i} tabSh m d (cV L) : sProp 𝕄))
      ⊢ (if (jV L).val = 0 then (bigSep Finset.univ fun j : Fin (grid0.bound 1) => shTok m d (cV L) (j.castLE hsub0)) else iprop(emp)) from by
    rw [if_pos hs']; exact BI.Entails.refl _) $$ Htoks16
  rw [Prog.bind_assoc]
  iapply (barrier_step (F := F) m d L O _ hOlev) $$ [Htoks Hat Hcred Hsh3 HO]
  · isplitr; · iexact Hlv
    isplitl [Htoks Hat Hcred]
    · unfold bkit
      isplitr; · iexists κ; iexact Hinv
      isplitl [Htoks]; · iexact Htoks
      isplitr; · iexact Hrch
      isplitl [Hat]; · iexact Hat
      iexact Hcred
    isplitl [Hsh3]; · iexact Hsh3
    iexact HO
  iintro ⟨HO, Htok⟩
  ihave Htok' := (Entails.of_eq (pts_shV (F := F) d L _ _).symm) $$ Htok
  sl_exec
  ihave Hx2 := (Entails.of_eq (pts_written_xV (F := F) d L _ _)) $$ Hx'
  ihave Hb0s := (Entails.of_eq (show ((b0V).view.loc (thrV d L) ↦{fullShare} f0 : sProp 𝕄) = (b0V).view.loc (thrV d L) ↦[(b0V).view.set]{fullShare} f0 by rw [set_b0V])) $$ Hb0'
  ihave Hb1s := (Entails.of_eq (show ((b1V).view.loc (thrV d L) ↦{fullShare} f1 : sProp 𝕄) = (b1V).view.loc (thrV d L) ↦[(b1V).view.set]{fullShare} f1 by rw [set_b1V])) $$ Hb1'
  ihave Htbs := (Entails.of_eq (show ((tbV).view.loc (thrV d L) ↦{fullShare} ftb : sProp 𝕄) = (tbV).view.loc (thrV d L) ↦[(tbV).view.set]{fullShare} ftb by rw [set_tbV])) $$ Htb'
  -- the gather of chunk 0 into the first buffer starts
  iapply (gather_issue128 (F := F) m d L hidx b0V (Memref.isWhole_whole _) ![0] inb_S10000_S128_0 cc0_scratch5.sem) $$ [Hb0s Hx2 Htok' Hg0]
  · isplitl [Hb0s]; · iexists f0; iexact Hb0s
    isplitl [Hx2]; · iexact Hx2
    isplitl [Htok']; · iexact Htok'
    iexact Hg0
  iintro Hfl0
  ihave Ho2 := (Entails.of_eq (show ((oV).view.loc (thrV d L) ↦[oRowSet (wOf (cV L) (jV L))]{fullShare} m (oLoc d) : sProp 𝕄)
      = (oV).view.loc (thrV d L) ↦[rowsBetween (baseL L + 256 * 0) (baseL L + 10000)]{fullShare} m (oLoc d) by rw [oRowSet_eq_rows]; rfl)) $$ Ho'
  ihave Hdone0 := (rows_empty (F := F) d L (baseL L) (edgeOut m d)).2 $$ []
  · iempintro
  -- the loop, by its invariant
  rw [Prog.bind_assoc]
  sl_for (loopInv m d L O (insert (SemLoc.reg sc_bar0, (some 0 : HIx 1)) (insert (SemLoc.dma cc0_scoped0.sem, (default : HIx 1)) W))) $$ [Hfl0 Hb1s Hs1 Hdone0 Ho2 Hg1 Hs0 HO]
  case region =>
    intro k acc
    exact trip_step m d L hidx O _ _ k acc
  · unfold loopInv
    rw [if_pos (show (0 : ℕ) < 39 by decide), if_pos rfl, if_pos rfl]
    isplitr; · iexact Hmw2
    isplitl [Hfl0]; · iexact Hfl0
    isplitl [Hb1s Hs1]
    · isplitl [Hb1s]; · iexists f1; iexact Hb1s
      iexact Hs1
    isplitl [Hdone0]; · iexact Hdone0
    isplitl [Ho2]; · iexists _; iexact Ho2
    isplitl [Hg1]; · iexact Hg1
    isplitl [Hs0]; · iexact Hs0
    iexists _; isplitr
    swap; · iexact HO
    ipureintro; intro p hp
    rcases Finset.mem_insert.mp hp with hp | hp; · exact .inr (hp ▸ rfl)
    exact .inl hp
  iintro %acc HI
  have htr : Scf.trips k0_t1_loop.lb k0_t1_loop.ub k0_t1_loop.st = 39 := by decide
  unfold loopInv
  rw [htr, if_neg (show ¬ (39 : ℕ) < 39 by decide), if_neg (show (39 : ℕ) ≠ 0 by decide), if_neg (show (39 : ℕ) ≠ 0 by decide)]
  icases HI with ⟨-, ⟨⟨%fb0, Hb0⟩, Hx, Hsh, Hg0⟩, Hc, Hdone, ⟨%fo, Htodo⟩, Hg1, Hs0, %W', %hW', HO⟩
  -- the last sixteen rows: gathered into the tail buffer
  first | sl_exec | skip
  iapply (gather_issue16 (F := F) m d L hidx tbV (Memref.isWhole_whole _) cc0_scratch9.sem) $$ [Htbs Hx Hsh Hts]
  · isplitl [Htbs]; · iexists ftb; iexact Htbs
    isplitl [Hx]; · iexact Hx
    isplitl [Hsh]; · iexact Hsh
    iexact Hts
  iintro Hflt
  first | sl_exec | skip
  iapply (wait_step (F := F) d L cc0_scratch9.sem 65536 rfl (gatherD16 m d L tbV) O _) $$ [Hflt HO]
  · isplitr; · iexact Hmw2
    isplitl [Hflt]; · iexact Hflt
    iexact HO
  iintro ⟨Hgd, Hts, HO⟩
  ihave Hgd' := (Entails.of_eq (gatherD16_def (F := F) m d L _)) $$ Hgd
  icases Hgd' with ⟨⟨%ftb', Htb, %htb⟩, Hx, Hsh⟩
  -- and copied out to the tile's last sixteen rows
  first | sl_exec | skip
  ihave Htodo := (Entails.of_eq (congrArg (fun a => ((oV).view.loc (thrV d L) ↦[rowsBetween a (baseL L + 10000)]{fullShare} fo : sProp 𝕄))
      (show baseL L + 256 * 39 = baseL L + 9984 by omega))) $$ Htodo
  iapply (copy_issue16 (F := F) m d L tbV (Memref.isWhole_whole _) (k0_off8 L) (k0_off8_inb L) (off8_site L) cc0_scoped2.sem ftb' htb fo) $$ [Htb Htodo Hr2]
  · isplitl [Htb]; · iexact Htb
    isplitl [Htodo]; · iexact Htodo
    iexact Hr2
  iintro Hflc
  first | sl_exec | skip
  iapply (wait_step (F := F) d L cc0_scoped2.sem 65536 rfl (copyD m d L tbV (rowsBetween (baseL L + 9984) (baseL L + 10000))) O _) $$ [Hflc HO]
  · isplitr; · iexact Hmw2
    isplitl [Hflc]; · iexact Hflc
    iexact HO
  iintro ⟨Hcd, Hr2, HO⟩
  ihave Hcd' := (Entails.of_eq (copyD_def (F := F) m d L _ _)) $$ Hcd
  icases Hcd' with ⟨Hwt, %ftb2, Htb⟩
  -- the last chunk's copy out of the second buffer lands
  first | sl_exec | skip
  iapply (wait_step (F := F) d L sS1 524288 rfl (copyD m d L b1V (rowsBetween (baseL L + 256 * 39 - 128) (baseL L + 256 * 39))) O _) $$ [Hc HO]
  · isplitr; · iexact Hmw2
    isplitl [Hc]; · iexact Hc
    iexact HO
  iintro ⟨Hcd, Hs1, HO⟩
  ihave Hcd' := (Entails.of_eq (copyD_def (F := F) m d L _ _)) $$ Hcd
  icases Hcd' with ⟨Hw1, %fb1, Hb1⟩
  -- the tile's rows, joined: all at the lookup
  ihave Hdone := (rows_split (F := F) d L (a := baseL L) (b := baseL L + 256 * 39 - 128) (c := baseL L + 256 * 39) (by omega) (by omega) (edgeOut m d)).2 $$ [Hdone Hw1]
  · isplitl [Hdone]; · iexact Hdone
    iexact Hw1
  ihave Hdone := (Entails.of_eq (congrArg (fun b => ((oV).view.loc (thrV d L) ↦[rowsBetween (baseL L) b]{fullShare} edgeOut m d : sProp 𝕄))
      (show baseL L + 256 * 39 = baseL L + 9984 by omega))) $$ Hdone
  ihave Hall := (rows_split (F := F) d L (a := baseL L) (b := baseL L + 9984) (c := baseL L + 10000) (by omega) (by omega) (edgeOut m d)).2 $$ [Hdone Hwt]
  · isplitl [Hdone]; · iexact Hdone
    iexact Hwt
  rw [show ((Prog.ret PUnit.unit : Prog (TpuEff nD τ sig (Elt F) Λ₀ (thrV d L).2) PUnit).bind fun __r => (Pure.pure PUnit.unit : Prog (TpuEff nD τ sig (Elt F) Λ₀ (thrV d L).2) PUnit)) = Prog.ret PUnit.unit from rfl]
  sl_step
  -- what the tile hands back
  isplitl [Hi' Ht' Hall Hsh Hdrop]
  · isplitl [Hi' Ht' Hall]
    · isplitl [Hi']; · iapply (Entails.of_eq (pts_iSlK (F := F) d L _)); iexact Hi'
      isplitl [Ht']; · iexact Ht'
      iapply (Entails.of_eq (show ((oV).view.loc (thrV d L) ↦[rowsBetween (baseL L) (baseL L + 10000)]{fullShare} edgeOut m d : sProp 𝕄)
          = oLoc d ↦[oRowSet (wOf (cV L) (jV L))]{fullShare} edgeOut m d by rw [oRowSet_eq_rows]))
      iexact Hall
    · unfold tdSh
      isplitl [Hsh]; · iexact Hsh
      rw [if_pos hs']; iexact Hdrop
  isplitl [Hx Hb0 Hb1 Htb Hbufs]
  · isplitl [Hx]; · iexists _; iexact Hx
    isplitl [Hb0]
    · iexists fb0
      iapply (Entails.of_eq (show ((b0V).view.loc (thrV d L) ↦[(b0V).view.set]{fullShare} fb0 : sProp 𝕄) = (thrV d L).loc cc0_scratch1 ↦{fullShare} fb0 by rw [set_b0V]))
      iexact Hb0
    isplitl [Hb1]
    · iexists fb1
      iapply (Entails.of_eq (show ((b1V).view.loc (thrV d L) ↦[(b1V).view.set]{fullShare} fb1 : sProp 𝕄) = (thrV d L).loc cc0_scratch2 ↦{fullShare} fb1 by rw [set_b1V]))
      iexact Hb1
    isplitl [Htb]
    · iexists ftb2
      iapply (Entails.of_eq (show ((tbV).view.loc (thrV d L) ↦[(tbV).view.set]{fullShare} ftb2 : sProp 𝕄) = (thrV d L).loc cc0_scratch3 ↦{fullShare} ftb2 by rw [set_tbV]))
      iexact Htb
    iexact Hbufs
  isplitl [Hg0 Hg1 Hs0 Hs1 Hts Hr0 Hr1 Hr2 Hsems]
  · isplitl [Hg0]; · iexact Hg0
    isplitl [Hg1]; · iexact Hg1
    isplitl [Hs0]; · iexact Hs0
    isplitl [Hs1]; · iexact Hs1
    isplitl [Hts]; · iexact Hts
    isplitl [Hr0]; · iexact Hr0
    isplitl [Hr1]; · iexact Hr1
    isplitl [Hr2]; · iexact Hr2
    iexact Hsems
  iexists _; isplitr
  swap; · iexact HO
  ipureintro
  exact waits_ins (.inl rfl) (waits_ins (.inl rfl) (waits_ins (.inl rfl) (waits_close (waits_ins (.inr rfl) (waits_ins (.inl rfl) (waits_self W))) hW')))

/-- The task on vector subcore `(L 0, L 1)` of device `d`: tile 0 fills the shared table; all meet at the barrier, each leaving with a read
    token of the table; the tile stages its ten thousand indices, then gathers and copies out its rows of the lookup, 128 at a time through
    two row buffers and the last sixteen through the tail buffer. -/
theorem tile_body (hF : (K (F := F)).Facts) (hidx : ∀ i, (m (iLoc d) i).toNat ≤ 3) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (goRes m d (cV L) (jV L) ∗ goSh d (cV L) (jV L))
        ∗ scopedBufs (thrV d L) ∗ scopedSems0 (thrV d L) ∗ owes (thrV d L) (O + oxV d (cV L)) W)
      ⊢ wp frame (wpE (defs₀ (F := F)) 𝒱₀ (thrV d L) none) Set.univ
          (cc0__edge_body L iV (Memref.isWhole_whole _) tV (Memref.isWhole_whole _) oV (Memref.isWhole_whole _)
            xV (Memref.isWhole_whole _) b0V (Memref.isWhole_whole _) b1V (Memref.isWhole_whole _) tbV (Memref.isWhole_whole _) shV (Memref.isWhole_whole _)
            cc0_scratch5 cc0_scratch6 cc0_scratch7 cc0_scratch8 cc0_scratch9 cc0_scoped0 cc0_scoped1 cc0_scoped2)
          fun _ => iprop((tdRes m d (cV L) (jV L) ∗ tdSh m d (cV L) (jV L))
            ∗ scopedBufs (thrV d L) ∗ scopedSems0 (thrV d L)
            ∗ ∃ W', ⌜∀ p ∈ W', p ∈ W ∨ p.2 = none ∨ p.2 = some (0 : Fin 1)⌝ ∗ owes (thrV d L) O W') := by
  by_cases hs : (L 1).val = 0
  · exact tile_body_zero m d L hF hidx O W hO hOlev hs
  · exact tile_body_rest m d L hF hidx O W hO hOlev hs

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__edge_body (coordsV c s)
          iV (Memref.isWhole_whole _) tV (Memref.isWhole_whole _) oV (Memref.isWhole_whole _)
          xV (Memref.isWhole_whole _) b0V (Memref.isWhole_whole _) b1V (Memref.isWhole_whole _) tbV (Memref.isWhole_whole _) shV (Memref.isWhole_whole _)
          cc0_scratch5 cc0_scratch6 cc0_scratch7 cc0_scratch8 cc0_scratch9 cc0_scoped0 cc0_scoped1 cc0_scoped2) ⟨⟩ c s := rfl

set_option maxRecDepth 16384 in
theorem tileObl (hF : (K (F := F)).Facts) (hidx : ∀ d i, (m (iLoc d) i).toNat ≤ 3) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (hidx d) O W hO hOlev

end Cert.Kernel.Hand

end
-- ==== Proof.lean ====
/-
  The kernel computes two embedding lookups, node_emb = node_table[node_idx] and edge_emb = edge_table[edge_idx], and so does the reference (two row
  gathers, each guarded against indices outside the table). Under the precondition every node index is in 0..20 and every edge index in 0..3, so the
  guards never fire and both programs return the lookups themselves (Proof/Spec.lean: entry (r, l) is column l of the table's row that index r names).

  The edge lookup runs on the SparseCores: thirty-two vector subcores, each owning ten thousand consecutive rows. Tile 0 of each SparseCore copies the edge
  table into shared memory; the subcore barrier hands every tile a read token of it; each tile stages its indices and moves its rows of the result by
  indexed gathers from the shared table and copies out, two transfers in flight across the trips of its loop (Proof/Tile.lean and the modules it imports;
  the launch and the split of the arrays among the tiles in Proof/Deal.lean and Proof/Main.lean). Pure data movement: the value holds at every float instance.

  The node lookup runs on the TensorCore over a grid of five blocks of two thousand indices: the body sums, over the twenty-one table rows v, the row where
  the index equals v and zero elsewhere. Exactly one summand is the row and the others are zero, and zero is neutral for addition on the extended reals, so
  the sum is the row the index names (Proof/NodeValue.lean; the host operations that pad the table to thirty-two rows and reshape the indices in
  Proof/NodeHost.lean; the region inside the SparseCore program in Proof/Region.lean).

  The reference's run is in Proof/RefRun.lean. The three frames are the runs with the values dropped; the kernel's idealization rewrote nothing, so
  preserves is trivial; algebraic pairs the kernel's two results with the reference's by the two lookups.
-/
import proofs.«205308_g19069654794752_retrytranche2_377_14_alg».proof.Defs
import proofs.«205308_g19069654794752_retrytranche2_377_14_alg».proof.Proof.Gen.Kernel
import proofs.«205308_g19069654794752_retrytranche2_377_14_alg».proof.Proof.Gen.Kernel.Skeleton
import proofs.«205308_g19069654794752_retrytranche2_377_14_alg».proof.Proof.Gen.Kernel.Launch
import proofs.«205308_g19069654794752_retrytranche2_377_14_alg».proof.Proof.Gen.Kernel.Points
import proofs.«205308_g19069654794752_retrytranche2_377_14_alg».proof.Proof.Gen.KernelIdeal
import proofs.«205308_g19069654794752_retrytranche2_377_14_alg».proof.Proof.Gen.KernelIdeal.Skeleton
import proofs.«205308_g19069654794752_retrytranche2_377_14_alg».proof.Proof.Gen.KernelIdeal.Launch
import proofs.«205308_g19069654794752_retrytranche2_377_14_alg».proof.Proof.Gen.KernelIdeal.Points
import proofs.«205308_g19069654794752_retrytranche2_377_14_alg».proof.Proof.Gen.ReferenceIdeal
import proofs.«205308_g19069654794752_retrytranche2_377_14_alg».proof.Proof.Gen.Pre_input_domain
import proofs.«205308_g19069654794752_retrytranche2_377_14_alg».proof.Proof.Claims
import proofs.«205308_g19069654794752_retrytranche2_377_14_alg».proof.Proof.KClaims
import proofs.«205308_g19069654794752_retrytranche2_377_14_alg».proof.Proof.Tile
import proofs.«205308_g19069654794752_retrytranche2_377_14_alg».proof.Proof.KTile
import proofs.«205308_g19069654794752_retrytranche2_377_14_alg».proof.Proof.RefRun
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts,
  Cert.Kernel.Hand.frame_p (fun m hidx => Cert.Kernel.Hand.tileObl m Cert.Kernel.Hand.facts hidx),
  Cert.KernelIdeal.Hand.frame_pi (fun m hidx => Cert.KernelIdeal.Hand.tileObl m Cert.KernelIdeal.Hand.facts hidx),
  Cert.ReferenceIdeal.RefValue.frame,
  trivial,
  Cert.KernelIdeal.Hand.algebraic (fun m hidx => Cert.KernelIdeal.Hand.tileObl m Cert.KernelIdeal.Hand.facts hidx)⟩

end Cert.Proof

end
